-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v306) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S17x128x128 : Shape := ⟨3, ![17, 128, 128]⟩
abbrev S17x128 : Shape := ⟨2, ![17, 128]⟩
abbrev S8192x1x128 : Shape := ⟨3, ![8192, 1, 128]⟩
abbrev S8192x2x128 : Shape := ⟨3, ![8192, 2, 128]⟩
abbrev S8192x3x128 : Shape := ⟨3, ![8192, 3, 128]⟩
abbrev S8192x4x128 : Shape := ⟨3, ![8192, 4, 128]⟩
abbrev S8192x5x128 : Shape := ⟨3, ![8192, 5, 128]⟩
abbrev S8192x6x128 : Shape := ⟨3, ![8192, 6, 128]⟩
abbrev S8192x7x128 : Shape := ⟨3, ![8192, 7, 128]⟩
abbrev S8192x8x128 : Shape := ⟨3, ![8192, 8, 128]⟩
abbrev S8192x9x128 : Shape := ⟨3, ![8192, 9, 128]⟩
abbrev S_ : Shape := ⟨0, ![]⟩

class Facts : Prop where
  bcast_S_S17x128x128 : S_.BroadcastsInDim S17x128x128 (![] : Fin 0 → Fin S17x128x128.rank)
  reducesTo_S17x128x128_S_d0_1_2 : S17x128x128.ReducesTo [0, 1, 2] S_
  h_S_ : 0 < S_.numel
  bcast_S_S17x128 : S_.BroadcastsInDim S17x128 (![] : Fin 0 → Fin S17x128.rank)
  reducesTo_S17x128_S_d0_1 : S17x128.ReducesTo [0, 1] S_
  bcast_S_S8192x1x128 : S_.BroadcastsInDim S8192x1x128 (![] : Fin 0 → Fin S8192x1x128.rank)
  reducesTo_S8192x1x128_S_d0_1_2 : S8192x1x128.ReducesTo [0, 1, 2] S_
  bcast_S_S8192x2x128 : S_.BroadcastsInDim S8192x2x128 (![] : Fin 0 → Fin S8192x2x128.rank)
  reducesTo_S8192x2x128_S_d0_1_2 : S8192x2x128.ReducesTo [0, 1, 2] S_
  bcast_S_S8192x3x128 : S_.BroadcastsInDim S8192x3x128 (![] : Fin 0 → Fin S8192x3x128.rank)
  reducesTo_S8192x3x128_S_d0_1_2 : S8192x3x128.ReducesTo [0, 1, 2] S_
  bcast_S_S8192x4x128 : S_.BroadcastsInDim S8192x4x128 (![] : Fin 0 → Fin S8192x4x128.rank)
  reducesTo_S8192x4x128_S_d0_1_2 : S8192x4x128.ReducesTo [0, 1, 2] S_
  bcast_S_S8192x5x128 : S_.BroadcastsInDim S8192x5x128 (![] : Fin 0 → Fin S8192x5x128.rank)
  reducesTo_S8192x5x128_S_d0_1_2 : S8192x5x128.ReducesTo [0, 1, 2] S_
  bcast_S_S8192x6x128 : S_.BroadcastsInDim S8192x6x128 (![] : Fin 0 → Fin S8192x6x128.rank)
  reducesTo_S8192x6x128_S_d0_1_2 : S8192x6x128.ReducesTo [0, 1, 2] S_
  bcast_S_S8192x7x128 : S_.BroadcastsInDim S8192x7x128 (![] : Fin 0 → Fin S8192x7x128.rank)
  reducesTo_S8192x7x128_S_d0_1_2 : S8192x7x128.ReducesTo [0, 1, 2] S_
  bcast_S_S8192x8x128 : S_.BroadcastsInDim S8192x8x128 (![] : Fin 0 → Fin S8192x8x128.rank)
  reducesTo_S8192x8x128_S_d0_1_2 : S8192x8x128.ReducesTo [0, 1, 2] S_
  bcast_S_S8192x9x128 : S_.BroadcastsInDim S8192x9x128 (![] : Fin 0 → Fin S8192x9x128.rank)
  reducesTo_S8192x9x128_S_d0_1_2 : S8192x9x128.ReducesTo [0, 1, 2] S_

variable [Facts]

def fn_part5 {F : FTy → Type} [FloatOps F] (main_arg18 : FVec F S8192x1x128 .f32) (main_v83 : IVec S_ 1) (main_v84 : FVec F S8192x2x128 .f32) (main_cst_32 : FVec F S_ .f32) : IVec S_ 1 :=
  let main_v85 : FVec F S8192x2x128 .f32 := broadcastInDim S8192x2x128 ![] bcast_S_S8192x2x128 main_cst_32
  let main_v86 : IVec S8192x2x128 1 := cmpf .olt main_v84 main_v85
  let main_c_33 : IVec S_ 1 := constantI S_ 1 1#1
  let main_v87 : IVec S_ 1 := (fun x v => Host.reduce IntOp.andi x v reducesTo_S8192x2x128_S_d0_1_2 h_S_) main_v86 main_c_33
  let main_v88 : IVec S_ 1 := andi main_v83 main_v87
  let main_v89 : FVec F S8192x1x128 .f32 := Host.absf main_arg18
  let main_cst_34 : FVec F S_ .f32 := constant S_ .f32 0x7F800000#32
  let main_v90 : FVec F S8192x1x128 .f32 := broadcastInDim S8192x1x128 ![] bcast_S_S8192x1x128 main_cst_34
  let main_v91 : IVec S8192x1x128 1 := cmpf .olt main_v89 main_v90
  let main_c_35 : IVec S_ 1 := constantI S_ 1 1#1
  let main_v92 : IVec S_ 1 := (fun x v => Host.reduce IntOp.andi x v reducesTo_S8192x1x128_S_d0_1_2 h_S_) main_v91 main_c_35
  let main_v93 : IVec S_ 1 := andi main_v88 main_v92
  main_v93

def fn_part4 {F : FTy → Type} [FloatOps F] (main_arg14 : FVec F S8192x5x128 .f32) (main_arg15 : FVec F S8192x4x128 .f32) (main_arg16 : FVec F S8192x3x128 .f32) (main_arg17 : FVec F S8192x2x128 .f32) (main_arg18 : FVec F S8192x1x128 .f32) (main_v63 : IVec S_ 1) (main_v67 : IVec S_ 1) : IVec S_ 1 :=
  let main_v68 : IVec S_ 1 := andi main_v63 main_v67
  let main_v69 : FVec F S8192x5x128 .f32 := Host.absf main_arg14
  let main_cst_26 : FVec F S_ .f32 := constant S_ .f32 0x7F800000#32
  let main_v70 : FVec F S8192x5x128 .f32 := broadcastInDim S8192x5x128 ![] bcast_S_S8192x5x128 main_cst_26
  let main_v71 : IVec S8192x5x128 1 := cmpf .olt main_v69 main_v70
  let main_c_27 : IVec S_ 1 := constantI S_ 1 1#1
  let main_v72 : IVec S_ 1 := (fun x v => Host.reduce IntOp.andi x v reducesTo_S8192x5x128_S_d0_1_2 h_S_) main_v71 main_c_27
  let main_v73 : IVec S_ 1 := andi main_v68 main_v72
  let main_v74 : FVec F S8192x4x128 .f32 := Host.absf main_arg15
  let main_cst_28 : FVec F S_ .f32 := constant S_ .f32 0x7F800000#32
  let main_v75 : FVec F S8192x4x128 .f32 := broadcastInDim S8192x4x128 ![] bcast_S_S8192x4x128 main_cst_28
  let main_v76 : IVec S8192x4x128 1 := cmpf .olt main_v74 main_v75
  let main_c_29 : IVec S_ 1 := constantI S_ 1 1#1
  let main_v77 : IVec S_ 1 := (fun x v => Host.reduce IntOp.andi x v reducesTo_S8192x4x128_S_d0_1_2 h_S_) main_v76 main_c_29
  let main_v78 : IVec S_ 1 := andi main_v73 main_v77
  let main_v79 : FVec F S8192x3x128 .f32 := Host.absf main_arg16
  let main_cst_30 : FVec F S_ .f32 := constant S_ .f32 0x7F800000#32
  let main_v80 : FVec F S8192x3x128 .f32 := broadcastInDim S8192x3x128 ![] bcast_S_S8192x3x128 main_cst_30
  let main_v81 : IVec S8192x3x128 1 := cmpf .olt main_v79 main_v80
  let main_c_31 : IVec S_ 1 := constantI S_ 1 1#1
  let main_v82 : IVec S_ 1 := (fun x v => Host.reduce IntOp.andi x v reducesTo_S8192x3x128_S_d0_1_2 h_S_) main_v81 main_c_31
  let main_v83 : IVec S_ 1 := andi main_v78 main_v82
  let main_v84 : FVec F S8192x2x128 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S8192x8x128 .f32) (main_arg12 : FVec F S8192x7x128 .f32) (main_arg13 : FVec F S8192x6x128 .f32) (main_arg14 : FVec F S8192x5x128 .f32) (main_arg15 : FVec F S8192x4x128 .f32) (main_arg16 : FVec F S8192x3x128 .f32) (main_arg17 : FVec F S8192x2x128 .f32) (main_arg18 : FVec F S8192x1x128 .f32) (main_v48 : IVec S_ 1) (main_v49 : FVec F S8192x9x128 .f32) (main_v50 : FVec F S8192x9x128 .f32) : IVec S_ 1 :=
  let main_v51 : IVec S8192x9x128 1 := cmpf .olt main_v49 main_v50
  let main_c_19 : IVec S_ 1 := constantI S_ 1 1#1
  let main_v52 : IVec S_ 1 := (fun x v => Host.reduce IntOp.andi x v reducesTo_S8192x9x128_S_d0_1_2 h_S_) main_v51 main_c_19
  let main_v53 : IVec S_ 1 := andi main_v48 main_v52
  let main_v54 : FVec F S8192x8x128 .f32 := Host.absf main_arg11
  let main_cst_20 : FVec F S_ .f32 := constant S_ .f32 0x7F800000#32
  let main_v55 : FVec F S8192x8x128 .f32 := broadcastInDim S8192x8x128 ![] bcast_S_S8192x8x128 main_cst_20
  let main_v56 : IVec S8192x8x128 1 := cmpf .olt main_v54 main_v55
  let main_c_21 : IVec S_ 1 := constantI S_ 1 1#1
  let main_v57 : IVec S_ 1 := (fun x v => Host.reduce IntOp.andi x v reducesTo_S8192x8x128_S_d0_1_2 h_S_) main_v56 main_c_21
  let main_v58 : IVec S_ 1 := andi main_v53 main_v57
  let main_v59 : FVec F S8192x7x128 .f32 := Host.absf main_arg12
  let main_cst_22 : FVec F S_ .f32 := constant S_ .f32 0x7F800000#32
  let main_v60 : FVec F S8192x7x128 .f32 := broadcastInDim S8192x7x128 ![] bcast_S_S8192x7x128 main_cst_22
  let main_v61 : IVec S8192x7x128 1 := cmpf .olt main_v59 main_v60
  let main_c_23 : IVec S_ 1 := constantI S_ 1 1#1
  let main_v62 : IVec S_ 1 := (fun x v => Host.reduce IntOp.andi x v reducesTo_S8192x7x128_S_d0_1_2 h_S_) main_v61 main_c_23
  let main_v63 : IVec S_ 1 := andi main_v58 main_v62
  let main_v64 : FVec F S8192x6x128 .f32 := Host.absf main_arg13
  let main_cst_24 : FVec F S_ .f32 := constant S_ .f32 0x7F800000#32
  let main_v65 : FVec F S8192x6x128 .f32 := broadcastInDim S8192x6x128 ![] bcast_S_S8192x6x128 main_cst_24
  let main_v66 : IVec S8192x6x128 1 := cmpf .olt main_v64 main_v65
  let main_c_25 : IVec S_ 1 := constantI S_ 1 1#1
  let main_v67 : IVec S_ 1 := (fun x v => Host.reduce IntOp.andi x v reducesTo_S8192x6x128_S_d0_1_2 h_S_) main_v66 main_c_25
  fn_part4 (F := F) main_arg14 main_arg15 main_arg16 main_arg17 main_arg18 main_v63 main_v67

def fn_part2 {F : FTy → Type} [FloatOps F] (main_arg7 : FVec F S8192x6x128 .f32) (main_arg8 : FVec F S8192x7x128 .f32) (main_arg9 : FVec F S8192x8x128 .f32) (main_arg10 : FVec F S8192x9x128 .f32) (main_arg11 : FVec F S8192x8x128 .f32) (main_arg12 : FVec F S8192x7x128 .f32) (main_arg13 : FVec F S8192x6x128 .f32) (main_arg14 : FVec F S8192x5x128 .f32) (main_arg15 : FVec F S8192x4x128 .f32) (main_arg16 : FVec F S8192x3x128 .f32) (main_arg17 : FVec F S8192x2x128 .f32) (main_arg18 : FVec F S8192x1x128 .f32) (main_v33 : IVec S_ 1) : IVec S_ 1 :=
  let main_v34 : FVec F S8192x6x128 .f32 := Host.absf main_arg7
  let main_cst_12 : FVec F S_ .f32 := constant S_ .f32 0x7F800000#32
  let main_v35 : FVec F S8192x6x128 .f32 := broadcastInDim S8192x6x128 ![] bcast_S_S8192x6x128 main_cst_12
  let main_v36 : IVec S8192x6x128 1 := cmpf .olt main_v34 main_v35
  let main_c_13 : IVec S_ 1 := constantI S_ 1 1#1
  let main_v37 : IVec S_ 1 := (fun x v => Host.reduce IntOp.andi x v reducesTo_S8192x6x128_S_d0_1_2 h_S_) main_v36 main_c_13
  let main_v38 : IVec S_ 1 := andi main_v33 main_v37
  let main_v39 : FVec F S8192x7x128 .f32 := Host.absf main_arg8
  let main_cst_14 : FVec F S_ .f32 := constant S_ .f32 0x7F800000#32
  let main_v40 : FVec F S8192x7x128 .f32 := broadcastInDim S8192x7x128 ![] bcast_S_S8192x7x128 main_cst_14
  let main_v41 : IVec S8192x7x128 1 := cmpf .olt main_v39 main_v40
  let main_c_15 : IVec S_ 1 := constantI S_ 1 1#1
  let main_v42 : IVec S_ 1 := (fun x v => Host.reduce IntOp.andi x v reducesTo_S8192x7x128_S_d0_1_2 h_S_) main_v41 main_c_15
  let main_v43 : IVec S_ 1 := andi main_v38 main_v42
  let main_v44 : FVec F S8192x8x128 .f32 := Host.absf main_arg9
  let main_cst_16 : FVec F S_ .f32 := constant S_ .f32 0x7F800000#32
  let main_v45 : FVec F S8192x8x128 .f32 := broadcastInDim S8192x8x128 ![] bcast_S_S8192x8x128 main_cst_16
  let main_v46 : IVec S8192x8x128 1 := cmpf .olt main_v44 main_v45
  let main_c_17 : IVec S_ 1 := constantI S_ 1 1#1
  let main_v47 : IVec S_ 1 := (fun x v => Host.reduce IntOp.andi x v reducesTo_S8192x8x128_S_d0_1_2 h_S_) main_v46 main_c_17
  let main_v48 : IVec S_ 1 := andi main_v43 main_v47
  let main_v49 : FVec F S8192x9x128 .f32 := Host.absf main_arg10
  let main_cst_18 : FVec F S_ .f32 := constant S_ .f32 0x7F800000#32
  let main_v50 : FVec F S8192x9x128 .f32 := broadcastInDim S8192x9x128 ![] bcast_S_S8192x9x128 main_cst_18
  fn_part3 (F := F) main_arg11 main_arg12 main_arg13 main_arg14 main_arg15 main_arg16 main_arg17 main_arg18 main_v48 main_v49 main_v50

def fn_part1 {F : FTy → Type} [FloatOps F] (main_arg4 : FVec F S8192x3x128 .f32) (main_arg5 : FVec F S8192x4x128 .f32) (main_arg6 : FVec F S8192x5x128 .f32) (main_arg7 : FVec F S8192x6x128 .f32) (main_arg8 : FVec F S8192x7x128 .f32) (main_arg9 : FVec F S8192x8x128 .f32) (main_arg10 : FVec F S8192x9x128 .f32) (main_arg11 : FVec F S8192x8x128 .f32) (main_arg12 : FVec F S8192x7x128 .f32) (main_arg13 : FVec F S8192x6x128 .f32) (main_arg14 : FVec F S8192x5x128 .f32) (main_arg15 : FVec F S8192x4x128 .f32) (main_arg16 : FVec F S8192x3x128 .f32) (main_arg17 : FVec F S8192x2x128 .f32) (main_arg18 : FVec F S8192x1x128 .f32) (main_v13 : IVec S_ 1) (main_v16 : IVec S8192x2x128 1) : IVec S_ 1 :=
  let main_c_5 : IVec S_ 1 := constantI S_ 1 1#1
  let main_v17 : IVec S_ 1 := (fun x v => Host.reduce IntOp.andi x v reducesTo_S8192x2x128_S_d0_1_2 h_S_) main_v16 main_c_5
  let main_v18 : IVec S_ 1 := andi main_v13 main_v17
  let main_v19 : FVec F S8192x3x128 .f32 := Host.absf main_arg4
  let main_cst_6 : FVec F S_ .f32 := constant S_ .f32 0x7F800000#32
  let main_v20 : FVec F S8192x3x128 .f32 := broadcastInDim S8192x3x128 ![] bcast_S_S8192x3x128 main_cst_6
  let main_v21 : IVec S8192x3x128 1 := cmpf .olt main_v19 main_v20
  let main_c_7 : IVec S_ 1 := constantI S_ 1 1#1
  let main_v22 : IVec S_ 1 := (fun x v => Host.reduce IntOp.andi x v reducesTo_S8192x3x128_S_d0_1_2 h_S_) main_v21 main_c_7
  let main_v23 : IVec S_ 1 := andi main_v18 main_v22
  let main_v24 : FVec F S8192x4x128 .f32 := Host.absf main_arg5
  let main_cst_8 : FVec F S_ .f32 := constant S_ .f32 0x7F800000#32
  let main_v25 : FVec F S8192x4x128 .f32 := broadcastInDim S8192x4x128 ![] bcast_S_S8192x4x128 main_cst_8
  let main_v26 : IVec S8192x4x128 1 := cmpf .olt main_v24 main_v25
  let main_c_9 : IVec S_ 1 := constantI S_ 1 1#1
  let main_v27 : IVec S_ 1 := (fun x v => Host.reduce IntOp.andi x v reducesTo_S8192x4x128_S_d0_1_2 h_S_) main_v26 main_c_9
  let main_v28 : IVec S_ 1 := andi main_v23 main_v27
  let main_v29 : FVec F S8192x5x128 .f32 := Host.absf main_arg6
  let main_cst_10 : FVec F S_ .f32 := constant S_ .f32 0x7F800000#32
  let main_v30 : FVec F S8192x5x128 .f32 := broadcastInDim S8192x5x128 ![] bcast_S_S8192x5x128 main_cst_10
  let main_v31 : IVec S8192x5x128 1 := cmpf .olt main_v29 main_v30
  let main_c_11 : IVec S_ 1 := constantI S_ 1 1#1
  let main_v32 : IVec S_ 1 := (fun x v => Host.reduce IntOp.andi x v reducesTo_S8192x5x128_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S17x128x128 .f32) (main_arg1 : FVec F S17x128 .f32) (main_arg2 : FVec F S8192x1x128 .f32) (main_arg3 : FVec F S8192x2x128 .f32) (main_arg4 : FVec F S8192x3x128 .f32) (main_arg5 : FVec F S8192x4x128 .f32) (main_arg6 : FVec F S8192x5x128 .f32) (main_arg7 : FVec F S8192x6x128 .f32) (main_arg8 : FVec F S8192x7x128 .f32) (main_arg9 : FVec F S8192x8x128 .f32) (main_arg10 : FVec F S8192x9x128 .f32) (main_arg11 : FVec F S8192x8x128 .f32) (main_arg12 : FVec F S8192x7x128 .f32) (main_arg13 : FVec F S8192x6x128 .f32) (main_arg14 : FVec F S8192x5x128 .f32) (main_arg15 : FVec F S8192x4x128 .f32) (main_arg16 : FVec F S8192x3x128 .f32) (main_arg17 : FVec F S8192x2x128 .f32) (main_arg18 : FVec F S8192x1x128 .f32) : IVec S_ 1 :=
  let main_v0 : FVec F S17x128x128 .f32 := Host.absf main_arg0
  let main_cst : FVec F S_ .f32 := constant S_ .f32 0x7F800000#32
  let main_v1 : FVec F S17x128x128 .f32 := broadcastInDim S17x128x128 ![] bcast_S_S17x128x128 main_cst
  let main_v2 : IVec S17x128x128 1 := cmpf .olt main_v0 main_v1
  let main_c : IVec S_ 1 := constantI S_ 1 1#1
  let main_v3 : IVec S_ 1 := (fun x v => Host.reduce IntOp.andi x v reducesTo_S17x128x128_S_d0_1_2 h_S_) main_v2 main_c
  let main_v4 : FVec F S17x128 .f32 := Host.absf main_arg1
  let main_cst_0 : FVec F S_ .f32 := constant S_ .f32 0x7F800000#32
  let main_v5 : FVec F S17x128 .f32 := broadcastInDim S17x128 ![] bcast_S_S17x128 main_cst_0
  let main_v6 : IVec S17x128 1 := cmpf .olt main_v4 main_v5
  let main_c_1 : IVec S_ 1 := constantI S_ 1 1#1
  let main_v7 : IVec S_ 1 := (fun x v => Host.reduce IntOp.andi x v reducesTo_S17x128_S_d0_1 h_S_) main_v6 main_c_1
  let main_v8 : IVec S_ 1 := andi main_v3 main_v7
  let main_v9 : FVec F S8192x1x128 .f32 := Host.absf main_arg2
  let main_cst_2 : FVec F S_ .f32 := constant S_ .f32 0x7F800000#32
  let main_v10 : FVec F S8192x1x128 .f32 := broadcastInDim S8192x1x128 ![] bcast_S_S8192x1x128 main_cst_2
  let main_v11 : IVec S8192x1x128 1 := cmpf .olt main_v9 main_v10
  let main_c_3 : IVec S_ 1 := constantI S_ 1 1#1
  let main_v12 : IVec S_ 1 := (fun x v => Host.reduce IntOp.andi x v reducesTo_S8192x1x128_S_d0_1_2 h_S_) main_v11 main_c_3
  let main_v13 : IVec S_ 1 := andi main_v8 main_v12
  let main_v14 : FVec F S8192x2x128 .f32 := Host.absf main_arg3
  let main_cst_4 : FVec F S_ .f32 := constant S_ .f32 0x7F800000#32
  let main_v15 : FVec F S8192x2x128 .f32 := broadcastInDim S8192x2x128 ![] bcast_S_S8192x2x128 main_cst_4
  let main_v16 : IVec S8192x2x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S17x128x128 : Shape := ⟨3, ![17, 128, 128]⟩
abbrev S17x128 : Shape := ⟨2, ![17, 128]⟩
abbrev S8192x1x128 : Shape := ⟨3, ![8192, 1, 128]⟩
abbrev S8192x2x128 : Shape := ⟨3, ![8192, 2, 128]⟩
abbrev S8192x3x128 : Shape := ⟨3, ![8192, 3, 128]⟩
abbrev S8192x4x128 : Shape := ⟨3, ![8192, 4, 128]⟩
abbrev S8192x5x128 : Shape := ⟨3, ![8192, 5, 128]⟩
abbrev S8192x6x128 : Shape := ⟨3, ![8192, 6, 128]⟩
abbrev S8192x7x128 : Shape := ⟨3, ![8192, 7, 128]⟩
abbrev S8192x8x128 : Shape := ⟨3, ![8192, 8, 128]⟩
abbrev S8192x9x128 : Shape := ⟨3, ![8192, 9, 128]⟩
abbrev S8192x10368 : Shape := ⟨2, ![8192, 10368]⟩
abbrev S128x1x128 : Shape := ⟨3, ![128, 1, 128]⟩
abbrev S128x2x128 : Shape := ⟨3, ![128, 2, 128]⟩
abbrev S128x3x128 : Shape := ⟨3, ![128, 3, 128]⟩
abbrev S128x4x128 : Shape := ⟨3, ![128, 4, 128]⟩
abbrev S128x5x128 : Shape := ⟨3, ![128, 5, 128]⟩
abbrev S128x6x128 : Shape := ⟨3, ![128, 6, 128]⟩
abbrev S128x7x128 : Shape := ⟨3, ![128, 7, 128]⟩
abbrev S128x8x128 : Shape := ⟨3, ![128, 8, 128]⟩
abbrev S128x9x128 : Shape := ⟨3, ![128, 9, 128]⟩
abbrev S128x10368 : Shape := ⟨2, ![128, 10368]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2x128x128 : Shape := ⟨3, ![2, 128, 128]⟩
abbrev S256x128 : Shape := ⟨2, ![256, 128]⟩
abbrev S3x128x128 : Shape := ⟨3, ![3, 128, 128]⟩
abbrev S384x128 : Shape := ⟨2, ![384, 128]⟩
abbrev S4x128x128 : Shape := ⟨3, ![4, 128, 128]⟩
abbrev S512x128 : Shape := ⟨2, ![512, 128]⟩
abbrev S5x128x128 : Shape := ⟨3, ![5, 128, 128]⟩
abbrev S640x128 : Shape := ⟨2, ![640, 128]⟩
abbrev S6x128x128 : Shape := ⟨3, ![6, 128, 128]⟩
abbrev S768x128 : Shape := ⟨2, ![768, 128]⟩
abbrev S7x128x128 : Shape := ⟨3, ![7, 128, 128]⟩
abbrev S896x128 : Shape := ⟨2, ![896, 128]⟩
abbrev S8x128x128 : Shape := ⟨3, ![8, 128, 128]⟩
abbrev S1024x128 : Shape := ⟨2, ![1024, 128]⟩
abbrev S9x128x128 : Shape := ⟨3, ![9, 128, 128]⟩
abbrev S1152x128 : Shape := ⟨2, ![1152, 128]⟩
abbrev S8192x9x9x128 : Shape := ⟨4, ![8192, 9, 9, 128]⟩

abbrev nBuf : Space → Nat
  | .hbm => 22
  | .vmem => 38
  | .smem => 0
  | _ => 0

abbrev bufTy : (tb : Table) → Fin (tcTables nBuf tb) → BufTy
  | .hbm, ⟨0, _⟩ => ⟨S17x128x128, .f32⟩
  | .hbm, ⟨1, _⟩ => ⟨S17x128, .f32⟩
  | .hbm, ⟨2, _⟩ => ⟨S8192x1x128, .f32⟩
  | .hbm, ⟨3, _⟩ => ⟨S8192x2x128, .f32⟩
  | .hbm, ⟨4, _⟩ => ⟨S8192x3x128, .f32⟩
  | .hbm, ⟨5, _⟩ => ⟨S8192x4x128, .f32⟩
  | .hbm, ⟨6, _⟩ => ⟨S8192x5x128, .f32⟩
  | .hbm, ⟨7, _⟩ => ⟨S8192x6x128, .f32⟩
  | .hbm, ⟨8, _⟩ => ⟨S8192x7x128, .f32⟩
  | .hbm, ⟨9, _⟩ => ⟨S8192x8x128, .f32⟩
  | .hbm, ⟨10, _⟩ => ⟨S8192x9x128, .f32⟩
  | .hbm, ⟨11, _⟩ => ⟨S8192x8x128, .f32⟩
  | .hbm, ⟨12, _⟩ => ⟨S8192x7x128, .f32⟩
  | .hbm, ⟨13, _⟩ => ⟨S8192x6x128, .f32⟩
  | .hbm, ⟨14, _⟩ => ⟨S8192x5x128, .f32⟩
  | .hbm, ⟨15, _⟩ => ⟨S8192x4x128, .f32⟩
  | .hbm, ⟨16, _⟩ => ⟨S8192x3x128, .f32⟩
  | .hbm, ⟨17, _⟩ => ⟨S8192x2x128, .f32⟩
  | .hbm, ⟨18, _⟩ => ⟨S8192x1x128, .f32⟩
  | .hbm, ⟨19, _⟩ => ⟨S17x128x128, .bf16⟩
  | .hbm, ⟨20, _⟩ => ⟨S8192x10368, .f32⟩
  | .hbm, ⟨21, _⟩ => ⟨S8192x9x9x128, .f32⟩
  | .local _ .vmem, ⟨0, _⟩ => ⟨S17x128x128, .bf16⟩
  | .local _ .vmem, ⟨1, _⟩ => ⟨S17x128, .f32⟩
  | .local _ .vmem, ⟨2, _⟩ => ⟨S128x1x128, .f32⟩
  | .local _ .vmem, ⟨3, _⟩ => ⟨S128x1x128, .f32⟩
  | .local _ .vmem, ⟨4, _⟩ => ⟨S128x2x128, .f32⟩
  | .local _ .vmem, ⟨5, _⟩ => ⟨S128x2x128, .f32⟩
  | .local _ .vmem, ⟨6, _⟩ => ⟨S128x3x128, .f32⟩
  | .local _ .vmem, ⟨7, _⟩ => ⟨S128x3x128, .f32⟩
  | .local _ .vmem, ⟨8, _⟩ => ⟨S128x4x128, .f32⟩
  | .local _ .vmem, ⟨9, _⟩ => ⟨S128x4x128, .f32⟩
  | .local _ .vmem, ⟨10, _⟩ => ⟨S128x5x128, .f32⟩
  | .local _ .vmem, ⟨11, _⟩ => ⟨S128x5x128, .f32⟩
  | .local _ .vmem, ⟨12, _⟩ => ⟨S128x6x128, .f32⟩
  | .local _ .vmem, ⟨13, _⟩ => ⟨S128x6x128, .f32⟩
  | .local _ .vmem, ⟨14, _⟩ => ⟨S128x7x128, .f32⟩
  | .local _ .vmem, ⟨15, _⟩ => ⟨S128x7x128, .f32⟩
  | .local _ .vmem, ⟨16, _⟩ => ⟨S128x8x128, .f32⟩
  | .local _ .vmem, ⟨17, _⟩ => ⟨S128x8x128, .f32⟩
  | .local _ .vmem, ⟨18, _⟩ => ⟨S128x9x128, .f32⟩
  | .local _ .vmem, ⟨19, _⟩ => ⟨S128x9x128, .f32⟩
  | .local _ .vmem, ⟨20, _⟩ => ⟨S128x8x128, .f32⟩
  | .local _ .vmem, ⟨21, _⟩ => ⟨S128x8x128, .f32⟩
  | .local _ .vmem, ⟨22, _⟩ => ⟨S128x7x128, .f32⟩
  | .local _ .vmem, ⟨23, _⟩ => ⟨S128x7x128, .f32⟩
  | .local _ .vmem, ⟨24, _⟩ => ⟨S128x6x128, .f32⟩
  | .local _ .vmem, ⟨25, _⟩ => ⟨S128x6x128, .f32⟩
  | .local _ .vmem, ⟨26, _⟩ => ⟨S128x5x128, .f32⟩
  | .local _ .vmem, ⟨27, _⟩ => ⟨S128x5x128, .f32⟩
  | .local _ .vmem, ⟨28, _⟩ => ⟨S128x4x128, .f32⟩
  | .local _ .vmem, ⟨29, _⟩ => ⟨S128x4x128, .f32⟩
  | .local _ .vmem, ⟨30, _⟩ => ⟨S128x3x128, .f32⟩
  | .local _ .vmem, ⟨31, _⟩ => ⟨S128x3x128, .f32⟩
  | .local _ .vmem, ⟨32, _⟩ => ⟨S128x2x128, .f32⟩
  | .local _ .vmem, ⟨33, _⟩ => ⟨S128x2x128, .f32⟩
  | .local _ .vmem, ⟨34, _⟩ => ⟨S128x1x128, .f32⟩
  | .local _ .vmem, ⟨35, _⟩ => ⟨S128x1x128, .f32⟩
  | .local _ .vmem, ⟨36, _⟩ => ⟨S128x10368, .f32⟩
  | .local _ .vmem, ⟨37, _⟩ => ⟨S128x10368, .f32⟩
  | _, _ => ⟨S17x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S17x128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S17x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x5x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x6x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x7x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x9x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x7x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x6x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x5x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x4x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x3x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x2x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x10368 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bitsLt_bf16_f32 : FTy.bits .bf16 < FTy.bits .f32
  inb_S128x1x128_S128x1x128_0_0_0 : ∀ a, (![0, 0, 0] : Fin 3 → Nat) a + S128x1x128.size a ≤ S128x1x128.size a
  h_S128x1x128 : 0 < S128x1x128.numel
  transposes_S128x1x128_p1_0_2_S1x128x128 : S128x1x128.Transposes [1, 0, 2] S1x128x128
  shapeCasts_S1x128x128_S128x128 : S1x128x128.ShapeCasts S128x128
  inb_S17x128x128_S1x128x128_0_0_0 : ∀ a, (![0, 0, 0] : Fin 3 → Nat) a + S1x128x128.size a ≤ S17x128x128.size a
  h_S1x128x128 : 0 < S1x128x128.numel
  inb_S17x128_S1x128_0_0 : ∀ a, (![0, 0] : Fin 2 → Nat) a + S1x128.size a ≤ S17x128.size a
  h_S1x128 : 0 < S1x128.numel
  shapeCasts_S1x128_S128 : S1x128.ShapeCasts S128
  transposes_S128x128_p1_0_S128x128 : S128x128.Transposes [1, 0] S128x128
  shapeCasts_S128_S1x128 : S128.ShapeCasts S1x128
  broadcasts_S1x128_S128x128 : S1x128.Broadcasts S128x128
  shapeCasts_S128x128_S1x128x128 : S128x128.ShapeCasts S1x128x128
  inb_S128x10368_S128x128_0_0 : ∀ a, (![0, 0] : Fin 2 → Nat) a + S128x128.size a ≤ S128x10368.size a
  h_S128x128 : 0 < S128x128.numel
  inb_S128x2x128_S128x2x128_0_0_0 : ∀ a, (![0, 0, 0] : Fin 3 → Nat) a + S128x2x128.size a ≤ S128x2x128.size a
  h_S128x2x128 : 0 < S128x2x128.numel
  transposes_S128x2x128_p1_0_2_S2x128x128 : S128x2x128.Transposes [1, 0, 2] S2x128x128
  shapeCasts_S2x128x128_S256x128 : S2x128x128.ShapeCasts S256x128
  inb_S17x128x128_S1x128x128_1_0_0 : ∀ a, (![1, 0, 0] : Fin 3 → Nat) a + S1x128x128.size a ≤ S17x128x128.size a
  inb_S17x128_S1x128_1_0 : ∀ a, (![1, 0] : Fin 2 → Nat) a + S1x128.size a ≤ S17x128.size a
  broadcasts_S1x128_S256x128 : S1x128.Broadcasts S256x128
  shapeCasts_S256x128_S2x128x128 : S256x128.ShapeCasts S2x128x128
  slices_S2x128x128_o0_0_0_S1x128x128 : S2x128x128.Slices ![0, 0, 0] S1x128x128
  inb_S128x10368_S128x128_0_128 : ∀ a, (![0, 128] : Fin 2 → Nat) a + S128x128.size a ≤ S128x10368.size a
  slices_S2x128x128_o1_0_0_S1x128x128 : S2x128x128.Slices ![1, 0, 0] S1x128x128
  inb_S128x10368_S128x128_0_1152 : ∀ a, (![0, 1152] : Fin 2 → Nat) a + S128x128.size a ≤ S128x10368.size a
  inb_S128x3x128_S128x3x128_0_0_0 : ∀ a, (![0, 0, 0] : Fin 3 → Nat) a + S128x3x128.size a ≤ S128x3x128.size a
  h_S128x3x128 : 0 < S128x3x128.numel
  transposes_S128x3x128_p1_0_2_S3x128x128 : S128x3x128.Transposes [1, 0, 2] S3x128x128
  shapeCasts_S3x128x128_S384x128 : S3x128x128.ShapeCasts S384x128
  inb_S17x128x128_S1x128x128_2_0_0 : ∀ a, (![2, 0, 0] : Fin 3 → Nat) a + S1x128x128.size a ≤ S17x128x128.size a
  inb_S17x128_S1x128_2_0 : ∀ a, (![2, 0] : Fin 2 → Nat) a + S1x128.size a ≤ S17x128.size a
  broadcasts_S1x128_S384x128 : S1x128.Broadcasts S384x128
  shapeCasts_S384x128_S3x128x128 : S384x128.ShapeCasts S3x128x128
  slices_S3x128x128_o0_0_0_S1x128x128 : S3x128x128.Slices ![0, 0, 0] S1x128x128
  inb_S128x10368_S128x128_0_256 : ∀ a, (![0, 256] : Fin 2 → Nat) a + S128x128.size a ≤ S128x10368.size a
  slices_S3x128x128_o1_0_0_S1x128x128 : S3x128x128.Slices ![1, 0, 0] S1x128x128
  inb_S128x10368_S128x128_0_1280 : ∀ a, (![0, 1280] : Fin 2 → Nat) a + S128x128.size a ≤ S128x10368.size a
  slices_S3x128x128_o2_0_0_S1x128x128 : S3x128x128.Slices ![2, 0, 0] S1x128x128
  inb_S128x10368_S128x128_0_2304 : ∀ a, (![0, 2304] : Fin 2 → Nat) a + S128x128.size a ≤ S128x10368.size a
  inb_S128x4x128_S128x4x128_0_0_0 : ∀ a, (![0, 0, 0] : Fin 3 → Nat) a + S128x4x128.size a ≤ S128x4x128.size a
  h_S128x4x128 : 0 < S128x4x128.numel
  transposes_S128x4x128_p1_0_2_S4x128x128 : S128x4x128.Transposes [1, 0, 2] S4x128x128
  shapeCasts_S4x128x128_S512x128 : S4x128x128.ShapeCasts S512x128
  inb_S17x128x128_S1x128x128_3_0_0 : ∀ a, (![3, 0, 0] : Fin 3 → Nat) a + S1x128x128.size a ≤ S17x128x128.size a
  inb_S17x128_S1x128_3_0 : ∀ a, (![3, 0] : Fin 2 → Nat) a + S1x128.size a ≤ S17x128.size a
  broadcasts_S1x128_S512x128 : S1x128.Broadcasts S512x128
  shapeCasts_S512x128_S4x128x128 : S512x128.ShapeCasts S4x128x128
  slices_S4x128x128_o0_0_0_S1x128x128 : S4x128x128.Slices ![0, 0, 0] S1x128x128
  inb_S128x10368_S128x128_0_384 : ∀ a, (![0, 384] : Fin 2 → Nat) a + S128x128.size a ≤ S128x10368.size a
  slices_S4x128x128_o1_0_0_S1x128x128 : S4x128x128.Slices ![1, 0, 0] S1x128x128
  inb_S128x10368_S128x128_0_1408 : ∀ a, (![0, 1408] : Fin 2 → Nat) a + S128x128.size a ≤ S128x10368.size a
  slices_S4x128x128_o2_0_0_S1x128x128 : S4x128x128.Slices ![2, 0, 0] S1x128x128
  inb_S128x10368_S128x128_0_2432 : ∀ a, (![0, 2432] : Fin 2 → Nat) a + S128x128.size a ≤ S128x10368.size a
  slices_S4x128x128_o3_0_0_S1x128x128 : S4x128x128.Slices ![3, 0, 0] S1x128x128
  inb_S128x10368_S128x128_0_3456 : ∀ a, (![0, 3456] : Fin 2 → Nat) a + S128x128.size a ≤ S128x10368.size a
  inb_S128x5x128_S128x5x128_0_0_0 : ∀ a, (![0, 0, 0] : Fin 3 → Nat) a + S128x5x128.size a ≤ S128x5x128.size a
  h_S128x5x128 : 0 < S128x5x128.numel
  transposes_S128x5x128_p1_0_2_S5x128x128 : S128x5x128.Transposes [1, 0, 2] S5x128x128
  shapeCasts_S5x128x128_S640x128 : S5x128x128.ShapeCasts S640x128
  inb_S17x128x128_S1x128x128_4_0_0 : ∀ a, (![4, 0, 0] : Fin 3 → Nat) a + S1x128x128.size a ≤ S17x128x128.size a
  inb_S17x128_S1x128_4_0 : ∀ a, (![4, 0] : Fin 2 → Nat) a + S1x128.size a ≤ S17x128.size a
  broadcasts_S1x128_S640x128 : S1x128.Broadcasts S640x128
  shapeCasts_S640x128_S5x128x128 : S640x128.ShapeCasts S5x128x128
  slices_S5x128x128_o0_0_0_S1x128x128 : S5x128x128.Slices ![0, 0, 0] S1x128x128
  inb_S128x10368_S128x128_0_512 : ∀ a, (![0, 512] : Fin 2 → Nat) a + S128x128.size a ≤ S128x10368.size a
  slices_S5x128x128_o1_0_0_S1x128x128 : S5x128x128.Slices ![1, 0, 0] S1x128x128
  inb_S128x10368_S128x128_0_1536 : ∀ a, (![0, 1536] : Fin 2 → Nat) a + S128x128.size a ≤ S128x10368.size a
  slices_S5x128x128_o2_0_0_S1x128x128 : S5x128x128.Slices ![2, 0, 0] S1x128x128
  inb_S128x10368_S128x128_0_2560 : ∀ a, (![0, 2560] : Fin 2 → Nat) a + S128x128.size a ≤ S128x10368.size a
  slices_S5x128x128_o3_0_0_S1x128x128 : S5x128x128.Slices ![3, 0, 0] S1x128x128
  inb_S128x10368_S128x128_0_3584 : ∀ a, (![0, 3584] : Fin 2 → Nat) a + S128x128.size a ≤ S128x10368.size a
  slices_S5x128x128_o4_0_0_S1x128x128 : S5x128x128.Slices ![4, 0, 0] S1x128x128
  inb_S128x10368_S128x128_0_4608 : ∀ a, (![0, 4608] : Fin 2 → Nat) a + S128x128.size a ≤ S128x10368.size a
  inb_S128x6x128_S128x6x128_0_0_0 : ∀ a, (![0, 0, 0] : Fin 3 → Nat) a + S128x6x128.size a ≤ S128x6x128.size a
  h_S128x6x128 : 0 < S128x6x128.numel
  transposes_S128x6x128_p1_0_2_S6x128x128 : S128x6x128.Transposes [1, 0, 2] S6x128x128
  shapeCasts_S6x128x128_S768x128 : S6x128x128.ShapeCasts S768x128
  inb_S17x128x128_S1x128x128_5_0_0 : ∀ a, (![5, 0, 0] : Fin 3 → Nat) a + S1x128x128.size a ≤ S17x128x128.size a
  inb_S17x128_S1x128_5_0 : ∀ a, (![5, 0] : Fin 2 → Nat) a + S1x128.size a ≤ S17x128.size a
  broadcasts_S1x128_S768x128 : S1x128.Broadcasts S768x128
  shapeCasts_S768x128_S6x128x128 : S768x128.ShapeCasts S6x128x128
  slices_S6x128x128_o0_0_0_S1x128x128 : S6x128x128.Slices ![0, 0, 0] S1x128x128
  inb_S128x10368_S128x128_0_640 : ∀ a, (![0, 640] : Fin 2 → Nat) a + S128x128.size a ≤ S128x10368.size a
  slices_S6x128x128_o1_0_0_S1x128x128 : S6x128x128.Slices ![1, 0, 0] S1x128x128
  inb_S128x10368_S128x128_0_1664 : ∀ a, (![0, 1664] : Fin 2 → Nat) a + S128x128.size a ≤ S128x10368.size a
  slices_S6x128x128_o2_0_0_S1x128x128 : S6x128x128.Slices ![2, 0, 0] S1x128x128
  inb_S128x10368_S128x128_0_2688 : ∀ a, (![0, 2688] : Fin 2 → Nat) a + S128x128.size a ≤ S128x10368.size a
  slices_S6x128x128_o3_0_0_S1x128x128 : S6x128x128.Slices ![3, 0, 0] S1x128x128
  inb_S128x10368_S128x128_0_3712 : ∀ a, (![0, 3712] : Fin 2 → Nat) a + S128x128.size a ≤ S128x10368.size a
  slices_S6x128x128_o4_0_0_S1x128x128 : S6x128x128.Slices ![4, 0, 0] S1x128x128
  inb_S128x10368_S128x128_0_4736 : ∀ a, (![0, 4736] : Fin 2 → Nat) a + S128x128.size a ≤ S128x10368.size a
  slices_S6x128x128_o5_0_0_S1x128x128 : S6x128x128.Slices ![5, 0, 0] S1x128x128
  inb_S128x10368_S128x128_0_5760 : ∀ a, (![0, 5760] : Fin 2 → Nat) a + S128x128.size a ≤ S128x10368.size a
  inb_S128x7x128_S128x7x128_0_0_0 : ∀ a, (![0, 0, 0] : Fin 3 → Nat) a + S128x7x128.size a ≤ S128x7x128.size a
  h_S128x7x128 : 0 < S128x7x128.numel
  transposes_S128x7x128_p1_0_2_S7x128x128 : S128x7x128.Transposes [1, 0, 2] S7x128x128
  shapeCasts_S7x128x128_S896x128 : S7x128x128.ShapeCasts S896x128
  inb_S17x128x128_S1x128x128_6_0_0 : ∀ a, (![6, 0, 0] : Fin 3 → Nat) a + S1x128x128.size a ≤ S17x128x128.size a
  inb_S17x128_S1x128_6_0 : ∀ a, (![6, 0] : Fin 2 → Nat) a + S1x128.size a ≤ S17x128.size a
  broadcasts_S1x128_S896x128 : S1x128.Broadcasts S896x128
  shapeCasts_S896x128_S7x128x128 : S896x128.ShapeCasts S7x128x128
  slices_S7x128x128_o0_0_0_S1x128x128 : S7x128x128.Slices ![0, 0, 0] S1x128x128
  inb_S128x10368_S128x128_0_768 : ∀ a, (![0, 768] : Fin 2 → Nat) a + S128x128.size a ≤ S128x10368.size a
  slices_S7x128x128_o1_0_0_S1x128x128 : S7x128x128.Slices ![1, 0, 0] S1x128x128
  inb_S128x10368_S128x128_0_1792 : ∀ a, (![0, 1792] : Fin 2 → Nat) a + S128x128.size a ≤ S128x10368.size a
  slices_S7x128x128_o2_0_0_S1x128x128 : S7x128x128.Slices ![2, 0, 0] S1x128x128
  inb_S128x10368_S128x128_0_2816 : ∀ a, (![0, 2816] : Fin 2 → Nat) a + S128x128.size a ≤ S128x10368.size a
  slices_S7x128x128_o3_0_0_S1x128x128 : S7x128x128.Slices ![3, 0, 0] S1x128x128
  inb_S128x10368_S128x128_0_3840 : ∀ a, (![0, 3840] : Fin 2 → Nat) a + S128x128.size a ≤ S128x10368.size a
  slices_S7x128x128_o4_0_0_S1x128x128 : S7x128x128.Slices ![4, 0, 0] S1x128x128
  inb_S128x10368_S128x128_0_4864 : ∀ a, (![0, 4864] : Fin 2 → Nat) a + S128x128.size a ≤ S128x10368.size a
  slices_S7x128x128_o5_0_0_S1x128x128 : S7x128x128.Slices ![5, 0, 0] S1x128x128
  inb_S128x10368_S128x128_0_5888 : ∀ a, (![0, 5888] : Fin 2 → Nat) a + S128x128.size a ≤ S128x10368.size a
  slices_S7x128x128_o6_0_0_S1x128x128 : S7x128x128.Slices ![6, 0, 0] S1x128x128
  inb_S128x10368_S128x128_0_6912 : ∀ a, (![0, 6912] : Fin 2 → Nat) a + S128x128.size a ≤ S128x10368.size a
  inb_S128x8x128_S128x8x128_0_0_0 : ∀ a, (![0, 0, 0] : Fin 3 → Nat) a + S128x8x128.size a ≤ S128x8x128.size a
  h_S128x8x128 : 0 < S128x8x128.numel
  transposes_S128x8x128_p1_0_2_S8x128x128 : S128x8x128.Transposes [1, 0, 2] S8x128x128
  shapeCasts_S8x128x128_S1024x128 : S8x128x128.ShapeCasts S1024x128
  inb_S17x128x128_S1x128x128_7_0_0 : ∀ a, (![7, 0, 0] : Fin 3 → Nat) a + S1x128x128.size a ≤ S17x128x128.size a
  inb_S17x128_S1x128_7_0 : ∀ a, (![7, 0] : Fin 2 → Nat) a + S1x128.size a ≤ S17x128.size a
  broadcasts_S1x128_S1024x128 : S1x128.Broadcasts S1024x128
  shapeCasts_S1024x128_S8x128x128 : S1024x128.ShapeCasts S8x128x128
  slices_S8x128x128_o0_0_0_S1x128x128 : S8x128x128.Slices ![0, 0, 0] S1x128x128
  inb_S128x10368_S128x128_0_896 : ∀ a, (![0, 896] : Fin 2 → Nat) a + S128x128.size a ≤ S128x10368.size a
  slices_S8x128x128_o1_0_0_S1x128x128 : S8x128x128.Slices ![1, 0, 0] S1x128x128
  inb_S128x10368_S128x128_0_1920 : ∀ a, (![0, 1920] : Fin 2 → Nat) a + S128x128.size a ≤ S128x10368.size a
  slices_S8x128x128_o2_0_0_S1x128x128 : S8x128x128.Slices ![2, 0, 0] S1x128x128
  inb_S128x10368_S128x128_0_2944 : ∀ a, (![0, 2944] : Fin 2 → Nat) a + S128x128.size a ≤ S128x10368.size a
  slices_S8x128x128_o3_0_0_S1x128x128 : S8x128x128.Slices ![3, 0, 0] S1x128x128
  inb_S128x10368_S128x128_0_3968 : ∀ a, (![0, 3968] : Fin 2 → Nat) a + S128x128.size a ≤ S128x10368.size a
  slices_S8x128x128_o4_0_0_S1x128x128 : S8x128x128.Slices ![4, 0, 0] S1x128x128
  inb_S128x10368_S128x128_0_4992 : ∀ a, (![0, 4992] : Fin 2 → Nat) a + S128x128.size a ≤ S128x10368.size a
  slices_S8x128x128_o5_0_0_S1x128x128 : S8x128x128.Slices ![5, 0, 0] S1x128x128
  inb_S128x10368_S128x128_0_6016 : ∀ a, (![0, 6016] : Fin 2 → Nat) a + S128x128.size a ≤ S128x10368.size a
  slices_S8x128x128_o6_0_0_S1x128x128 : S8x128x128.Slices ![6, 0, 0] S1x128x128
  inb_S128x10368_S128x128_0_7040 : ∀ a, (![0, 7040] : Fin 2 → Nat) a + S128x128.size a ≤ S128x10368.size a
  slices_S8x128x128_o7_0_0_S1x128x128 : S8x128x128.Slices ![7, 0, 0] S1x128x128
  inb_S128x10368_S128x128_0_8064 : ∀ a, (![0, 8064] : Fin 2 → Nat) a + S128x128.size a ≤ S128x10368.size a
  inb_S128x9x128_S128x9x128_0_0_0 : ∀ a, (![0, 0, 0] : Fin 3 → Nat) a + S128x9x128.size a ≤ S128x9x128.size a
  h_S128x9x128 : 0 < S128x9x128.numel
  transposes_S128x9x128_p1_0_2_S9x128x128 : S128x9x128.Transposes [1, 0, 2] S9x128x128
  shapeCasts_S9x128x128_S1152x128 : S9x128x128.ShapeCasts S1152x128
  inb_S17x128x128_S1x128x128_8_0_0 : ∀ a, (![8, 0, 0] : Fin 3 → Nat) a + S1x128x128.size a ≤ S17x128x128.size a
  inb_S17x128_S1x128_8_0 : ∀ a, (![8, 0] : Fin 2 → Nat) a + S1x128.size a ≤ S17x128.size a
  broadcasts_S1x128_S1152x128 : S1x128.Broadcasts S1152x128
  shapeCasts_S1152x128_S9x128x128 : S1152x128.ShapeCasts S9x128x128
  slices_S9x128x128_o0_0_0_S1x128x128 : S9x128x128.Slices ![0, 0, 0] S1x128x128
  inb_S128x10368_S128x128_0_1024 : ∀ a, (![0, 1024] : Fin 2 → Nat) a + S128x128.size a ≤ S128x10368.size a
  slices_S9x128x128_o1_0_0_S1x128x128 : S9x128x128.Slices ![1, 0, 0] S1x128x128
  inb_S128x10368_S128x128_0_2048 : ∀ a, (![0, 2048] : Fin 2 → Nat) a + S128x128.size a ≤ S128x10368.size a
  slices_S9x128x128_o2_0_0_S1x128x128 : S9x128x128.Slices ![2, 0, 0] S1x128x128
  inb_S128x10368_S128x128_0_3072 : ∀ a, (![0, 3072] : Fin 2 → Nat) a + S128x128.size a ≤ S128x10368.size a
  slices_S9x128x128_o3_0_0_S1x128x128 : S9x128x128.Slices ![3, 0, 0] S1x128x128
  inb_S128x10368_S128x128_0_4096 : ∀ a, (![0, 4096] : Fin 2 → Nat) a + S128x128.size a ≤ S128x10368.size a
  slices_S9x128x128_o4_0_0_S1x128x128 : S9x128x128.Slices ![4, 0, 0] S1x128x128
  inb_S128x10368_S128x128_0_5120 : ∀ a, (![0, 5120] : Fin 2 → Nat) a + S128x128.size a ≤ S128x10368.size a
  slices_S9x128x128_o5_0_0_S1x128x128 : S9x128x128.Slices ![5, 0, 0] S1x128x128
  inb_S128x10368_S128x128_0_6144 : ∀ a, (![0, 6144] : Fin 2 → Nat) a + S128x128.size a ≤ S128x10368.size a
  slices_S9x128x128_o6_0_0_S1x128x128 : S9x128x128.Slices ![6, 0, 0] S1x128x128
  inb_S128x10368_S128x128_0_7168 : ∀ a, (![0, 7168] : Fin 2 → Nat) a + S128x128.size a ≤ S128x10368.size a
  slices_S9x128x128_o7_0_0_S1x128x128 : S9x128x128.Slices ![7, 0, 0] S1x128x128
  inb_S128x10368_S128x128_0_8192 : ∀ a, (![0, 8192] : Fin 2 → Nat) a + S128x128.size a ≤ S128x10368.size a
  slices_S9x128x128_o8_0_0_S1x128x128 : S9x128x128.Slices ![8, 0, 0] S1x128x128
  inb_S128x10368_S128x128_0_9216 : ∀ a, (![0, 9216] : Fin 2 → Nat) a + S128x128.size a ≤ S128x10368.size a
  inb_S17x128x128_S1x128x128_9_0_0 : ∀ a, (![9, 0, 0] : Fin 3 → Nat) a + S1x128x128.size a ≤ S17x128x128.size a
  inb_S17x128_S1x128_9_0 : ∀ a, (![9, 0] : Fin 2 → Nat) a + S1x128.size a ≤ S17x128.size a
  inb_S128x10368_S128x128_0_2176 : ∀ a, (![0, 2176] : Fin 2 → Nat) a + S128x128.size a ≤ S128x10368.size a
  inb_S128x10368_S128x128_0_3200 : ∀ a, (![0, 3200] : Fin 2 → Nat) a + S128x128.size a ≤ S128x10368.size a
  inb_S128x10368_S128x128_0_4224 : ∀ a, (![0, 4224] : Fin 2 → Nat) a + S128x128.size a ≤ S128x10368.size a
  inb_S128x10368_S128x128_0_5248 : ∀ a, (![0, 5248] : Fin 2 → Nat) a + S128x128.size a ≤ S128x10368.size a
  inb_S128x10368_S128x128_0_6272 : ∀ a, (![0, 6272] : Fin 2 → Nat) a + S128x128.size a ≤ S128x10368.size a
  inb_S128x10368_S128x128_0_7296 : ∀ a, (![0, 7296] : Fin 2 → Nat) a + S128x128.size a ≤ S128x10368.size a
  inb_S128x10368_S128x128_0_8320 : ∀ a, (![0, 8320] : Fin 2 → Nat) a + S128x128.size a ≤ S128x10368.size a
  inb_S128x10368_S128x128_0_9344 : ∀ a, (![0, 9344] : Fin 2 → Nat) a + S128x128.size a ≤ S128x10368.size a
  inb_S17x128x128_S1x128x128_10_0_0 : ∀ a, (![10, 0, 0] : Fin 3 → Nat) a + S1x128x128.size a ≤ S17x128x128.size a
  inb_S17x128_S1x128_10_0 : ∀ a, (![10, 0] : Fin 2 → Nat) a + S1x128.size a ≤ S17x128.size a
  inb_S128x10368_S128x128_0_3328 : ∀ a, (![0, 3328] : Fin 2 → Nat) a + S128x128.size a ≤ S128x10368.size a
  inb_S128x10368_S128x128_0_4352 : ∀ a, (![0, 4352] : Fin 2 → Nat) a + S128x128.size a ≤ S128x10368.size a
  inb_S128x10368_S128x128_0_5376 : ∀ a, (![0, 5376] : Fin 2 → Nat) a + S128x128.size a ≤ S128x10368.size a
  inb_S128x10368_S128x128_0_6400 : ∀ a, (![0, 6400] : Fin 2 → Nat) a + S128x128.size a ≤ S128x10368.size a
  inb_S128x10368_S128x128_0_7424 : ∀ a, (![0, 7424] : Fin 2 → Nat) a + S128x128.size a ≤ S128x10368.size a
  inb_S128x10368_S128x128_0_8448 : ∀ a, (![0, 8448] : Fin 2 → Nat) a + S128x128.size a ≤ S128x10368.size a
  inb_S128x10368_S128x128_0_9472 : ∀ a, (![0, 9472] : Fin 2 → Nat) a + S128x128.size a ≤ S128x10368.size a
  inb_S17x128x128_S1x128x128_11_0_0 : ∀ a, (![11, 0, 0] : Fin 3 → Nat) a + S1x128x128.size a ≤ S17x128x128.size a
  inb_S17x128_S1x128_11_0 : ∀ a, (![11, 0] : Fin 2 → Nat) a + S1x128.size a ≤ S17x128.size a
  inb_S128x10368_S128x128_0_4480 : ∀ a, (![0, 4480] : Fin 2 → Nat) a + S128x128.size a ≤ S128x10368.size a
  inb_S128x10368_S128x128_0_5504 : ∀ a, (![0, 5504] : Fin 2 → Nat) a + S128x128.size a ≤ S128x10368.size a
  inb_S128x10368_S128x128_0_6528 : ∀ a, (![0, 6528] : Fin 2 → Nat) a + S128x128.size a ≤ S128x10368.size a
  inb_S128x10368_S128x128_0_7552 : ∀ a, (![0, 7552] : Fin 2 → Nat) a + S128x128.size a ≤ S128x10368.size a
  inb_S128x10368_S128x128_0_8576 : ∀ a, (![0, 8576] : Fin 2 → Nat) a + S128x128.size a ≤ S128x10368.size a
  inb_S128x10368_S128x128_0_9600 : ∀ a, (![0, 9600] : Fin 2 → Nat) a + S128x128.size a ≤ S128x10368.size a
  inb_S17x128x128_S1x128x128_12_0_0 : ∀ a, (![12, 0, 0] : Fin 3 → Nat) a + S1x128x128.size a ≤ S17x128x128.size a
  inb_S17x128_S1x128_12_0 : ∀ a, (![12, 0] : Fin 2 → Nat) a + S1x128.size a ≤ S17x128.size a
  inb_S128x10368_S128x128_0_5632 : ∀ a, (![0, 5632] : Fin 2 → Nat) a + S128x128.size a ≤ S128x10368.size a
  inb_S128x10368_S128x128_0_6656 : ∀ a, (![0, 6656] : Fin 2 → Nat) a + S128x128.size a ≤ S128x10368.size a
  inb_S128x10368_S128x128_0_7680 : ∀ a, (![0, 7680] : Fin 2 → Nat) a + S128x128.size a ≤ S128x10368.size a
  inb_S128x10368_S128x128_0_8704 : ∀ a, (![0, 8704] : Fin 2 → Nat) a + S128x128.size a ≤ S128x10368.size a
  inb_S128x10368_S128x128_0_9728 : ∀ a, (![0, 9728] : Fin 2 → Nat) a + S128x128.size a ≤ S128x10368.size a
  inb_S17x128x128_S1x128x128_13_0_0 : ∀ a, (![13, 0, 0] : Fin 3 → Nat) a + S1x128x128.size a ≤ S17x128x128.size a
  inb_S17x128_S1x128_13_0 : ∀ a, (![13, 0] : Fin 2 → Nat) a + S1x128.size a ≤ S17x128.size a
  inb_S128x10368_S128x128_0_6784 : ∀ a, (![0, 6784] : Fin 2 → Nat) a + S128x128.size a ≤ S128x10368.size a
  inb_S128x10368_S128x128_0_7808 : ∀ a, (![0, 7808] : Fin 2 → Nat) a + S128x128.size a ≤ S128x10368.size a
  inb_S128x10368_S128x128_0_8832 : ∀ a, (![0, 8832] : Fin 2 → Nat) a + S128x128.size a ≤ S128x10368.size a
  inb_S128x10368_S128x128_0_9856 : ∀ a, (![0, 9856] : Fin 2 → Nat) a + S128x128.size a ≤ S128x10368.size a
  inb_S17x128x128_S1x128x128_14_0_0 : ∀ a, (![14, 0, 0] : Fin 3 → Nat) a + S1x128x128.size a ≤ S17x128x128.size a
  inb_S17x128_S1x128_14_0 : ∀ a, (![14, 0] : Fin 2 → Nat) a + S1x128.size a ≤ S17x128.size a
  inb_S128x10368_S128x128_0_7936 : ∀ a, (![0, 7936] : Fin 2 → Nat) a + S128x128.size a ≤ S128x10368.size a
  inb_S128x10368_S128x128_0_8960 : ∀ a, (![0, 8960] : Fin 2 → Nat) a + S128x128.size a ≤ S128x10368.size a
  inb_S128x10368_S128x128_0_9984 : ∀ a, (![0, 9984] : Fin 2 → Nat) a + S128x128.size a ≤ S128x10368.size a
  inb_S17x128x128_S1x128x128_15_0_0 : ∀ a, (![15, 0, 0] : Fin 3 → Nat) a + S1x128x128.size a ≤ S17x128x128.size a
  inb_S17x128_S1x128_15_0 : ∀ a, (![15, 0] : Fin 2 → Nat) a + S1x128.size a ≤ S17x128.size a
  inb_S128x10368_S128x128_0_9088 : ∀ a, (![0, 9088] : Fin 2 → Nat) a + S128x128.size a ≤ S128x10368.size a
  inb_S128x10368_S128x128_0_10112 : ∀ a, (![0, 10112] : Fin 2 → Nat) a + S128x128.size a ≤ S128x10368.size a
  inb_S17x128x128_S1x128x128_16_0_0 : ∀ a, (![16, 0, 0] : Fin 3 → Nat) a + S1x128x128.size a ≤ S17x128x128.size a
  inb_S17x128_S1x128_16_0 : ∀ a, (![16, 0] : Fin 2 → Nat) a + S1x128.size a ≤ S17x128.size a
  inb_S128x10368_S128x128_0_10240 : ∀ a, (![0, 10240] : Fin 2 → Nat) a + S128x128.size a ≤ S128x10368.size a
  shapeCasts_S8192x10368_S8192x9x9x128 : S8192x10368.ShapeCasts S8192x9x9x128
  dot_S128x128_S128x128_S128x128_1_0_0_1_n_n_wf : DotDims.WF S128x128 S128x128 S128x128 [1] [0] [0] [1] [] []
  dot_S256x128_S128x128_S256x128_1_0_0_1_n_n_wf : DotDims.WF S256x128 S128x128 S256x128 [1] [0] [0] [1] [] []
  dot_S384x128_S128x128_S384x128_1_0_0_1_n_n_wf : DotDims.WF S384x128 S128x128 S384x128 [1] [0] [0] [1] [] []
  dot_S512x128_S128x128_S512x128_1_0_0_1_n_n_wf : DotDims.WF S512x128 S128x128 S512x128 [1] [0] [0] [1] [] []
  dot_S640x128_S128x128_S640x128_1_0_0_1_n_n_wf : DotDims.WF S640x128 S128x128 S640x128 [1] [0] [0] [1] [] []
  dot_S768x128_S128x128_S768x128_1_0_0_1_n_n_wf : DotDims.WF S768x128 S128x128 S768x128 [1] [0] [0] [1] [] []
  dot_S896x128_S128x128_S896x128_1_0_0_1_n_n_wf : DotDims.WF S896x128 S128x128 S896x128 [1] [0] [0] [1] [] []
  dot_S1024x128_S128x128_S1024x128_1_0_0_1_n_n_wf : DotDims.WF S1024x128 S128x128 S1024x128 [1] [0] [0] [1] [] []
  dot_S1152x128_S128x128_S1152x128_1_0_0_1_n_n_wf : DotDims.WF S1152x128 S128x128 S1152x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S17x128x128.size a ≤ S17x128x128.size a
  hwx0_0 : ∀ i : grid0.Coords, EltTy.bits .bf16 = 32 ∨ (Rect.block (s := S17x128x128) S17x128x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S17x128.size a ≤ S17x128.size a
  hwx0_1 : ∀ i : grid0.Coords, EltTy.bits .f32 = 32 ∨ (Rect.block (s := S17x128) S17x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1x128.size a ≤ S8192x1x128.size a
  hwx0_2 : ∀ i : grid0.Coords, EltTy.bits .f32 = 32 ∨ (Rect.block (s := S8192x1x128) S128x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2x128.size a ≤ S8192x2x128.size a
  hwx0_3 : ∀ i : grid0.Coords, EltTy.bits .f32 = 32 ∨ (Rect.block (s := S8192x2x128) S128x2x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x3x128.size a ≤ S8192x3x128.size a
  hwx0_4 : ∀ i : grid0.Coords, EltTy.bits .f32 = 32 ∨ (Rect.block (s := S8192x3x128) S128x3x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4x128.size a ≤ S8192x4x128.size a
  hwx0_5 : ∀ i : grid0.Coords, EltTy.bits .f32 = 32 ∨ (Rect.block (s := S8192x4x128) S128x4x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x5x128.size a ≤ S8192x5x128.size a
  hwx0_6 : ∀ i : grid0.Coords, EltTy.bits .f32 = 32 ∨ (Rect.block (s := S8192x5x128) S128x5x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x6x128.size a ≤ S8192x6x128.size a
  hwx0_7 : ∀ i : grid0.Coords, EltTy.bits .f32 = 32 ∨ (Rect.block (s := S8192x6x128) S128x6x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x7x128.size a ≤ S8192x7x128.size a
  hwx0_8 : ∀ i : grid0.Coords, EltTy.bits .f32 = 32 ∨ (Rect.block (s := S8192x7x128) S128x7x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x8x128.size a ≤ S8192x8x128.size a
  hwx0_9 : ∀ i : grid0.Coords, EltTy.bits .f32 = 32 ∨ (Rect.block (s := S8192x8x128) S128x8x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x9x128.size a ≤ S8192x9x128.size a
  hwx0_10 : ∀ i : grid0.Coords, EltTy.bits .f32 = 32 ∨ (Rect.block (s := S8192x9x128) S128x9x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x8x128.size a ≤ S8192x8x128.size a
  hwx0_11 : ∀ i : grid0.Coords, EltTy.bits .f32 = 32 ∨ (Rect.block (s := S8192x8x128) S128x8x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x7x128.size a ≤ S8192x7x128.size a
  hwx0_12 : ∀ i : grid0.Coords, EltTy.bits .f32 = 32 ∨ (Rect.block (s := S8192x7x128) S128x7x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x6x128.size a ≤ S8192x6x128.size a
  hwx0_13 : ∀ i : grid0.Coords, EltTy.bits .f32 = 32 ∨ (Rect.block (s := S8192x6x128) S128x6x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x5x128.size a ≤ S8192x5x128.size a
  hwx0_14 : ∀ i : grid0.Coords, EltTy.bits .f32 = 32 ∨ (Rect.block (s := S8192x5x128) S128x5x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x4x128.size a ≤ S8192x4x128.size a
  hwx0_15 : ∀ i : grid0.Coords, EltTy.bits .f32 = 32 ∨ (Rect.block (s := S8192x4x128) S128x4x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x3x128.size a ≤ S8192x3x128.size a
  hwx0_16 : ∀ i : grid0.Coords, EltTy.bits .f32 = 32 ∨ (Rect.block (s := S8192x3x128) S128x3x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128x2x128.size a ≤ S8192x2x128.size a
  hwx0_17 : ∀ i : grid0.Coords, EltTy.bits .f32 = 32 ∨ (Rect.block (s := S8192x2x128) S128x2x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S128x1x128.size a ≤ S8192x1x128.size a
  hwx0_18 : ∀ i : grid0.Coords, EltTy.bits .f32 = 32 ∨ (Rect.block (s := S8192x1x128) S128x1x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S128x10368.size a ≤ S8192x10368.size a
  hwx0_19 : ∀ i : grid0.Coords, EltTy.bits .f32 = 32 ∨ (Rect.block (s := S8192x10368) S128x10368.size (cc0_transform_19 i) (hinb0_19 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S384x128_S128x128_S384x128_1_0_0_1_n_n : DotDims S384x128 S128x128 S384x128 where
  lhsContracting := [1]
  rhsContracting := [0]
  lhsNonContracting := [0]
  rhsNonContracting := [1]
  lhsBatch := []
  rhsBatch := []
  wf := dot_S384x128_S128x128_S384x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S640x128_S128x128_S640x128_1_0_0_1_n_n : DotDims S640x128 S128x128 S640x128 where
  lhsContracting := [1]
  rhsContracting := [0]
  lhsNonContracting := [0]
  rhsNonContracting := [1]
  lhsBatch := []
  rhsBatch := []
  wf := dot_S640x128_S128x128_S640x128_1_0_0_1_n_n_wf
def dot_S768x128_S128x128_S768x128_1_0_0_1_n_n : DotDims S768x128 S128x128 S768x128 where
  lhsContracting := [1]
  rhsContracting := [0]
  lhsNonContracting := [0]
  rhsNonContracting := [1]
  lhsBatch := []
  rhsBatch := []
  wf := dot_S768x128_S128x128_S768x128_1_0_0_1_n_n_wf
def dot_S896x128_S128x128_S896x128_1_0_0_1_n_n : DotDims S896x128 S128x128 S896x128 where
  lhsContracting := [1]
  rhsContracting := [0]
  lhsNonContracting := [0]
  rhsNonContracting := [1]
  lhsBatch := []
  rhsBatch := []
  wf := dot_S896x128_S128x128_S896x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1152x128_S128x128_S1152x128_1_0_0_1_n_n : DotDims S1152x128 S128x128 S1152x128 where
  lhsContracting := [1]
  rhsContracting := [0]
  lhsNonContracting := [0]
  rhsNonContracting := [1]
  lhsBatch := []
  rhsBatch := []
  wf := dot_S1152x128_S128x128_S1152x128_1_0_0_1_n_n_wf

abbrev win0_0 : Pipeline.Window sig grid0 :=
  Pipeline.Window.ofSpec (Memref.whole main_v0) S17x128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S17x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x3x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x4x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x5x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x6x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x7x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x8x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x9x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x8x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x7x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128x6x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x5x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S128x4x128.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S128x3x128.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128x2x128.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S128x1x128.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v1) S128x10368.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S17x128x128 : Shape := ⟨3, ![17, 128, 128]⟩
abbrev S17x128 : Shape := ⟨2, ![17, 128]⟩
abbrev S8192x1x128 : Shape := ⟨3, ![8192, 1, 128]⟩
abbrev S8192x2x128 : Shape := ⟨3, ![8192, 2, 128]⟩
abbrev S8192x3x128 : Shape := ⟨3, ![8192, 3, 128]⟩
abbrev S8192x4x128 : Shape := ⟨3, ![8192, 4, 128]⟩
abbrev S8192x5x128 : Shape := ⟨3, ![8192, 5, 128]⟩
abbrev S8192x6x128 : Shape := ⟨3, ![8192, 6, 128]⟩
abbrev S8192x7x128 : Shape := ⟨3, ![8192, 7, 128]⟩
abbrev S8192x8x128 : Shape := ⟨3, ![8192, 8, 128]⟩
abbrev S8192x9x128 : Shape := ⟨3, ![8192, 9, 128]⟩
abbrev S1 : Shape := ⟨1, ![1]⟩
abbrev S2 : Shape := ⟨1, ![2]⟩
abbrev S3 : Shape := ⟨1, ![3]⟩
abbrev S4 : Shape := ⟨1, ![4]⟩
abbrev S5 : Shape := ⟨1, ![5]⟩
abbrev S6 : Shape := ⟨1, ![6]⟩
abbrev S7 : Shape := ⟨1, ![7]⟩
abbrev S8 : Shape := ⟨1, ![8]⟩
abbrev S9 : Shape := ⟨1, ![9]⟩
abbrev S_ : Shape := ⟨0, ![]⟩
abbrev S8192x9x9x128 : Shape := ⟨4, ![8192, 9, 9, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1x128 : Shape := ⟨3, ![1, 1, 128]⟩
abbrev S1x1 : Shape := ⟨2, ![1, 1]⟩
abbrev S1x2 : Shape := ⟨2, ![1, 2]⟩
abbrev S2x1 : Shape := ⟨2, ![2, 1]⟩
abbrev S2x2 : Shape := ⟨2, ![2, 2]⟩
abbrev S3x1 : Shape := ⟨2, ![3, 1]⟩
abbrev S3x2 : Shape := ⟨2, ![3, 2]⟩
abbrev S4x1 : Shape := ⟨2, ![4, 1]⟩
abbrev S4x2 : Shape := ⟨2, ![4, 2]⟩
abbrev S5x1 : Shape := ⟨2, ![5, 1]⟩
abbrev S5x2 : Shape := ⟨2, ![5, 2]⟩
abbrev S6x1 : Shape := ⟨2, ![6, 1]⟩
abbrev S6x2 : Shape := ⟨2, ![6, 2]⟩
abbrev S7x1 : Shape := ⟨2, ![7, 1]⟩
abbrev S7x2 : Shape := ⟨2, ![7, 2]⟩
abbrev S8x1 : Shape := ⟨2, ![8, 1]⟩
abbrev S8x2 : Shape := ⟨2, ![8, 2]⟩
abbrev S9x1 : Shape := ⟨2, ![9, 1]⟩
abbrev S9x2 : Shape := ⟨2, ![9, 2]⟩

abbrev nBuf : Space → Nat
  | .hbm => 429
  | .vmem => 0
  | .smem => 0
  | _ => 0

abbrev hbmTy0_0 (i : Nat) : BufTy := match i % 128 with
  | 0 => ⟨S17x128x128, .f32⟩
  | 1 => ⟨S17x128, .f32⟩
  | 2 => ⟨S8192x1x128, .f32⟩
  | 3 => ⟨S8192x2x128, .f32⟩
  | 4 => ⟨S8192x3x128, .f32⟩
  | 5 => ⟨S8192x4x128, .f32⟩
  | 6 => ⟨S8192x5x128, .f32⟩
  | 7 => ⟨S8192x6x128, .f32⟩
  | 8 => ⟨S8192x7x128, .f32⟩
  | 9 => ⟨S8192x8x128, .f32⟩
  | 10 => ⟨S8192x9x128, .f32⟩
  | 11 => ⟨S8192x8x128, .f32⟩
  | 12 => ⟨S8192x7x128, .f32⟩
  | 13 => ⟨S8192x6x128, .f32⟩
  | 14 => ⟨S8192x5x128, .f32⟩
  | 15 => ⟨S8192x4x128, .f32⟩
  | 16 => ⟨S8192x3x128, .f32⟩
  | 17 => ⟨S8192x2x128, .f32⟩
  | 18 => ⟨S8192x1x128, .f32⟩
  | 19 => ⟨S1, .i32⟩
  | 20 => ⟨S1, .i1⟩
  | 21 => ⟨S1, .i32⟩
  | 22 => ⟨S1, .i1⟩
  | 23 => ⟨S2, .i32⟩
  | 24 => ⟨S2, .i1⟩
  | 25 => ⟨S2, .i32⟩
  | 26 => ⟨S2, .i1⟩
  | 27 => ⟨S3, .i32⟩
  | 28 => ⟨S3, .i1⟩
  | 29 => ⟨S3, .i32⟩
  | 30 => ⟨S3, .i1⟩
  | 31 => ⟨S4, .i32⟩
  | 32 => ⟨S4, .i1⟩
  | 33 => ⟨S4, .i32⟩
  | 34 => ⟨S4, .i1⟩
  | 35 => ⟨S5, .i32⟩
  | 36 => ⟨S5, .i1⟩
  | 37 => ⟨S5, .i32⟩
  | 38 => ⟨S5, .i1⟩
  | 39 => ⟨S6, .i32⟩
  | 40 => ⟨S6, .i1⟩
  | 41 => ⟨S6, .i32⟩
  | 42 => ⟨S6, .i1⟩
  | 43 => ⟨S7, .i32⟩
  | 44 => ⟨S7, .i1⟩
  | 45 => ⟨S7, .i32⟩
  | 46 => ⟨S7, .i1⟩
  | 47 => ⟨S8, .i32⟩
  | 48 => ⟨S8, .i1⟩
  | 49 => ⟨S8, .i32⟩
  | 50 => ⟨S8, .i1⟩
  | 51 => ⟨S9, .i32⟩
  | 52 => ⟨S9, .i1⟩
  | 53 => ⟨S9, .i32⟩
  | 54 => ⟨S9, .i1⟩
  | 55 => ⟨S8, .i32⟩
  | 56 => ⟨S8, .i1⟩
  | 57 => ⟨S8, .i32⟩
  | 58 => ⟨S8, .i1⟩
  | 59 => ⟨S7, .i32⟩
  | 60 => ⟨S7, .i1⟩
  | 61 => ⟨S7, .i32⟩
  | 62 => ⟨S7, .i1⟩
  | 63 => ⟨S6, .i32⟩
  | 64 => ⟨S6, .i1⟩
  | 65 => ⟨S6, .i32⟩
  | 66 => ⟨S6, .i1⟩
  | 67 => ⟨S5, .i32⟩
  | 68 => ⟨S5, .i1⟩
  | 69 => ⟨S5, .i32⟩
  | 70 => ⟨S5, .i1⟩
  | 71 => ⟨S4, .i32⟩
  | 72 => ⟨S4, .i1⟩
  | 73 => ⟨S4, .i32⟩
  | 74 => ⟨S4, .i1⟩
  | 75 => ⟨S3, .i32⟩
  | 76 => ⟨S3, .i1⟩
  | 77 => ⟨S3, .i32⟩
  | 78 => ⟨S3, .i1⟩
  | 79 => ⟨S2, .i32⟩
  | 80 => ⟨S2, .i1⟩
  | 81 => ⟨S2, .i32⟩
  | 82 => ⟨S2, .i1⟩
  | 83 => ⟨S1, .i32⟩
  | 84 => ⟨S1, .i1⟩
  | 85 => ⟨S1, .i32⟩
  | 86 => ⟨S1, .i1⟩
  | 87 => ⟨S_, .f32⟩
  | 88 => ⟨S8192x9x9x128, .f32⟩
  | 89 => ⟨S1x128x128, .f32⟩
  | 90 => ⟨S128x128, .f32⟩
  | 91 => ⟨S8192x1x128, .f32⟩
  | 92 => ⟨S1x128, .f32⟩
  | 93 => ⟨S128, .f32⟩
  | 94 => ⟨S1x1x128, .f32⟩
  | 95 => ⟨S8192x1x128, .f32⟩
  | 96 => ⟨S8192x1x128, .f32⟩
  | 97 => ⟨S_, .i32⟩
  | 98 => ⟨S1, .i32⟩
  | 99 => ⟨S1, .i32⟩
  | 100 => ⟨S1, .i32⟩
  | 101 => ⟨S_, .i32⟩
  | 102 => ⟨S1, .i32⟩
  | 103 => ⟨S1, .i32⟩
  | 104 => ⟨S1, .i32⟩
  | 105 => ⟨S1x1, .i32⟩
  | 106 => ⟨S1x1, .i32⟩
  | 107 => ⟨S1x2, .i32⟩
  | 108 => ⟨S8192x9x9x128, .f32⟩
  | 109 => ⟨S1x128x128, .f32⟩
  | 110 => ⟨S128x128, .f32⟩
  | 111 => ⟨S8192x2x128, .f32⟩
  | 112 => ⟨S1x128, .f32⟩
  | 113 => ⟨S128, .f32⟩
  | 114 => ⟨S1x1x128, .f32⟩
  | 115 => ⟨S8192x2x128, .f32⟩
  | 116 => ⟨S8192x2x128, .f32⟩
  | 117 => ⟨S_, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2x1, .i32⟩
  | 126 => ⟨S2x1, .i32⟩
  | 127 => ⟨S2x2, .i32⟩
  | _ => ⟨S17x128x128, .f32⟩

abbrev hbmTy0_1 (i : Nat) : BufTy := match i % 128 with
  | 0 => ⟨S8192x9x9x128, .f32⟩
  | 1 => ⟨S1x128x128, .f32⟩
  | 2 => ⟨S128x128, .f32⟩
  | 3 => ⟨S8192x3x128, .f32⟩
  | 4 => ⟨S1x128, .f32⟩
  | 5 => ⟨S128, .f32⟩
  | 6 => ⟨S1x1x128, .f32⟩
  | 7 => ⟨S8192x3x128, .f32⟩
  | 8 => ⟨S8192x3x128, .f32⟩
  | 9 => ⟨S_, .i32⟩
  | 10 => ⟨S3, .i32⟩
  | 11 => ⟨S3, .i32⟩
  | 12 => ⟨S3, .i32⟩
  | 13 => ⟨S_, .i32⟩
  | 14 => ⟨S3, .i32⟩
  | 15 => ⟨S3, .i32⟩
  | 16 => ⟨S3, .i32⟩
  | 17 => ⟨S3x1, .i32⟩
  | 18 => ⟨S3x1, .i32⟩
  | 19 => ⟨S3x2, .i32⟩
  | 20 => ⟨S8192x9x9x128, .f32⟩
  | 21 => ⟨S1x128x128, .f32⟩
  | 22 => ⟨S128x128, .f32⟩
  | 23 => ⟨S8192x4x128, .f32⟩
  | 24 => ⟨S1x128, .f32⟩
  | 25 => ⟨S128, .f32⟩
  | 26 => ⟨S1x1x128, .f32⟩
  | 27 => ⟨S8192x4x128, .f32⟩
  | 28 => ⟨S8192x4x128, .f32⟩
  | 29 => ⟨S_, .i32⟩
  | 30 => ⟨S4, .i32⟩
  | 31 => ⟨S4, .i32⟩
  | 32 => ⟨S4, .i32⟩
  | 33 => ⟨S_, .i32⟩
  | 34 => ⟨S4, .i32⟩
  | 35 => ⟨S4, .i32⟩
  | 36 => ⟨S4, .i32⟩
  | 37 => ⟨S4x1, .i32⟩
  | 38 => ⟨S4x1, .i32⟩
  | 39 => ⟨S4x2, .i32⟩
  | 40 => ⟨S8192x9x9x128, .f32⟩
  | 41 => ⟨S1x128x128, .f32⟩
  | 42 => ⟨S128x128, .f32⟩
  | 43 => ⟨S8192x5x128, .f32⟩
  | 44 => ⟨S1x128, .f32⟩
  | 45 => ⟨S128, .f32⟩
  | 46 => ⟨S1x1x128, .f32⟩
  | 47 => ⟨S8192x5x128, .f32⟩
  | 48 => ⟨S8192x5x128, .f32⟩
  | 49 => ⟨S_, .i32⟩
  | 50 => ⟨S5, .i32⟩
  | 51 => ⟨S5, .i32⟩
  | 52 => ⟨S5, .i32⟩
  | 53 => ⟨S_, .i32⟩
  | 54 => ⟨S5, .i32⟩
  | 55 => ⟨S5, .i32⟩
  | 56 => ⟨S5, .i32⟩
  | 57 => ⟨S5x1, .i32⟩
  | 58 => ⟨S5x1, .i32⟩
  | 59 => ⟨S5x2, .i32⟩
  | 60 => ⟨S8192x9x9x128, .f32⟩
  | 61 => ⟨S1x128x128, .f32⟩
  | 62 => ⟨S128x128, .f32⟩
  | 63 => ⟨S8192x6x128, .f32⟩
  | 64 => ⟨S1x128, .f32⟩
  | 65 => ⟨S128, .f32⟩
  | 66 => ⟨S1x1x128, .f32⟩
  | 67 => ⟨S8192x6x128, .f32⟩
  | 68 => ⟨S8192x6x128, .f32⟩
  | 69 => ⟨S_, .i32⟩
  | 70 => ⟨S6, .i32⟩
  | 71 => ⟨S6, .i32⟩
  | 72 => ⟨S6, .i32⟩
  | 73 => ⟨S_, .i32⟩
  | 74 => ⟨S6, .i32⟩
  | 75 => ⟨S6, .i32⟩
  | 76 => ⟨S6, .i32⟩
  | 77 => ⟨S6x1, .i32⟩
  | 78 => ⟨S6x1, .i32⟩
  | 79 => ⟨S6x2, .i32⟩
  | 80 => ⟨S8192x9x9x128, .f32⟩
  | 81 => ⟨S1x128x128, .f32⟩
  | 82 => ⟨S128x128, .f32⟩
  | 83 => ⟨S8192x7x128, .f32⟩
  | 84 => ⟨S1x128, .f32⟩
  | 85 => ⟨S128, .f32⟩
  | 86 => ⟨S1x1x128, .f32⟩
  | 87 => ⟨S8192x7x128, .f32⟩
  | 88 => ⟨S8192x7x128, .f32⟩
  | 89 => ⟨S_, .i32⟩
  | 90 => ⟨S7, .i32⟩
  | 91 => ⟨S7, .i32⟩
  | 92 => ⟨S7, .i32⟩
  | 93 => ⟨S_, .i32⟩
  | 94 => ⟨S7, .i32⟩
  | 95 => ⟨S7, .i32⟩
  | 96 => ⟨S7, .i32⟩
  | 97 => ⟨S7x1, .i32⟩
  | 98 => ⟨S7x1, .i32⟩
  | 99 => ⟨S7x2, .i32⟩
  | 100 => ⟨S8192x9x9x128, .f32⟩
  | 101 => ⟨S1x128x128, .f32⟩
  | 102 => ⟨S128x128, .f32⟩
  | 103 => ⟨S8192x8x128, .f32⟩
  | 104 => ⟨S1x128, .f32⟩
  | 105 => ⟨S128, .f32⟩
  | 106 => ⟨S1x1x128, .f32⟩
  | 107 => ⟨S8192x8x128, .f32⟩
  | 108 => ⟨S8192x8x128, .f32⟩
  | 109 => ⟨S_, .i32⟩
  | 110 => ⟨S8, .i32⟩
  | 111 => ⟨S8, .i32⟩
  | 112 => ⟨S8, .i32⟩
  | 113 => ⟨S_, .i32⟩
  | 114 => ⟨S8, .i32⟩
  | 115 => ⟨S8, .i32⟩
  | 116 => ⟨S8, .i32⟩
  | 117 => ⟨S8x1, .i32⟩
  | 118 => ⟨S8x1, .i32⟩
  | 119 => ⟨S8x2, .i32⟩
  | 120 => ⟨S8192x9x9x128, .f32⟩
  | 121 => ⟨S1x128x128, .f32⟩
  | 122 => ⟨S128x128, .f32⟩
  | 123 => ⟨S8192x9x128, .f32⟩
  | 124 => ⟨S1x128, .f32⟩
  | 125 => ⟨S128, .f32⟩
  | 126 => ⟨S1x1x128, .f32⟩
  | 127 => ⟨S8192x9x128, .f32⟩
  | _ => ⟨S17x128x128, .f32⟩

abbrev hbmTy0_2 (i : Nat) : BufTy := match i % 128 with
  | 0 => ⟨S8192x9x128, .f32⟩
  | 1 => ⟨S_, .i32⟩
  | 2 => ⟨S9, .i32⟩
  | 3 => ⟨S9, .i32⟩
  | 4 => ⟨S9, .i32⟩
  | 5 => ⟨S_, .i32⟩
  | 6 => ⟨S9, .i32⟩
  | 7 => ⟨S9, .i32⟩
  | 8 => ⟨S9, .i32⟩
  | 9 => ⟨S9x1, .i32⟩
  | 10 => ⟨S9x1, .i32⟩
  | 11 => ⟨S9x2, .i32⟩
  | 12 => ⟨S8192x9x9x128, .f32⟩
  | 13 => ⟨S1x128x128, .f32⟩
  | 14 => ⟨S128x128, .f32⟩
  | 15 => ⟨S8192x8x128, .f32⟩
  | 16 => ⟨S1x128, .f32⟩
  | 17 => ⟨S128, .f32⟩
  | 18 => ⟨S1x1x128, .f32⟩
  | 19 => ⟨S8192x8x128, .f32⟩
  | 20 => ⟨S8192x8x128, .f32⟩
  | 21 => ⟨S_, .i32⟩
  | 22 => ⟨S8, .i32⟩
  | 23 => ⟨S8, .i32⟩
  | 24 => ⟨S8, .i32⟩
  | 25 => ⟨S_, .i32⟩
  | 26 => ⟨S8, .i32⟩
  | 27 => ⟨S8, .i32⟩
  | 28 => ⟨S8, .i32⟩
  | 29 => ⟨S8x1, .i32⟩
  | 30 => ⟨S8x1, .i32⟩
  | 31 => ⟨S8x2, .i32⟩
  | 32 => ⟨S8192x9x9x128, .f32⟩
  | 33 => ⟨S1x128x128, .f32⟩
  | 34 => ⟨S128x128, .f32⟩
  | 35 => ⟨S8192x7x128, .f32⟩
  | 36 => ⟨S1x128, .f32⟩
  | 37 => ⟨S128, .f32⟩
  | 38 => ⟨S1x1x128, .f32⟩
  | 39 => ⟨S8192x7x128, .f32⟩
  | 40 => ⟨S8192x7x128, .f32⟩
  | 41 => ⟨S_, .i32⟩
  | 42 => ⟨S7, .i32⟩
  | 43 => ⟨S7, .i32⟩
  | 44 => ⟨S7, .i32⟩
  | 45 => ⟨S_, .i32⟩
  | 46 => ⟨S7, .i32⟩
  | 47 => ⟨S7, .i32⟩
  | 48 => ⟨S7, .i32⟩
  | 49 => ⟨S7x1, .i32⟩
  | 50 => ⟨S7x1, .i32⟩
  | 51 => ⟨S7x2, .i32⟩
  | 52 => ⟨S8192x9x9x128, .f32⟩
  | 53 => ⟨S1x128x128, .f32⟩
  | 54 => ⟨S128x128, .f32⟩
  | 55 => ⟨S8192x6x128, .f32⟩
  | 56 => ⟨S1x128, .f32⟩
  | 57 => ⟨S128, .f32⟩
  | 58 => ⟨S1x1x128, .f32⟩
  | 59 => ⟨S8192x6x128, .f32⟩
  | 60 => ⟨S8192x6x128, .f32⟩
  | 61 => ⟨S_, .i32⟩
  | 62 => ⟨S6, .i32⟩
  | 63 => ⟨S6, .i32⟩
  | 64 => ⟨S6, .i32⟩
  | 65 => ⟨S_, .i32⟩
  | 66 => ⟨S6, .i32⟩
  | 67 => ⟨S6, .i32⟩
  | 68 => ⟨S6, .i32⟩
  | 69 => ⟨S6x1, .i32⟩
  | 70 => ⟨S6x1, .i32⟩
  | 71 => ⟨S6x2, .i32⟩
  | 72 => ⟨S8192x9x9x128, .f32⟩
  | 73 => ⟨S1x128x128, .f32⟩
  | 74 => ⟨S128x128, .f32⟩
  | 75 => ⟨S8192x5x128, .f32⟩
  | 76 => ⟨S1x128, .f32⟩
  | 77 => ⟨S128, .f32⟩
  | 78 => ⟨S1x1x128, .f32⟩
  | 79 => ⟨S8192x5x128, .f32⟩
  | 80 => ⟨S8192x5x128, .f32⟩
  | 81 => ⟨S_, .i32⟩
  | 82 => ⟨S5, .i32⟩
  | 83 => ⟨S5, .i32⟩
  | 84 => ⟨S5, .i32⟩
  | 85 => ⟨S_, .i32⟩
  | 86 => ⟨S5, .i32⟩
  | 87 => ⟨S5, .i32⟩
  | 88 => ⟨S5, .i32⟩
  | 89 => ⟨S5x1, .i32⟩
  | 90 => ⟨S5x1, .i32⟩
  | 91 => ⟨S5x2, .i32⟩
  | 92 => ⟨S8192x9x9x128, .f32⟩
  | 93 => ⟨S1x128x128, .f32⟩
  | 94 => ⟨S128x128, .f32⟩
  | 95 => ⟨S8192x4x128, .f32⟩
  | 96 => ⟨S1x128, .f32⟩
  | 97 => ⟨S128, .f32⟩
  | 98 => ⟨S1x1x128, .f32⟩
  | 99 => ⟨S8192x4x128, .f32⟩
  | 100 => ⟨S8192x4x128, .f32⟩
  | 101 => ⟨S_, .i32⟩
  | 102 => ⟨S4, .i32⟩
  | 103 => ⟨S4, .i32⟩
  | 104 => ⟨S4, .i32⟩
  | 105 => ⟨S_, .i32⟩
  | 106 => ⟨S4, .i32⟩
  | 107 => ⟨S4, .i32⟩
  | 108 => ⟨S4, .i32⟩
  | 109 => ⟨S4x1, .i32⟩
  | 110 => ⟨S4x1, .i32⟩
  | 111 => ⟨S4x2, .i32⟩
  | 112 => ⟨S8192x9x9x128, .f32⟩
  | 113 => ⟨S1x128x128, .f32⟩
  | 114 => ⟨S128x128, .f32⟩
  | 115 => ⟨S8192x3x128, .f32⟩
  | 116 => ⟨S1x128, .f32⟩
  | 117 => ⟨S128, .f32⟩
  | 118 => ⟨S1x1x128, .f32⟩
  | 119 => ⟨S8192x3x128, .f32⟩
  | 120 => ⟨S8192x3x128, .f32⟩
  | 121 => ⟨S_, .i32⟩
  | 122 => ⟨S3, .i32⟩
  | 123 => ⟨S3, .i32⟩
  | 124 => ⟨S3, .i32⟩
  | 125 => ⟨S_, .i32⟩
  | 126 => ⟨S3, .i32⟩
  | 127 => ⟨S3, .i32⟩
  | _ => ⟨S17x128x128, .f32⟩

abbrev hbmTy0_3 (i : Nat) : BufTy := match i % 128 with
  | 0 => ⟨S3, .i32⟩
  | 1 => ⟨S3x1, .i32⟩
  | 2 => ⟨S3x1, .i32⟩
  | 3 => ⟨S3x2, .i32⟩
  | 4 => ⟨S8192x9x9x128, .f32⟩
  | 5 => ⟨S1x128x128, .f32⟩
  | 6 => ⟨S128x128, .f32⟩
  | 7 => ⟨S8192x2x128, .f32⟩
  | 8 => ⟨S1x128, .f32⟩
  | 9 => ⟨S128, .f32⟩
  | 10 => ⟨S1x1x128, .f32⟩
  | 11 => ⟨S8192x2x128, .f32⟩
  | 12 => ⟨S8192x2x128, .f32⟩
  | 13 => ⟨S_, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2x1, .i32⟩
  | 22 => ⟨S2x1, .i32⟩
  | 23 => ⟨S2x2, .i32⟩
  | 24 => ⟨S8192x9x9x128, .f32⟩
  | 25 => ⟨S1x128x128, .f32⟩
  | 26 => ⟨S128x128, .f32⟩
  | 27 => ⟨S8192x1x128, .f32⟩
  | 28 => ⟨S1x128, .f32⟩
  | 29 => ⟨S128, .f32⟩
  | 30 => ⟨S1x1x128, .f32⟩
  | 31 => ⟨S8192x1x128, .f32⟩
  | 32 => ⟨S8192x1x128, .f32⟩
  | 33 => ⟨S_, .i32⟩
  | 34 => ⟨S1, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1x1, .i32⟩
  | 42 => ⟨S1x1, .i32⟩
  | 43 => ⟨S1x2, .i32⟩
  | 44 => ⟨S8192x9x9x128, .f32⟩
  | _ => ⟨S17x128x128, .f32⟩

abbrev hbmTy (i : Nat) : BufTy := match i / 128 with
  | 0 => hbmTy0_0 i
  | 1 => hbmTy0_1 i
  | 2 => hbmTy0_2 i
  | 3 => hbmTy0_3 i
  | _ => ⟨S17x128x128, .f32⟩

abbrev bufTy : (tb : Table) → Fin (tcTables nBuf tb) → BufTy
  | .hbm, ⟨i, _⟩ => hbmTy i
  | _, _ => ⟨S17x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_c_0 : Ref sig .tc := ⟨.hbm, 20, rfl⟩
abbrev main_c_1 : Ref sig .tc := ⟨.hbm, 21, rfl⟩
abbrev main_c_2 : Ref sig .tc := ⟨.hbm, 22, rfl⟩
abbrev main_c_3 : Ref sig .tc := ⟨.hbm, 23, rfl⟩
abbrev main_c_4 : Ref sig .tc := ⟨.hbm, 24, rfl⟩
abbrev main_c_5 : Ref sig .tc := ⟨.hbm, 25, rfl⟩
abbrev main_c_6 : Ref sig .tc := ⟨.hbm, 26, rfl⟩
abbrev main_c_7 : Ref sig .tc := ⟨.hbm, 27, rfl⟩
abbrev main_c_8 : Ref sig .tc := ⟨.hbm, 28, rfl⟩
abbrev main_c_9 : Ref sig .tc := ⟨.hbm, 29, rfl⟩
abbrev main_c_10 : Ref sig .tc := ⟨.hbm, 30, rfl⟩
abbrev main_c_11 : Ref sig .tc := ⟨.hbm, 31, rfl⟩
abbrev main_c_12 : Ref sig .tc := ⟨.hbm, 32, rfl⟩
abbrev main_c_13 : Ref sig .tc := ⟨.hbm, 33, rfl⟩
abbrev main_c_14 : Ref sig .tc := ⟨.hbm, 34, rfl⟩
abbrev main_c_15 : Ref sig .tc := ⟨.hbm, 35, rfl⟩
abbrev main_c_16 : Ref sig .tc := ⟨.hbm, 36, rfl⟩
abbrev main_c_17 : Ref sig .tc := ⟨.hbm, 37, rfl⟩
abbrev main_c_18 : Ref sig .tc := ⟨.hbm, 38, rfl⟩
abbrev main_c_19 : Ref sig .tc := ⟨.hbm, 39, rfl⟩
abbrev main_c_20 : Ref sig .tc := ⟨.hbm, 40, rfl⟩
abbrev main_c_21 : Ref sig .tc := ⟨.hbm, 41, rfl⟩
abbrev main_c_22 : Ref sig .tc := ⟨.hbm, 42, rfl⟩
abbrev main_c_23 : Ref sig .tc := ⟨.hbm, 43, rfl⟩
abbrev main_c_24 : Ref sig .tc := ⟨.hbm, 44, rfl⟩
abbrev main_c_25 : Ref sig .tc := ⟨.hbm, 45, rfl⟩
abbrev main_c_26 : Ref sig .tc := ⟨.hbm, 46, rfl⟩
abbrev main_c_27 : Ref sig .tc := ⟨.hbm, 47, rfl⟩
abbrev main_c_28 : Ref sig .tc := ⟨.hbm, 48, rfl⟩
abbrev main_c_29 : Ref sig .tc := ⟨.hbm, 49, rfl⟩
abbrev main_c_30 : Ref sig .tc := ⟨.hbm, 50, rfl⟩
abbrev main_c_31 : Ref sig .tc := ⟨.hbm, 51, rfl⟩
abbrev main_c_32 : Ref sig .tc := ⟨.hbm, 52, rfl⟩
abbrev main_c_33 : Ref sig .tc := ⟨.hbm, 53, rfl⟩
abbrev main_c_34 : Ref sig .tc := ⟨.hbm, 54, rfl⟩
abbrev main_c_35 : Ref sig .tc := ⟨.hbm, 55, rfl⟩
abbrev main_c_36 : Ref sig .tc := ⟨.hbm, 56, rfl⟩
abbrev main_c_37 : Ref sig .tc := ⟨.hbm, 57, rfl⟩
abbrev main_c_38 : Ref sig .tc := ⟨.hbm, 58, rfl⟩
abbrev main_c_39 : Ref sig .tc := ⟨.hbm, 59, rfl⟩
abbrev main_c_40 : Ref sig .tc := ⟨.hbm, 60, rfl⟩
abbrev main_c_41 : Ref sig .tc := ⟨.hbm, 61, rfl⟩
abbrev main_c_42 : Ref sig .tc := ⟨.hbm, 62, rfl⟩
abbrev main_c_43 : Ref sig .tc := ⟨.hbm, 63, rfl⟩
abbrev main_c_44 : Ref sig .tc := ⟨.hbm, 64, rfl⟩
abbrev main_c_45 : Ref sig .tc := ⟨.hbm, 65, rfl⟩
abbrev main_c_46 : Ref sig .tc := ⟨.hbm, 66, rfl⟩
abbrev main_c_47 : Ref sig .tc := ⟨.hbm, 67, rfl⟩
abbrev main_c_48 : Ref sig .tc := ⟨.hbm, 68, rfl⟩
abbrev main_c_49 : Ref sig .tc := ⟨.hbm, 69, rfl⟩
abbrev main_c_50 : Ref sig .tc := ⟨.hbm, 70, rfl⟩
abbrev main_c_51 : Ref sig .tc := ⟨.hbm, 71, rfl⟩
abbrev main_c_52 : Ref sig .tc := ⟨.hbm, 72, rfl⟩
abbrev main_c_53 : Ref sig .tc := ⟨.hbm, 73, rfl⟩
abbrev main_c_54 : Ref sig .tc := ⟨.hbm, 74, rfl⟩
abbrev main_c_55 : Ref sig .tc := ⟨.hbm, 75, rfl⟩
abbrev main_c_56 : Ref sig .tc := ⟨.hbm, 76, rfl⟩
abbrev main_c_57 : Ref sig .tc := ⟨.hbm, 77, rfl⟩
abbrev main_c_58 : Ref sig .tc := ⟨.hbm, 78, rfl⟩
abbrev main_c_59 : Ref sig .tc := ⟨.hbm, 79, rfl⟩
abbrev main_c_60 : Ref sig .tc := ⟨.hbm, 80, rfl⟩
abbrev main_c_61 : Ref sig .tc := ⟨.hbm, 81, rfl⟩
abbrev main_c_62 : Ref sig .tc := ⟨.hbm, 82, rfl⟩
abbrev main_c_63 : Ref sig .tc := ⟨.hbm, 83, rfl⟩
abbrev main_c_64 : Ref sig .tc := ⟨.hbm, 84, rfl⟩
abbrev main_c_65 : Ref sig .tc := ⟨.hbm, 85, rfl⟩
abbrev main_c_66 : Ref sig .tc := ⟨.hbm, 86, rfl⟩
abbrev main_cst : Ref sig .tc := ⟨.hbm, 87, rfl⟩
abbrev main_v0 : Ref sig .tc := ⟨.hbm, 88, rfl⟩
abbrev main_v1 : Ref sig .tc := ⟨.hbm, 89, rfl⟩
abbrev main_v2 : Ref sig .tc := ⟨.hbm, 90, rfl⟩
abbrev main_v3 : Ref sig .tc := ⟨.hbm, 91, rfl⟩
abbrev main_v4 : Ref sig .tc := ⟨.hbm, 92, rfl⟩
abbrev main_v5 : Ref sig .tc := ⟨.hbm, 93, rfl⟩
abbrev main_v6 : Ref sig .tc := ⟨.hbm, 94, rfl⟩
abbrev main_v7 : Ref sig .tc := ⟨.hbm, 95, rfl⟩
abbrev main_v8 : Ref sig .tc := ⟨.hbm, 96, rfl⟩
abbrev main_c_67 : Ref sig .tc := ⟨.hbm, 97, rfl⟩
abbrev main_v9 : Ref sig .tc := ⟨.hbm, 98, rfl⟩
abbrev main_v10 : Ref sig .tc := ⟨.hbm, 99, rfl⟩
abbrev main_v11 : Ref sig .tc := ⟨.hbm, 100, rfl⟩
abbrev main_c_68 : Ref sig .tc := ⟨.hbm, 101, rfl⟩
abbrev main_v12 : Ref sig .tc := ⟨.hbm, 102, rfl⟩
abbrev main_v13 : Ref sig .tc := ⟨.hbm, 103, rfl⟩
abbrev main_v14 : Ref sig .tc := ⟨.hbm, 104, rfl⟩
abbrev main_v15 : Ref sig .tc := ⟨.hbm, 105, rfl⟩
abbrev main_v16 : Ref sig .tc := ⟨.hbm, 106, rfl⟩
abbrev main_v17 : Ref sig .tc := ⟨.hbm, 107, rfl⟩
abbrev main_v18 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_v24 : Ref sig .tc := ⟨.hbm, 114, rfl⟩
abbrev main_v25 : Ref sig .tc := ⟨.hbm, 115, rfl⟩
abbrev main_v26 : Ref sig .tc := ⟨.hbm, 116, rfl⟩
abbrev main_c_69 : Ref sig .tc := ⟨.hbm, 117, rfl⟩
abbrev main_v27 : Ref sig .tc := ⟨.hbm, 118, rfl⟩
abbrev main_v28 : Ref sig .tc := ⟨.hbm, 119, rfl⟩
abbrev main_v29 : Ref sig .tc := ⟨.hbm, 120, rfl⟩
abbrev main_c_70 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_c_71 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_c_72 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_c_73 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_c_74 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_c_75 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_c_76 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_c_77 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_c_78 : Ref sig .tc := ⟨.hbm, 201, rfl⟩
abbrev main_v102 : Ref sig .tc := ⟨.hbm, 202, rfl⟩
abbrev main_v103 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_c_79 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_c_80 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_c_81 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_c_82 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_c_83 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_c_84 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_v168 : Ref sig .tc := ⟨.hbm, 274, rfl⟩
abbrev main_v169 : Ref sig .tc := ⟨.hbm, 275, rfl⟩
abbrev main_v170 : Ref sig .tc := ⟨.hbm, 276, rfl⟩
abbrev main_c_85 : Ref sig .tc := ⟨.hbm, 277, rfl⟩
abbrev main_v171 : Ref sig .tc := ⟨.hbm, 278, rfl⟩
abbrev main_v172 : Ref sig .tc := ⟨.hbm, 279, rfl⟩
abbrev main_v173 : Ref sig .tc := ⟨.hbm, 280, rfl⟩
abbrev main_c_86 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_v180 : Ref sig .tc := ⟨.hbm, 288, rfl⟩
abbrev main_v181 : Ref sig .tc := ⟨.hbm, 289, rfl⟩
abbrev main_v182 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_c_87 : Ref sig .tc := ⟨.hbm, 297, rfl⟩
abbrev main_v189 : Ref sig .tc := ⟨.hbm, 298, rfl⟩
abbrev main_v190 : Ref sig .tc := ⟨.hbm, 299, rfl⟩
abbrev main_v191 : Ref sig .tc := ⟨.hbm, 300, rfl⟩
abbrev main_c_88 : Ref sig .tc := ⟨.hbm, 301, rfl⟩
abbrev main_v192 : Ref sig .tc := ⟨.hbm, 302, rfl⟩
abbrev main_v193 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_v197 : Ref sig .tc := ⟨.hbm, 307, rfl⟩
abbrev main_v198 : Ref sig .tc := ⟨.hbm, 308, rfl⟩
abbrev main_v199 : Ref sig .tc := ⟨.hbm, 309, rfl⟩
abbrev main_v200 : Ref sig .tc := ⟨.hbm, 310, rfl⟩
abbrev main_v201 : Ref sig .tc := ⟨.hbm, 311, rfl⟩
abbrev main_v202 : Ref sig .tc := ⟨.hbm, 312, rfl⟩
abbrev main_v203 : Ref sig .tc := ⟨.hbm, 313, rfl⟩
abbrev main_v204 : Ref sig .tc := ⟨.hbm, 314, rfl⟩
abbrev main_v205 : Ref sig .tc := ⟨.hbm, 315, rfl⟩
abbrev main_v206 : Ref sig .tc := ⟨.hbm, 316, rfl⟩
abbrev main_c_89 : Ref sig .tc := ⟨.hbm, 317, rfl⟩
abbrev main_v207 : Ref sig .tc := ⟨.hbm, 318, rfl⟩
abbrev main_v208 : Ref sig .tc := ⟨.hbm, 319, rfl⟩
abbrev main_v209 : Ref sig .tc := ⟨.hbm, 320, rfl⟩
abbrev main_c_90 : Ref sig .tc := ⟨.hbm, 321, rfl⟩
abbrev main_v210 : Ref sig .tc := ⟨.hbm, 322, rfl⟩
abbrev main_v211 : Ref sig .tc := ⟨.hbm, 323, rfl⟩
abbrev main_v212 : Ref sig .tc := ⟨.hbm, 324, rfl⟩
abbrev main_v213 : Ref sig .tc := ⟨.hbm, 325, rfl⟩
abbrev main_v214 : Ref sig .tc := ⟨.hbm, 326, rfl⟩
abbrev main_v215 : Ref sig .tc := ⟨.hbm, 327, rfl⟩
abbrev main_v216 : Ref sig .tc := ⟨.hbm, 328, rfl⟩
abbrev main_v217 : Ref sig .tc := ⟨.hbm, 329, rfl⟩
abbrev main_v218 : Ref sig .tc := ⟨.hbm, 330, rfl⟩
abbrev main_v219 : Ref sig .tc := ⟨.hbm, 331, rfl⟩
abbrev main_v220 : Ref sig .tc := ⟨.hbm, 332, rfl⟩
abbrev main_v221 : Ref sig .tc := ⟨.hbm, 333, rfl⟩
abbrev main_v222 : Ref sig .tc := ⟨.hbm, 334, rfl⟩
abbrev main_v223 : Ref sig .tc := ⟨.hbm, 335, rfl⟩
abbrev main_v224 : Ref sig .tc := ⟨.hbm, 336, rfl⟩
abbrev main_c_91 : Ref sig .tc := ⟨.hbm, 337, rfl⟩
abbrev main_v225 : Ref sig .tc := ⟨.hbm, 338, rfl⟩
abbrev main_v226 : Ref sig .tc := ⟨.hbm, 339, rfl⟩
abbrev main_v227 : Ref sig .tc := ⟨.hbm, 340, rfl⟩
abbrev main_c_92 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_v234 : Ref sig .tc := ⟨.hbm, 348, rfl⟩
abbrev main_v235 : Ref sig .tc := ⟨.hbm, 349, rfl⟩
abbrev main_v236 : Ref sig .tc := ⟨.hbm, 350, rfl⟩
abbrev main_v237 : Ref sig .tc := ⟨.hbm, 351, rfl⟩
abbrev main_v238 : Ref sig .tc := ⟨.hbm, 352, rfl⟩
abbrev main_v239 : Ref sig .tc := ⟨.hbm, 353, rfl⟩
abbrev main_v240 : Ref sig .tc := ⟨.hbm, 354, rfl⟩
abbrev main_v241 : Ref sig .tc := ⟨.hbm, 355, rfl⟩
abbrev main_v242 : Ref sig .tc := ⟨.hbm, 356, rfl⟩
abbrev main_c_93 : Ref sig .tc := ⟨.hbm, 357, rfl⟩
abbrev main_v243 : Ref sig .tc := ⟨.hbm, 358, rfl⟩
abbrev main_v244 : Ref sig .tc := ⟨.hbm, 359, rfl⟩
abbrev main_v245 : Ref sig .tc := ⟨.hbm, 360, rfl⟩
abbrev main_c_94 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_v252 : Ref sig .tc := ⟨.hbm, 368, rfl⟩
abbrev main_v253 : Ref sig .tc := ⟨.hbm, 369, rfl⟩
abbrev main_v254 : Ref sig .tc := ⟨.hbm, 370, rfl⟩
abbrev main_v255 : Ref sig .tc := ⟨.hbm, 371, rfl⟩
abbrev main_v256 : Ref sig .tc := ⟨.hbm, 372, rfl⟩
abbrev main_v257 : Ref sig .tc := ⟨.hbm, 373, rfl⟩
abbrev main_v258 : Ref sig .tc := ⟨.hbm, 374, rfl⟩
abbrev main_v259 : Ref sig .tc := ⟨.hbm, 375, rfl⟩
abbrev main_v260 : Ref sig .tc := ⟨.hbm, 376, rfl⟩
abbrev main_c_95 : Ref sig .tc := ⟨.hbm, 377, rfl⟩
abbrev main_v261 : Ref sig .tc := ⟨.hbm, 378, rfl⟩
abbrev main_v262 : Ref sig .tc := ⟨.hbm, 379, rfl⟩
abbrev main_v263 : Ref sig .tc := ⟨.hbm, 380, rfl⟩
abbrev main_c_96 : Ref sig .tc := ⟨.hbm, 381, rfl⟩
abbrev main_v264 : Ref sig .tc := ⟨.hbm, 382, rfl⟩
abbrev main_v265 : Ref sig .tc := ⟨.hbm, 383, rfl⟩
abbrev main_v266 : Ref sig .tc := ⟨.hbm, 384, rfl⟩
abbrev main_v267 : Ref sig .tc := ⟨.hbm, 385, rfl⟩
abbrev main_v268 : Ref sig .tc := ⟨.hbm, 386, rfl⟩
abbrev main_v269 : Ref sig .tc := ⟨.hbm, 387, rfl⟩
abbrev main_v270 : Ref sig .tc := ⟨.hbm, 388, rfl⟩
abbrev main_v271 : Ref sig .tc := ⟨.hbm, 389, rfl⟩
abbrev main_v272 : Ref sig .tc := ⟨.hbm, 390, rfl⟩
abbrev main_v273 : Ref sig .tc := ⟨.hbm, 391, rfl⟩
abbrev main_v274 : Ref sig .tc := ⟨.hbm, 392, rfl⟩
abbrev main_v275 : Ref sig .tc := ⟨.hbm, 393, rfl⟩
abbrev main_v276 : Ref sig .tc := ⟨.hbm, 394, rfl⟩
abbrev main_v277 : Ref sig .tc := ⟨.hbm, 395, rfl⟩
abbrev main_v278 : Ref sig .tc := ⟨.hbm, 396, rfl⟩
abbrev main_c_97 : Ref sig .tc := ⟨.hbm, 397, rfl⟩
abbrev main_v279 : Ref sig .tc := ⟨.hbm, 398, rfl⟩
abbrev main_v280 : Ref sig .tc := ⟨.hbm, 399, rfl⟩
abbrev main_v281 : Ref sig .tc := ⟨.hbm, 400, rfl⟩
abbrev main_c_98 : Ref sig .tc := ⟨.hbm, 401, rfl⟩
abbrev main_v282 : Ref sig .tc := ⟨.hbm, 402, rfl⟩
abbrev main_v283 : Ref sig .tc := ⟨.hbm, 403, rfl⟩
abbrev main_v284 : Ref sig .tc := ⟨.hbm, 404, rfl⟩
abbrev main_v285 : Ref sig .tc := ⟨.hbm, 405, rfl⟩
abbrev main_v286 : Ref sig .tc := ⟨.hbm, 406, rfl⟩
abbrev main_v287 : Ref sig .tc := ⟨.hbm, 407, rfl⟩
abbrev main_v288 : Ref sig .tc := ⟨.hbm, 408, rfl⟩
abbrev main_v289 : Ref sig .tc := ⟨.hbm, 409, rfl⟩
abbrev main_v290 : Ref sig .tc := ⟨.hbm, 410, rfl⟩
abbrev main_v291 : Ref sig .tc := ⟨.hbm, 411, rfl⟩
abbrev main_v292 : Ref sig .tc := ⟨.hbm, 412, rfl⟩
abbrev main_v293 : Ref sig .tc := ⟨.hbm, 413, rfl⟩
abbrev main_v294 : Ref sig .tc := ⟨.hbm, 414, rfl⟩
abbrev main_v295 : Ref sig .tc := ⟨.hbm, 415, rfl⟩
abbrev main_v296 : Ref sig .tc := ⟨.hbm, 416, rfl⟩
abbrev main_c_99 : Ref sig .tc := ⟨.hbm, 417, rfl⟩
abbrev main_v297 : Ref sig .tc := ⟨.hbm, 418, rfl⟩
abbrev main_v298 : Ref sig .tc := ⟨.hbm, 419, rfl⟩
abbrev main_v299 : Ref sig .tc := ⟨.hbm, 420, rfl⟩
abbrev main_c_100 : Ref sig .tc := ⟨.hbm, 421, rfl⟩
abbrev main_v300 : Ref sig .tc := ⟨.hbm, 422, rfl⟩
abbrev main_v301 : Ref sig .tc := ⟨.hbm, 423, rfl⟩
abbrev main_v302 : Ref sig .tc := ⟨.hbm, 424, rfl⟩
abbrev main_v303 : Ref sig .tc := ⟨.hbm, 425, rfl⟩
abbrev main_v304 : Ref sig .tc := ⟨.hbm, 426, rfl⟩
abbrev main_v305 : Ref sig .tc := ⟨.hbm, 427, rfl⟩
abbrev main_v306 : Ref sig .tc := ⟨.hbm, 428, rfl⟩

abbrev nD : Nat := 1
abbrev τ : Topo := Topo.v7x

variable {F : FTy → Type} [FloatOps F]

class Facts₀ : Prop where
  bcast_S_S8192x9x9x128 : S_.BroadcastsInDim S8192x9x9x128 (![] : Fin 0 → Fin S8192x9x9x128.rank)
  slices_S17x128x128_S1x128x128_0_0_0 : S17x128x128.Slices ![0, 0, 0] S1x128x128
  shapeCasts_S1x128x128_S128x128 : S1x128x128.ShapeCasts S128x128
  slices_S17x128_S1x128_0_0 : S17x128.Slices ![0, 0] S1x128
  shapeCasts_S1x128_S128 : S1x128.ShapeCasts S128
  bcast_S128_S1x1x128_2 : S128.BroadcastsInDim S1x1x128 (![2] : Fin 1 → Fin S1x1x128.rank)
  bcast_S1x1x128_S8192x1x128_0_1_2 : S1x1x128.BroadcastsInDim S8192x1x128 (![0, 1, 2] : Fin 3 → Fin S8192x1x128.rank)
  bcast_S_S1 : S_.BroadcastsInDim S1 (![] : Fin 0 → Fin S1.rank)
  bcast_S1_S1x1_0 : S1.BroadcastsInDim S1x1 (![0] : Fin 1 → Fin S1x1.rank)
  concatenates_S1x1_S1x1_S1x2_d1 : Shape.Concatenates [S1x1, S1x1] S1x2 1
  slices_S17x128x128_S1x128x128_1_0_0 : S17x128x128.Slices ![1, 0, 0] S1x128x128
  slices_S17x128_S1x128_1_0 : S17x128.Slices ![1, 0] S1x128
  bcast_S1x1x128_S8192x2x128_0_1_2 : S1x1x128.BroadcastsInDim S8192x2x128 (![0, 1, 2] : Fin 3 → Fin S8192x2x128.rank)
  bcast_S_S2 : S_.BroadcastsInDim S2 (![] : Fin 0 → Fin S2.rank)
  bcast_S2_S2x1_0 : S2.BroadcastsInDim S2x1 (![0] : Fin 1 → Fin S2x1.rank)
  concatenates_S2x1_S2x1_S2x2_d1 : Shape.Concatenates [S2x1, S2x1] S2x2 1
  slices_S17x128x128_S1x128x128_2_0_0 : S17x128x128.Slices ![2, 0, 0] S1x128x128
  slices_S17x128_S1x128_2_0 : S17x128.Slices ![2, 0] S1x128
  bcast_S1x1x128_S8192x3x128_0_1_2 : S1x1x128.BroadcastsInDim S8192x3x128 (![0, 1, 2] : Fin 3 → Fin S8192x3x128.rank)
  bcast_S_S3 : S_.BroadcastsInDim S3 (![] : Fin 0 → Fin S3.rank)
  bcast_S3_S3x1_0 : S3.BroadcastsInDim S3x1 (![0] : Fin 1 → Fin S3x1.rank)
  concatenates_S3x1_S3x1_S3x2_d1 : Shape.Concatenates [S3x1, S3x1] S3x2 1
  slices_S17x128x128_S1x128x128_3_0_0 : S17x128x128.Slices ![3, 0, 0] S1x128x128
  slices_S17x128_S1x128_3_0 : S17x128.Slices ![3, 0] S1x128
  bcast_S1x1x128_S8192x4x128_0_1_2 : S1x1x128.BroadcastsInDim S8192x4x128 (![0, 1, 2] : Fin 3 → Fin S8192x4x128.rank)
  bcast_S_S4 : S_.BroadcastsInDim S4 (![] : Fin 0 → Fin S4.rank)
  bcast_S4_S4x1_0 : S4.BroadcastsInDim S4x1 (![0] : Fin 1 → Fin S4x1.rank)
  concatenates_S4x1_S4x1_S4x2_d1 : Shape.Concatenates [S4x1, S4x1] S4x2 1
  slices_S17x128x128_S1x128x128_4_0_0 : S17x128x128.Slices ![4, 0, 0] S1x128x128
  slices_S17x128_S1x128_4_0 : S17x128.Slices ![4, 0] S1x128
  bcast_S1x1x128_S8192x5x128_0_1_2 : S1x1x128.BroadcastsInDim S8192x5x128 (![0, 1, 2] : Fin 3 → Fin S8192x5x128.rank)
  bcast_S_S5 : S_.BroadcastsInDim S5 (![] : Fin 0 → Fin S5.rank)
  bcast_S5_S5x1_0 : S5.BroadcastsInDim S5x1 (![0] : Fin 1 → Fin S5x1.rank)
  concatenates_S5x1_S5x1_S5x2_d1 : Shape.Concatenates [S5x1, S5x1] S5x2 1
  slices_S17x128x128_S1x128x128_5_0_0 : S17x128x128.Slices ![5, 0, 0] S1x128x128
  slices_S17x128_S1x128_5_0 : S17x128.Slices ![5, 0] S1x128
  bcast_S1x1x128_S8192x6x128_0_1_2 : S1x1x128.BroadcastsInDim S8192x6x128 (![0, 1, 2] : Fin 3 → Fin S8192x6x128.rank)
  bcast_S_S6 : S_.BroadcastsInDim S6 (![] : Fin 0 → Fin S6.rank)
  bcast_S6_S6x1_0 : S6.BroadcastsInDim S6x1 (![0] : Fin 1 → Fin S6x1.rank)
  concatenates_S6x1_S6x1_S6x2_d1 : Shape.Concatenates [S6x1, S6x1] S6x2 1
  slices_S17x128x128_S1x128x128_6_0_0 : S17x128x128.Slices ![6, 0, 0] S1x128x128
  slices_S17x128_S1x128_6_0 : S17x128.Slices ![6, 0] S1x128
  bcast_S1x1x128_S8192x7x128_0_1_2 : S1x1x128.BroadcastsInDim S8192x7x128 (![0, 1, 2] : Fin 3 → Fin S8192x7x128.rank)
  bcast_S_S7 : S_.BroadcastsInDim S7 (![] : Fin 0 → Fin S7.rank)
  bcast_S7_S7x1_0 : S7.BroadcastsInDim S7x1 (![0] : Fin 1 → Fin S7x1.rank)
  concatenates_S7x1_S7x1_S7x2_d1 : Shape.Concatenates [S7x1, S7x1] S7x2 1
  slices_S17x128x128_S1x128x128_7_0_0 : S17x128x128.Slices ![7, 0, 0] S1x128x128
  slices_S17x128_S1x128_7_0 : S17x128.Slices ![7, 0] S1x128
  bcast_S1x1x128_S8192x8x128_0_1_2 : S1x1x128.BroadcastsInDim S8192x8x128 (![0, 1, 2] : Fin 3 → Fin S8192x8x128.rank)
  bcast_S_S8 : S_.BroadcastsInDim S8 (![] : Fin 0 → Fin S8.rank)
  bcast_S8_S8x1_0 : S8.BroadcastsInDim S8x1 (![0] : Fin 1 → Fin S8x1.rank)
  concatenates_S8x1_S8x1_S8x2_d1 : Shape.Concatenates [S8x1, S8x1] S8x2 1
  slices_S17x128x128_S1x128x128_8_0_0 : S17x128x128.Slices ![8, 0, 0] S1x128x128
  slices_S17x128_S1x128_8_0 : S17x128.Slices ![8, 0] S1x128
  bcast_S1x1x128_S8192x9x128_0_1_2 : S1x1x128.BroadcastsInDim S8192x9x128 (![0, 1, 2] : Fin 3 → Fin S8192x9x128.rank)
  bcast_S_S9 : S_.BroadcastsInDim S9 (![] : Fin 0 → Fin S9.rank)
  bcast_S9_S9x1_0 : S9.BroadcastsInDim S9x1 (![0] : Fin 1 → Fin S9x1.rank)
  concatenates_S9x1_S9x1_S9x2_d1 : Shape.Concatenates [S9x1, S9x1] S9x2 1
  slices_S17x128x128_S1x128x128_9_0_0 : S17x128x128.Slices ![9, 0, 0] S1x128x128
  slices_S17x128_S1x128_9_0 : S17x128.Slices ![9, 0] S1x128
  slices_S17x128x128_S1x128x128_10_0_0 : S17x128x128.Slices ![10, 0, 0] S1x128x128
  slices_S17x128_S1x128_10_0 : S17x128.Slices ![10, 0] S1x128
  slices_S17x128x128_S1x128x128_11_0_0 : S17x128x128.Slices ![11, 0, 0] S1x128x128
  slices_S17x128_S1x128_11_0 : S17x128.Slices ![11, 0] S1x128
  slices_S17x128x128_S1x128x128_12_0_0 : S17x128x128.Slices ![12, 0, 0] S1x128x128
  slices_S17x128_S1x128_12_0 : S17x128.Slices ![12, 0] S1x128
  slices_S17x128x128_S1x128x128_13_0_0 : S17x128x128.Slices ![13, 0, 0] S1x128x128
  slices_S17x128_S1x128_13_0 : S17x128.Slices ![13, 0] S1x128
  slices_S17x128x128_S1x128x128_14_0_0 : S17x128x128.Slices ![14, 0, 0] S1x128x128
  slices_S17x128_S1x128_14_0 : S17x128.Slices ![14, 0] S1x128
  slices_S17x128x128_S1x128x128_15_0_0 : S17x128x128.Slices ![15, 0, 0] S1x128x128
  slices_S17x128_S1x128_15_0 : S17x128.Slices ![15, 0] S1x128
  slices_S17x128x128_S1x128x128_16_0_0 : S17x128x128.Slices ![16, 0, 0] S1x128x128
  slices_S17x128_S1x128_16_0 : S17x128.Slices ![16, 0] S1x128
  dot_S8192x1x128_S128x128_S8192x1x128_2_1_01_0_n_n_wf : DotDims.WF S8192x1x128 S128x128 S8192x1x128 [2] [1] [0, 1] [0] [] []
  scatter_S8192x9x9x128_S1x2_S8192x1x128_02_12_12_1_wf : ScatterDims.WF S8192x9x9x128 S1x2 S8192x1x128 [0, 2] [1, 2] [1, 2] 1
  dot_S8192x2x128_S128x128_S8192x2x128_2_1_01_0_n_n_wf : DotDims.WF S8192x2x128 S128x128 S8192x2x128 [2] [1] [0, 1] [0] [] []
  scatter_S8192x9x9x128_S2x2_S8192x2x128_02_12_12_1_wf : ScatterDims.WF S8192x9x9x128 S2x2 S8192x2x128 [0, 2] [1, 2] [1, 2] 1
  dot_S8192x3x128_S128x128_S8192x3x128_2_1_01_0_n_n_wf : DotDims.WF S8192x3x128 S128x128 S8192x3x128 [2] [1] [0, 1] [0] [] []
  scatter_S8192x9x9x128_S3x2_S8192x3x128_02_12_12_1_wf : ScatterDims.WF S8192x9x9x128 S3x2 S8192x3x128 [0, 2] [1, 2] [1, 2] 1
  dot_S8192x4x128_S128x128_S8192x4x128_2_1_01_0_n_n_wf : DotDims.WF S8192x4x128 S128x128 S8192x4x128 [2] [1] [0, 1] [0] [] []
  scatter_S8192x9x9x128_S4x2_S8192x4x128_02_12_12_1_wf : ScatterDims.WF S8192x9x9x128 S4x2 S8192x4x128 [0, 2] [1, 2] [1, 2] 1
  dot_S8192x5x128_S128x128_S8192x5x128_2_1_01_0_n_n_wf : DotDims.WF S8192x5x128 S128x128 S8192x5x128 [2] [1] [0, 1] [0] [] []
  scatter_S8192x9x9x128_S5x2_S8192x5x128_02_12_12_1_wf : ScatterDims.WF S8192x9x9x128 S5x2 S8192x5x128 [0, 2] [1, 2] [1, 2] 1
  dot_S8192x6x128_S128x128_S8192x6x128_2_1_01_0_n_n_wf : DotDims.WF S8192x6x128 S128x128 S8192x6x128 [2] [1] [0, 1] [0] [] []
  scatter_S8192x9x9x128_S6x2_S8192x6x128_02_12_12_1_wf : ScatterDims.WF S8192x9x9x128 S6x2 S8192x6x128 [0, 2] [1, 2] [1, 2] 1
  dot_S8192x7x128_S128x128_S8192x7x128_2_1_01_0_n_n_wf : DotDims.WF S8192x7x128 S128x128 S8192x7x128 [2] [1] [0, 1] [0] [] []
  scatter_S8192x9x9x128_S7x2_S8192x7x128_02_12_12_1_wf : ScatterDims.WF S8192x9x9x128 S7x2 S8192x7x128 [0, 2] [1, 2] [1, 2] 1
  dot_S8192x8x128_S128x128_S8192x8x128_2_1_01_0_n_n_wf : DotDims.WF S8192x8x128 S128x128 S8192x8x128 [2] [1] [0, 1] [0] [] []
  scatter_S8192x9x9x128_S8x2_S8192x8x128_02_12_12_1_wf : ScatterDims.WF S8192x9x9x128 S8x2 S8192x8x128 [0, 2] [1, 2] [1, 2] 1
  dot_S8192x9x128_S128x128_S8192x9x128_2_1_01_0_n_n_wf : DotDims.WF S8192x9x128 S128x128 S8192x9x128 [2] [1] [0, 1] [0] [] []
  scatter_S8192x9x9x128_S9x2_S8192x9x128_02_12_12_1_wf : ScatterDims.WF S8192x9x9x128 S9x2 S8192x9x128 [0, 2] [1, 2] [1, 2] 1

variable [Facts₀]

def dot_S8192x1x128_S128x128_S8192x1x128_2_1_01_0_n_n : DotDims S8192x1x128 S128x128 S8192x1x128 where
  lhsContracting := [2]
  rhsContracting := [1]
  lhsNonContracting := [0, 1]
  rhsNonContracting := [0]
  lhsBatch := []
  rhsBatch := []
  wf := dot_S8192x1x128_S128x128_S8192x1x128_2_1_01_0_n_n_wf
def scatter_S8192x9x9x128_S1x2_S8192x1x128_02_12_12_1 : ScatterDims S8192x9x9x128 S1x2 S8192x1x128 where
  updateWindowDims := [0, 2]
  insertedWindowDims := [1, 2]
  scatterDimsToOperandDims := [1, 2]
  indexVectorDim := 1
  wf := scatter_S8192x9x9x128_S1x2_S8192x1x128_02_12_12_1_wf
def dot_S8192x2x128_S128x128_S8192x2x128_2_1_01_0_n_n : DotDims S8192x2x128 S128x128 S8192x2x128 where
  lhsContracting := [2]
  rhsContracting := [1]
  lhsNonContracting := [0, 1]
  rhsNonContracting := [0]
  lhsBatch := []
  rhsBatch := []
  wf := dot_S8192x2x128_S128x128_S8192x2x128_2_1_01_0_n_n_wf
def scatter_S8192x9x9x128_S2x2_S8192x2x128_02_12_12_1 : ScatterDims S8192x9x9x128 S2x2 S8192x2x128 where
  updateWindowDims := [0, 2]
  insertedWindowDims := [1, 2]
  scatterDimsToOperandDims := [1, 2]
  indexVectorDim := 1
  wf := scatter_S8192x9x9x128_S2x2_S8192x2x128_02_12_12_1_wf
def dot_S8192x3x128_S128x128_S8192x3x128_2_1_01_0_n_n : DotDims S8192x3x128 S128x128 S8192x3x128 where
  lhsContracting := [2]
  rhsContracting := [1]
  lhsNonContracting := [0, 1]
  rhsNonContracting := [0]
  lhsBatch := []
  rhsBatch := []
  wf := dot_S8192x3x128_S128x128_S8192x3x128_2_1_01_0_n_n_wf
def scatter_S8192x9x9x128_S3x2_S8192x3x128_02_12_12_1 : ScatterDims S8192x9x9x128 S3x2 S8192x3x128 where
  updateWindowDims := [0, 2]
  insertedWindowDims := [1, 2]
  scatterDimsToOperandDims := [1, 2]
  indexVectorDim := 1
  wf := scatter_S8192x9x9x128_S3x2_S8192x3x128_02_12_12_1_wf
def dot_S8192x4x128_S128x128_S8192x4x128_2_1_01_0_n_n : DotDims S8192x4x128 S128x128 S8192x4x128 where
  lhsContracting := [2]
  rhsContracting := [1]
  lhsNonContracting := [0, 1]
  rhsNonContracting := [0]
  lhsBatch := []
  rhsBatch := []
  wf := dot_S8192x4x128_S128x128_S8192x4x128_2_1_01_0_n_n_wf
def scatter_S8192x9x9x128_S4x2_S8192x4x128_02_12_12_1 : ScatterDims S8192x9x9x128 S4x2 S8192x4x128 where
  updateWindowDims := [0, 2]
  insertedWindowDims := [1, 2]
  scatterDimsToOperandDims := [1, 2]
  indexVectorDim := 1
  wf := scatter_S8192x9x9x128_S4x2_S8192x4x128_02_12_12_1_wf
def dot_S8192x5x128_S128x128_S8192x5x128_2_1_01_0_n_n : DotDims S8192x5x128 S128x128 S8192x5x128 where
  lhsContracting := [2]
  rhsContracting := [1]
  lhsNonContracting := [0, 1]
  rhsNonContracting := [0]
  lhsBatch := []
  rhsBatch := []
  wf := dot_S8192x5x128_S128x128_S8192x5x128_2_1_01_0_n_n_wf
def scatter_S8192x9x9x128_S5x2_S8192x5x128_02_12_12_1 : ScatterDims S8192x9x9x128 S5x2 S8192x5x128 where
  updateWindowDims := [0, 2]
  insertedWindowDims := [1, 2]
  scatterDimsToOperandDims := [1, 2]
  indexVectorDim := 1
  wf := scatter_S8192x9x9x128_S5x2_S8192x5x128_02_12_12_1_wf
def dot_S8192x6x128_S128x128_S8192x6x128_2_1_01_0_n_n : DotDims S8192x6x128 S128x128 S8192x6x128 where
  lhsContracting := [2]
  rhsContracting := [1]
  lhsNonContracting := [0, 1]
  rhsNonContracting := [0]
  lhsBatch := []
  rhsBatch := []
  wf := dot_S8192x6x128_S128x128_S8192x6x128_2_1_01_0_n_n_wf
def scatter_S8192x9x9x128_S6x2_S8192x6x128_02_12_12_1 : ScatterDims S8192x9x9x128 S6x2 S8192x6x128 where
  updateWindowDims := [0, 2]
  insertedWindowDims := [1, 2]
  scatterDimsToOperandDims := [1, 2]
  indexVectorDim := 1
  wf := scatter_S8192x9x9x128_S6x2_S8192x6x128_02_12_12_1_wf
def dot_S8192x7x128_S128x128_S8192x7x128_2_1_01_0_n_n : DotDims S8192x7x128 S128x128 S8192x7x128 where
  lhsContracting := [2]
  rhsContracting := [1]
  lhsNonContracting := [0, 1]
  rhsNonContracting := [0]
  lhsBatch := []
  rhsBatch := []
  wf := dot_S8192x7x128_S128x128_S8192x7x128_2_1_01_0_n_n_wf
def scatter_S8192x9x9x128_S7x2_S8192x7x128_02_12_12_1 : ScatterDims S8192x9x9x128 S7x2 S8192x7x128 where
  updateWindowDims := [0, 2]
  insertedWindowDims := [1, 2]
  scatterDimsToOperandDims := [1, 2]
  indexVectorDim := 1
  wf := scatter_S8192x9x9x128_S7x2_S8192x7x128_02_12_12_1_wf
def dot_S8192x8x128_S128x128_S8192x8x128_2_1_01_0_n_n : DotDims S8192x8x128 S128x128 S8192x8x128 where
  lhsContracting := [2]
  rhsContracting := [1]
  lhsNonContracting := [0, 1]
  rhsNonContracting := [0]
  lhsBatch := []
  rhsBatch := []
  wf := dot_S8192x8x128_S128x128_S8192x8x128_2_1_01_0_n_n_wf
def scatter_S8192x9x9x128_S8x2_S8192x8x128_02_12_12_1 : ScatterDims S8192x9x9x128 S8x2 S8192x8x128 where
  updateWindowDims := [0, 2]
  insertedWindowDims := [1, 2]
  scatterDimsToOperandDims := [1, 2]
  indexVectorDim := 1
  wf := scatter_S8192x9x9x128_S8x2_S8192x8x128_02_12_12_1_wf
def dot_S8192x9x128_S128x128_S8192x9x128_2_1_01_0_n_n : DotDims S8192x9x128 S128x128 S8192x9x128 where
  lhsContracting := [2]
  rhsContracting := [1]
  lhsNonContracting := [0, 1]
  rhsNonContracting := [0]
  lhsBatch := []
  rhsBatch := []
  wf := dot_S8192x9x128_S128x128_S8192x9x128_2_1_01_0_n_n_wf
def scatter_S8192x9x9x128_S9x2_S8192x9x128_02_12_12_1 : ScatterDims S8192x9x9x128 S9x2 S8192x9x128 where
  updateWindowDims := [0, 2]
  insertedWindowDims := [1, 2]
  scatterDimsToOperandDims := [1, 2]
  indexVectorDim := 1
  wf := scatter_S8192x9x9x128_S9x2_S8192x9x128_02_12_12_1_wf

class Facts : Prop extends Facts₀ where

variable [Facts]
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibFlattenCasts.lean ====
import Idealize.ShloMosaic.Lib.Pipeline.Value
import Idealize.ShloMosaic.Lib.ValueIdx

/-!
# Shape casts that merge, split or drop axes, read at an index given by coordinates

A rank-3 array `[a, b, c]` viewed as the matrix `[a·b, c]` (its two leading axes merged) and back, an `[a, 1, b]`
array viewed as the matrix `[a, b]` (its middle unit axis dropped), and a vector `[a]` viewed as `[1, 1, a]`: each
reads the operand at the index with the same row-major position. These are the forms a batched matrix product
`x.reshape(a·b, c) @ w`, reshaped back, and a bias `v[None, None, :]` are spelt with.
-/

namespace Idealize.ShloMosaic.ValueIdx

open Idealize.ShloMosaic

variable {α : Type}

/-- An `[a, b, c]` array cast to `[n, c]` reads, at `(R, j)` with `R = p·b + r`, the operand at `(p, r, j)`: both sit at
    row-major position `(p·b + r)·c + j`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (r : Fin b) (j : Fin c) (R : Fin n)
    (hR : R.val = p.val * b + r.val) :
    shapeCast ⟨2, ![n, c]⟩ x h (ix2 R j) = x (ix3 p r j) :=
  shapeCast_apply x h _ _ (by
    rw [Shape.rowMajor_val_three, Shape.rowMajor_val_two]
    show (p.val * b + r.val) * c + j.val = R.val * c + j.val
    rw [hR])

/-- An `[n, c]` matrix cast to `[a, b, c]` reads, at `(p, r, j)`, the operand at `(R, j)` with `R = p·b + r`. -/
theorem shapeCast_nc_abc_apply {a b c n : ℕ} (x : (⟨2, ![n, c]⟩ : Shape).Idx → α)
    (h : (⟨2, ![n, c]⟩ : Shape).ShapeCasts ⟨3, ![a, b, c]⟩) (p : Fin a) (r : Fin b) (j : Fin c) (R : Fin n)
    (hR : R.val = p.val * b + r.val) :
    shapeCast ⟨3, ![a, b, c]⟩ x h (ix3 p r j) = x (ix2 R j) :=
  shapeCast_apply x h _ _ (by
    rw [Shape.rowMajor_val_three, Shape.rowMajor_val_two]
    show R.val * c + j.val = (p.val * b + r.val) * c + j.val
    rw [hR])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A vector `[a]` cast to `[1, 1, a]` reads, at `(u, w, j)`, the operand at `j`. -/
theorem shapeCast_a_11a_apply {a : ℕ} (x : (⟨1, ![a]⟩ : Shape).Idx → α)
    (h : (⟨1, ![a]⟩ : Shape).ShapeCasts ⟨3, ![1, 1, a]⟩) (u w : Fin 1) (j : Fin a) :
    shapeCast ⟨3, ![1, 1, a]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * a + j.val
    rw [hu, hw]
    simp)

end Idealize.ShloMosaic.ValueIdx
-- ==== Proof.KerCell.lean ====
/-
  One cell of a diagonal, as the matrix unit computes it for 128 batch elements.

  A block x of shape [128, L, 128] (batch element, cell, input channel) is laid out cell-major, [L, 128, 128], flattened to
  L·128 rows, multiplied by the transposed 128 x 128 weight matrix into an accumulator of zeros, and a bias row is added to
  every row; the result is viewed as [L, 128, 128] again and cell j is cut out.  Row j·128 + p of the flattened matrix is batch
  element p at cell j, so entry (p, o) of the cut is

      Σ_k x[p, j, k] · w[o, k]  +  β[o].

  Narrowing the operands to a shorter float format does nothing at the exact extended reals, and casting the bias row to a vector
  and back is the identity.
-/
import Idealize.ShloMosaic.PureOps.Ideal.Laws
import Idealize.ShloMosaic.Lib.ValueIdx
import Idealize.ShloMosaic.Lib.ValueLayout
import Idealize.ShloMosaic.Lib.Pipeline.Value
import proofs.«141148_j40656160424525_2_alg».proof.Proof.LibPlainMatmul
import proofs.«141148_j40656160424525_2_alg».proof.Proof.LibFlattenCasts

noncomputable section

namespace Cert.DiagCell

open Idealize.ShloMosaic Idealize.ShloMosaic.ValueIdx

variable {L N : ℕ}

/-- Row j·128 + p, column o, of the flattened product plus bias. -/
theorem rows_apply
    (x : FVec Ideal ⟨3, ![128, L, 128]⟩ .f32) (w : FVec Ideal ⟨3, ![1, 128, 128]⟩ .bf16) (β : FVec Ideal ⟨2, ![1, 128]⟩ .f32)
    (hT : (⟨3, ![128, L, 128]⟩ : Shape).Transposes [1, 0, 2] ⟨3, ![L, 128, 128]⟩)
    (hF : (⟨3, ![L, 128, 128]⟩ : Shape).ShapeCasts ⟨2, ![N, 128]⟩)
    (hlt : FTy.bf16.bits < FTy.f32.bits)
    (hW : (⟨3, ![1, 128, 128]⟩ : Shape).ShapeCasts ⟨2, ![128, 128]⟩)
    (hWT : (⟨2, ![128, 128]⟩ : Shape).Transposes [1, 0] ⟨2, ![128, 128]⟩)
    (hB1 : (⟨2, ![1, 128]⟩ : Shape).ShapeCasts ⟨1, ![128]⟩)
    (hB2 : (⟨1, ![128]⟩ : Shape).ShapeCasts ⟨2, ![1, 128]⟩)
    (hBc : (⟨2, ![1, 128]⟩ : Shape).Broadcasts ⟨2, ![N, 128]⟩)
    (D : DotDims ⟨2, ![N, 128]⟩ ⟨2, ![128, 128]⟩ ⟨2, ![N, 128]⟩)
    (wf : DotDims.WF ⟨2, ![N, 128]⟩ ⟨2, ![128, 128]⟩ ⟨2, ![N, 128]⟩ [1] [0] [0] [1] [] [])
    (hD : D = ⟨[1], [0], [0], [1], [], [], wf⟩)
    (jn : ℕ) (hj : jn < L) (p o : Fin 128) (R : Fin N) (hR : R.val = jn * 128 + p.val) :
    addf (matmul D none
          (truncf .bf16 (shapeCast ⟨2, ![N, 128]⟩ (transpose ⟨3, ![L, 128, 128]⟩ [1, 0, 2] x hT) hF) hlt)
          (transpose ⟨2, ![128, 128]⟩ [1, 0] (shapeCast ⟨2, ![128, 128]⟩ w hW) hWT)
          (constant (F := Ideal) ⟨2, ![N, 128]⟩ .f32 0x00000000#32))
        (broadcastTo ⟨2, ![N, 128]⟩ (shapeCast ⟨2, ![1, 128]⟩ (shapeCast ⟨1, ![128]⟩ β hB1) hB2) hBc) (ix2 R o)
      = (∑ k : Fin 128, x (ix3 p ⟨jn, hj⟩ k) * w (ix3 (0 : Fin 1) o k)) + β (ix2 (0 : Fin 1) o) := by
  subst hD
  rw [addf_apply, matmul_plain_zero_apply wf none _ _ R o, shapeCast_shapeCast β hB1 hB2]
  congr 1
  · refine Finset.sum_congr rfl fun k _ => ?_
    rw [truncf_apply, shapeCast_abc_nc_apply _ hF ⟨jn, hj⟩ p k R hR, transpose_ix2_apply _ hWT k o,
      shapeCast_1ab_ab_apply w hW o k]
    congr 1
    exact transpose_apply _ x hT _ _ fun c => match c with | ⟨0, _⟩ => rfl | ⟨1, _⟩ => rfl | ⟨2, _⟩ => rfl
  · exact broadcastTo_apply β hBc _ _ fun a => match a with
      | ⟨0, _⟩ => by simp
      | ⟨1, _⟩ => by simp

/-- Cell j of an [N, 128] matrix viewed as [L, 128, 128] (N = L·128), cut out as a 128 x 128 matrix: its entry (p, o) is the
    matrix's entry in row j·128 + p. -/
theorem cell_apply (Z : FVec Ideal ⟨2, ![N, 128]⟩ .f32)
    (hU : (⟨2, ![N, 128]⟩ : Shape).ShapeCasts ⟨3, ![L, 128, 128]⟩)
    (jn : ℕ) (hj : jn < L)
    (hS : (⟨3, ![L, 128, 128]⟩ : Shape).Slices ![jn, 0, 0] ⟨3, ![1, 128, 128]⟩)
    (hO : (⟨3, ![1, 128, 128]⟩ : Shape).ShapeCasts ⟨2, ![128, 128]⟩)
    (p o : Fin 128) (R : Fin N) (hR : R.val = jn * 128 + p.val) :
    shapeCast ⟨2, ![128, 128]⟩
        (extractStridedSlice ⟨3, ![1, 128, 128]⟩ ![jn, 0, 0] (shapeCast ⟨3, ![L, 128, 128]⟩ Z hU) hS) hO (ix2 p o)
      = Z (ix2 R o) := by
  rw [shapeCast_1ab_ab_apply _ hO p o,
    extractStridedSlice_apply ![jn, 0, 0] _ hS (ix3 (0 : Fin 1) p o) (ix3 ⟨jn, hj⟩ p o)
      (fun a => match a with
        | ⟨0, _⟩ => rfl
        | ⟨1, _⟩ => (Nat.zero_add _).symm
        | ⟨2, _⟩ => (Nat.zero_add _).symm),
    shapeCast_nc_abc_apply Z hU ⟨jn, hj⟩ p o R hR]

/-- A diagonal with one cell: the 128 x 128 result viewed as [1, 128, 128] and back is itself. -/
theorem single_apply (Z : FVec Ideal ⟨2, ![128, 128]⟩ .f32)
    (h : (⟨2, ![128, 128]⟩ : Shape).ShapeCasts ⟨3, ![1, 128, 128]⟩)
    (h' : (⟨3, ![1, 128, 128]⟩ : Shape).ShapeCasts ⟨2, ![128, 128]⟩) (i : (⟨2, ![128, 128]⟩ : Shape).Idx) :
    shapeCast ⟨2, ![128, 128]⟩ (shapeCast ⟨3, ![1, 128, 128]⟩ Z h) h' i = Z i :=
  congrFun (shapeCast_shapeCast Z h h') i

end Cert.DiagCell

end
-- ==== Proof.KerPieces.lean ====
/-
  The 81 stores of the kernel body, one per board cell.

  Store number q = 9·r + c writes cell (r, c): the cell number j = r - max (0, r + c - 8) of diagonal r + c, cut out of that diagonal's
  [L, 128, 128] result.  Whatever way the body's text groups the operations, the stored 128 x 128 matrix has at (p, o) the entry

      Σ_k x[p, j, k] · w[o, k]  +  β[o]

  of the diagonal's linear layer, x the diagonal's input block, w its weight matrix and β its bias row.
-/
import proofs.«141148_j40656160424525_2_alg».proof.Proof.Gen.KernelIdeal.Skeleton
import proofs.«141148_j40656160424525_2_alg».proof.Proof.KerCell

noncomputable section

namespace Cert.KernelIdeal.Pieces

open Idealize.ShloMosaic Idealize.ShloMosaic.ValueIdx Cert.KernelIdeal Cert.KernelIdeal.Gen Cert.DiagCell

/-- Cell (0, 0): number 0 on diagonal 0. -/
theorem cell_0 (x : Vec Ideal S128x1x128 .f32) (w : Vec Ideal S1x128x128 .bf16) (β : Vec Ideal S1x128 .f32) (p o : Fin 128) :
    k0_pay3 x w β (ix2 p o)
      = (∑ k : Fin 128, x (ix3 p ⟨0, by decide⟩ k) * w (ix3 (0 : Fin 1) o k)) + β (ix2 (0 : Fin 1) o) := by
  unfold k0_pay3
  exact (single_apply _ _ _ (ix2 p o)).trans
    (rows_apply (L := 1) (N := 128) x w β _ _ _ _ _ _ _ _ _ _ rfl 0 (by decide) p o p (by omega))

/-- Cell (0, 1): number 0 on diagonal 1. -/
theorem cell_1 (x : Vec Ideal S128x2x128 .f32) (w : Vec Ideal S1x128x128 .bf16) (β : Vec Ideal S1x128 .f32) (p o : Fin 128) :
    k0_pay5 x w β (ix2 p o)
      = (∑ k : Fin 128, x (ix3 p ⟨0, by decide⟩ k) * w (ix3 (0 : Fin 1) o k)) + β (ix2 (0 : Fin 1) o) := by
  unfold k0_pay5 k0_pay4
  exact (cell_apply (L := 2) (N := 256) _ _ 0 (by decide) _ _ p o ⟨0 * 128 + p.val, by omega⟩ rfl).trans
    (rows_apply x w β _ _ _ _ _ _ _ _ _ _ rfl 0 (by decide) p o _ rfl)

/-- Cell (0, 2): number 0 on diagonal 2. -/
theorem cell_2 (x : Vec Ideal S128x3x128 .f32) (w : Vec Ideal S1x128x128 .bf16) (β : Vec Ideal S1x128 .f32) (p o : Fin 128) :
    k0_pay8 x w β (ix2 p o)
      = (∑ k : Fin 128, x (ix3 p ⟨0, by decide⟩ k) * w (ix3 (0 : Fin 1) o k)) + β (ix2 (0 : Fin 1) o) := by
  unfold k0_pay8 k0_pay7
  exact (cell_apply (L := 3) (N := 384) _ _ 0 (by decide) _ _ p o ⟨0 * 128 + p.val, by omega⟩ rfl).trans
    (rows_apply x w β _ _ _ _ _ _ _ _ _ _ rfl 0 (by decide) p o _ rfl)

/-- Cell (0, 3): number 0 on diagonal 3. -/
theorem cell_3 (x : Vec Ideal S128x4x128 .f32) (w : Vec Ideal S1x128x128 .bf16) (β : Vec Ideal S1x128 .f32) (p o : Fin 128) :
    k0_pay14 (k0_pay11 x) (k0_pay12 w) β (ix2 p o)
      = (∑ k : Fin 128, x (ix3 p ⟨0, by decide⟩ k) * w (ix3 (0 : Fin 1) o k)) + β (ix2 (0 : Fin 1) o) := by
  unfold k0_pay14 k0_pay13 k0_pay11 k0_pay12
  exact (cell_apply (L := 4) (N := 512) _ _ 0 (by decide) _ _ p o ⟨0 * 128 + p.val, by omega⟩ rfl).trans
    (rows_apply x w β _ _ _ _ _ _ _ _ _ _ rfl 0 (by decide) p o _ rfl)

/-- Cell (0, 4): number 0 on diagonal 4. -/
theorem cell_4 (x : Vec Ideal S128x5x128 .f32) (w : Vec Ideal S1x128x128 .bf16) (β : Vec Ideal S1x128 .f32) (p o : Fin 128) :
    k0_pay19 x w β (ix2 p o)
      = (∑ k : Fin 128, x (ix3 p ⟨0, by decide⟩ k) * w (ix3 (0 : Fin 1) o k)) + β (ix2 (0 : Fin 1) o) := by
  unfold k0_pay19 k0_pay18
  exact (cell_apply (L := 5) (N := 640) _ _ 0 (by decide) _ _ p o ⟨0 * 128 + p.val, by omega⟩ rfl).trans
    (rows_apply x w β _ _ _ _ _ _ _ _ _ _ rfl 0 (by decide) p o _ rfl)

/-- Cell (0, 5): number 0 on diagonal 5. -/
theorem cell_5 (x : Vec Ideal S128x6x128 .f32) (w : Vec Ideal S1x128x128 .bf16) (β : Vec Ideal S1x128 .f32) (p o : Fin 128) :
    k0_pay25 x w β (ix2 p o)
      = (∑ k : Fin 128, x (ix3 p ⟨0, by decide⟩ k) * w (ix3 (0 : Fin 1) o k)) + β (ix2 (0 : Fin 1) o) := by
  unfold k0_pay25 k0_pay24
  exact (cell_apply (L := 6) (N := 768) _ _ 0 (by decide) _ _ p o ⟨0 * 128 + p.val, by omega⟩ rfl).trans
    (rows_apply x w β _ _ _ _ _ _ _ _ _ _ rfl 0 (by decide) p o _ rfl)

/-- Cell (0, 6): number 0 on diagonal 6. -/
theorem cell_6 (x : Vec Ideal S128x7x128 .f32) (w : Vec Ideal S1x128x128 .bf16) (β : Vec Ideal S1x128 .f32) (p o : Fin 128) :
    k0_pay32 x w β (ix2 p o)
      = (∑ k : Fin 128, x (ix3 p ⟨0, by decide⟩ k) * w (ix3 (0 : Fin 1) o k)) + β (ix2 (0 : Fin 1) o) := by
  unfold k0_pay32 k0_pay31
  exact (cell_apply (L := 7) (N := 896) _ _ 0 (by decide) _ _ p o ⟨0 * 128 + p.val, by omega⟩ rfl).trans
    (rows_apply x w β _ _ _ _ _ _ _ _ _ _ rfl 0 (by decide) p o _ rfl)

/-- Cell (0, 7): number 0 on diagonal 7. -/
theorem cell_7 (x : Vec Ideal S128x8x128 .f32) (w : Vec Ideal S1x128x128 .bf16) (β : Vec Ideal S1x128 .f32) (p o : Fin 128) :
    k0_pay41 x w β (ix2 p o)
      = (∑ k : Fin 128, x (ix3 p ⟨0, by decide⟩ k) * w (ix3 (0 : Fin 1) o k)) + β (ix2 (0 : Fin 1) o) := by
  unfold k0_pay41 k0_pay40
  exact (cell_apply (L := 8) (N := 1024) _ _ 0 (by decide) _ _ p o ⟨0 * 128 + p.val, by omega⟩ rfl).trans
    (rows_apply x w β _ _ _ _ _ _ _ _ _ _ rfl 0 (by decide) p o _ rfl)

/-- Cell (0, 8): number 0 on diagonal 8. -/
theorem cell_8 (x : Vec Ideal S128x9x128 .f32) (w : Vec Ideal S1x128x128 .bf16) (β : Vec Ideal S1x128 .f32) (p o : Fin 128) :
    k0_pay52 (k0_pay49 x w) (k0_pay50 β) (ix2 p o)
      = (∑ k : Fin 128, x (ix3 p ⟨0, by decide⟩ k) * w (ix3 (0 : Fin 1) o k)) + β (ix2 (0 : Fin 1) o) := by
  unfold k0_pay52 k0_pay51 k0_pay49 k0_pay50
  exact (cell_apply (L := 9) (N := 1152) _ _ 0 (by decide) _ _ p o ⟨0 * 128 + p.val, by omega⟩ rfl).trans
    (rows_apply x w β _ _ _ _ _ _ _ _ _ _ rfl 0 (by decide) p o _ rfl)

/-- Cell (1, 0): number 1 on diagonal 1. -/
theorem cell_9 (x : Vec Ideal S128x2x128 .f32) (w : Vec Ideal S1x128x128 .bf16) (β : Vec Ideal S1x128 .f32) (p o : Fin 128) :
    k0_pay6 x w β (ix2 p o)
      = (∑ k : Fin 128, x (ix3 p ⟨1, by decide⟩ k) * w (ix3 (0 : Fin 1) o k)) + β (ix2 (0 : Fin 1) o) := by
  unfold k0_pay6 k0_pay4
  exact (cell_apply (L := 2) (N := 256) _ _ 1 (by decide) _ _ p o ⟨1 * 128 + p.val, by omega⟩ rfl).trans
    (rows_apply x w β _ _ _ _ _ _ _ _ _ _ rfl 1 (by decide) p o _ rfl)

/-- Cell (1, 1): number 1 on diagonal 2. -/
theorem cell_10 (x : Vec Ideal S128x3x128 .f32) (w : Vec Ideal S1x128x128 .bf16) (β : Vec Ideal S1x128 .f32) (p o : Fin 128) :
    k0_pay9 x w β (ix2 p o)
      = (∑ k : Fin 128, x (ix3 p ⟨1, by decide⟩ k) * w (ix3 (0 : Fin 1) o k)) + β (ix2 (0 : Fin 1) o) := by
  unfold k0_pay9 k0_pay7
  exact (cell_apply (L := 3) (N := 384) _ _ 1 (by decide) _ _ p o ⟨1 * 128 + p.val, by omega⟩ rfl).trans
    (rows_apply x w β _ _ _ _ _ _ _ _ _ _ rfl 1 (by decide) p o _ rfl)

/-- Cell (1, 2): number 1 on diagonal 3. -/
theorem cell_11 (x : Vec Ideal S128x4x128 .f32) (w : Vec Ideal S1x128x128 .bf16) (β : Vec Ideal S1x128 .f32) (p o : Fin 128) :
    k0_pay15 (k0_pay11 x) (k0_pay12 w) β (ix2 p o)
      = (∑ k : Fin 128, x (ix3 p ⟨1, by decide⟩ k) * w (ix3 (0 : Fin 1) o k)) + β (ix2 (0 : Fin 1) o) := by
  unfold k0_pay15 k0_pay13 k0_pay11 k0_pay12
  exact (cell_apply (L := 4) (N := 512) _ _ 1 (by decide) _ _ p o ⟨1 * 128 + p.val, by omega⟩ rfl).trans
    (rows_apply x w β _ _ _ _ _ _ _ _ _ _ rfl 1 (by decide) p o _ rfl)

/-- Cell (1, 3): number 1 on diagonal 4. -/
theorem cell_12 (x : Vec Ideal S128x5x128 .f32) (w : Vec Ideal S1x128x128 .bf16) (β : Vec Ideal S1x128 .f32) (p o : Fin 128) :
    k0_pay20 (k0_pay18 x w β) (ix2 p o)
      = (∑ k : Fin 128, x (ix3 p ⟨1, by decide⟩ k) * w (ix3 (0 : Fin 1) o k)) + β (ix2 (0 : Fin 1) o) := by
  unfold k0_pay20 k0_pay18
  exact (cell_apply (L := 5) (N := 640) _ _ 1 (by decide) _ _ p o ⟨1 * 128 + p.val, by omega⟩ rfl).trans
    (rows_apply x w β _ _ _ _ _ _ _ _ _ _ rfl 1 (by decide) p o _ rfl)

/-- Cell (1, 4): number 1 on diagonal 5. -/
theorem cell_13 (x : Vec Ideal S128x6x128 .f32) (w : Vec Ideal S1x128x128 .bf16) (β : Vec Ideal S1x128 .f32) (p o : Fin 128) :
    k0_pay26 x w β (ix2 p o)
      = (∑ k : Fin 128, x (ix3 p ⟨1, by decide⟩ k) * w (ix3 (0 : Fin 1) o k)) + β (ix2 (0 : Fin 1) o) := by
  unfold k0_pay26 k0_pay24
  exact (cell_apply (L := 6) (N := 768) _ _ 1 (by decide) _ _ p o ⟨1 * 128 + p.val, by omega⟩ rfl).trans
    (rows_apply x w β _ _ _ _ _ _ _ _ _ _ rfl 1 (by decide) p o _ rfl)

/-- Cell (1, 5): number 1 on diagonal 6. -/
theorem cell_14 (x : Vec Ideal S128x7x128 .f32) (w : Vec Ideal S1x128x128 .bf16) (β : Vec Ideal S1x128 .f32) (p o : Fin 128) :
    k0_pay33 x w β (ix2 p o)
      = (∑ k : Fin 128, x (ix3 p ⟨1, by decide⟩ k) * w (ix3 (0 : Fin 1) o k)) + β (ix2 (0 : Fin 1) o) := by
  unfold k0_pay33 k0_pay31
  exact (cell_apply (L := 7) (N := 896) _ _ 1 (by decide) _ _ p o ⟨1 * 128 + p.val, by omega⟩ rfl).trans
    (rows_apply x w β _ _ _ _ _ _ _ _ _ _ rfl 1 (by decide) p o _ rfl)

/-- Cell (1, 6): number 1 on diagonal 7. -/
theorem cell_15 (x : Vec Ideal S128x8x128 .f32) (w : Vec Ideal S1x128x128 .bf16) (β : Vec Ideal S1x128 .f32) (p o : Fin 128) :
    k0_pay42 x w β (ix2 p o)
      = (∑ k : Fin 128, x (ix3 p ⟨1, by decide⟩ k) * w (ix3 (0 : Fin 1) o k)) + β (ix2 (0 : Fin 1) o) := by
  unfold k0_pay42 k0_pay40
  exact (cell_apply (L := 8) (N := 1024) _ _ 1 (by decide) _ _ p o ⟨1 * 128 + p.val, by omega⟩ rfl).trans
    (rows_apply x w β _ _ _ _ _ _ _ _ _ _ rfl 1 (by decide) p o _ rfl)

/-- Cell (1, 7): number 1 on diagonal 8. -/
theorem cell_16 (x : Vec Ideal S128x9x128 .f32) (w : Vec Ideal S1x128x128 .bf16) (β : Vec Ideal S1x128 .f32) (p o : Fin 128) :
    k0_pay53 (k0_pay49 x w) (k0_pay50 β) (ix2 p o)
      = (∑ k : Fin 128, x (ix3 p ⟨1, by decide⟩ k) * w (ix3 (0 : Fin 1) o k)) + β (ix2 (0 : Fin 1) o) := by
  unfold k0_pay53 k0_pay51 k0_pay49 k0_pay50
  exact (cell_apply (L := 9) (N := 1152) _ _ 1 (by decide) _ _ p o ⟨1 * 128 + p.val, by omega⟩ rfl).trans
    (rows_apply x w β _ _ _ _ _ _ _ _ _ _ rfl 1 (by decide) p o _ rfl)

/-- Cell (1, 8): number 0 on diagonal 9. -/
theorem cell_17 (x : Vec Ideal S128x8x128 .f32) (w : Vec Ideal S1x128x128 .bf16) (β : Vec Ideal S1x128 .f32) (p o : Fin 128) :
    k0_pay62 x w β (ix2 p o)
      = (∑ k : Fin 128, x (ix3 p ⟨0, by decide⟩ k) * w (ix3 (0 : Fin 1) o k)) + β (ix2 (0 : Fin 1) o) := by
  unfold k0_pay62 k0_pay61
  exact (cell_apply (L := 8) (N := 1024) _ _ 0 (by decide) _ _ p o ⟨0 * 128 + p.val, by omega⟩ rfl).trans
    (rows_apply x w β _ _ _ _ _ _ _ _ _ _ rfl 0 (by decide) p o _ rfl)

/-- Cell (2, 0): number 2 on diagonal 2. -/
theorem cell_18 (x : Vec Ideal S128x3x128 .f32) (w : Vec Ideal S1x128x128 .bf16) (β : Vec Ideal S1x128 .f32) (p o : Fin 128) :
    k0_pay10 x w β (ix2 p o)
      = (∑ k : Fin 128, x (ix3 p ⟨2, by decide⟩ k) * w (ix3 (0 : Fin 1) o k)) + β (ix2 (0 : Fin 1) o) := by
  unfold k0_pay10 k0_pay7
  exact (cell_apply (L := 3) (N := 384) _ _ 2 (by decide) _ _ p o ⟨2 * 128 + p.val, by omega⟩ rfl).trans
    (rows_apply x w β _ _ _ _ _ _ _ _ _ _ rfl 2 (by decide) p o _ rfl)

/-- Cell (2, 1): number 2 on diagonal 3. -/
theorem cell_19 (x : Vec Ideal S128x4x128 .f32) (w : Vec Ideal S1x128x128 .bf16) (β : Vec Ideal S1x128 .f32) (p o : Fin 128) :
    k0_pay16 (k0_pay11 x) (k0_pay12 w) β (ix2 p o)
      = (∑ k : Fin 128, x (ix3 p ⟨2, by decide⟩ k) * w (ix3 (0 : Fin 1) o k)) + β (ix2 (0 : Fin 1) o) := by
  unfold k0_pay16 k0_pay13 k0_pay11 k0_pay12
  exact (cell_apply (L := 4) (N := 512) _ _ 2 (by decide) _ _ p o ⟨2 * 128 + p.val, by omega⟩ rfl).trans
    (rows_apply x w β _ _ _ _ _ _ _ _ _ _ rfl 2 (by decide) p o _ rfl)

/-- Cell (2, 2): number 2 on diagonal 4. -/
theorem cell_20 (x : Vec Ideal S128x5x128 .f32) (w : Vec Ideal S1x128x128 .bf16) (β : Vec Ideal S1x128 .f32) (p o : Fin 128) :
    k0_pay21 (k0_pay18 x w β) (ix2 p o)
      = (∑ k : Fin 128, x (ix3 p ⟨2, by decide⟩ k) * w (ix3 (0 : Fin 1) o k)) + β (ix2 (0 : Fin 1) o) := by
  unfold k0_pay21 k0_pay18
  exact (cell_apply (L := 5) (N := 640) _ _ 2 (by decide) _ _ p o ⟨2 * 128 + p.val, by omega⟩ rfl).trans
    (rows_apply x w β _ _ _ _ _ _ _ _ _ _ rfl 2 (by decide) p o _ rfl)

/-- Cell (2, 3): number 2 on diagonal 5. -/
theorem cell_21 (x : Vec Ideal S128x6x128 .f32) (w : Vec Ideal S1x128x128 .bf16) (β : Vec Ideal S1x128 .f32) (p o : Fin 128) :
    k0_pay27 (k0_pay24 x w β) (ix2 p o)
      = (∑ k : Fin 128, x (ix3 p ⟨2, by decide⟩ k) * w (ix3 (0 : Fin 1) o k)) + β (ix2 (0 : Fin 1) o) := by
  unfold k0_pay27 k0_pay24
  exact (cell_apply (L := 6) (N := 768) _ _ 2 (by decide) _ _ p o ⟨2 * 128 + p.val, by omega⟩ rfl).trans
    (rows_apply x w β _ _ _ _ _ _ _ _ _ _ rfl 2 (by decide) p o _ rfl)

/-- Cell (2, 4): number 2 on diagonal 6. -/
theorem cell_22 (x : Vec Ideal S128x7x128 .f32) (w : Vec Ideal S1x128x128 .bf16) (β : Vec Ideal S1x128 .f32) (p o : Fin 128) :
    k0_pay35 (k0_pay34 x w β) (ix2 p o)
      = (∑ k : Fin 128, x (ix3 p ⟨2, by decide⟩ k) * w (ix3 (0 : Fin 1) o k)) + β (ix2 (0 : Fin 1) o) := by
  unfold k0_pay35 k0_pay34 k0_pay31
  exact (cell_apply (L := 7) (N := 896) _ _ 2 (by decide) _ _ p o ⟨2 * 128 + p.val, by omega⟩ rfl).trans
    (rows_apply x w β _ _ _ _ _ _ _ _ _ _ rfl 2 (by decide) p o _ rfl)

/-- Cell (2, 5): number 2 on diagonal 7. -/
theorem cell_23 (x : Vec Ideal S128x8x128 .f32) (w : Vec Ideal S1x128x128 .bf16) (β : Vec Ideal S1x128 .f32) (p o : Fin 128) :
    k0_pay43 (k0_pay40 x w β) (ix2 p o)
      = (∑ k : Fin 128, x (ix3 p ⟨2, by decide⟩ k) * w (ix3 (0 : Fin 1) o k)) + β (ix2 (0 : Fin 1) o) := by
  unfold k0_pay43 k0_pay40
  exact (cell_apply (L := 8) (N := 1024) _ _ 2 (by decide) _ _ p o ⟨2 * 128 + p.val, by omega⟩ rfl).trans
    (rows_apply x w β _ _ _ _ _ _ _ _ _ _ rfl 2 (by decide) p o _ rfl)

/-- Cell (2, 6): number 2 on diagonal 8. -/
theorem cell_24 (x : Vec Ideal S128x9x128 .f32) (w : Vec Ideal S1x128x128 .bf16) (β : Vec Ideal S1x128 .f32) (p o : Fin 128) :
    k0_pay54 (k0_pay49 x w) (k0_pay50 β) (ix2 p o)
      = (∑ k : Fin 128, x (ix3 p ⟨2, by decide⟩ k) * w (ix3 (0 : Fin 1) o k)) + β (ix2 (0 : Fin 1) o) := by
  unfold k0_pay54 k0_pay51 k0_pay49 k0_pay50
  exact (cell_apply (L := 9) (N := 1152) _ _ 2 (by decide) _ _ p o ⟨2 * 128 + p.val, by omega⟩ rfl).trans
    (rows_apply x w β _ _ _ _ _ _ _ _ _ _ rfl 2 (by decide) p o _ rfl)

/-- Cell (2, 7): number 1 on diagonal 9. -/
theorem cell_25 (x : Vec Ideal S128x8x128 .f32) (w : Vec Ideal S1x128x128 .bf16) (β : Vec Ideal S1x128 .f32) (p o : Fin 128) :
    k0_pay63 x w β (ix2 p o)
      = (∑ k : Fin 128, x (ix3 p ⟨1, by decide⟩ k) * w (ix3 (0 : Fin 1) o k)) + β (ix2 (0 : Fin 1) o) := by
  unfold k0_pay63 k0_pay61
  exact (cell_apply (L := 8) (N := 1024) _ _ 1 (by decide) _ _ p o ⟨1 * 128 + p.val, by omega⟩ rfl).trans
    (rows_apply x w β _ _ _ _ _ _ _ _ _ _ rfl 1 (by decide) p o _ rfl)

/-- Cell (2, 8): number 0 on diagonal 10. -/
theorem cell_26 (x : Vec Ideal S128x7x128 .f32) (w : Vec Ideal S1x128x128 .bf16) (β : Vec Ideal S1x128 .f32) (p o : Fin 128) :
    k0_pay71 x w β (ix2 p o)
      = (∑ k : Fin 128, x (ix3 p ⟨0, by decide⟩ k) * w (ix3 (0 : Fin 1) o k)) + β (ix2 (0 : Fin 1) o) := by
  unfold k0_pay71 k0_pay70
  exact (cell_apply (L := 7) (N := 896) _ _ 0 (by decide) _ _ p o ⟨0 * 128 + p.val, by omega⟩ rfl).trans
    (rows_apply x w β _ _ _ _ _ _ _ _ _ _ rfl 0 (by decide) p o _ rfl)

/-- Cell (3, 0): number 3 on diagonal 3. -/
theorem cell_27 (x : Vec Ideal S128x4x128 .f32) (w : Vec Ideal S1x128x128 .bf16) (β : Vec Ideal S1x128 .f32) (p o : Fin 128) :
    k0_pay17 (k0_pay11 x) (k0_pay12 w) β (ix2 p o)
      = (∑ k : Fin 128, x (ix3 p ⟨3, by decide⟩ k) * w (ix3 (0 : Fin 1) o k)) + β (ix2 (0 : Fin 1) o) := by
  unfold k0_pay17 k0_pay13 k0_pay11 k0_pay12
  exact (cell_apply (L := 4) (N := 512) _ _ 3 (by decide) _ _ p o ⟨3 * 128 + p.val, by omega⟩ rfl).trans
    (rows_apply x w β _ _ _ _ _ _ _ _ _ _ rfl 3 (by decide) p o _ rfl)

/-- Cell (3, 1): number 3 on diagonal 4. -/
theorem cell_28 (x : Vec Ideal S128x5x128 .f32) (w : Vec Ideal S1x128x128 .bf16) (β : Vec Ideal S1x128 .f32) (p o : Fin 128) :
    k0_pay22 (k0_pay18 x w β) (ix2 p o)
      = (∑ k : Fin 128, x (ix3 p ⟨3, by decide⟩ k) * w (ix3 (0 : Fin 1) o k)) + β (ix2 (0 : Fin 1) o) := by
  unfold k0_pay22 k0_pay18
  exact (cell_apply (L := 5) (N := 640) _ _ 3 (by decide) _ _ p o ⟨3 * 128 + p.val, by omega⟩ rfl).trans
    (rows_apply x w β _ _ _ _ _ _ _ _ _ _ rfl 3 (by decide) p o _ rfl)

/-- Cell (3, 2): number 3 on diagonal 5. -/
theorem cell_29 (x : Vec Ideal S128x6x128 .f32) (w : Vec Ideal S1x128x128 .bf16) (β : Vec Ideal S1x128 .f32) (p o : Fin 128) :
    k0_pay28 (k0_pay24 x w β) (ix2 p o)
      = (∑ k : Fin 128, x (ix3 p ⟨3, by decide⟩ k) * w (ix3 (0 : Fin 1) o k)) + β (ix2 (0 : Fin 1) o) := by
  unfold k0_pay28 k0_pay24
  exact (cell_apply (L := 6) (N := 768) _ _ 3 (by decide) _ _ p o ⟨3 * 128 + p.val, by omega⟩ rfl).trans
    (rows_apply x w β _ _ _ _ _ _ _ _ _ _ rfl 3 (by decide) p o _ rfl)

/-- Cell (3, 3): number 3 on diagonal 6. -/
theorem cell_30 (x : Vec Ideal S128x7x128 .f32) (w : Vec Ideal S1x128x128 .bf16) (β : Vec Ideal S1x128 .f32) (p o : Fin 128) :
    k0_pay36 (k0_pay31 x w β) (ix2 p o)
      = (∑ k : Fin 128, x (ix3 p ⟨3, by decide⟩ k) * w (ix3 (0 : Fin 1) o k)) + β (ix2 (0 : Fin 1) o) := by
  unfold k0_pay36 k0_pay31
  exact (cell_apply (L := 7) (N := 896) _ _ 3 (by decide) _ _ p o ⟨3 * 128 + p.val, by omega⟩ rfl).trans
    (rows_apply x w β _ _ _ _ _ _ _ _ _ _ rfl 3 (by decide) p o _ rfl)

/-- Cell (3, 4): number 3 on diagonal 7. -/
theorem cell_31 (x : Vec Ideal S128x8x128 .f32) (w : Vec Ideal S1x128x128 .bf16) (β : Vec Ideal S1x128 .f32) (p o : Fin 128) :
    k0_pay44 (k0_pay40 x w β) (ix2 p o)
      = (∑ k : Fin 128, x (ix3 p ⟨3, by decide⟩ k) * w (ix3 (0 : Fin 1) o k)) + β (ix2 (0 : Fin 1) o) := by
  unfold k0_pay44 k0_pay40
  exact (cell_apply (L := 8) (N := 1024) _ _ 3 (by decide) _ _ p o ⟨3 * 128 + p.val, by omega⟩ rfl).trans
    (rows_apply x w β _ _ _ _ _ _ _ _ _ _ rfl 3 (by decide) p o _ rfl)

/-- Cell (3, 5): number 3 on diagonal 8. -/
theorem cell_32 (x : Vec Ideal S128x9x128 .f32) (w : Vec Ideal S1x128x128 .bf16) (β : Vec Ideal S1x128 .f32) (p o : Fin 128) :
    k0_pay55 (k0_pay49 x w) (k0_pay50 β) (ix2 p o)
      = (∑ k : Fin 128, x (ix3 p ⟨3, by decide⟩ k) * w (ix3 (0 : Fin 1) o k)) + β (ix2 (0 : Fin 1) o) := by
  unfold k0_pay55 k0_pay51 k0_pay49 k0_pay50
  exact (cell_apply (L := 9) (N := 1152) _ _ 3 (by decide) _ _ p o ⟨3 * 128 + p.val, by omega⟩ rfl).trans
    (rows_apply x w β _ _ _ _ _ _ _ _ _ _ rfl 3 (by decide) p o _ rfl)

/-- Cell (3, 6): number 2 on diagonal 9. -/
theorem cell_33 (x : Vec Ideal S128x8x128 .f32) (w : Vec Ideal S1x128x128 .bf16) (β : Vec Ideal S1x128 .f32) (p o : Fin 128) :
    k0_pay64 x w β (ix2 p o)
      = (∑ k : Fin 128, x (ix3 p ⟨2, by decide⟩ k) * w (ix3 (0 : Fin 1) o k)) + β (ix2 (0 : Fin 1) o) := by
  unfold k0_pay64 k0_pay61
  exact (cell_apply (L := 8) (N := 1024) _ _ 2 (by decide) _ _ p o ⟨2 * 128 + p.val, by omega⟩ rfl).trans
    (rows_apply x w β _ _ _ _ _ _ _ _ _ _ rfl 2 (by decide) p o _ rfl)

/-- Cell (3, 7): number 1 on diagonal 10. -/
theorem cell_34 (x : Vec Ideal S128x7x128 .f32) (w : Vec Ideal S1x128x128 .bf16) (β : Vec Ideal S1x128 .f32) (p o : Fin 128) :
    k0_pay72 x w β (ix2 p o)
      = (∑ k : Fin 128, x (ix3 p ⟨1, by decide⟩ k) * w (ix3 (0 : Fin 1) o k)) + β (ix2 (0 : Fin 1) o) := by
  unfold k0_pay72 k0_pay70
  exact (cell_apply (L := 7) (N := 896) _ _ 1 (by decide) _ _ p o ⟨1 * 128 + p.val, by omega⟩ rfl).trans
    (rows_apply x w β _ _ _ _ _ _ _ _ _ _ rfl 1 (by decide) p o _ rfl)

/-- Cell (3, 8): number 0 on diagonal 11. -/
theorem cell_35 (x : Vec Ideal S128x6x128 .f32) (w : Vec Ideal S1x128x128 .bf16) (β : Vec Ideal S1x128 .f32) (p o : Fin 128) :
    k0_pay79 x w β (ix2 p o)
      = (∑ k : Fin 128, x (ix3 p ⟨0, by decide⟩ k) * w (ix3 (0 : Fin 1) o k)) + β (ix2 (0 : Fin 1) o) := by
  unfold k0_pay79 k0_pay78
  exact (cell_apply (L := 6) (N := 768) _ _ 0 (by decide) _ _ p o ⟨0 * 128 + p.val, by omega⟩ rfl).trans
    (rows_apply x w β _ _ _ _ _ _ _ _ _ _ rfl 0 (by decide) p o _ rfl)

/-- Cell (4, 0): number 4 on diagonal 4. -/
theorem cell_36 (x : Vec Ideal S128x5x128 .f32) (w : Vec Ideal S1x128x128 .bf16) (β : Vec Ideal S1x128 .f32) (p o : Fin 128) :
    k0_pay23 (k0_pay18 x w β) (ix2 p o)
      = (∑ k : Fin 128, x (ix3 p ⟨4, by decide⟩ k) * w (ix3 (0 : Fin 1) o k)) + β (ix2 (0 : Fin 1) o) := by
  unfold k0_pay23 k0_pay18
  exact (cell_apply (L := 5) (N := 640) _ _ 4 (by decide) _ _ p o ⟨4 * 128 + p.val, by omega⟩ rfl).trans
    (rows_apply x w β _ _ _ _ _ _ _ _ _ _ rfl 4 (by decide) p o _ rfl)

/-- Cell (4, 1): number 4 on diagonal 5. -/
theorem cell_37 (x : Vec Ideal S128x6x128 .f32) (w : Vec Ideal S1x128x128 .bf16) (β : Vec Ideal S1x128 .f32) (p o : Fin 128) :
    k0_pay29 (k0_pay24 x w β) (ix2 p o)
      = (∑ k : Fin 128, x (ix3 p ⟨4, by decide⟩ k) * w (ix3 (0 : Fin 1) o k)) + β (ix2 (0 : Fin 1) o) := by
  unfold k0_pay29 k0_pay24
  exact (cell_apply (L := 6) (N := 768) _ _ 4 (by decide) _ _ p o ⟨4 * 128 + p.val, by omega⟩ rfl).trans
    (rows_apply x w β _ _ _ _ _ _ _ _ _ _ rfl 4 (by decide) p o _ rfl)

/-- Cell (4, 2): number 4 on diagonal 6. -/
theorem cell_38 (x : Vec Ideal S128x7x128 .f32) (w : Vec Ideal S1x128x128 .bf16) (β : Vec Ideal S1x128 .f32) (p o : Fin 128) :
    k0_pay37 (k0_pay31 x w β) (ix2 p o)
      = (∑ k : Fin 128, x (ix3 p ⟨4, by decide⟩ k) * w (ix3 (0 : Fin 1) o k)) + β (ix2 (0 : Fin 1) o) := by
  unfold k0_pay37 k0_pay31
  exact (cell_apply (L := 7) (N := 896) _ _ 4 (by decide) _ _ p o ⟨4 * 128 + p.val, by omega⟩ rfl).trans
    (rows_apply x w β _ _ _ _ _ _ _ _ _ _ rfl 4 (by decide) p o _ rfl)

/-- Cell (4, 3): number 4 on diagonal 7. -/
theorem cell_39 (x : Vec Ideal S128x8x128 .f32) (w : Vec Ideal S1x128x128 .bf16) (β : Vec Ideal S1x128 .f32) (p o : Fin 128) :
    k0_pay45 (k0_pay40 x w β) (ix2 p o)
      = (∑ k : Fin 128, x (ix3 p ⟨4, by decide⟩ k) * w (ix3 (0 : Fin 1) o k)) + β (ix2 (0 : Fin 1) o) := by
  unfold k0_pay45 k0_pay40
  exact (cell_apply (L := 8) (N := 1024) _ _ 4 (by decide) _ _ p o ⟨4 * 128 + p.val, by omega⟩ rfl).trans
    (rows_apply x w β _ _ _ _ _ _ _ _ _ _ rfl 4 (by decide) p o _ rfl)

/-- Cell (4, 4): number 4 on diagonal 8. -/
theorem cell_40 (x : Vec Ideal S128x9x128 .f32) (w : Vec Ideal S1x128x128 .bf16) (β : Vec Ideal S1x128 .f32) (p o : Fin 128) :
    k0_pay56 (k0_pay49 x w) (k0_pay50 β) (ix2 p o)
      = (∑ k : Fin 128, x (ix3 p ⟨4, by decide⟩ k) * w (ix3 (0 : Fin 1) o k)) + β (ix2 (0 : Fin 1) o) := by
  unfold k0_pay56 k0_pay51 k0_pay49 k0_pay50
  exact (cell_apply (L := 9) (N := 1152) _ _ 4 (by decide) _ _ p o ⟨4 * 128 + p.val, by omega⟩ rfl).trans
    (rows_apply x w β _ _ _ _ _ _ _ _ _ _ rfl 4 (by decide) p o _ rfl)

/-- Cell (4, 5): number 3 on diagonal 9. -/
theorem cell_41 (x : Vec Ideal S128x8x128 .f32) (w : Vec Ideal S1x128x128 .bf16) (β : Vec Ideal S1x128 .f32) (p o : Fin 128) :
    k0_pay65 x w β (ix2 p o)
      = (∑ k : Fin 128, x (ix3 p ⟨3, by decide⟩ k) * w (ix3 (0 : Fin 1) o k)) + β (ix2 (0 : Fin 1) o) := by
  unfold k0_pay65 k0_pay61
  exact (cell_apply (L := 8) (N := 1024) _ _ 3 (by decide) _ _ p o ⟨3 * 128 + p.val, by omega⟩ rfl).trans
    (rows_apply x w β _ _ _ _ _ _ _ _ _ _ rfl 3 (by decide) p o _ rfl)

/-- Cell (4, 6): number 2 on diagonal 10. -/
theorem cell_42 (x : Vec Ideal S128x7x128 .f32) (w : Vec Ideal S1x128x128 .bf16) (β : Vec Ideal S1x128 .f32) (p o : Fin 128) :
    k0_pay73 x w β (ix2 p o)
      = (∑ k : Fin 128, x (ix3 p ⟨2, by decide⟩ k) * w (ix3 (0 : Fin 1) o k)) + β (ix2 (0 : Fin 1) o) := by
  unfold k0_pay73 k0_pay70
  exact (cell_apply (L := 7) (N := 896) _ _ 2 (by decide) _ _ p o ⟨2 * 128 + p.val, by omega⟩ rfl).trans
    (rows_apply x w β _ _ _ _ _ _ _ _ _ _ rfl 2 (by decide) p o _ rfl)

/-- Cell (4, 7): number 1 on diagonal 11. -/
theorem cell_43 (x : Vec Ideal S128x6x128 .f32) (w : Vec Ideal S1x128x128 .bf16) (β : Vec Ideal S1x128 .f32) (p o : Fin 128) :
    k0_pay80 x w β (ix2 p o)
      = (∑ k : Fin 128, x (ix3 p ⟨1, by decide⟩ k) * w (ix3 (0 : Fin 1) o k)) + β (ix2 (0 : Fin 1) o) := by
  unfold k0_pay80 k0_pay78
  exact (cell_apply (L := 6) (N := 768) _ _ 1 (by decide) _ _ p o ⟨1 * 128 + p.val, by omega⟩ rfl).trans
    (rows_apply x w β _ _ _ _ _ _ _ _ _ _ rfl 1 (by decide) p o _ rfl)

/-- Cell (4, 8): number 0 on diagonal 12. -/
theorem cell_44 (x : Vec Ideal S128x5x128 .f32) (w : Vec Ideal S1x128x128 .bf16) (β : Vec Ideal S1x128 .f32) (p o : Fin 128) :
    k0_pay86 x w β (ix2 p o)
      = (∑ k : Fin 128, x (ix3 p ⟨0, by decide⟩ k) * w (ix3 (0 : Fin 1) o k)) + β (ix2 (0 : Fin 1) o) := by
  unfold k0_pay86 k0_pay85
  exact (cell_apply (L := 5) (N := 640) _ _ 0 (by decide) _ _ p o ⟨0 * 128 + p.val, by omega⟩ rfl).trans
    (rows_apply x w β _ _ _ _ _ _ _ _ _ _ rfl 0 (by decide) p o _ rfl)

/-- Cell (5, 0): number 5 on diagonal 5. -/
theorem cell_45 (x : Vec Ideal S128x6x128 .f32) (w : Vec Ideal S1x128x128 .bf16) (β : Vec Ideal S1x128 .f32) (p o : Fin 128) :
    k0_pay30 (k0_pay24 x w β) (ix2 p o)
      = (∑ k : Fin 128, x (ix3 p ⟨5, by decide⟩ k) * w (ix3 (0 : Fin 1) o k)) + β (ix2 (0 : Fin 1) o) := by
  unfold k0_pay30 k0_pay24
  exact (cell_apply (L := 6) (N := 768) _ _ 5 (by decide) _ _ p o ⟨5 * 128 + p.val, by omega⟩ rfl).trans
    (rows_apply x w β _ _ _ _ _ _ _ _ _ _ rfl 5 (by decide) p o _ rfl)

/-- Cell (5, 1): number 5 on diagonal 6. -/
theorem cell_46 (x : Vec Ideal S128x7x128 .f32) (w : Vec Ideal S1x128x128 .bf16) (β : Vec Ideal S1x128 .f32) (p o : Fin 128) :
    k0_pay38 (k0_pay31 x w β) (ix2 p o)
      = (∑ k : Fin 128, x (ix3 p ⟨5, by decide⟩ k) * w (ix3 (0 : Fin 1) o k)) + β (ix2 (0 : Fin 1) o) := by
  unfold k0_pay38 k0_pay31
  exact (cell_apply (L := 7) (N := 896) _ _ 5 (by decide) _ _ p o ⟨5 * 128 + p.val, by omega⟩ rfl).trans
    (rows_apply x w β _ _ _ _ _ _ _ _ _ _ rfl 5 (by decide) p o _ rfl)

/-- Cell (5, 2): number 5 on diagonal 7. -/
theorem cell_47 (x : Vec Ideal S128x8x128 .f32) (w : Vec Ideal S1x128x128 .bf16) (β : Vec Ideal S1x128 .f32) (p o : Fin 128) :
    k0_pay46 (k0_pay40 x w β) (ix2 p o)
      = (∑ k : Fin 128, x (ix3 p ⟨5, by decide⟩ k) * w (ix3 (0 : Fin 1) o k)) + β (ix2 (0 : Fin 1) o) := by
  unfold k0_pay46 k0_pay40
  exact (cell_apply (L := 8) (N := 1024) _ _ 5 (by decide) _ _ p o ⟨5 * 128 + p.val, by omega⟩ rfl).trans
    (rows_apply x w β _ _ _ _ _ _ _ _ _ _ rfl 5 (by decide) p o _ rfl)

/-- Cell (5, 3): number 5 on diagonal 8. -/
theorem cell_48 (x : Vec Ideal S128x9x128 .f32) (w : Vec Ideal S1x128x128 .bf16) (β : Vec Ideal S1x128 .f32) (p o : Fin 128) :
    k0_pay57 (k0_pay49 x w) (k0_pay50 β) (ix2 p o)
      = (∑ k : Fin 128, x (ix3 p ⟨5, by decide⟩ k) * w (ix3 (0 : Fin 1) o k)) + β (ix2 (0 : Fin 1) o) := by
  unfold k0_pay57 k0_pay51 k0_pay49 k0_pay50
  exact (cell_apply (L := 9) (N := 1152) _ _ 5 (by decide) _ _ p o ⟨5 * 128 + p.val, by omega⟩ rfl).trans
    (rows_apply x w β _ _ _ _ _ _ _ _ _ _ rfl 5 (by decide) p o _ rfl)

/-- Cell (5, 4): number 4 on diagonal 9. -/
theorem cell_49 (x : Vec Ideal S128x8x128 .f32) (w : Vec Ideal S1x128x128 .bf16) (β : Vec Ideal S1x128 .f32) (p o : Fin 128) :
    k0_pay66 x w β (ix2 p o)
      = (∑ k : Fin 128, x (ix3 p ⟨4, by decide⟩ k) * w (ix3 (0 : Fin 1) o k)) + β (ix2 (0 : Fin 1) o) := by
  unfold k0_pay66 k0_pay61
  exact (cell_apply (L := 8) (N := 1024) _ _ 4 (by decide) _ _ p o ⟨4 * 128 + p.val, by omega⟩ rfl).trans
    (rows_apply x w β _ _ _ _ _ _ _ _ _ _ rfl 4 (by decide) p o _ rfl)

/-- Cell (5, 5): number 3 on diagonal 10. -/
theorem cell_50 (x : Vec Ideal S128x7x128 .f32) (w : Vec Ideal S1x128x128 .bf16) (β : Vec Ideal S1x128 .f32) (p o : Fin 128) :
    k0_pay74 x w β (ix2 p o)
      = (∑ k : Fin 128, x (ix3 p ⟨3, by decide⟩ k) * w (ix3 (0 : Fin 1) o k)) + β (ix2 (0 : Fin 1) o) := by
  unfold k0_pay74 k0_pay70
  exact (cell_apply (L := 7) (N := 896) _ _ 3 (by decide) _ _ p o ⟨3 * 128 + p.val, by omega⟩ rfl).trans
    (rows_apply x w β _ _ _ _ _ _ _ _ _ _ rfl 3 (by decide) p o _ rfl)

/-- Cell (5, 6): number 2 on diagonal 11. -/
theorem cell_51 (x : Vec Ideal S128x6x128 .f32) (w : Vec Ideal S1x128x128 .bf16) (β : Vec Ideal S1x128 .f32) (p o : Fin 128) :
    k0_pay81 x w β (ix2 p o)
      = (∑ k : Fin 128, x (ix3 p ⟨2, by decide⟩ k) * w (ix3 (0 : Fin 1) o k)) + β (ix2 (0 : Fin 1) o) := by
  unfold k0_pay81 k0_pay78
  exact (cell_apply (L := 6) (N := 768) _ _ 2 (by decide) _ _ p o ⟨2 * 128 + p.val, by omega⟩ rfl).trans
    (rows_apply x w β _ _ _ _ _ _ _ _ _ _ rfl 2 (by decide) p o _ rfl)

/-- Cell (5, 7): number 1 on diagonal 12. -/
theorem cell_52 (x : Vec Ideal S128x5x128 .f32) (w : Vec Ideal S1x128x128 .bf16) (β : Vec Ideal S1x128 .f32) (p o : Fin 128) :
    k0_pay87 x w β (ix2 p o)
      = (∑ k : Fin 128, x (ix3 p ⟨1, by decide⟩ k) * w (ix3 (0 : Fin 1) o k)) + β (ix2 (0 : Fin 1) o) := by
  unfold k0_pay87 k0_pay85
  exact (cell_apply (L := 5) (N := 640) _ _ 1 (by decide) _ _ p o ⟨1 * 128 + p.val, by omega⟩ rfl).trans
    (rows_apply x w β _ _ _ _ _ _ _ _ _ _ rfl 1 (by decide) p o _ rfl)

/-- Cell (5, 8): number 0 on diagonal 13. -/
theorem cell_53 (x : Vec Ideal S128x4x128 .f32) (w : Vec Ideal S1x128x128 .bf16) (β : Vec Ideal S1x128 .f32) (p o : Fin 128) :
    k0_pay93 x w β (ix2 p o)
      = (∑ k : Fin 128, x (ix3 p ⟨0, by decide⟩ k) * w (ix3 (0 : Fin 1) o k)) + β (ix2 (0 : Fin 1) o) := by
  unfold k0_pay93 k0_pay92
  exact (cell_apply (L := 4) (N := 512) _ _ 0 (by decide) _ _ p o ⟨0 * 128 + p.val, by omega⟩ rfl).trans
    (rows_apply x w β _ _ _ _ _ _ _ _ _ _ rfl 0 (by decide) p o _ rfl)

/-- Cell (6, 0): number 6 on diagonal 6. -/
theorem cell_54 (x : Vec Ideal S128x7x128 .f32) (w : Vec Ideal S1x128x128 .bf16) (β : Vec Ideal S1x128 .f32) (p o : Fin 128) :
    k0_pay39 (k0_pay31 x w β) (ix2 p o)
      = (∑ k : Fin 128, x (ix3 p ⟨6, by decide⟩ k) * w (ix3 (0 : Fin 1) o k)) + β (ix2 (0 : Fin 1) o) := by
  unfold k0_pay39 k0_pay31
  exact (cell_apply (L := 7) (N := 896) _ _ 6 (by decide) _ _ p o ⟨6 * 128 + p.val, by omega⟩ rfl).trans
    (rows_apply x w β _ _ _ _ _ _ _ _ _ _ rfl 6 (by decide) p o _ rfl)

/-- Cell (6, 1): number 6 on diagonal 7. -/
theorem cell_55 (x : Vec Ideal S128x8x128 .f32) (w : Vec Ideal S1x128x128 .bf16) (β : Vec Ideal S1x128 .f32) (p o : Fin 128) :
    k0_pay47 (k0_pay40 x w β) (ix2 p o)
      = (∑ k : Fin 128, x (ix3 p ⟨6, by decide⟩ k) * w (ix3 (0 : Fin 1) o k)) + β (ix2 (0 : Fin 1) o) := by
  unfold k0_pay47 k0_pay40
  exact (cell_apply (L := 8) (N := 1024) _ _ 6 (by decide) _ _ p o ⟨6 * 128 + p.val, by omega⟩ rfl).trans
    (rows_apply x w β _ _ _ _ _ _ _ _ _ _ rfl 6 (by decide) p o _ rfl)

/-- Cell (6, 2): number 6 on diagonal 8. -/
theorem cell_56 (x : Vec Ideal S128x9x128 .f32) (w : Vec Ideal S1x128x128 .bf16) (β : Vec Ideal S1x128 .f32) (p o : Fin 128) :
    k0_pay58 (k0_pay49 x w) (k0_pay50 β) (ix2 p o)
      = (∑ k : Fin 128, x (ix3 p ⟨6, by decide⟩ k) * w (ix3 (0 : Fin 1) o k)) + β (ix2 (0 : Fin 1) o) := by
  unfold k0_pay58 k0_pay51 k0_pay49 k0_pay50
  exact (cell_apply (L := 9) (N := 1152) _ _ 6 (by decide) _ _ p o ⟨6 * 128 + p.val, by omega⟩ rfl).trans
    (rows_apply x w β _ _ _ _ _ _ _ _ _ _ rfl 6 (by decide) p o _ rfl)

/-- Cell (6, 3): number 5 on diagonal 9. -/
theorem cell_57 (x : Vec Ideal S128x8x128 .f32) (w : Vec Ideal S1x128x128 .bf16) (β : Vec Ideal S1x128 .f32) (p o : Fin 128) :
    k0_pay67 x w β (ix2 p o)
      = (∑ k : Fin 128, x (ix3 p ⟨5, by decide⟩ k) * w (ix3 (0 : Fin 1) o k)) + β (ix2 (0 : Fin 1) o) := by
  unfold k0_pay67 k0_pay61
  exact (cell_apply (L := 8) (N := 1024) _ _ 5 (by decide) _ _ p o ⟨5 * 128 + p.val, by omega⟩ rfl).trans
    (rows_apply x w β _ _ _ _ _ _ _ _ _ _ rfl 5 (by decide) p o _ rfl)

/-- Cell (6, 4): number 4 on diagonal 10. -/
theorem cell_58 (x : Vec Ideal S128x7x128 .f32) (w : Vec Ideal S1x128x128 .bf16) (β : Vec Ideal S1x128 .f32) (p o : Fin 128) :
    k0_pay75 x w β (ix2 p o)
      = (∑ k : Fin 128, x (ix3 p ⟨4, by decide⟩ k) * w (ix3 (0 : Fin 1) o k)) + β (ix2 (0 : Fin 1) o) := by
  unfold k0_pay75 k0_pay70
  exact (cell_apply (L := 7) (N := 896) _ _ 4 (by decide) _ _ p o ⟨4 * 128 + p.val, by omega⟩ rfl).trans
    (rows_apply x w β _ _ _ _ _ _ _ _ _ _ rfl 4 (by decide) p o _ rfl)

/-- Cell (6, 5): number 3 on diagonal 11. -/
theorem cell_59 (x : Vec Ideal S128x6x128 .f32) (w : Vec Ideal S1x128x128 .bf16) (β : Vec Ideal S1x128 .f32) (p o : Fin 128) :
    k0_pay82 x w β (ix2 p o)
      = (∑ k : Fin 128, x (ix3 p ⟨3, by decide⟩ k) * w (ix3 (0 : Fin 1) o k)) + β (ix2 (0 : Fin 1) o) := by
  unfold k0_pay82 k0_pay78
  exact (cell_apply (L := 6) (N := 768) _ _ 3 (by decide) _ _ p o ⟨3 * 128 + p.val, by omega⟩ rfl).trans
    (rows_apply x w β _ _ _ _ _ _ _ _ _ _ rfl 3 (by decide) p o _ rfl)

/-- Cell (6, 6): number 2 on diagonal 12. -/
theorem cell_60 (x : Vec Ideal S128x5x128 .f32) (w : Vec Ideal S1x128x128 .bf16) (β : Vec Ideal S1x128 .f32) (p o : Fin 128) :
    k0_pay88 x w β (ix2 p o)
      = (∑ k : Fin 128, x (ix3 p ⟨2, by decide⟩ k) * w (ix3 (0 : Fin 1) o k)) + β (ix2 (0 : Fin 1) o) := by
  unfold k0_pay88 k0_pay85
  exact (cell_apply (L := 5) (N := 640) _ _ 2 (by decide) _ _ p o ⟨2 * 128 + p.val, by omega⟩ rfl).trans
    (rows_apply x w β _ _ _ _ _ _ _ _ _ _ rfl 2 (by decide) p o _ rfl)

/-- Cell (6, 7): number 1 on diagonal 13. -/
theorem cell_61 (x : Vec Ideal S128x4x128 .f32) (w : Vec Ideal S1x128x128 .bf16) (β : Vec Ideal S1x128 .f32) (p o : Fin 128) :
    k0_pay94 x w β (ix2 p o)
      = (∑ k : Fin 128, x (ix3 p ⟨1, by decide⟩ k) * w (ix3 (0 : Fin 1) o k)) + β (ix2 (0 : Fin 1) o) := by
  unfold k0_pay94 k0_pay92
  exact (cell_apply (L := 4) (N := 512) _ _ 1 (by decide) _ _ p o ⟨1 * 128 + p.val, by omega⟩ rfl).trans
    (rows_apply x w β _ _ _ _ _ _ _ _ _ _ rfl 1 (by decide) p o _ rfl)

/-- Cell (6, 8): number 0 on diagonal 14. -/
theorem cell_62 (x : Vec Ideal S128x3x128 .f32) (w : Vec Ideal S1x128x128 .bf16) (β : Vec Ideal S1x128 .f32) (p o : Fin 128) :
    k0_pay99 (k0_pay97 x) w β (ix2 p o)
      = (∑ k : Fin 128, x (ix3 p ⟨0, by decide⟩ k) * w (ix3 (0 : Fin 1) o k)) + β (ix2 (0 : Fin 1) o) := by
  unfold k0_pay99 k0_pay98 k0_pay97
  exact (cell_apply (L := 3) (N := 384) _ _ 0 (by decide) _ _ p o ⟨0 * 128 + p.val, by omega⟩ rfl).trans
    (rows_apply x w β _ _ _ _ _ _ _ _ _ _ rfl 0 (by decide) p o _ rfl)

/-- Cell (7, 0): number 7 on diagonal 7. -/
theorem cell_63 (x : Vec Ideal S128x8x128 .f32) (w : Vec Ideal S1x128x128 .bf16) (β : Vec Ideal S1x128 .f32) (p o : Fin 128) :
    k0_pay48 (k0_pay40 x w β) (ix2 p o)
      = (∑ k : Fin 128, x (ix3 p ⟨7, by decide⟩ k) * w (ix3 (0 : Fin 1) o k)) + β (ix2 (0 : Fin 1) o) := by
  unfold k0_pay48 k0_pay40
  exact (cell_apply (L := 8) (N := 1024) _ _ 7 (by decide) _ _ p o ⟨7 * 128 + p.val, by omega⟩ rfl).trans
    (rows_apply x w β _ _ _ _ _ _ _ _ _ _ rfl 7 (by decide) p o _ rfl)

/-- Cell (7, 1): number 7 on diagonal 8. -/
theorem cell_64 (x : Vec Ideal S128x9x128 .f32) (w : Vec Ideal S1x128x128 .bf16) (β : Vec Ideal S1x128 .f32) (p o : Fin 128) :
    k0_pay59 (k0_pay49 x w) (k0_pay50 β) (ix2 p o)
      = (∑ k : Fin 128, x (ix3 p ⟨7, by decide⟩ k) * w (ix3 (0 : Fin 1) o k)) + β (ix2 (0 : Fin 1) o) := by
  unfold k0_pay59 k0_pay51 k0_pay49 k0_pay50
  exact (cell_apply (L := 9) (N := 1152) _ _ 7 (by decide) _ _ p o ⟨7 * 128 + p.val, by omega⟩ rfl).trans
    (rows_apply x w β _ _ _ _ _ _ _ _ _ _ rfl 7 (by decide) p o _ rfl)

/-- Cell (7, 2): number 6 on diagonal 9. -/
theorem cell_65 (x : Vec Ideal S128x8x128 .f32) (w : Vec Ideal S1x128x128 .bf16) (β : Vec Ideal S1x128 .f32) (p o : Fin 128) :
    k0_pay68 x w β (ix2 p o)
      = (∑ k : Fin 128, x (ix3 p ⟨6, by decide⟩ k) * w (ix3 (0 : Fin 1) o k)) + β (ix2 (0 : Fin 1) o) := by
  unfold k0_pay68 k0_pay61
  exact (cell_apply (L := 8) (N := 1024) _ _ 6 (by decide) _ _ p o ⟨6 * 128 + p.val, by omega⟩ rfl).trans
    (rows_apply x w β _ _ _ _ _ _ _ _ _ _ rfl 6 (by decide) p o _ rfl)

/-- Cell (7, 3): number 5 on diagonal 10. -/
theorem cell_66 (x : Vec Ideal S128x7x128 .f32) (w : Vec Ideal S1x128x128 .bf16) (β : Vec Ideal S1x128 .f32) (p o : Fin 128) :
    k0_pay76 (k0_pay70 x w β) (ix2 p o)
      = (∑ k : Fin 128, x (ix3 p ⟨5, by decide⟩ k) * w (ix3 (0 : Fin 1) o k)) + β (ix2 (0 : Fin 1) o) := by
  unfold k0_pay76 k0_pay70
  exact (cell_apply (L := 7) (N := 896) _ _ 5 (by decide) _ _ p o ⟨5 * 128 + p.val, by omega⟩ rfl).trans
    (rows_apply x w β _ _ _ _ _ _ _ _ _ _ rfl 5 (by decide) p o _ rfl)

/-- Cell (7, 4): number 4 on diagonal 11. -/
theorem cell_67 (x : Vec Ideal S128x6x128 .f32) (w : Vec Ideal S1x128x128 .bf16) (β : Vec Ideal S1x128 .f32) (p o : Fin 128) :
    k0_pay83 (k0_pay78 x w β) (ix2 p o)
      = (∑ k : Fin 128, x (ix3 p ⟨4, by decide⟩ k) * w (ix3 (0 : Fin 1) o k)) + β (ix2 (0 : Fin 1) o) := by
  unfold k0_pay83 k0_pay78
  exact (cell_apply (L := 6) (N := 768) _ _ 4 (by decide) _ _ p o ⟨4 * 128 + p.val, by omega⟩ rfl).trans
    (rows_apply x w β _ _ _ _ _ _ _ _ _ _ rfl 4 (by decide) p o _ rfl)

/-- Cell (7, 5): number 3 on diagonal 12. -/
theorem cell_68 (x : Vec Ideal S128x5x128 .f32) (w : Vec Ideal S1x128x128 .bf16) (β : Vec Ideal S1x128 .f32) (p o : Fin 128) :
    k0_pay89 x w β (ix2 p o)
      = (∑ k : Fin 128, x (ix3 p ⟨3, by decide⟩ k) * w (ix3 (0 : Fin 1) o k)) + β (ix2 (0 : Fin 1) o) := by
  unfold k0_pay89 k0_pay85
  exact (cell_apply (L := 5) (N := 640) _ _ 3 (by decide) _ _ p o ⟨3 * 128 + p.val, by omega⟩ rfl).trans
    (rows_apply x w β _ _ _ _ _ _ _ _ _ _ rfl 3 (by decide) p o _ rfl)

/-- Cell (7, 6): number 2 on diagonal 13. -/
theorem cell_69 (x : Vec Ideal S128x4x128 .f32) (w : Vec Ideal S1x128x128 .bf16) (β : Vec Ideal S1x128 .f32) (p o : Fin 128) :
    k0_pay95 x w β (ix2 p o)
      = (∑ k : Fin 128, x (ix3 p ⟨2, by decide⟩ k) * w (ix3 (0 : Fin 1) o k)) + β (ix2 (0 : Fin 1) o) := by
  unfold k0_pay95 k0_pay92
  exact (cell_apply (L := 4) (N := 512) _ _ 2 (by decide) _ _ p o ⟨2 * 128 + p.val, by omega⟩ rfl).trans
    (rows_apply x w β _ _ _ _ _ _ _ _ _ _ rfl 2 (by decide) p o _ rfl)

/-- Cell (7, 7): number 1 on diagonal 14. -/
theorem cell_70 (x : Vec Ideal S128x3x128 .f32) (w : Vec Ideal S1x128x128 .bf16) (β : Vec Ideal S1x128 .f32) (p o : Fin 128) :
    k0_pay100 (k0_pay97 x) w β (ix2 p o)
      = (∑ k : Fin 128, x (ix3 p ⟨1, by decide⟩ k) * w (ix3 (0 : Fin 1) o k)) + β (ix2 (0 : Fin 1) o) := by
  unfold k0_pay100 k0_pay98 k0_pay97
  exact (cell_apply (L := 3) (N := 384) _ _ 1 (by decide) _ _ p o ⟨1 * 128 + p.val, by omega⟩ rfl).trans
    (rows_apply x w β _ _ _ _ _ _ _ _ _ _ rfl 1 (by decide) p o _ rfl)

/-- Cell (7, 8): number 0 on diagonal 15. -/
theorem cell_71 (x : Vec Ideal S128x2x128 .f32) (w : Vec Ideal S1x128x128 .bf16) (β : Vec Ideal S1x128 .f32) (p o : Fin 128) :
    k0_pay103 x w β (ix2 p o)
      = (∑ k : Fin 128, x (ix3 p ⟨0, by decide⟩ k) * w (ix3 (0 : Fin 1) o k)) + β (ix2 (0 : Fin 1) o) := by
  unfold k0_pay103 k0_pay102
  exact (cell_apply (L := 2) (N := 256) _ _ 0 (by decide) _ _ p o ⟨0 * 128 + p.val, by omega⟩ rfl).trans
    (rows_apply x w β _ _ _ _ _ _ _ _ _ _ rfl 0 (by decide) p o _ rfl)

/-- Cell (8, 0): number 8 on diagonal 8. -/
theorem cell_72 (x : Vec Ideal S128x9x128 .f32) (w : Vec Ideal S1x128x128 .bf16) (β : Vec Ideal S1x128 .f32) (p o : Fin 128) :
    k0_pay60 (k0_pay49 x w) (k0_pay50 β) (ix2 p o)
      = (∑ k : Fin 128, x (ix3 p ⟨8, by decide⟩ k) * w (ix3 (0 : Fin 1) o k)) + β (ix2 (0 : Fin 1) o) := by
  unfold k0_pay60 k0_pay51 k0_pay49 k0_pay50
  exact (cell_apply (L := 9) (N := 1152) _ _ 8 (by decide) _ _ p o ⟨8 * 128 + p.val, by omega⟩ rfl).trans
    (rows_apply x w β _ _ _ _ _ _ _ _ _ _ rfl 8 (by decide) p o _ rfl)

/-- Cell (8, 1): number 7 on diagonal 9. -/
theorem cell_73 (x : Vec Ideal S128x8x128 .f32) (w : Vec Ideal S1x128x128 .bf16) (β : Vec Ideal S1x128 .f32) (p o : Fin 128) :
    k0_pay69 (k0_pay61 x w β) (ix2 p o)
      = (∑ k : Fin 128, x (ix3 p ⟨7, by decide⟩ k) * w (ix3 (0 : Fin 1) o k)) + β (ix2 (0 : Fin 1) o) := by
  unfold k0_pay69 k0_pay61
  exact (cell_apply (L := 8) (N := 1024) _ _ 7 (by decide) _ _ p o ⟨7 * 128 + p.val, by omega⟩ rfl).trans
    (rows_apply x w β _ _ _ _ _ _ _ _ _ _ rfl 7 (by decide) p o _ rfl)

/-- Cell (8, 2): number 6 on diagonal 10. -/
theorem cell_74 (x : Vec Ideal S128x7x128 .f32) (w : Vec Ideal S1x128x128 .bf16) (β : Vec Ideal S1x128 .f32) (p o : Fin 128) :
    k0_pay77 (k0_pay70 x w β) (ix2 p o)
      = (∑ k : Fin 128, x (ix3 p ⟨6, by decide⟩ k) * w (ix3 (0 : Fin 1) o k)) + β (ix2 (0 : Fin 1) o) := by
  unfold k0_pay77 k0_pay70
  exact (cell_apply (L := 7) (N := 896) _ _ 6 (by decide) _ _ p o ⟨6 * 128 + p.val, by omega⟩ rfl).trans
    (rows_apply x w β _ _ _ _ _ _ _ _ _ _ rfl 6 (by decide) p o _ rfl)

/-- Cell (8, 3): number 5 on diagonal 11. -/
theorem cell_75 (x : Vec Ideal S128x6x128 .f32) (w : Vec Ideal S1x128x128 .bf16) (β : Vec Ideal S1x128 .f32) (p o : Fin 128) :
    k0_pay84 (k0_pay78 x w β) (ix2 p o)
      = (∑ k : Fin 128, x (ix3 p ⟨5, by decide⟩ k) * w (ix3 (0 : Fin 1) o k)) + β (ix2 (0 : Fin 1) o) := by
  unfold k0_pay84 k0_pay78
  exact (cell_apply (L := 6) (N := 768) _ _ 5 (by decide) _ _ p o ⟨5 * 128 + p.val, by omega⟩ rfl).trans
    (rows_apply x w β _ _ _ _ _ _ _ _ _ _ rfl 5 (by decide) p o _ rfl)

/-- Cell (8, 4): number 4 on diagonal 12. -/
theorem cell_76 (x : Vec Ideal S128x5x128 .f32) (w : Vec Ideal S1x128x128 .bf16) (β : Vec Ideal S1x128 .f32) (p o : Fin 128) :
    k0_pay91 (k0_pay90 x w β) (ix2 p o)
      = (∑ k : Fin 128, x (ix3 p ⟨4, by decide⟩ k) * w (ix3 (0 : Fin 1) o k)) + β (ix2 (0 : Fin 1) o) := by
  unfold k0_pay91 k0_pay90 k0_pay85
  exact (cell_apply (L := 5) (N := 640) _ _ 4 (by decide) _ _ p o ⟨4 * 128 + p.val, by omega⟩ rfl).trans
    (rows_apply x w β _ _ _ _ _ _ _ _ _ _ rfl 4 (by decide) p o _ rfl)

/-- Cell (8, 5): number 3 on diagonal 13. -/
theorem cell_77 (x : Vec Ideal S128x4x128 .f32) (w : Vec Ideal S1x128x128 .bf16) (β : Vec Ideal S1x128 .f32) (p o : Fin 128) :
    k0_pay96 x w β (ix2 p o)
      = (∑ k : Fin 128, x (ix3 p ⟨3, by decide⟩ k) * w (ix3 (0 : Fin 1) o k)) + β (ix2 (0 : Fin 1) o) := by
  unfold k0_pay96 k0_pay92
  exact (cell_apply (L := 4) (N := 512) _ _ 3 (by decide) _ _ p o ⟨3 * 128 + p.val, by omega⟩ rfl).trans
    (rows_apply x w β _ _ _ _ _ _ _ _ _ _ rfl 3 (by decide) p o _ rfl)

/-- Cell (8, 6): number 2 on diagonal 14. -/
theorem cell_78 (x : Vec Ideal S128x3x128 .f32) (w : Vec Ideal S1x128x128 .bf16) (β : Vec Ideal S1x128 .f32) (p o : Fin 128) :
    k0_pay101 (k0_pay97 x) w β (ix2 p o)
      = (∑ k : Fin 128, x (ix3 p ⟨2, by decide⟩ k) * w (ix3 (0 : Fin 1) o k)) + β (ix2 (0 : Fin 1) o) := by
  unfold k0_pay101 k0_pay98 k0_pay97
  exact (cell_apply (L := 3) (N := 384) _ _ 2 (by decide) _ _ p o ⟨2 * 128 + p.val, by omega⟩ rfl).trans
    (rows_apply x w β _ _ _ _ _ _ _ _ _ _ rfl 2 (by decide) p o _ rfl)

/-- Cell (8, 7): number 1 on diagonal 15. -/
theorem cell_79 (x : Vec Ideal S128x2x128 .f32) (w : Vec Ideal S1x128x128 .bf16) (β : Vec Ideal S1x128 .f32) (p o : Fin 128) :
    k0_pay1 (k0_pay102 x w β) (ix2 p o)
      = (∑ k : Fin 128, x (ix3 p ⟨1, by decide⟩ k) * w (ix3 (0 : Fin 1) o k)) + β (ix2 (0 : Fin 1) o) := by
  unfold k0_pay1 k0_pay102
  exact (cell_apply (L := 2) (N := 256) _ _ 1 (by decide) _ _ p o ⟨1 * 128 + p.val, by omega⟩ rfl).trans
    (rows_apply x w β _ _ _ _ _ _ _ _ _ _ rfl 1 (by decide) p o _ rfl)

/-- Cell (8, 8): number 0 on diagonal 16. -/
theorem cell_80 (x : Vec Ideal S128x1x128 .f32) (w : Vec Ideal S1x128x128 .bf16) (β : Vec Ideal S1x128 .f32) (p o : Fin 128) :
    k0_pay2 x w β (ix2 p o)
      = (∑ k : Fin 128, x (ix3 p ⟨0, by decide⟩ k) * w (ix3 (0 : Fin 1) o k)) + β (ix2 (0 : Fin 1) o) := by
  unfold k0_pay2
  exact (single_apply _ _ _ (ix2 p o)).trans
    (rows_apply (L := 1) (N := 128) x w β _ _ _ _ _ _ _ _ _ _ rfl 0 (by decide) p o p (by omega))

end Cert.KernelIdeal.Pieces

end
-- ==== Proof.Board.lean ====
/-
  What both programs compute, as one function of the argument arrays.

  The 9 x 9 board is cut into its 17 anti-diagonals: cell (r, c) lies on diagonal d = r + c, which has
  9 - |d - 8| cells, and is that diagonal's cell number r - max (0, d - 8), counted by increasing row.  Diagonal d has its
  own input x_d of shape [8192, 9 - |d - 8|, 128], its own 128 x 128 weight matrix W[d] and its own bias row β[d]; the board's
  entry at batch element b, cell (r, c) and output channel o is the linear layer

      Σ_k x_d[b, j, k] · W[d, o, k]  +  β[d, o]        (j the cell's number on its diagonal)

  on the extended reals.  Every cell lies on exactly one diagonal, so the closing value 0 is never taken.
-/
import Idealize.ShloMosaic.PureOps.Ideal
import Idealize.ShloMosaic.Lib.ValueIdx

noncomputable section

namespace Cert.Board

open Idealize.ShloMosaic Idealize.ShloMosaic.ValueIdx

/-- Entry (b, j, o) of one diagonal's linear layer x · W[d]ᵀ + β[d], for any number B of batch elements (the whole batch, or the
    128 of them one grid point of the kernel handles). -/
def layer {B L : ℕ} (d : Fin 17) (W : FVec Ideal ⟨3, ![17, 128, 128]⟩ .f32) (β : FVec Ideal ⟨2, ![17, 128]⟩ .f32)
    (x : FVec Ideal ⟨3, ![B, L, 128]⟩ .f32) (b : Fin B) (j : Fin L) (o : Fin 128) : EReal :=
  (∑ k : Fin 128, x (ix3 b j k) * W (ix3 d o k)) + β (ix2 d o)

/-- The board's entry at batch element b, cell (r, c), channel o: the layer of the cell's diagonal r + c at the cell's
    number on it. -/
def boardAt {B : ℕ} (W : FVec Ideal ⟨3, ![17, 128, 128]⟩ .f32) (β : FVec Ideal ⟨2, ![17, 128]⟩ .f32)
    (x0 : FVec Ideal ⟨3, ![B, 1, 128]⟩ .f32) (x1 : FVec Ideal ⟨3, ![B, 2, 128]⟩ .f32) (x2 : FVec Ideal ⟨3, ![B, 3, 128]⟩ .f32) (x3 : FVec Ideal ⟨3, ![B, 4, 128]⟩ .f32) (x4 : FVec Ideal ⟨3, ![B, 5, 128]⟩ .f32) (x5 : FVec Ideal ⟨3, ![B, 6, 128]⟩ .f32) (x6 : FVec Ideal ⟨3, ![B, 7, 128]⟩ .f32) (x7 : FVec Ideal ⟨3, ![B, 8, 128]⟩ .f32) (x8 : FVec Ideal ⟨3, ![B, 9, 128]⟩ .f32) (x9 : FVec Ideal ⟨3, ![B, 8, 128]⟩ .f32) (x10 : FVec Ideal ⟨3, ![B, 7, 128]⟩ .f32) (x11 : FVec Ideal ⟨3, ![B, 6, 128]⟩ .f32) (x12 : FVec Ideal ⟨3, ![B, 5, 128]⟩ .f32) (x13 : FVec Ideal ⟨3, ![B, 4, 128]⟩ .f32) (x14 : FVec Ideal ⟨3, ![B, 3, 128]⟩ .f32) (x15 : FVec Ideal ⟨3, ![B, 2, 128]⟩ .f32) (x16 : FVec Ideal ⟨3, ![B, 1, 128]⟩ .f32)
    (b : Fin B) (r c : Fin 9) (o : Fin 128) : EReal :=
  if r.val + c.val = 16 then layer 16 W β x16 b (Fin.ofNat 1 (r.val - 8)) o else
  if r.val + c.val = 15 then layer 15 W β x15 b (Fin.ofNat 2 (r.val - 7)) o else
  if r.val + c.val = 14 then layer 14 W β x14 b (Fin.ofNat 3 (r.val - 6)) o else
  if r.val + c.val = 13 then layer 13 W β x13 b (Fin.ofNat 4 (r.val - 5)) o else
  if r.val + c.val = 12 then layer 12 W β x12 b (Fin.ofNat 5 (r.val - 4)) o else
  if r.val + c.val = 11 then layer 11 W β x11 b (Fin.ofNat 6 (r.val - 3)) o else
  if r.val + c.val = 10 then layer 10 W β x10 b (Fin.ofNat 7 (r.val - 2)) o else
  if r.val + c.val = 9 then layer 9 W β x9 b (Fin.ofNat 8 (r.val - 1)) o else
  if r.val + c.val = 8 then layer 8 W β x8 b (Fin.ofNat 9 (r.val - 0)) o else
  if r.val + c.val = 7 then layer 7 W β x7 b (Fin.ofNat 8 (r.val - 0)) o else
  if r.val + c.val = 6 then layer 6 W β x6 b (Fin.ofNat 7 (r.val - 0)) o else
  if r.val + c.val = 5 then layer 5 W β x5 b (Fin.ofNat 6 (r.val - 0)) o else
  if r.val + c.val = 4 then layer 4 W β x4 b (Fin.ofNat 5 (r.val - 0)) o else
  if r.val + c.val = 3 then layer 3 W β x3 b (Fin.ofNat 4 (r.val - 0)) o else
  if r.val + c.val = 2 then layer 2 W β x2 b (Fin.ofNat 3 (r.val - 0)) o else
  if r.val + c.val = 1 then layer 1 W β x1 b (Fin.ofNat 2 (r.val - 0)) o else
  if r.val + c.val = 0 then layer 0 W β x0 b (Fin.ofNat 1 (r.val - 0)) o else
  0

/-- The whole board as an array of shape [8192, 9, 9, 128]. -/
def board (W : FVec Ideal ⟨3, ![17, 128, 128]⟩ .f32) (β : FVec Ideal ⟨2, ![17, 128]⟩ .f32)
    (x0 : FVec Ideal ⟨3, ![8192, 1, 128]⟩ .f32) (x1 : FVec Ideal ⟨3, ![8192, 2, 128]⟩ .f32) (x2 : FVec Ideal ⟨3, ![8192, 3, 128]⟩ .f32) (x3 : FVec Ideal ⟨3, ![8192, 4, 128]⟩ .f32) (x4 : FVec Ideal ⟨3, ![8192, 5, 128]⟩ .f32) (x5 : FVec Ideal ⟨3, ![8192, 6, 128]⟩ .f32) (x6 : FVec Ideal ⟨3, ![8192, 7, 128]⟩ .f32) (x7 : FVec Ideal ⟨3, ![8192, 8, 128]⟩ .f32) (x8 : FVec Ideal ⟨3, ![8192, 9, 128]⟩ .f32) (x9 : FVec Ideal ⟨3, ![8192, 8, 128]⟩ .f32) (x10 : FVec Ideal ⟨3, ![8192, 7, 128]⟩ .f32) (x11 : FVec Ideal ⟨3, ![8192, 6, 128]⟩ .f32) (x12 : FVec Ideal ⟨3, ![8192, 5, 128]⟩ .f32) (x13 : FVec Ideal ⟨3, ![8192, 4, 128]⟩ .f32) (x14 : FVec Ideal ⟨3, ![8192, 3, 128]⟩ .f32) (x15 : FVec Ideal ⟨3, ![8192, 2, 128]⟩ .f32) (x16 : FVec Ideal ⟨3, ![8192, 1, 128]⟩ .f32) :
    FVec Ideal ⟨4, ![8192, 9, 9, 128]⟩ .f32 :=
  fun i => boardAt W β x0 x1 x2 x3 x4 x5 x6 x7 x8 x9 x10 x11 x12 x13 x14 x15 x16 (i 0) (i 1) (i 2) (i 3)

end Cert.Board

end
-- ==== Proof.KerFlat.lean ====
/-
  The board with its two cell axes and its channel axis flattened into one.

  The kernel produces the board as a matrix with one row per batch element and 81·128 columns: column (9·r + c)·128 + o holds
  cell (r, c), channel o.  Three facts about that layout, for any number of batch elements:
  the flattened board at a column named by (r, c, o) is the board's entry there; the flattened board of 128 consecutive batch
  elements' inputs is those rows of the whole batch's flattened board; and the flattened board of the whole batch, viewed as
  [8192, 9, 9, 128], is the board.
-/
import Idealize.ShloMosaic.Lib.Pipeline.Value
import proofs.«141148_j40656160424525_2_alg».proof.Proof.Board

noncomputable section

namespace Cert.Board

open Idealize.ShloMosaic Idealize.ShloMosaic.ValueIdx

section Flat

variable {B : ℕ} (W : FVec Ideal ⟨3, ![17, 128, 128]⟩ .f32) (β : FVec Ideal ⟨2, ![17, 128]⟩ .f32)
  (x0 : FVec Ideal ⟨3, ![B, 1, 128]⟩ .f32) (x1 : FVec Ideal ⟨3, ![B, 2, 128]⟩ .f32) (x2 : FVec Ideal ⟨3, ![B, 3, 128]⟩ .f32) (x3 : FVec Ideal ⟨3, ![B, 4, 128]⟩ .f32) (x4 : FVec Ideal ⟨3, ![B, 5, 128]⟩ .f32) (x5 : FVec Ideal ⟨3, ![B, 6, 128]⟩ .f32) (x6 : FVec Ideal ⟨3, ![B, 7, 128]⟩ .f32) (x7 : FVec Ideal ⟨3, ![B, 8, 128]⟩ .f32) (x8 : FVec Ideal ⟨3, ![B, 9, 128]⟩ .f32) (x9 : FVec Ideal ⟨3, ![B, 8, 128]⟩ .f32) (x10 : FVec Ideal ⟨3, ![B, 7, 128]⟩ .f32) (x11 : FVec Ideal ⟨3, ![B, 6, 128]⟩ .f32) (x12 : FVec Ideal ⟨3, ![B, 5, 128]⟩ .f32) (x13 : FVec Ideal ⟨3, ![B, 4, 128]⟩ .f32) (x14 : FVec Ideal ⟨3, ![B, 3, 128]⟩ .f32) (x15 : FVec Ideal ⟨3, ![B, 2, 128]⟩ .f32) (x16 : FVec Ideal ⟨3, ![B, 1, 128]⟩ .f32)

/-- The flattened board: row b, column n holds cell (n / 1152, n / 128 mod 9), channel n mod 128, of batch element b. -/
def flatBoard : FVec Ideal ⟨2, ![B, 10368]⟩ .f32 := fun i =>
  boardAt W β x0 x1 x2 x3 x4 x5 x6 x7 x8 x9 x10 x11 x12 x13 x14 x15 x16 (i 0) (Fin.ofNat 9 ((i 1).val / 1152)) (Fin.ofNat 9 ((i 1).val / 128 % 9))
    (Fin.ofNat 128 ((i 1).val % 128))

/-- At the column of cell (r, c), channel o, the flattened board is the board's entry. -/
theorem flatBoard_at (y : (⟨2, ![B, 10368]⟩ : Shape).Idx) (b : Fin B) (r c : Fin 9) (o : Fin 128) (h0 : y 0 = b)
    (h1 : (y 1).val = (9 * r.val + c.val) * 128 + o.val) :
    flatBoard W β x0 x1 x2 x3 x4 x5 x6 x7 x8 x9 x10 x11 x12 x13 x14 x15 x16 y = boardAt W β x0 x1 x2 x3 x4 x5 x6 x7 x8 x9 x10 x11 x12 x13 x14 x15 x16 b r c o := by
  have hr := r.isLt; have hc := c.isLt; have ho := o.isLt
  have e1 : Fin.ofNat 9 ((y 1).val / 1152) = r := by apply Fin.ext; rw [h1]; simp only [Fin.ofNat]; omega
  have e2 : Fin.ofNat 9 ((y 1).val / 128 % 9) = c := by apply Fin.ext; rw [h1]; simp only [Fin.ofNat]; omega
  have e3 : Fin.ofNat 128 ((y 1).val % 128) = o := by apply Fin.ext; rw [h1]; simp only [Fin.ofNat]; omega
  unfold flatBoard
  rw [e1, e2, e3, h0]

end Flat

/-- x holds batch elements t·128 … t·128 + 127 of X. -/
def BlockOf (t : ℕ) {L : ℕ} (x : FVec Ideal ⟨3, ![128, L, 128]⟩ .f32) (X : FVec Ideal ⟨3, ![8192, L, 128]⟩ .f32) : Prop :=
  ∀ (p : Fin 128) (j : Fin L) (k : Fin 128) (hP : t * 128 + p.val < 8192), x (ix3 p j k) = X (ix3 ⟨t * 128 + p.val, hP⟩ j k)

/-- One diagonal's layer over the inputs of 128 consecutive batch elements is the layer over the whole batch's input at batch
    element t·128 + p. -/
theorem layer_block {L : ℕ} (d : Fin 17) (W : FVec Ideal ⟨3, ![17, 128, 128]⟩ .f32) (β : FVec Ideal ⟨2, ![17, 128]⟩ .f32)
    (x : FVec Ideal ⟨3, ![128, L, 128]⟩ .f32) (X : FVec Ideal ⟨3, ![8192, L, 128]⟩ .f32) (t : ℕ) (h : BlockOf t x X)
    (p : Fin 128) (hP : t * 128 + p.val < 8192) (j : Fin L) (o : Fin 128) :
    layer d W β x p j o = layer d W β X ⟨t * 128 + p.val, hP⟩ j o := by
  unfold layer
  congr 1
  exact Finset.sum_congr rfl fun k _ => by rw [h p j k hP]

/-- The board of 128 consecutive batch elements' inputs, read at batch element p, is the whole batch's board at batch
    element t·128 + p: every entry depends on its own batch element's inputs only. -/
theorem boardAt_block (W : FVec Ideal ⟨3, ![17, 128, 128]⟩ .f32) (β : FVec Ideal ⟨2, ![17, 128]⟩ .f32)
    (x0 : FVec Ideal ⟨3, ![128, 1, 128]⟩ .f32) (x1 : FVec Ideal ⟨3, ![128, 2, 128]⟩ .f32) (x2 : FVec Ideal ⟨3, ![128, 3, 128]⟩ .f32) (x3 : FVec Ideal ⟨3, ![128, 4, 128]⟩ .f32) (x4 : FVec Ideal ⟨3, ![128, 5, 128]⟩ .f32) (x5 : FVec Ideal ⟨3, ![128, 6, 128]⟩ .f32) (x6 : FVec Ideal ⟨3, ![128, 7, 128]⟩ .f32) (x7 : FVec Ideal ⟨3, ![128, 8, 128]⟩ .f32) (x8 : FVec Ideal ⟨3, ![128, 9, 128]⟩ .f32) (x9 : FVec Ideal ⟨3, ![128, 8, 128]⟩ .f32) (x10 : FVec Ideal ⟨3, ![128, 7, 128]⟩ .f32) (x11 : FVec Ideal ⟨3, ![128, 6, 128]⟩ .f32) (x12 : FVec Ideal ⟨3, ![128, 5, 128]⟩ .f32) (x13 : FVec Ideal ⟨3, ![128, 4, 128]⟩ .f32) (x14 : FVec Ideal ⟨3, ![128, 3, 128]⟩ .f32) (x15 : FVec Ideal ⟨3, ![128, 2, 128]⟩ .f32) (x16 : FVec Ideal ⟨3, ![128, 1, 128]⟩ .f32)
    (X0 : FVec Ideal ⟨3, ![8192, 1, 128]⟩ .f32) (X1 : FVec Ideal ⟨3, ![8192, 2, 128]⟩ .f32) (X2 : FVec Ideal ⟨3, ![8192, 3, 128]⟩ .f32) (X3 : FVec Ideal ⟨3, ![8192, 4, 128]⟩ .f32) (X4 : FVec Ideal ⟨3, ![8192, 5, 128]⟩ .f32) (X5 : FVec Ideal ⟨3, ![8192, 6, 128]⟩ .f32) (X6 : FVec Ideal ⟨3, ![8192, 7, 128]⟩ .f32) (X7 : FVec Ideal ⟨3, ![8192, 8, 128]⟩ .f32) (X8 : FVec Ideal ⟨3, ![8192, 9, 128]⟩ .f32) (X9 : FVec Ideal ⟨3, ![8192, 8, 128]⟩ .f32) (X10 : FVec Ideal ⟨3, ![8192, 7, 128]⟩ .f32) (X11 : FVec Ideal ⟨3, ![8192, 6, 128]⟩ .f32) (X12 : FVec Ideal ⟨3, ![8192, 5, 128]⟩ .f32) (X13 : FVec Ideal ⟨3, ![8192, 4, 128]⟩ .f32) (X14 : FVec Ideal ⟨3, ![8192, 3, 128]⟩ .f32) (X15 : FVec Ideal ⟨3, ![8192, 2, 128]⟩ .f32) (X16 : FVec Ideal ⟨3, ![8192, 1, 128]⟩ .f32)
    (t : ℕ) (h0 : BlockOf t x0 X0) (h1 : BlockOf t x1 X1) (h2 : BlockOf t x2 X2) (h3 : BlockOf t x3 X3) (h4 : BlockOf t x4 X4) (h5 : BlockOf t x5 X5) (h6 : BlockOf t x6 X6) (h7 : BlockOf t x7 X7) (h8 : BlockOf t x8 X8) (h9 : BlockOf t x9 X9) (h10 : BlockOf t x10 X10) (h11 : BlockOf t x11 X11) (h12 : BlockOf t x12 X12) (h13 : BlockOf t x13 X13) (h14 : BlockOf t x14 X14) (h15 : BlockOf t x15 X15) (h16 : BlockOf t x16 X16)
    (p : Fin 128) (hP : t * 128 + p.val < 8192) (r c : Fin 9) (o : Fin 128) :
    boardAt W β x0 x1 x2 x3 x4 x5 x6 x7 x8 x9 x10 x11 x12 x13 x14 x15 x16 p r c o = boardAt W β X0 X1 X2 X3 X4 X5 X6 X7 X8 X9 X10 X11 X12 X13 X14 X15 X16 ⟨t * 128 + p.val, hP⟩ r c o := by
  unfold boardAt
  rw [layer_block 16 W β x16 X16 t h16 p hP,
    layer_block 15 W β x15 X15 t h15 p hP,
    layer_block 14 W β x14 X14 t h14 p hP,
    layer_block 13 W β x13 X13 t h13 p hP,
    layer_block 12 W β x12 X12 t h12 p hP,
    layer_block 11 W β x11 X11 t h11 p hP,
    layer_block 10 W β x10 X10 t h10 p hP,
    layer_block 9 W β x9 X9 t h9 p hP,
    layer_block 8 W β x8 X8 t h8 p hP,
    layer_block 7 W β x7 X7 t h7 p hP,
    layer_block 6 W β x6 X6 t h6 p hP,
    layer_block 5 W β x5 X5 t h5 p hP,
    layer_block 4 W β x4 X4 t h4 p hP,
    layer_block 3 W β x3 X3 t h3 p hP,
    layer_block 2 W β x2 X2 t h2 p hP,
    layer_block 1 W β x1 X1 t h1 p hP,
    layer_block 0 W β x0 X0 t h0 p hP]

/-- The flattened board of the whole batch, viewed as [8192, 9, 9, 128], is the board. -/
theorem shapeCast_flatBoard (W : FVec Ideal ⟨3, ![17, 128, 128]⟩ .f32) (β : FVec Ideal ⟨2, ![17, 128]⟩ .f32)
    (X0 : FVec Ideal ⟨3, ![8192, 1, 128]⟩ .f32) (X1 : FVec Ideal ⟨3, ![8192, 2, 128]⟩ .f32) (X2 : FVec Ideal ⟨3, ![8192, 3, 128]⟩ .f32) (X3 : FVec Ideal ⟨3, ![8192, 4, 128]⟩ .f32) (X4 : FVec Ideal ⟨3, ![8192, 5, 128]⟩ .f32) (X5 : FVec Ideal ⟨3, ![8192, 6, 128]⟩ .f32) (X6 : FVec Ideal ⟨3, ![8192, 7, 128]⟩ .f32) (X7 : FVec Ideal ⟨3, ![8192, 8, 128]⟩ .f32) (X8 : FVec Ideal ⟨3, ![8192, 9, 128]⟩ .f32) (X9 : FVec Ideal ⟨3, ![8192, 8, 128]⟩ .f32) (X10 : FVec Ideal ⟨3, ![8192, 7, 128]⟩ .f32) (X11 : FVec Ideal ⟨3, ![8192, 6, 128]⟩ .f32) (X12 : FVec Ideal ⟨3, ![8192, 5, 128]⟩ .f32) (X13 : FVec Ideal ⟨3, ![8192, 4, 128]⟩ .f32) (X14 : FVec Ideal ⟨3, ![8192, 3, 128]⟩ .f32) (X15 : FVec Ideal ⟨3, ![8192, 2, 128]⟩ .f32) (X16 : FVec Ideal ⟨3, ![8192, 1, 128]⟩ .f32)
    (h : (⟨2, ![8192, 10368]⟩ : Shape).ShapeCasts ⟨4, ![8192, 9, 9, 128]⟩) :
    shapeCast ⟨4, ![8192, 9, 9, 128]⟩ (flatBoard W β X0 X1 X2 X3 X4 X5 X6 X7 X8 X9 X10 X11 X12 X13 X14 X15 X16) h = board W β X0 X1 X2 X3 X4 X5 X6 X7 X8 X9 X10 X11 X12 X13 X14 X15 X16 := by
  funext i
  obtain ⟨b, r, c, o, rfl⟩ : ∃ (b : Fin 8192) (r c : Fin 9) (o : Fin 128), i = ix4 b r c o := ⟨i 0, i 1, i 2, i 3, eq_ix4 i⟩
  have hr := r.isLt; have hc := c.isLt; have ho := o.isLt
  rw [shapeCast_apply _ h (ix4 b r c o) (ix2 b ⟨(9 * r.val + c.val) * 128 + o.val, by omega⟩)
    (by rw [Shape.rowMajor_val_two, Shape.rowMajor_val_four]
        show b.val * 10368 + ((9 * r.val + c.val) * 128 + o.val) = ((b.val * 9 + r.val) * 9 + c.val) * 128 + o.val
        ring)]
  exact flatBoard_at W β X0 X1 X2 X3 X4 X5 X6 X7 X8 X9 X10 X11 X12 X13 X14 X15 X16 _ b r c o rfl rfl

end Cert.Board

end
-- ==== Proof.KerLoads.lean ====
/-
  One grid point's loads, read at an entry.

  The body loads a diagonal's whole input block, the 128 x 128 weight matrix of diagonal d out of the stack of 17 (the slab at
  offset d along the first axis) and that diagonal's bias row (row d of the 17).  Entry (0, o, k) of the slab is W[d, o, k],
  entry (0, o) of the row is β[d, o], and the whole block loaded is the block.  So a cell's value written over the loads,
  Σ_k x[p, j, k] · slab[0, o, k] + row[0, o], is the diagonal's layer of the block's arrays.
-/
import Idealize.ShloMosaic.Lib.Pipeline.FrameBody
import Idealize.ShloMosaic.Lib.Pipeline.Value
import proofs.«141148_j40656160424525_2_alg».proof.Proof.Board

noncomputable section

namespace Cert.Board

open Idealize.ShloMosaic Idealize.ShloMosaic.ValueIdx

/-- Entry (0, o, k) of the weight slab at offset d is W[d, o, k]. -/
theorem ld_slab (X : Vec Ideal ⟨3, ![17, 128, 128]⟩ .bf16) (dn : ℕ) (hd : dn < 17)
    (inb : ∀ a, (![dn, 0, 0] : Fin 3 → ℕ) a + (⟨3, ![1, 128, 128]⟩ : Shape).size a ≤ (⟨3, ![17, 128, 128]⟩ : Shape).size a)
    (o k : Fin 128) :
    View.ld X (Rect.unit (s := ⟨3, ![17, 128, 128]⟩) ![dn, 0, 0] (⟨3, ![1, 128, 128]⟩ : Shape).size inb) (ix3 (0 : Fin 1) o k)
      = X (ix3 ⟨dn, hd⟩ o k) := by
  show X _ = X _
  refine congrArg X (funext fun a => Fin.ext ?_)
  match a with
  | ⟨0, _⟩ => show dn + 1 * 0 = dn; omega
  | ⟨1, _⟩ => show 0 + 1 * o.val = o.val; omega
  | ⟨2, _⟩ => show 0 + 1 * k.val = k.val; omega

/-- Entry (0, o) of the bias row at offset d is β[d, o]. -/
theorem ld_row (X : Vec Ideal ⟨2, ![17, 128]⟩ .f32) (dn : ℕ) (hd : dn < 17)
    (inb : ∀ a, (![dn, 0] : Fin 2 → ℕ) a + (⟨2, ![1, 128]⟩ : Shape).size a ≤ (⟨2, ![17, 128]⟩ : Shape).size a)
    (o : Fin 128) :
    View.ld X (Rect.unit (s := ⟨2, ![17, 128]⟩) ![dn, 0] (⟨2, ![1, 128]⟩ : Shape).size inb) (ix2 (0 : Fin 1) o)
      = X (ix2 ⟨dn, hd⟩ o) := by
  show X _ = X _
  refine congrArg X (funext fun a => Fin.ext ?_)
  match a with
  | ⟨0, _⟩ => show dn + 1 * 0 = dn; omega
  | ⟨1, _⟩ => show 0 + 1 * o.val = o.val; omega

theorem zero3 : (![0, 0, 0] : Fin 3 → ℕ) = fun _ => 0 := funext fun a => by fin_cases a <;> rfl

/-- A cell's value over the three loads is the diagonal's layer of the block's arrays. -/
theorem layer_of_loads {L : ℕ} (dn : ℕ) (hd : dn < 17)
    (X0 : Vec Ideal ⟨3, ![17, 128, 128]⟩ .bf16) (X1 : Vec Ideal ⟨2, ![17, 128]⟩ .f32) (x : Vec Ideal ⟨3, ![128, L, 128]⟩ .f32)
    (inbX : ∀ a, (![0, 0, 0] : Fin 3 → ℕ) a + (⟨3, ![128, L, 128]⟩ : Shape).size a ≤ (⟨3, ![128, L, 128]⟩ : Shape).size a)
    (inbW : ∀ a, (![dn, 0, 0] : Fin 3 → ℕ) a + (⟨3, ![1, 128, 128]⟩ : Shape).size a ≤ (⟨3, ![17, 128, 128]⟩ : Shape).size a)
    (inbB : ∀ a, (![dn, 0] : Fin 2 → ℕ) a + (⟨2, ![1, 128]⟩ : Shape).size a ≤ (⟨2, ![17, 128]⟩ : Shape).size a)
    (p : Fin 128) (j : Fin L) (o : Fin 128) :
    (∑ k : Fin 128,
        View.ld x (Rect.unit (s := ⟨3, ![128, L, 128]⟩) ![0, 0, 0] (⟨3, ![128, L, 128]⟩ : Shape).size inbX) (ix3 p j k)
          * View.ld X0 (Rect.unit (s := ⟨3, ![17, 128, 128]⟩) ![dn, 0, 0] (⟨3, ![1, 128, 128]⟩ : Shape).size inbW) (ix3 (0 : Fin 1) o k))
      + View.ld X1 (Rect.unit (s := ⟨2, ![17, 128]⟩) ![dn, 0] (⟨2, ![1, 128]⟩ : Shape).size inbB) (ix2 (0 : Fin 1) o)
      = layer ⟨dn, hd⟩ X0 X1 x p j o := by
  unfold layer
  rw [View.ld_unit_zero zero3 inbX x, ld_row X1 dn hd inbB o]
  congr 1
  exact Finset.sum_congr rfl fun k _ => by rw [ld_slab X0 dn hd inbW o k]

end Cert.Board

end
-- ==== Proof.KerBlock.lean ====
/-
  What one grid point leaves in its output block.

  The block has one row per batch element of the point (128 of them) and 81·128 columns.  The body's 81 stores each write the 128
  columns of one board cell: store q = 9·r + c writes columns q·128 … q·128 + 127 with cell (r, c)'s 128 x 128 matrix.  Each stored
  matrix is the flattened board of the point's input blocks restricted to its columns, the stores tile the block, and so the
  block after the body IS the flattened board of the point's input blocks.
-/
import proofs.«141148_j40656160424525_2_alg».proof.Proof.Gen.KernelIdeal.Frame
import proofs.«141148_j40656160424525_2_alg».proof.Proof.KerPieces
import proofs.«141148_j40656160424525_2_alg».proof.Proof.KerFlat
import proofs.«141148_j40656160424525_2_alg».proof.Proof.KerLoads

set_option maxRecDepth 16384

noncomputable section

namespace Cert.KernelIdeal.Block

open Idealize.ShloMosaic Idealize.ShloMosaic.ValueIdx Cert.KernelIdeal Cert.KernelIdeal.Gen Cert.Board

variable (x0 : Vec Ideal S17x128x128 .bf16) (x1 : Vec Ideal S17x128 .f32) (x2 : Vec Ideal S128x1x128 .f32) (x3 : Vec Ideal S128x2x128 .f32) (x4 : Vec Ideal S128x3x128 .f32) (x5 : Vec Ideal S128x4x128 .f32) (x6 : Vec Ideal S128x5x128 .f32) (x7 : Vec Ideal S128x6x128 .f32) (x8 : Vec Ideal S128x7x128 .f32) (x9 : Vec Ideal S128x8x128 .f32) (x10 : Vec Ideal S128x9x128 .f32) (x11 : Vec Ideal S128x8x128 .f32) (x12 : Vec Ideal S128x7x128 .f32) (x13 : Vec Ideal S128x6x128 .f32) (x14 : Vec Ideal S128x5x128 .f32) (x15 : Vec Ideal S128x4x128 .f32) (x16 : Vec Ideal S128x3x128 .f32) (x17 : Vec Ideal S128x2x128 .f32) (x18 : Vec Ideal S128x1x128 .f32)

/-- Store 0 writes cell (0, 0), cell 0 of diagonal 0, to columns 0 … 127. -/
theorem store_0 : ∀ x : r0_3.shape.Idx,
    (k0_pay3 (View.ld x2 r0_0) (View.ld x0 r0_1) (View.ld x1 r0_2)) x = flatBoard x0 x1 x2 x3 x4 x5 x6 x7 x8 x9 x10 x11 x12 x13 x14 x15 x16 x17 x18 (r0_3.emb x) := by
  intro x
  obtain ⟨p, o, rfl⟩ : ∃ (p o : Fin 128), x = ix2 p o := ⟨x 0, x 1, eq_ix2 x⟩
  rw [Pieces.cell_0, flatBoard_at x0 x1 x2 x3 x4 x5 x6 x7 x8 x9 x10 x11 x12 x13 x14 x15 x16 x17 x18 _ p ⟨0, by decide⟩ ⟨0, by decide⟩ o
      (Fin.ext (by show 0 + 1 * p.val = p.val; omega)) (by show 0 + 1 * o.val = (9 * 0 + 0) * 128 + o.val; omega)]
  exact layer_of_loads 0 (by decide) x0 x1 x2 _ _ _ p ⟨0, by decide⟩ o

/-- Store 1 writes cell (0, 1), cell 0 of diagonal 1, to columns 128 … 255. -/
theorem store_1 : ∀ x : r0_7.shape.Idx,
    (k0_pay5 (View.ld x3 r0_4) (View.ld x0 r0_5) (View.ld x1 r0_6)) x = flatBoard x0 x1 x2 x3 x4 x5 x6 x7 x8 x9 x10 x11 x12 x13 x14 x15 x16 x17 x18 (r0_7.emb x) := by
  intro x
  obtain ⟨p, o, rfl⟩ : ∃ (p o : Fin 128), x = ix2 p o := ⟨x 0, x 1, eq_ix2 x⟩
  rw [Pieces.cell_1, flatBoard_at x0 x1 x2 x3 x4 x5 x6 x7 x8 x9 x10 x11 x12 x13 x14 x15 x16 x17 x18 _ p ⟨0, by decide⟩ ⟨1, by decide⟩ o
      (Fin.ext (by show 0 + 1 * p.val = p.val; omega)) (by show 128 + 1 * o.val = (9 * 0 + 1) * 128 + o.val; omega)]
  exact layer_of_loads 1 (by decide) x0 x1 x3 _ _ _ p ⟨0, by decide⟩ o

/-- Store 2 writes cell (0, 2), cell 0 of diagonal 2, to columns 256 … 383. -/
theorem store_2 : ∀ x : r0_12.shape.Idx,
    (k0_pay8 (View.ld x4 r0_9) (View.ld x0 r0_10) (View.ld x1 r0_11)) x = flatBoard x0 x1 x2 x3 x4 x5 x6 x7 x8 x9 x10 x11 x12 x13 x14 x15 x16 x17 x18 (r0_12.emb x) := by
  intro x
  obtain ⟨p, o, rfl⟩ : ∃ (p o : Fin 128), x = ix2 p o := ⟨x 0, x 1, eq_ix2 x⟩
  rw [Pieces.cell_2, flatBoard_at x0 x1 x2 x3 x4 x5 x6 x7 x8 x9 x10 x11 x12 x13 x14 x15 x16 x17 x18 _ p ⟨0, by decide⟩ ⟨2, by decide⟩ o
      (Fin.ext (by show 0 + 1 * p.val = p.val; omega)) (by show 256 + 1 * o.val = (9 * 0 + 2) * 128 + o.val; omega)]
  exact layer_of_loads 2 (by decide) x0 x1 x4 _ _ _ p ⟨0, by decide⟩ o

/-- Store 3 writes cell (0, 3), cell 0 of diagonal 3, to columns 384 … 511. -/
theorem store_3 : ∀ x : r0_18.shape.Idx,
    (k0_pay14 (k0_pay11 (View.ld x5 r0_15)) (k0_pay12 (View.ld x0 r0_16)) (View.ld x1 r0_17)) x = flatBoard x0 x1 x2 x3 x4 x5 x6 x7 x8 x9 x10 x11 x12 x13 x14 x15 x16 x17 x18 (r0_18.emb x) := by
  intro x
  obtain ⟨p, o, rfl⟩ : ∃ (p o : Fin 128), x = ix2 p o := ⟨x 0, x 1, eq_ix2 x⟩
  rw [Pieces.cell_3, flatBoard_at x0 x1 x2 x3 x4 x5 x6 x7 x8 x9 x10 x11 x12 x13 x14 x15 x16 x17 x18 _ p ⟨0, by decide⟩ ⟨3, by decide⟩ o
      (Fin.ext (by show 0 + 1 * p.val = p.val; omega)) (by show 384 + 1 * o.val = (9 * 0 + 3) * 128 + o.val; omega)]
  exact layer_of_loads 3 (by decide) x0 x1 x5 _ _ _ p ⟨0, by decide⟩ o

/-- Store 4 writes cell (0, 4), cell 0 of diagonal 4, to columns 512 … 639. -/
theorem store_4 : ∀ x : r0_25.shape.Idx,
    (k0_pay19 (View.ld x6 r0_22) (View.ld x0 r0_23) (View.ld x1 r0_24)) x = flatBoard x0 x1 x2 x3 x4 x5 x6 x7 x8 x9 x10 x11 x12 x13 x14 x15 x16 x17 x18 (r0_25.emb x) := by
  intro x
  obtain ⟨p, o, rfl⟩ : ∃ (p o : Fin 128), x = ix2 p o := ⟨x 0, x 1, eq_ix2 x⟩
  rw [Pieces.cell_4, flatBoard_at x0 x1 x2 x3 x4 x5 x6 x7 x8 x9 x10 x11 x12 x13 x14 x15 x16 x17 x18 _ p ⟨0, by decide⟩ ⟨4, by decide⟩ o
      (Fin.ext (by show 0 + 1 * p.val = p.val; omega)) (by show 512 + 1 * o.val = (9 * 0 + 4) * 128 + o.val; omega)]
  exact layer_of_loads 4 (by decide) x0 x1 x6 _ _ _ p ⟨0, by decide⟩ o

/-- Store 5 writes cell (0, 5), cell 0 of diagonal 5, to columns 640 … 767. -/
theorem store_5 : ∀ x : r0_33.shape.Idx,
    (k0_pay25 (View.ld x7 r0_30) (View.ld x0 r0_31) (View.ld x1 r0_32)) x = flatBoard x0 x1 x2 x3 x4 x5 x6 x7 x8 x9 x10 x11 x12 x13 x14 x15 x16 x17 x18 (r0_33.emb x) := by
  intro x
  obtain ⟨p, o, rfl⟩ : ∃ (p o : Fin 128), x = ix2 p o := ⟨x 0, x 1, eq_ix2 x⟩
  rw [Pieces.cell_5, flatBoard_at x0 x1 x2 x3 x4 x5 x6 x7 x8 x9 x10 x11 x12 x13 x14 x15 x16 x17 x18 _ p ⟨0, by decide⟩ ⟨5, by decide⟩ o
      (Fin.ext (by show 0 + 1 * p.val = p.val; omega)) (by show 640 + 1 * o.val = (9 * 0 + 5) * 128 + o.val; omega)]
  exact layer_of_loads 5 (by decide) x0 x1 x7 _ _ _ p ⟨0, by decide⟩ o

/-- Store 6 writes cell (0, 6), cell 0 of diagonal 6, to columns 768 … 895. -/
theorem store_6 : ∀ x : r0_42.shape.Idx,
    (k0_pay32 (View.ld x8 r0_39) (View.ld x0 r0_40) (View.ld x1 r0_41)) x = flatBoard x0 x1 x2 x3 x4 x5 x6 x7 x8 x9 x10 x11 x12 x13 x14 x15 x16 x17 x18 (r0_42.emb x) := by
  intro x
  obtain ⟨p, o, rfl⟩ : ∃ (p o : Fin 128), x = ix2 p o := ⟨x 0, x 1, eq_ix2 x⟩
  rw [Pieces.cell_6, flatBoard_at x0 x1 x2 x3 x4 x5 x6 x7 x8 x9 x10 x11 x12 x13 x14 x15 x16 x17 x18 _ p ⟨0, by decide⟩ ⟨6, by decide⟩ o
      (Fin.ext (by show 0 + 1 * p.val = p.val; omega)) (by show 768 + 1 * o.val = (9 * 0 + 6) * 128 + o.val; omega)]
  exact layer_of_loads 6 (by decide) x0 x1 x8 _ _ _ p ⟨0, by decide⟩ o

/-- Store 7 writes cell (0, 7), cell 0 of diagonal 7, to columns 896 … 1023. -/
theorem store_7 : ∀ x : r0_52.shape.Idx,
    (k0_pay41 (View.ld x9 r0_49) (View.ld x0 r0_50) (View.ld x1 r0_51)) x = flatBoard x0 x1 x2 x3 x4 x5 x6 x7 x8 x9 x10 x11 x12 x13 x14 x15 x16 x17 x18 (r0_52.emb x) := by
  intro x
  obtain ⟨p, o, rfl⟩ : ∃ (p o : Fin 128), x = ix2 p o := ⟨x 0, x 1, eq_ix2 x⟩
  rw [Pieces.cell_7, flatBoard_at x0 x1 x2 x3 x4 x5 x6 x7 x8 x9 x10 x11 x12 x13 x14 x15 x16 x17 x18 _ p ⟨0, by decide⟩ ⟨7, by decide⟩ o
      (Fin.ext (by show 0 + 1 * p.val = p.val; omega)) (by show 896 + 1 * o.val = (9 * 0 + 7) * 128 + o.val; omega)]
  exact layer_of_loads 7 (by decide) x0 x1 x9 _ _ _ p ⟨0, by decide⟩ o

/-- Store 8 writes cell (0, 8), cell 0 of diagonal 8, to columns 1024 … 1151. -/
theorem store_8 : ∀ x : r0_63.shape.Idx,
    (k0_pay52 (k0_pay49 (View.ld x10 r0_60) (View.ld x0 r0_61)) (k0_pay50 (View.ld x1 r0_62))) x = flatBoard x0 x1 x2 x3 x4 x5 x6 x7 x8 x9 x10 x11 x12 x13 x14 x15 x16 x17 x18 (r0_63.emb x) := by
  intro x
  obtain ⟨p, o, rfl⟩ : ∃ (p o : Fin 128), x = ix2 p o := ⟨x 0, x 1, eq_ix2 x⟩
  rw [Pieces.cell_8, flatBoard_at x0 x1 x2 x3 x4 x5 x6 x7 x8 x9 x10 x11 x12 x13 x14 x15 x16 x17 x18 _ p ⟨0, by decide⟩ ⟨8, by decide⟩ o
      (Fin.ext (by show 0 + 1 * p.val = p.val; omega)) (by show 1024 + 1 * o.val = (9 * 0 + 8) * 128 + o.val; omega)]
  exact layer_of_loads 8 (by decide) x0 x1 x10 _ _ _ p ⟨0, by decide⟩ o

/-- Store 9 writes cell (1, 0), cell 1 of diagonal 1, to columns 1152 … 1279. -/
theorem store_9 : ∀ x : r0_8.shape.Idx,
    (k0_pay6 (View.ld x3 r0_4) (View.ld x0 r0_5) (View.ld x1 r0_6)) x = flatBoard x0 x1 x2 x3 x4 x5 x6 x7 x8 x9 x10 x11 x12 x13 x14 x15 x16 x17 x18 (r0_8.emb x) := by
  intro x
  obtain ⟨p, o, rfl⟩ : ∃ (p o : Fin 128), x = ix2 p o := ⟨x 0, x 1, eq_ix2 x⟩
  rw [Pieces.cell_9, flatBoard_at x0 x1 x2 x3 x4 x5 x6 x7 x8 x9 x10 x11 x12 x13 x14 x15 x16 x17 x18 _ p ⟨1, by decide⟩ ⟨0, by decide⟩ o
      (Fin.ext (by show 0 + 1 * p.val = p.val; omega)) (by show 1152 + 1 * o.val = (9 * 1 + 0) * 128 + o.val; omega)]
  exact layer_of_loads 1 (by decide) x0 x1 x3 _ _ _ p ⟨1, by decide⟩ o

/-- Store 10 writes cell (1, 1), cell 1 of diagonal 2, to columns 1280 … 1407. -/
theorem store_10 : ∀ x : r0_13.shape.Idx,
    (k0_pay9 (View.ld x4 r0_9) (View.ld x0 r0_10) (View.ld x1 r0_11)) x = flatBoard x0 x1 x2 x3 x4 x5 x6 x7 x8 x9 x10 x11 x12 x13 x14 x15 x16 x17 x18 (r0_13.emb x) := by
  intro x
  obtain ⟨p, o, rfl⟩ : ∃ (p o : Fin 128), x = ix2 p o := ⟨x 0, x 1, eq_ix2 x⟩
  rw [Pieces.cell_10, flatBoard_at x0 x1 x2 x3 x4 x5 x6 x7 x8 x9 x10 x11 x12 x13 x14 x15 x16 x17 x18 _ p ⟨1, by decide⟩ ⟨1, by decide⟩ o
      (Fin.ext (by show 0 + 1 * p.val = p.val; omega)) (by show 1280 + 1 * o.val = (9 * 1 + 1) * 128 + o.val; omega)]
  exact layer_of_loads 2 (by decide) x0 x1 x4 _ _ _ p ⟨1, by decide⟩ o

/-- Store 11 writes cell (1, 2), cell 1 of diagonal 3, to columns 1408 … 1535. -/
theorem store_11 : ∀ x : r0_19.shape.Idx,
    (k0_pay15 (k0_pay11 (View.ld x5 r0_15)) (k0_pay12 (View.ld x0 r0_16)) (View.ld x1 r0_17)) x = flatBoard x0 x1 x2 x3 x4 x5 x6 x7 x8 x9 x10 x11 x12 x13 x14 x15 x16 x17 x18 (r0_19.emb x) := by
  intro x
  obtain ⟨p, o, rfl⟩ : ∃ (p o : Fin 128), x = ix2 p o := ⟨x 0, x 1, eq_ix2 x⟩
  rw [Pieces.cell_11, flatBoard_at x0 x1 x2 x3 x4 x5 x6 x7 x8 x9 x10 x11 x12 x13 x14 x15 x16 x17 x18 _ p ⟨1, by decide⟩ ⟨2, by decide⟩ o
      (Fin.ext (by show 0 + 1 * p.val = p.val; omega)) (by show 1408 + 1 * o.val = (9 * 1 + 2) * 128 + o.val; omega)]
  exact layer_of_loads 3 (by decide) x0 x1 x5 _ _ _ p ⟨1, by decide⟩ o

/-- Store 12 writes cell (1, 3), cell 1 of diagonal 4, to columns 1536 … 1663. -/
theorem store_12 : ∀ x : r0_26.shape.Idx,
    (k0_pay20 (k0_pay18 (View.ld x6 r0_22) (View.ld x0 r0_23) (View.ld x1 r0_24))) x = flatBoard x0 x1 x2 x3 x4 x5 x6 x7 x8 x9 x10 x11 x12 x13 x14 x15 x16 x17 x18 (r0_26.emb x) := by
  intro x
  obtain ⟨p, o, rfl⟩ : ∃ (p o : Fin 128), x = ix2 p o := ⟨x 0, x 1, eq_ix2 x⟩
  rw [Pieces.cell_12, flatBoard_at x0 x1 x2 x3 x4 x5 x6 x7 x8 x9 x10 x11 x12 x13 x14 x15 x16 x17 x18 _ p ⟨1, by decide⟩ ⟨3, by decide⟩ o
      (Fin.ext (by show 0 + 1 * p.val = p.val; omega)) (by show 1536 + 1 * o.val = (9 * 1 + 3) * 128 + o.val; omega)]
  exact layer_of_loads 4 (by decide) x0 x1 x6 _ _ _ p ⟨1, by decide⟩ o

/-- Store 13 writes cell (1, 4), cell 1 of diagonal 5, to columns 1664 … 1791. -/
theorem store_13 : ∀ x : r0_34.shape.Idx,
    (k0_pay26 (View.ld x7 r0_30) (View.ld x0 r0_31) (View.ld x1 r0_32)) x = flatBoard x0 x1 x2 x3 x4 x5 x6 x7 x8 x9 x10 x11 x12 x13 x14 x15 x16 x17 x18 (r0_34.emb x) := by
  intro x
  obtain ⟨p, o, rfl⟩ : ∃ (p o : Fin 128), x = ix2 p o := ⟨x 0, x 1, eq_ix2 x⟩
  rw [Pieces.cell_13, flatBoard_at x0 x1 x2 x3 x4 x5 x6 x7 x8 x9 x10 x11 x12 x13 x14 x15 x16 x17 x18 _ p ⟨1, by decide⟩ ⟨4, by decide⟩ o
      (Fin.ext (by show 0 + 1 * p.val = p.val; omega)) (by show 1664 + 1 * o.val = (9 * 1 + 4) * 128 + o.val; omega)]
  exact layer_of_loads 5 (by decide) x0 x1 x7 _ _ _ p ⟨1, by decide⟩ o

/-- Store 14 writes cell (1, 5), cell 1 of diagonal 6, to columns 1792 … 1919. -/
theorem store_14 : ∀ x : r0_43.shape.Idx,
    (k0_pay33 (View.ld x8 r0_39) (View.ld x0 r0_40) (View.ld x1 r0_41)) x = flatBoard x0 x1 x2 x3 x4 x5 x6 x7 x8 x9 x10 x11 x12 x13 x14 x15 x16 x17 x18 (r0_43.emb x) := by
  intro x
  obtain ⟨p, o, rfl⟩ : ∃ (p o : Fin 128), x = ix2 p o := ⟨x 0, x 1, eq_ix2 x⟩
  rw [Pieces.cell_14, flatBoard_at x0 x1 x2 x3 x4 x5 x6 x7 x8 x9 x10 x11 x12 x13 x14 x15 x16 x17 x18 _ p ⟨1, by decide⟩ ⟨5, by decide⟩ o
      (Fin.ext (by show 0 + 1 * p.val = p.val; omega)) (by show 1792 + 1 * o.val = (9 * 1 + 5) * 128 + o.val; omega)]
  exact layer_of_loads 6 (by decide) x0 x1 x8 _ _ _ p ⟨1, by decide⟩ o

/-- Store 15 writes cell (1, 6), cell 1 of diagonal 7, to columns 1920 … 2047. -/
theorem store_15 : ∀ x : r0_53.shape.Idx,
    (k0_pay42 (View.ld x9 r0_49) (View.ld x0 r0_50) (View.ld x1 r0_51)) x = flatBoard x0 x1 x2 x3 x4 x5 x6 x7 x8 x9 x10 x11 x12 x13 x14 x15 x16 x17 x18 (r0_53.emb x) := by
  intro x
  obtain ⟨p, o, rfl⟩ : ∃ (p o : Fin 128), x = ix2 p o := ⟨x 0, x 1, eq_ix2 x⟩
  rw [Pieces.cell_15, flatBoard_at x0 x1 x2 x3 x4 x5 x6 x7 x8 x9 x10 x11 x12 x13 x14 x15 x16 x17 x18 _ p ⟨1, by decide⟩ ⟨6, by decide⟩ o
      (Fin.ext (by show 0 + 1 * p.val = p.val; omega)) (by show 1920 + 1 * o.val = (9 * 1 + 6) * 128 + o.val; omega)]
  exact layer_of_loads 7 (by decide) x0 x1 x9 _ _ _ p ⟨1, by decide⟩ o

/-- Store 16 writes cell (1, 7), cell 1 of diagonal 8, to columns 2048 … 2175. -/
theorem store_16 : ∀ x : r0_64.shape.Idx,
    (k0_pay53 (k0_pay49 (View.ld x10 r0_60) (View.ld x0 r0_61)) (k0_pay50 (View.ld x1 r0_62))) x = flatBoard x0 x1 x2 x3 x4 x5 x6 x7 x8 x9 x10 x11 x12 x13 x14 x15 x16 x17 x18 (r0_64.emb x) := by
  intro x
  obtain ⟨p, o, rfl⟩ : ∃ (p o : Fin 128), x = ix2 p o := ⟨x 0, x 1, eq_ix2 x⟩
  rw [Pieces.cell_16, flatBoard_at x0 x1 x2 x3 x4 x5 x6 x7 x8 x9 x10 x11 x12 x13 x14 x15 x16 x17 x18 _ p ⟨1, by decide⟩ ⟨7, by decide⟩ o
      (Fin.ext (by show 0 + 1 * p.val = p.val; omega)) (by show 2048 + 1 * o.val = (9 * 1 + 7) * 128 + o.val; omega)]
  exact layer_of_loads 8 (by decide) x0 x1 x10 _ _ _ p ⟨1, by decide⟩ o

/-- Store 17 writes cell (1, 8), cell 0 of diagonal 9, to columns 2176 … 2303. -/
theorem store_17 : ∀ x : r0_74.shape.Idx,
    (k0_pay62 (View.ld x11 r0_49) (View.ld x0 r0_72) (View.ld x1 r0_73)) x = flatBoard x0 x1 x2 x3 x4 x5 x6 x7 x8 x9 x10 x11 x12 x13 x14 x15 x16 x17 x18 (r0_74.emb x) := by
  intro x
  obtain ⟨p, o, rfl⟩ : ∃ (p o : Fin 128), x = ix2 p o := ⟨x 0, x 1, eq_ix2 x⟩
  rw [Pieces.cell_17, flatBoard_at x0 x1 x2 x3 x4 x5 x6 x7 x8 x9 x10 x11 x12 x13 x14 x15 x16 x17 x18 _ p ⟨1, by decide⟩ ⟨8, by decide⟩ o
      (Fin.ext (by show 0 + 1 * p.val = p.val; omega)) (by show 2176 + 1 * o.val = (9 * 1 + 8) * 128 + o.val; omega)]
  exact layer_of_loads 9 (by decide) x0 x1 x11 _ _ _ p ⟨0, by decide⟩ o

/-- Store 18 writes cell (2, 0), cell 2 of diagonal 2, to columns 2304 … 2431. -/
theorem store_18 : ∀ x : r0_14.shape.Idx,
    (k0_pay10 (View.ld x4 r0_9) (View.ld x0 r0_10) (View.ld x1 r0_11)) x = flatBoard x0 x1 x2 x3 x4 x5 x6 x7 x8 x9 x10 x11 x12 x13 x14 x15 x16 x17 x18 (r0_14.emb x) := by
  intro x
  obtain ⟨p, o, rfl⟩ : ∃ (p o : Fin 128), x = ix2 p o := ⟨x 0, x 1, eq_ix2 x⟩
  rw [Pieces.cell_18, flatBoard_at x0 x1 x2 x3 x4 x5 x6 x7 x8 x9 x10 x11 x12 x13 x14 x15 x16 x17 x18 _ p ⟨2, by decide⟩ ⟨0, by decide⟩ o
      (Fin.ext (by show 0 + 1 * p.val = p.val; omega)) (by show 2304 + 1 * o.val = (9 * 2 + 0) * 128 + o.val; omega)]
  exact layer_of_loads 2 (by decide) x0 x1 x4 _ _ _ p ⟨2, by decide⟩ o

/-- Store 19 writes cell (2, 1), cell 2 of diagonal 3, to columns 2432 … 2559. -/
theorem store_19 : ∀ x : r0_20.shape.Idx,
    (k0_pay16 (k0_pay11 (View.ld x5 r0_15)) (k0_pay12 (View.ld x0 r0_16)) (View.ld x1 r0_17)) x = flatBoard x0 x1 x2 x3 x4 x5 x6 x7 x8 x9 x10 x11 x12 x13 x14 x15 x16 x17 x18 (r0_20.emb x) := by
  intro x
  obtain ⟨p, o, rfl⟩ : ∃ (p o : Fin 128), x = ix2 p o := ⟨x 0, x 1, eq_ix2 x⟩
  rw [Pieces.cell_19, flatBoard_at x0 x1 x2 x3 x4 x5 x6 x7 x8 x9 x10 x11 x12 x13 x14 x15 x16 x17 x18 _ p ⟨2, by decide⟩ ⟨1, by decide⟩ o
      (Fin.ext (by show 0 + 1 * p.val = p.val; omega)) (by show 2432 + 1 * o.val = (9 * 2 + 1) * 128 + o.val; omega)]
  exact layer_of_loads 3 (by decide) x0 x1 x5 _ _ _ p ⟨2, by decide⟩ o

/-- Store 20 writes cell (2, 2), cell 2 of diagonal 4, to columns 2560 … 2687. -/
theorem store_20 : ∀ x : r0_27.shape.Idx,
    (k0_pay21 (k0_pay18 (View.ld x6 r0_22) (View.ld x0 r0_23) (View.ld x1 r0_24))) x = flatBoard x0 x1 x2 x3 x4 x5 x6 x7 x8 x9 x10 x11 x12 x13 x14 x15 x16 x17 x18 (r0_27.emb x) := by
  intro x
  obtain ⟨p, o, rfl⟩ : ∃ (p o : Fin 128), x = ix2 p o := ⟨x 0, x 1, eq_ix2 x⟩
  rw [Pieces.cell_20, flatBoard_at x0 x1 x2 x3 x4 x5 x6 x7 x8 x9 x10 x11 x12 x13 x14 x15 x16 x17 x18 _ p ⟨2, by decide⟩ ⟨2, by decide⟩ o
      (Fin.ext (by show 0 + 1 * p.val = p.val; omega)) (by show 2560 + 1 * o.val = (9 * 2 + 2) * 128 + o.val; omega)]
  exact layer_of_loads 4 (by decide) x0 x1 x6 _ _ _ p ⟨2, by decide⟩ o

/-- Store 21 writes cell (2, 3), cell 2 of diagonal 5, to columns 2688 … 2815. -/
theorem store_21 : ∀ x : r0_35.shape.Idx,
    (k0_pay27 (k0_pay24 (View.ld x7 r0_30) (View.ld x0 r0_31) (View.ld x1 r0_32))) x = flatBoard x0 x1 x2 x3 x4 x5 x6 x7 x8 x9 x10 x11 x12 x13 x14 x15 x16 x17 x18 (r0_35.emb x) := by
  intro x
  obtain ⟨p, o, rfl⟩ : ∃ (p o : Fin 128), x = ix2 p o := ⟨x 0, x 1, eq_ix2 x⟩
  rw [Pieces.cell_21, flatBoard_at x0 x1 x2 x3 x4 x5 x6 x7 x8 x9 x10 x11 x12 x13 x14 x15 x16 x17 x18 _ p ⟨2, by decide⟩ ⟨3, by decide⟩ o
      (Fin.ext (by show 0 + 1 * p.val = p.val; omega)) (by show 2688 + 1 * o.val = (9 * 2 + 3) * 128 + o.val; omega)]
  exact layer_of_loads 5 (by decide) x0 x1 x7 _ _ _ p ⟨2, by decide⟩ o

/-- Store 22 writes cell (2, 4), cell 2 of diagonal 6, to columns 2816 … 2943. -/
theorem store_22 : ∀ x : r0_44.shape.Idx,
    (k0_pay35 (k0_pay34 (View.ld x8 r0_39) (View.ld x0 r0_40) (View.ld x1 r0_41))) x = flatBoard x0 x1 x2 x3 x4 x5 x6 x7 x8 x9 x10 x11 x12 x13 x14 x15 x16 x17 x18 (r0_44.emb x) := by
  intro x
  obtain ⟨p, o, rfl⟩ : ∃ (p o : Fin 128), x = ix2 p o := ⟨x 0, x 1, eq_ix2 x⟩
  rw [Pieces.cell_22, flatBoard_at x0 x1 x2 x3 x4 x5 x6 x7 x8 x9 x10 x11 x12 x13 x14 x15 x16 x17 x18 _ p ⟨2, by decide⟩ ⟨4, by decide⟩ o
      (Fin.ext (by show 0 + 1 * p.val = p.val; omega)) (by show 2816 + 1 * o.val = (9 * 2 + 4) * 128 + o.val; omega)]
  exact layer_of_loads 6 (by decide) x0 x1 x8 _ _ _ p ⟨2, by decide⟩ o

/-- Store 23 writes cell (2, 5), cell 2 of diagonal 7, to columns 2944 … 3071. -/
theorem store_23 : ∀ x : r0_54.shape.Idx,
    (k0_pay43 (k0_pay40 (View.ld x9 r0_49) (View.ld x0 r0_50) (View.ld x1 r0_51))) x = flatBoard x0 x1 x2 x3 x4 x5 x6 x7 x8 x9 x10 x11 x12 x13 x14 x15 x16 x17 x18 (r0_54.emb x) := by
  intro x
  obtain ⟨p, o, rfl⟩ : ∃ (p o : Fin 128), x = ix2 p o := ⟨x 0, x 1, eq_ix2 x⟩
  rw [Pieces.cell_23, flatBoard_at x0 x1 x2 x3 x4 x5 x6 x7 x8 x9 x10 x11 x12 x13 x14 x15 x16 x17 x18 _ p ⟨2, by decide⟩ ⟨5, by decide⟩ o
      (Fin.ext (by show 0 + 1 * p.val = p.val; omega)) (by show 2944 + 1 * o.val = (9 * 2 + 5) * 128 + o.val; omega)]
  exact layer_of_loads 7 (by decide) x0 x1 x9 _ _ _ p ⟨2, by decide⟩ o

/-- Store 24 writes cell (2, 6), cell 2 of diagonal 8, to columns 3072 … 3199. -/
theorem store_24 : ∀ x : r0_65.shape.Idx,
    (k0_pay54 (k0_pay49 (View.ld x10 r0_60) (View.ld x0 r0_61)) (k0_pay50 (View.ld x1 r0_62))) x = flatBoard x0 x1 x2 x3 x4 x5 x6 x7 x8 x9 x10 x11 x12 x13 x14 x15 x16 x17 x18 (r0_65.emb x) := by
  intro x
  obtain ⟨p, o, rfl⟩ : ∃ (p o : Fin 128), x = ix2 p o := ⟨x 0, x 1, eq_ix2 x⟩
  rw [Pieces.cell_24, flatBoard_at x0 x1 x2 x3 x4 x5 x6 x7 x8 x9 x10 x11 x12 x13 x14 x15 x16 x17 x18 _ p ⟨2, by decide⟩ ⟨6, by decide⟩ o
      (Fin.ext (by show 0 + 1 * p.val = p.val; omega)) (by show 3072 + 1 * o.val = (9 * 2 + 6) * 128 + o.val; omega)]
  exact layer_of_loads 8 (by decide) x0 x1 x10 _ _ _ p ⟨2, by decide⟩ o

/-- Store 25 writes cell (2, 7), cell 1 of diagonal 9, to columns 3200 … 3327. -/
theorem store_25 : ∀ x : r0_75.shape.Idx,
    (k0_pay63 (View.ld x11 r0_49) (View.ld x0 r0_72) (View.ld x1 r0_73)) x = flatBoard x0 x1 x2 x3 x4 x5 x6 x7 x8 x9 x10 x11 x12 x13 x14 x15 x16 x17 x18 (r0_75.emb x) := by
  intro x
  obtain ⟨p, o, rfl⟩ : ∃ (p o : Fin 128), x = ix2 p o := ⟨x 0, x 1, eq_ix2 x⟩
  rw [Pieces.cell_25, flatBoard_at x0 x1 x2 x3 x4 x5 x6 x7 x8 x9 x10 x11 x12 x13 x14 x15 x16 x17 x18 _ p ⟨2, by decide⟩ ⟨7, by decide⟩ o
      (Fin.ext (by show 0 + 1 * p.val = p.val; omega)) (by show 3200 + 1 * o.val = (9 * 2 + 7) * 128 + o.val; omega)]
  exact layer_of_loads 9 (by decide) x0 x1 x11 _ _ _ p ⟨1, by decide⟩ o

/-- Store 26 writes cell (2, 8), cell 0 of diagonal 10, to columns 3328 … 3455. -/
theorem store_26 : ∀ x : r0_84.shape.Idx,
    (k0_pay71 (View.ld x12 r0_39) (View.ld x0 r0_82) (View.ld x1 r0_83)) x = flatBoard x0 x1 x2 x3 x4 x5 x6 x7 x8 x9 x10 x11 x12 x13 x14 x15 x16 x17 x18 (r0_84.emb x) := by
  intro x
  obtain ⟨p, o, rfl⟩ : ∃ (p o : Fin 128), x = ix2 p o := ⟨x 0, x 1, eq_ix2 x⟩
  rw [Pieces.cell_26, flatBoard_at x0 x1 x2 x3 x4 x5 x6 x7 x8 x9 x10 x11 x12 x13 x14 x15 x16 x17 x18 _ p ⟨2, by decide⟩ ⟨8, by decide⟩ o
      (Fin.ext (by show 0 + 1 * p.val = p.val; omega)) (by show 3328 + 1 * o.val = (9 * 2 + 8) * 128 + o.val; omega)]
  exact layer_of_loads 10 (by decide) x0 x1 x12 _ _ _ p ⟨0, by decide⟩ o

/-- Store 27 writes cell (3, 0), cell 3 of diagonal 3, to columns 3456 … 3583. -/
theorem store_27 : ∀ x : r0_21.shape.Idx,
    (k0_pay17 (k0_pay11 (View.ld x5 r0_15)) (k0_pay12 (View.ld x0 r0_16)) (View.ld x1 r0_17)) x = flatBoard x0 x1 x2 x3 x4 x5 x6 x7 x8 x9 x10 x11 x12 x13 x14 x15 x16 x17 x18 (r0_21.emb x) := by
  intro x
  obtain ⟨p, o, rfl⟩ : ∃ (p o : Fin 128), x = ix2 p o := ⟨x 0, x 1, eq_ix2 x⟩
  rw [Pieces.cell_27, flatBoard_at x0 x1 x2 x3 x4 x5 x6 x7 x8 x9 x10 x11 x12 x13 x14 x15 x16 x17 x18 _ p ⟨3, by decide⟩ ⟨0, by decide⟩ o
      (Fin.ext (by show 0 + 1 * p.val = p.val; omega)) (by show 3456 + 1 * o.val = (9 * 3 + 0) * 128 + o.val; omega)]
  exact layer_of_loads 3 (by decide) x0 x1 x5 _ _ _ p ⟨3, by decide⟩ o

/-- Store 28 writes cell (3, 1), cell 3 of diagonal 4, to columns 3584 … 3711. -/
theorem store_28 : ∀ x : r0_28.shape.Idx,
    (k0_pay22 (k0_pay18 (View.ld x6 r0_22) (View.ld x0 r0_23) (View.ld x1 r0_24))) x = flatBoard x0 x1 x2 x3 x4 x5 x6 x7 x8 x9 x10 x11 x12 x13 x14 x15 x16 x17 x18 (r0_28.emb x) := by
  intro x
  obtain ⟨p, o, rfl⟩ : ∃ (p o : Fin 128), x = ix2 p o := ⟨x 0, x 1, eq_ix2 x⟩
  rw [Pieces.cell_28, flatBoard_at x0 x1 x2 x3 x4 x5 x6 x7 x8 x9 x10 x11 x12 x13 x14 x15 x16 x17 x18 _ p ⟨3, by decide⟩ ⟨1, by decide⟩ o
      (Fin.ext (by show 0 + 1 * p.val = p.val; omega)) (by show 3584 + 1 * o.val = (9 * 3 + 1) * 128 + o.val; omega)]
  exact layer_of_loads 4 (by decide) x0 x1 x6 _ _ _ p ⟨3, by decide⟩ o

/-- Store 29 writes cell (3, 2), cell 3 of diagonal 5, to columns 3712 … 3839. -/
theorem store_29 : ∀ x : r0_36.shape.Idx,
    (k0_pay28 (k0_pay24 (View.ld x7 r0_30) (View.ld x0 r0_31) (View.ld x1 r0_32))) x = flatBoard x0 x1 x2 x3 x4 x5 x6 x7 x8 x9 x10 x11 x12 x13 x14 x15 x16 x17 x18 (r0_36.emb x) := by
  intro x
  obtain ⟨p, o, rfl⟩ : ∃ (p o : Fin 128), x = ix2 p o := ⟨x 0, x 1, eq_ix2 x⟩
  rw [Pieces.cell_29, flatBoard_at x0 x1 x2 x3 x4 x5 x6 x7 x8 x9 x10 x11 x12 x13 x14 x15 x16 x17 x18 _ p ⟨3, by decide⟩ ⟨2, by decide⟩ o
      (Fin.ext (by show 0 + 1 * p.val = p.val; omega)) (by show 3712 + 1 * o.val = (9 * 3 + 2) * 128 + o.val; omega)]
  exact layer_of_loads 5 (by decide) x0 x1 x7 _ _ _ p ⟨3, by decide⟩ o

/-- Store 30 writes cell (3, 3), cell 3 of diagonal 6, to columns 3840 … 3967. -/
theorem store_30 : ∀ x : r0_45.shape.Idx,
    (k0_pay36 (k0_pay31 (View.ld x8 r0_39) (View.ld x0 r0_40) (View.ld x1 r0_41))) x = flatBoard x0 x1 x2 x3 x4 x5 x6 x7 x8 x9 x10 x11 x12 x13 x14 x15 x16 x17 x18 (r0_45.emb x) := by
  intro x
  obtain ⟨p, o, rfl⟩ : ∃ (p o : Fin 128), x = ix2 p o := ⟨x 0, x 1, eq_ix2 x⟩
  rw [Pieces.cell_30, flatBoard_at x0 x1 x2 x3 x4 x5 x6 x7 x8 x9 x10 x11 x12 x13 x14 x15 x16 x17 x18 _ p ⟨3, by decide⟩ ⟨3, by decide⟩ o
      (Fin.ext (by show 0 + 1 * p.val = p.val; omega)) (by show 3840 + 1 * o.val = (9 * 3 + 3) * 128 + o.val; omega)]
  exact layer_of_loads 6 (by decide) x0 x1 x8 _ _ _ p ⟨3, by decide⟩ o

/-- Store 31 writes cell (3, 4), cell 3 of diagonal 7, to columns 3968 … 4095. -/
theorem store_31 : ∀ x : r0_55.shape.Idx,
    (k0_pay44 (k0_pay40 (View.ld x9 r0_49) (View.ld x0 r0_50) (View.ld x1 r0_51))) x = flatBoard x0 x1 x2 x3 x4 x5 x6 x7 x8 x9 x10 x11 x12 x13 x14 x15 x16 x17 x18 (r0_55.emb x) := by
  intro x
  obtain ⟨p, o, rfl⟩ : ∃ (p o : Fin 128), x = ix2 p o := ⟨x 0, x 1, eq_ix2 x⟩
  rw [Pieces.cell_31, flatBoard_at x0 x1 x2 x3 x4 x5 x6 x7 x8 x9 x10 x11 x12 x13 x14 x15 x16 x17 x18 _ p ⟨3, by decide⟩ ⟨4, by decide⟩ o
      (Fin.ext (by show 0 + 1 * p.val = p.val; omega)) (by show 3968 + 1 * o.val = (9 * 3 + 4) * 128 + o.val; omega)]
  exact layer_of_loads 7 (by decide) x0 x1 x9 _ _ _ p ⟨3, by decide⟩ o

/-- Store 32 writes cell (3, 5), cell 3 of diagonal 8, to columns 4096 … 4223. -/
theorem store_32 : ∀ x : r0_66.shape.Idx,
    (k0_pay55 (k0_pay49 (View.ld x10 r0_60) (View.ld x0 r0_61)) (k0_pay50 (View.ld x1 r0_62))) x = flatBoard x0 x1 x2 x3 x4 x5 x6 x7 x8 x9 x10 x11 x12 x13 x14 x15 x16 x17 x18 (r0_66.emb x) := by
  intro x
  obtain ⟨p, o, rfl⟩ : ∃ (p o : Fin 128), x = ix2 p o := ⟨x 0, x 1, eq_ix2 x⟩
  rw [Pieces.cell_32, flatBoard_at x0 x1 x2 x3 x4 x5 x6 x7 x8 x9 x10 x11 x12 x13 x14 x15 x16 x17 x18 _ p ⟨3, by decide⟩ ⟨5, by decide⟩ o
      (Fin.ext (by show 0 + 1 * p.val = p.val; omega)) (by show 4096 + 1 * o.val = (9 * 3 + 5) * 128 + o.val; omega)]
  exact layer_of_loads 8 (by decide) x0 x1 x10 _ _ _ p ⟨3, by decide⟩ o

/-- Store 33 writes cell (3, 6), cell 2 of diagonal 9, to columns 4224 … 4351. -/
theorem store_33 : ∀ x : r0_76.shape.Idx,
    (k0_pay64 (View.ld x11 r0_49) (View.ld x0 r0_72) (View.ld x1 r0_73)) x = flatBoard x0 x1 x2 x3 x4 x5 x6 x7 x8 x9 x10 x11 x12 x13 x14 x15 x16 x17 x18 (r0_76.emb x) := by
  intro x
  obtain ⟨p, o, rfl⟩ : ∃ (p o : Fin 128), x = ix2 p o := ⟨x 0, x 1, eq_ix2 x⟩
  rw [Pieces.cell_33, flatBoard_at x0 x1 x2 x3 x4 x5 x6 x7 x8 x9 x10 x11 x12 x13 x14 x15 x16 x17 x18 _ p ⟨3, by decide⟩ ⟨6, by decide⟩ o
      (Fin.ext (by show 0 + 1 * p.val = p.val; omega)) (by show 4224 + 1 * o.val = (9 * 3 + 6) * 128 + o.val; omega)]
  exact layer_of_loads 9 (by decide) x0 x1 x11 _ _ _ p ⟨2, by decide⟩ o

/-- Store 34 writes cell (3, 7), cell 1 of diagonal 10, to columns 4352 … 4479. -/
theorem store_34 : ∀ x : r0_85.shape.Idx,
    (k0_pay72 (View.ld x12 r0_39) (View.ld x0 r0_82) (View.ld x1 r0_83)) x = flatBoard x0 x1 x2 x3 x4 x5 x6 x7 x8 x9 x10 x11 x12 x13 x14 x15 x16 x17 x18 (r0_85.emb x) := by
  intro x
  obtain ⟨p, o, rfl⟩ : ∃ (p o : Fin 128), x = ix2 p o := ⟨x 0, x 1, eq_ix2 x⟩
  rw [Pieces.cell_34, flatBoard_at x0 x1 x2 x3 x4 x5 x6 x7 x8 x9 x10 x11 x12 x13 x14 x15 x16 x17 x18 _ p ⟨3, by decide⟩ ⟨7, by decide⟩ o
      (Fin.ext (by show 0 + 1 * p.val = p.val; omega)) (by show 4352 + 1 * o.val = (9 * 3 + 7) * 128 + o.val; omega)]
  exact layer_of_loads 10 (by decide) x0 x1 x12 _ _ _ p ⟨1, by decide⟩ o

/-- Store 35 writes cell (3, 8), cell 0 of diagonal 11, to columns 4480 … 4607. -/
theorem store_35 : ∀ x : r0_93.shape.Idx,
    (k0_pay79 (View.ld x13 r0_30) (View.ld x0 r0_91) (View.ld x1 r0_92)) x = flatBoard x0 x1 x2 x3 x4 x5 x6 x7 x8 x9 x10 x11 x12 x13 x14 x15 x16 x17 x18 (r0_93.emb x) := by
  intro x
  obtain ⟨p, o, rfl⟩ : ∃ (p o : Fin 128), x = ix2 p o := ⟨x 0, x 1, eq_ix2 x⟩
  rw [Pieces.cell_35, flatBoard_at x0 x1 x2 x3 x4 x5 x6 x7 x8 x9 x10 x11 x12 x13 x14 x15 x16 x17 x18 _ p ⟨3, by decide⟩ ⟨8, by decide⟩ o
      (Fin.ext (by show 0 + 1 * p.val = p.val; omega)) (by show 4480 + 1 * o.val = (9 * 3 + 8) * 128 + o.val; omega)]
  exact layer_of_loads 11 (by decide) x0 x1 x13 _ _ _ p ⟨0, by decide⟩ o

/-- Store 36 writes cell (4, 0), cell 4 of diagonal 4, to columns 4608 … 4735. -/
theorem store_36 : ∀ x : r0_29.shape.Idx,
    (k0_pay23 (k0_pay18 (View.ld x6 r0_22) (View.ld x0 r0_23) (View.ld x1 r0_24))) x = flatBoard x0 x1 x2 x3 x4 x5 x6 x7 x8 x9 x10 x11 x12 x13 x14 x15 x16 x17 x18 (r0_29.emb x) := by
  intro x
  obtain ⟨p, o, rfl⟩ : ∃ (p o : Fin 128), x = ix2 p o := ⟨x 0, x 1, eq_ix2 x⟩
  rw [Pieces.cell_36, flatBoard_at x0 x1 x2 x3 x4 x5 x6 x7 x8 x9 x10 x11 x12 x13 x14 x15 x16 x17 x18 _ p ⟨4, by decide⟩ ⟨0, by decide⟩ o
      (Fin.ext (by show 0 + 1 * p.val = p.val; omega)) (by show 4608 + 1 * o.val = (9 * 4 + 0) * 128 + o.val; omega)]
  exact layer_of_loads 4 (by decide) x0 x1 x6 _ _ _ p ⟨4, by decide⟩ o

/-- Store 37 writes cell (4, 1), cell 4 of diagonal 5, to columns 4736 … 4863. -/
theorem store_37 : ∀ x : r0_37.shape.Idx,
    (k0_pay29 (k0_pay24 (View.ld x7 r0_30) (View.ld x0 r0_31) (View.ld x1 r0_32))) x = flatBoard x0 x1 x2 x3 x4 x5 x6 x7 x8 x9 x10 x11 x12 x13 x14 x15 x16 x17 x18 (r0_37.emb x) := by
  intro x
  obtain ⟨p, o, rfl⟩ : ∃ (p o : Fin 128), x = ix2 p o := ⟨x 0, x 1, eq_ix2 x⟩
  rw [Pieces.cell_37, flatBoard_at x0 x1 x2 x3 x4 x5 x6 x7 x8 x9 x10 x11 x12 x13 x14 x15 x16 x17 x18 _ p ⟨4, by decide⟩ ⟨1, by decide⟩ o
      (Fin.ext (by show 0 + 1 * p.val = p.val; omega)) (by show 4736 + 1 * o.val = (9 * 4 + 1) * 128 + o.val; omega)]
  exact layer_of_loads 5 (by decide) x0 x1 x7 _ _ _ p ⟨4, by decide⟩ o

/-- Store 38 writes cell (4, 2), cell 4 of diagonal 6, to columns 4864 … 4991. -/
theorem store_38 : ∀ x : r0_46.shape.Idx,
    (k0_pay37 (k0_pay31 (View.ld x8 r0_39) (View.ld x0 r0_40) (View.ld x1 r0_41))) x = flatBoard x0 x1 x2 x3 x4 x5 x6 x7 x8 x9 x10 x11 x12 x13 x14 x15 x16 x17 x18 (r0_46.emb x) := by
  intro x
  obtain ⟨p, o, rfl⟩ : ∃ (p o : Fin 128), x = ix2 p o := ⟨x 0, x 1, eq_ix2 x⟩
  rw [Pieces.cell_38, flatBoard_at x0 x1 x2 x3 x4 x5 x6 x7 x8 x9 x10 x11 x12 x13 x14 x15 x16 x17 x18 _ p ⟨4, by decide⟩ ⟨2, by decide⟩ o
      (Fin.ext (by show 0 + 1 * p.val = p.val; omega)) (by show 4864 + 1 * o.val = (9 * 4 + 2) * 128 + o.val; omega)]
  exact layer_of_loads 6 (by decide) x0 x1 x8 _ _ _ p ⟨4, by decide⟩ o

/-- Store 39 writes cell (4, 3), cell 4 of diagonal 7, to columns 4992 … 5119. -/
theorem store_39 : ∀ x : r0_56.shape.Idx,
    (k0_pay45 (k0_pay40 (View.ld x9 r0_49) (View.ld x0 r0_50) (View.ld x1 r0_51))) x = flatBoard x0 x1 x2 x3 x4 x5 x6 x7 x8 x9 x10 x11 x12 x13 x14 x15 x16 x17 x18 (r0_56.emb x) := by
  intro x
  obtain ⟨p, o, rfl⟩ : ∃ (p o : Fin 128), x = ix2 p o := ⟨x 0, x 1, eq_ix2 x⟩
  rw [Pieces.cell_39, flatBoard_at x0 x1 x2 x3 x4 x5 x6 x7 x8 x9 x10 x11 x12 x13 x14 x15 x16 x17 x18 _ p ⟨4, by decide⟩ ⟨3, by decide⟩ o
      (Fin.ext (by show 0 + 1 * p.val = p.val; omega)) (by show 4992 + 1 * o.val = (9 * 4 + 3) * 128 + o.val; omega)]
  exact layer_of_loads 7 (by decide) x0 x1 x9 _ _ _ p ⟨4, by decide⟩ o

/-- Store 40 writes cell (4, 4), cell 4 of diagonal 8, to columns 5120 … 5247. -/
theorem store_40 : ∀ x : r0_67.shape.Idx,
    (k0_pay56 (k0_pay49 (View.ld x10 r0_60) (View.ld x0 r0_61)) (k0_pay50 (View.ld x1 r0_62))) x = flatBoard x0 x1 x2 x3 x4 x5 x6 x7 x8 x9 x10 x11 x12 x13 x14 x15 x16 x17 x18 (r0_67.emb x) := by
  intro x
  obtain ⟨p, o, rfl⟩ : ∃ (p o : Fin 128), x = ix2 p o := ⟨x 0, x 1, eq_ix2 x⟩
  rw [Pieces.cell_40, flatBoard_at x0 x1 x2 x3 x4 x5 x6 x7 x8 x9 x10 x11 x12 x13 x14 x15 x16 x17 x18 _ p ⟨4, by decide⟩ ⟨4, by decide⟩ o
      (Fin.ext (by show 0 + 1 * p.val = p.val; omega)) (by show 5120 + 1 * o.val = (9 * 4 + 4) * 128 + o.val; omega)]
  exact layer_of_loads 8 (by decide) x0 x1 x10 _ _ _ p ⟨4, by decide⟩ o

/-- Store 41 writes cell (4, 5), cell 3 of diagonal 9, to columns 5248 … 5375. -/
theorem store_41 : ∀ x : r0_77.shape.Idx,
    (k0_pay65 (View.ld x11 r0_49) (View.ld x0 r0_72) (View.ld x1 r0_73)) x = flatBoard x0 x1 x2 x3 x4 x5 x6 x7 x8 x9 x10 x11 x12 x13 x14 x15 x16 x17 x18 (r0_77.emb x) := by
  intro x
  obtain ⟨p, o, rfl⟩ : ∃ (p o : Fin 128), x = ix2 p o := ⟨x 0, x 1, eq_ix2 x⟩
  rw [Pieces.cell_41, flatBoard_at x0 x1 x2 x3 x4 x5 x6 x7 x8 x9 x10 x11 x12 x13 x14 x15 x16 x17 x18 _ p ⟨4, by decide⟩ ⟨5, by decide⟩ o
      (Fin.ext (by show 0 + 1 * p.val = p.val; omega)) (by show 5248 + 1 * o.val = (9 * 4 + 5) * 128 + o.val; omega)]
  exact layer_of_loads 9 (by decide) x0 x1 x11 _ _ _ p ⟨3, by decide⟩ o

/-- Store 42 writes cell (4, 6), cell 2 of diagonal 10, to columns 5376 … 5503. -/
theorem store_42 : ∀ x : r0_86.shape.Idx,
    (k0_pay73 (View.ld x12 r0_39) (View.ld x0 r0_82) (View.ld x1 r0_83)) x = flatBoard x0 x1 x2 x3 x4 x5 x6 x7 x8 x9 x10 x11 x12 x13 x14 x15 x16 x17 x18 (r0_86.emb x) := by
  intro x
  obtain ⟨p, o, rfl⟩ : ∃ (p o : Fin 128), x = ix2 p o := ⟨x 0, x 1, eq_ix2 x⟩
  rw [Pieces.cell_42, flatBoard_at x0 x1 x2 x3 x4 x5 x6 x7 x8 x9 x10 x11 x12 x13 x14 x15 x16 x17 x18 _ p ⟨4, by decide⟩ ⟨6, by decide⟩ o
      (Fin.ext (by show 0 + 1 * p.val = p.val; omega)) (by show 5376 + 1 * o.val = (9 * 4 + 6) * 128 + o.val; omega)]
  exact layer_of_loads 10 (by decide) x0 x1 x12 _ _ _ p ⟨2, by decide⟩ o

/-- Store 43 writes cell (4, 7), cell 1 of diagonal 11, to columns 5504 … 5631. -/
theorem store_43 : ∀ x : r0_94.shape.Idx,
    (k0_pay80 (View.ld x13 r0_30) (View.ld x0 r0_91) (View.ld x1 r0_92)) x = flatBoard x0 x1 x2 x3 x4 x5 x6 x7 x8 x9 x10 x11 x12 x13 x14 x15 x16 x17 x18 (r0_94.emb x) := by
  intro x
  obtain ⟨p, o, rfl⟩ : ∃ (p o : Fin 128), x = ix2 p o := ⟨x 0, x 1, eq_ix2 x⟩
  rw [Pieces.cell_43, flatBoard_at x0 x1 x2 x3 x4 x5 x6 x7 x8 x9 x10 x11 x12 x13 x14 x15 x16 x17 x18 _ p ⟨4, by decide⟩ ⟨7, by decide⟩ o
      (Fin.ext (by show 0 + 1 * p.val = p.val; omega)) (by show 5504 + 1 * o.val = (9 * 4 + 7) * 128 + o.val; omega)]
  exact layer_of_loads 11 (by decide) x0 x1 x13 _ _ _ p ⟨1, by decide⟩ o

/-- Store 44 writes cell (4, 8), cell 0 of diagonal 12, to columns 5632 … 5759. -/
theorem store_44 : ∀ x : r0_101.shape.Idx,
    (k0_pay86 (View.ld x14 r0_22) (View.ld x0 r0_99) (View.ld x1 r0_100)) x = flatBoard x0 x1 x2 x3 x4 x5 x6 x7 x8 x9 x10 x11 x12 x13 x14 x15 x16 x17 x18 (r0_101.emb x) := by
  intro x
  obtain ⟨p, o, rfl⟩ : ∃ (p o : Fin 128), x = ix2 p o := ⟨x 0, x 1, eq_ix2 x⟩
  rw [Pieces.cell_44, flatBoard_at x0 x1 x2 x3 x4 x5 x6 x7 x8 x9 x10 x11 x12 x13 x14 x15 x16 x17 x18 _ p ⟨4, by decide⟩ ⟨8, by decide⟩ o
      (Fin.ext (by show 0 + 1 * p.val = p.val; omega)) (by show 5632 + 1 * o.val = (9 * 4 + 8) * 128 + o.val; omega)]
  exact layer_of_loads 12 (by decide) x0 x1 x14 _ _ _ p ⟨0, by decide⟩ o

/-- Store 45 writes cell (5, 0), cell 5 of diagonal 5, to columns 5760 … 5887. -/
theorem store_45 : ∀ x : r0_38.shape.Idx,
    (k0_pay30 (k0_pay24 (View.ld x7 r0_30) (View.ld x0 r0_31) (View.ld x1 r0_32))) x = flatBoard x0 x1 x2 x3 x4 x5 x6 x7 x8 x9 x10 x11 x12 x13 x14 x15 x16 x17 x18 (r0_38.emb x) := by
  intro x
  obtain ⟨p, o, rfl⟩ : ∃ (p o : Fin 128), x = ix2 p o := ⟨x 0, x 1, eq_ix2 x⟩
  rw [Pieces.cell_45, flatBoard_at x0 x1 x2 x3 x4 x5 x6 x7 x8 x9 x10 x11 x12 x13 x14 x15 x16 x17 x18 _ p ⟨5, by decide⟩ ⟨0, by decide⟩ o
      (Fin.ext (by show 0 + 1 * p.val = p.val; omega)) (by show 5760 + 1 * o.val = (9 * 5 + 0) * 128 + o.val; omega)]
  exact layer_of_loads 5 (by decide) x0 x1 x7 _ _ _ p ⟨5, by decide⟩ o

/-- Store 46 writes cell (5, 1), cell 5 of diagonal 6, to columns 5888 … 6015. -/
theorem store_46 : ∀ x : r0_47.shape.Idx,
    (k0_pay38 (k0_pay31 (View.ld x8 r0_39) (View.ld x0 r0_40) (View.ld x1 r0_41))) x = flatBoard x0 x1 x2 x3 x4 x5 x6 x7 x8 x9 x10 x11 x12 x13 x14 x15 x16 x17 x18 (r0_47.emb x) := by
  intro x
  obtain ⟨p, o, rfl⟩ : ∃ (p o : Fin 128), x = ix2 p o := ⟨x 0, x 1, eq_ix2 x⟩
  rw [Pieces.cell_46, flatBoard_at x0 x1 x2 x3 x4 x5 x6 x7 x8 x9 x10 x11 x12 x13 x14 x15 x16 x17 x18 _ p ⟨5, by decide⟩ ⟨1, by decide⟩ o
      (Fin.ext (by show 0 + 1 * p.val = p.val; omega)) (by show 5888 + 1 * o.val = (9 * 5 + 1) * 128 + o.val; omega)]
  exact layer_of_loads 6 (by decide) x0 x1 x8 _ _ _ p ⟨5, by decide⟩ o

/-- Store 47 writes cell (5, 2), cell 5 of diagonal 7, to columns 6016 … 6143. -/
theorem store_47 : ∀ x : r0_57.shape.Idx,
    (k0_pay46 (k0_pay40 (View.ld x9 r0_49) (View.ld x0 r0_50) (View.ld x1 r0_51))) x = flatBoard x0 x1 x2 x3 x4 x5 x6 x7 x8 x9 x10 x11 x12 x13 x14 x15 x16 x17 x18 (r0_57.emb x) := by
  intro x
  obtain ⟨p, o, rfl⟩ : ∃ (p o : Fin 128), x = ix2 p o := ⟨x 0, x 1, eq_ix2 x⟩
  rw [Pieces.cell_47, flatBoard_at x0 x1 x2 x3 x4 x5 x6 x7 x8 x9 x10 x11 x12 x13 x14 x15 x16 x17 x18 _ p ⟨5, by decide⟩ ⟨2, by decide⟩ o
      (Fin.ext (by show 0 + 1 * p.val = p.val; omega)) (by show 6016 + 1 * o.val = (9 * 5 + 2) * 128 + o.val; omega)]
  exact layer_of_loads 7 (by decide) x0 x1 x9 _ _ _ p ⟨5, by decide⟩ o

/-- Store 48 writes cell (5, 3), cell 5 of diagonal 8, to columns 6144 … 6271. -/
theorem store_48 : ∀ x : r0_68.shape.Idx,
    (k0_pay57 (k0_pay49 (View.ld x10 r0_60) (View.ld x0 r0_61)) (k0_pay50 (View.ld x1 r0_62))) x = flatBoard x0 x1 x2 x3 x4 x5 x6 x7 x8 x9 x10 x11 x12 x13 x14 x15 x16 x17 x18 (r0_68.emb x) := by
  intro x
  obtain ⟨p, o, rfl⟩ : ∃ (p o : Fin 128), x = ix2 p o := ⟨x 0, x 1, eq_ix2 x⟩
  rw [Pieces.cell_48, flatBoard_at x0 x1 x2 x3 x4 x5 x6 x7 x8 x9 x10 x11 x12 x13 x14 x15 x16 x17 x18 _ p ⟨5, by decide⟩ ⟨3, by decide⟩ o
      (Fin.ext (by show 0 + 1 * p.val = p.val; omega)) (by show 6144 + 1 * o.val = (9 * 5 + 3) * 128 + o.val; omega)]
  exact layer_of_loads 8 (by decide) x0 x1 x10 _ _ _ p ⟨5, by decide⟩ o

/-- Store 49 writes cell (5, 4), cell 4 of diagonal 9, to columns 6272 … 6399. -/
theorem store_49 : ∀ x : r0_78.shape.Idx,
    (k0_pay66 (View.ld x11 r0_49) (View.ld x0 r0_72) (View.ld x1 r0_73)) x = flatBoard x0 x1 x2 x3 x4 x5 x6 x7 x8 x9 x10 x11 x12 x13 x14 x15 x16 x17 x18 (r0_78.emb x) := by
  intro x
  obtain ⟨p, o, rfl⟩ : ∃ (p o : Fin 128), x = ix2 p o := ⟨x 0, x 1, eq_ix2 x⟩
  rw [Pieces.cell_49, flatBoard_at x0 x1 x2 x3 x4 x5 x6 x7 x8 x9 x10 x11 x12 x13 x14 x15 x16 x17 x18 _ p ⟨5, by decide⟩ ⟨4, by decide⟩ o
      (Fin.ext (by show 0 + 1 * p.val = p.val; omega)) (by show 6272 + 1 * o.val = (9 * 5 + 4) * 128 + o.val; omega)]
  exact layer_of_loads 9 (by decide) x0 x1 x11 _ _ _ p ⟨4, by decide⟩ o

/-- Store 50 writes cell (5, 5), cell 3 of diagonal 10, to columns 6400 … 6527. -/
theorem store_50 : ∀ x : r0_87.shape.Idx,
    (k0_pay74 (View.ld x12 r0_39) (View.ld x0 r0_82) (View.ld x1 r0_83)) x = flatBoard x0 x1 x2 x3 x4 x5 x6 x7 x8 x9 x10 x11 x12 x13 x14 x15 x16 x17 x18 (r0_87.emb x) := by
  intro x
  obtain ⟨p, o, rfl⟩ : ∃ (p o : Fin 128), x = ix2 p o := ⟨x 0, x 1, eq_ix2 x⟩
  rw [Pieces.cell_50, flatBoard_at x0 x1 x2 x3 x4 x5 x6 x7 x8 x9 x10 x11 x12 x13 x14 x15 x16 x17 x18 _ p ⟨5, by decide⟩ ⟨5, by decide⟩ o
      (Fin.ext (by show 0 + 1 * p.val = p.val; omega)) (by show 6400 + 1 * o.val = (9 * 5 + 5) * 128 + o.val; omega)]
  exact layer_of_loads 10 (by decide) x0 x1 x12 _ _ _ p ⟨3, by decide⟩ o

/-- Store 51 writes cell (5, 6), cell 2 of diagonal 11, to columns 6528 … 6655. -/
theorem store_51 : ∀ x : r0_95.shape.Idx,
    (k0_pay81 (View.ld x13 r0_30) (View.ld x0 r0_91) (View.ld x1 r0_92)) x = flatBoard x0 x1 x2 x3 x4 x5 x6 x7 x8 x9 x10 x11 x12 x13 x14 x15 x16 x17 x18 (r0_95.emb x) := by
  intro x
  obtain ⟨p, o, rfl⟩ : ∃ (p o : Fin 128), x = ix2 p o := ⟨x 0, x 1, eq_ix2 x⟩
  rw [Pieces.cell_51, flatBoard_at x0 x1 x2 x3 x4 x5 x6 x7 x8 x9 x10 x11 x12 x13 x14 x15 x16 x17 x18 _ p ⟨5, by decide⟩ ⟨6, by decide⟩ o
      (Fin.ext (by show 0 + 1 * p.val = p.val; omega)) (by show 6528 + 1 * o.val = (9 * 5 + 6) * 128 + o.val; omega)]
  exact layer_of_loads 11 (by decide) x0 x1 x13 _ _ _ p ⟨2, by decide⟩ o

/-- Store 52 writes cell (5, 7), cell 1 of diagonal 12, to columns 6656 … 6783. -/
theorem store_52 : ∀ x : r0_102.shape.Idx,
    (k0_pay87 (View.ld x14 r0_22) (View.ld x0 r0_99) (View.ld x1 r0_100)) x = flatBoard x0 x1 x2 x3 x4 x5 x6 x7 x8 x9 x10 x11 x12 x13 x14 x15 x16 x17 x18 (r0_102.emb x) := by
  intro x
  obtain ⟨p, o, rfl⟩ : ∃ (p o : Fin 128), x = ix2 p o := ⟨x 0, x 1, eq_ix2 x⟩
  rw [Pieces.cell_52, flatBoard_at x0 x1 x2 x3 x4 x5 x6 x7 x8 x9 x10 x11 x12 x13 x14 x15 x16 x17 x18 _ p ⟨5, by decide⟩ ⟨7, by decide⟩ o
      (Fin.ext (by show 0 + 1 * p.val = p.val; omega)) (by show 6656 + 1 * o.val = (9 * 5 + 7) * 128 + o.val; omega)]
  exact layer_of_loads 12 (by decide) x0 x1 x14 _ _ _ p ⟨1, by decide⟩ o

/-- Store 53 writes cell (5, 8), cell 0 of diagonal 13, to columns 6784 … 6911. -/
theorem store_53 : ∀ x : r0_108.shape.Idx,
    (k0_pay93 (View.ld x15 r0_15) (View.ld x0 r0_106) (View.ld x1 r0_107)) x = flatBoard x0 x1 x2 x3 x4 x5 x6 x7 x8 x9 x10 x11 x12 x13 x14 x15 x16 x17 x18 (r0_108.emb x) := by
  intro x
  obtain ⟨p, o, rfl⟩ : ∃ (p o : Fin 128), x = ix2 p o := ⟨x 0, x 1, eq_ix2 x⟩
  rw [Pieces.cell_53, flatBoard_at x0 x1 x2 x3 x4 x5 x6 x7 x8 x9 x10 x11 x12 x13 x14 x15 x16 x17 x18 _ p ⟨5, by decide⟩ ⟨8, by decide⟩ o
      (Fin.ext (by show 0 + 1 * p.val = p.val; omega)) (by show 6784 + 1 * o.val = (9 * 5 + 8) * 128 + o.val; omega)]
  exact layer_of_loads 13 (by decide) x0 x1 x15 _ _ _ p ⟨0, by decide⟩ o

/-- Store 54 writes cell (6, 0), cell 6 of diagonal 6, to columns 6912 … 7039. -/
theorem store_54 : ∀ x : r0_48.shape.Idx,
    (k0_pay39 (k0_pay31 (View.ld x8 r0_39) (View.ld x0 r0_40) (View.ld x1 r0_41))) x = flatBoard x0 x1 x2 x3 x4 x5 x6 x7 x8 x9 x10 x11 x12 x13 x14 x15 x16 x17 x18 (r0_48.emb x) := by
  intro x
  obtain ⟨p, o, rfl⟩ : ∃ (p o : Fin 128), x = ix2 p o := ⟨x 0, x 1, eq_ix2 x⟩
  rw [Pieces.cell_54, flatBoard_at x0 x1 x2 x3 x4 x5 x6 x7 x8 x9 x10 x11 x12 x13 x14 x15 x16 x17 x18 _ p ⟨6, by decide⟩ ⟨0, by decide⟩ o
      (Fin.ext (by show 0 + 1 * p.val = p.val; omega)) (by show 6912 + 1 * o.val = (9 * 6 + 0) * 128 + o.val; omega)]
  exact layer_of_loads 6 (by decide) x0 x1 x8 _ _ _ p ⟨6, by decide⟩ o

/-- Store 55 writes cell (6, 1), cell 6 of diagonal 7, to columns 7040 … 7167. -/
theorem store_55 : ∀ x : r0_58.shape.Idx,
    (k0_pay47 (k0_pay40 (View.ld x9 r0_49) (View.ld x0 r0_50) (View.ld x1 r0_51))) x = flatBoard x0 x1 x2 x3 x4 x5 x6 x7 x8 x9 x10 x11 x12 x13 x14 x15 x16 x17 x18 (r0_58.emb x) := by
  intro x
  obtain ⟨p, o, rfl⟩ : ∃ (p o : Fin 128), x = ix2 p o := ⟨x 0, x 1, eq_ix2 x⟩
  rw [Pieces.cell_55, flatBoard_at x0 x1 x2 x3 x4 x5 x6 x7 x8 x9 x10 x11 x12 x13 x14 x15 x16 x17 x18 _ p ⟨6, by decide⟩ ⟨1, by decide⟩ o
      (Fin.ext (by show 0 + 1 * p.val = p.val; omega)) (by show 7040 + 1 * o.val = (9 * 6 + 1) * 128 + o.val; omega)]
  exact layer_of_loads 7 (by decide) x0 x1 x9 _ _ _ p ⟨6, by decide⟩ o

/-- Store 56 writes cell (6, 2), cell 6 of diagonal 8, to columns 7168 … 7295. -/
theorem store_56 : ∀ x : r0_69.shape.Idx,
    (k0_pay58 (k0_pay49 (View.ld x10 r0_60) (View.ld x0 r0_61)) (k0_pay50 (View.ld x1 r0_62))) x = flatBoard x0 x1 x2 x3 x4 x5 x6 x7 x8 x9 x10 x11 x12 x13 x14 x15 x16 x17 x18 (r0_69.emb x) := by
  intro x
  obtain ⟨p, o, rfl⟩ : ∃ (p o : Fin 128), x = ix2 p o := ⟨x 0, x 1, eq_ix2 x⟩
  rw [Pieces.cell_56, flatBoard_at x0 x1 x2 x3 x4 x5 x6 x7 x8 x9 x10 x11 x12 x13 x14 x15 x16 x17 x18 _ p ⟨6, by decide⟩ ⟨2, by decide⟩ o
      (Fin.ext (by show 0 + 1 * p.val = p.val; omega)) (by show 7168 + 1 * o.val = (9 * 6 + 2) * 128 + o.val; omega)]
  exact layer_of_loads 8 (by decide) x0 x1 x10 _ _ _ p ⟨6, by decide⟩ o

/-- Store 57 writes cell (6, 3), cell 5 of diagonal 9, to columns 7296 … 7423. -/
theorem store_57 : ∀ x : r0_79.shape.Idx,
    (k0_pay67 (View.ld x11 r0_49) (View.ld x0 r0_72) (View.ld x1 r0_73)) x = flatBoard x0 x1 x2 x3 x4 x5 x6 x7 x8 x9 x10 x11 x12 x13 x14 x15 x16 x17 x18 (r0_79.emb x) := by
  intro x
  obtain ⟨p, o, rfl⟩ : ∃ (p o : Fin 128), x = ix2 p o := ⟨x 0, x 1, eq_ix2 x⟩
  rw [Pieces.cell_57, flatBoard_at x0 x1 x2 x3 x4 x5 x6 x7 x8 x9 x10 x11 x12 x13 x14 x15 x16 x17 x18 _ p ⟨6, by decide⟩ ⟨3, by decide⟩ o
      (Fin.ext (by show 0 + 1 * p.val = p.val; omega)) (by show 7296 + 1 * o.val = (9 * 6 + 3) * 128 + o.val; omega)]
  exact layer_of_loads 9 (by decide) x0 x1 x11 _ _ _ p ⟨5, by decide⟩ o

/-- Store 58 writes cell (6, 4), cell 4 of diagonal 10, to columns 7424 … 7551. -/
theorem store_58 : ∀ x : r0_88.shape.Idx,
    (k0_pay75 (View.ld x12 r0_39) (View.ld x0 r0_82) (View.ld x1 r0_83)) x = flatBoard x0 x1 x2 x3 x4 x5 x6 x7 x8 x9 x10 x11 x12 x13 x14 x15 x16 x17 x18 (r0_88.emb x) := by
  intro x
  obtain ⟨p, o, rfl⟩ : ∃ (p o : Fin 128), x = ix2 p o := ⟨x 0, x 1, eq_ix2 x⟩
  rw [Pieces.cell_58, flatBoard_at x0 x1 x2 x3 x4 x5 x6 x7 x8 x9 x10 x11 x12 x13 x14 x15 x16 x17 x18 _ p ⟨6, by decide⟩ ⟨4, by decide⟩ o
      (Fin.ext (by show 0 + 1 * p.val = p.val; omega)) (by show 7424 + 1 * o.val = (9 * 6 + 4) * 128 + o.val; omega)]
  exact layer_of_loads 10 (by decide) x0 x1 x12 _ _ _ p ⟨4, by decide⟩ o

/-- Store 59 writes cell (6, 5), cell 3 of diagonal 11, to columns 7552 … 7679. -/
theorem store_59 : ∀ x : r0_96.shape.Idx,
    (k0_pay82 (View.ld x13 r0_30) (View.ld x0 r0_91) (View.ld x1 r0_92)) x = flatBoard x0 x1 x2 x3 x4 x5 x6 x7 x8 x9 x10 x11 x12 x13 x14 x15 x16 x17 x18 (r0_96.emb x) := by
  intro x
  obtain ⟨p, o, rfl⟩ : ∃ (p o : Fin 128), x = ix2 p o := ⟨x 0, x 1, eq_ix2 x⟩
  rw [Pieces.cell_59, flatBoard_at x0 x1 x2 x3 x4 x5 x6 x7 x8 x9 x10 x11 x12 x13 x14 x15 x16 x17 x18 _ p ⟨6, by decide⟩ ⟨5, by decide⟩ o
      (Fin.ext (by show 0 + 1 * p.val = p.val; omega)) (by show 7552 + 1 * o.val = (9 * 6 + 5) * 128 + o.val; omega)]
  exact layer_of_loads 11 (by decide) x0 x1 x13 _ _ _ p ⟨3, by decide⟩ o

/-- Store 60 writes cell (6, 6), cell 2 of diagonal 12, to columns 7680 … 7807. -/
theorem store_60 : ∀ x : r0_103.shape.Idx,
    (k0_pay88 (View.ld x14 r0_22) (View.ld x0 r0_99) (View.ld x1 r0_100)) x = flatBoard x0 x1 x2 x3 x4 x5 x6 x7 x8 x9 x10 x11 x12 x13 x14 x15 x16 x17 x18 (r0_103.emb x) := by
  intro x
  obtain ⟨p, o, rfl⟩ : ∃ (p o : Fin 128), x = ix2 p o := ⟨x 0, x 1, eq_ix2 x⟩
  rw [Pieces.cell_60, flatBoard_at x0 x1 x2 x3 x4 x5 x6 x7 x8 x9 x10 x11 x12 x13 x14 x15 x16 x17 x18 _ p ⟨6, by decide⟩ ⟨6, by decide⟩ o
      (Fin.ext (by show 0 + 1 * p.val = p.val; omega)) (by show 7680 + 1 * o.val = (9 * 6 + 6) * 128 + o.val; omega)]
  exact layer_of_loads 12 (by decide) x0 x1 x14 _ _ _ p ⟨2, by decide⟩ o

/-- Store 61 writes cell (6, 7), cell 1 of diagonal 13, to columns 7808 … 7935. -/
theorem store_61 : ∀ x : r0_109.shape.Idx,
    (k0_pay94 (View.ld x15 r0_15) (View.ld x0 r0_106) (View.ld x1 r0_107)) x = flatBoard x0 x1 x2 x3 x4 x5 x6 x7 x8 x9 x10 x11 x12 x13 x14 x15 x16 x17 x18 (r0_109.emb x) := by
  intro x
  obtain ⟨p, o, rfl⟩ : ∃ (p o : Fin 128), x = ix2 p o := ⟨x 0, x 1, eq_ix2 x⟩
  rw [Pieces.cell_61, flatBoard_at x0 x1 x2 x3 x4 x5 x6 x7 x8 x9 x10 x11 x12 x13 x14 x15 x16 x17 x18 _ p ⟨6, by decide⟩ ⟨7, by decide⟩ o
      (Fin.ext (by show 0 + 1 * p.val = p.val; omega)) (by show 7808 + 1 * o.val = (9 * 6 + 7) * 128 + o.val; omega)]
  exact layer_of_loads 13 (by decide) x0 x1 x15 _ _ _ p ⟨1, by decide⟩ o

/-- Store 62 writes cell (6, 8), cell 0 of diagonal 14, to columns 7936 … 8063. -/
theorem store_62 : ∀ x : r0_114.shape.Idx,
    (k0_pay99 (k0_pay97 (View.ld x16 r0_9)) (View.ld x0 r0_112) (View.ld x1 r0_113)) x = flatBoard x0 x1 x2 x3 x4 x5 x6 x7 x8 x9 x10 x11 x12 x13 x14 x15 x16 x17 x18 (r0_114.emb x) := by
  intro x
  obtain ⟨p, o, rfl⟩ : ∃ (p o : Fin 128), x = ix2 p o := ⟨x 0, x 1, eq_ix2 x⟩
  rw [Pieces.cell_62, flatBoard_at x0 x1 x2 x3 x4 x5 x6 x7 x8 x9 x10 x11 x12 x13 x14 x15 x16 x17 x18 _ p ⟨6, by decide⟩ ⟨8, by decide⟩ o
      (Fin.ext (by show 0 + 1 * p.val = p.val; omega)) (by show 7936 + 1 * o.val = (9 * 6 + 8) * 128 + o.val; omega)]
  exact layer_of_loads 14 (by decide) x0 x1 x16 _ _ _ p ⟨0, by decide⟩ o

/-- Store 63 writes cell (7, 0), cell 7 of diagonal 7, to columns 8064 … 8191. -/
theorem store_63 : ∀ x : r0_59.shape.Idx,
    (k0_pay48 (k0_pay40 (View.ld x9 r0_49) (View.ld x0 r0_50) (View.ld x1 r0_51))) x = flatBoard x0 x1 x2 x3 x4 x5 x6 x7 x8 x9 x10 x11 x12 x13 x14 x15 x16 x17 x18 (r0_59.emb x) := by
  intro x
  obtain ⟨p, o, rfl⟩ : ∃ (p o : Fin 128), x = ix2 p o := ⟨x 0, x 1, eq_ix2 x⟩
  rw [Pieces.cell_63, flatBoard_at x0 x1 x2 x3 x4 x5 x6 x7 x8 x9 x10 x11 x12 x13 x14 x15 x16 x17 x18 _ p ⟨7, by decide⟩ ⟨0, by decide⟩ o
      (Fin.ext (by show 0 + 1 * p.val = p.val; omega)) (by show 8064 + 1 * o.val = (9 * 7 + 0) * 128 + o.val; omega)]
  exact layer_of_loads 7 (by decide) x0 x1 x9 _ _ _ p ⟨7, by decide⟩ o

/-- Store 64 writes cell (7, 1), cell 7 of diagonal 8, to columns 8192 … 8319. -/
theorem store_64 : ∀ x : r0_70.shape.Idx,
    (k0_pay59 (k0_pay49 (View.ld x10 r0_60) (View.ld x0 r0_61)) (k0_pay50 (View.ld x1 r0_62))) x = flatBoard x0 x1 x2 x3 x4 x5 x6 x7 x8 x9 x10 x11 x12 x13 x14 x15 x16 x17 x18 (r0_70.emb x) := by
  intro x
  obtain ⟨p, o, rfl⟩ : ∃ (p o : Fin 128), x = ix2 p o := ⟨x 0, x 1, eq_ix2 x⟩
  rw [Pieces.cell_64, flatBoard_at x0 x1 x2 x3 x4 x5 x6 x7 x8 x9 x10 x11 x12 x13 x14 x15 x16 x17 x18 _ p ⟨7, by decide⟩ ⟨1, by decide⟩ o
      (Fin.ext (by show 0 + 1 * p.val = p.val; omega)) (by show 8192 + 1 * o.val = (9 * 7 + 1) * 128 + o.val; omega)]
  exact layer_of_loads 8 (by decide) x0 x1 x10 _ _ _ p ⟨7, by decide⟩ o

/-- Store 65 writes cell (7, 2), cell 6 of diagonal 9, to columns 8320 … 8447. -/
theorem store_65 : ∀ x : r0_80.shape.Idx,
    (k0_pay68 (View.ld x11 r0_49) (View.ld x0 r0_72) (View.ld x1 r0_73)) x = flatBoard x0 x1 x2 x3 x4 x5 x6 x7 x8 x9 x10 x11 x12 x13 x14 x15 x16 x17 x18 (r0_80.emb x) := by
  intro x
  obtain ⟨p, o, rfl⟩ : ∃ (p o : Fin 128), x = ix2 p o := ⟨x 0, x 1, eq_ix2 x⟩
  rw [Pieces.cell_65, flatBoard_at x0 x1 x2 x3 x4 x5 x6 x7 x8 x9 x10 x11 x12 x13 x14 x15 x16 x17 x18 _ p ⟨7, by decide⟩ ⟨2, by decide⟩ o
      (Fin.ext (by show 0 + 1 * p.val = p.val; omega)) (by show 8320 + 1 * o.val = (9 * 7 + 2) * 128 + o.val; omega)]
  exact layer_of_loads 9 (by decide) x0 x1 x11 _ _ _ p ⟨6, by decide⟩ o

/-- Store 66 writes cell (7, 3), cell 5 of diagonal 10, to columns 8448 … 8575. -/
theorem store_66 : ∀ x : r0_89.shape.Idx,
    (k0_pay76 (k0_pay70 (View.ld x12 r0_39) (View.ld x0 r0_82) (View.ld x1 r0_83))) x = flatBoard x0 x1 x2 x3 x4 x5 x6 x7 x8 x9 x10 x11 x12 x13 x14 x15 x16 x17 x18 (r0_89.emb x) := by
  intro x
  obtain ⟨p, o, rfl⟩ : ∃ (p o : Fin 128), x = ix2 p o := ⟨x 0, x 1, eq_ix2 x⟩
  rw [Pieces.cell_66, flatBoard_at x0 x1 x2 x3 x4 x5 x6 x7 x8 x9 x10 x11 x12 x13 x14 x15 x16 x17 x18 _ p ⟨7, by decide⟩ ⟨3, by decide⟩ o
      (Fin.ext (by show 0 + 1 * p.val = p.val; omega)) (by show 8448 + 1 * o.val = (9 * 7 + 3) * 128 + o.val; omega)]
  exact layer_of_loads 10 (by decide) x0 x1 x12 _ _ _ p ⟨5, by decide⟩ o

/-- Store 67 writes cell (7, 4), cell 4 of diagonal 11, to columns 8576 … 8703. -/
theorem store_67 : ∀ x : r0_97.shape.Idx,
    (k0_pay83 (k0_pay78 (View.ld x13 r0_30) (View.ld x0 r0_91) (View.ld x1 r0_92))) x = flatBoard x0 x1 x2 x3 x4 x5 x6 x7 x8 x9 x10 x11 x12 x13 x14 x15 x16 x17 x18 (r0_97.emb x) := by
  intro x
  obtain ⟨p, o, rfl⟩ : ∃ (p o : Fin 128), x = ix2 p o := ⟨x 0, x 1, eq_ix2 x⟩
  rw [Pieces.cell_67, flatBoard_at x0 x1 x2 x3 x4 x5 x6 x7 x8 x9 x10 x11 x12 x13 x14 x15 x16 x17 x18 _ p ⟨7, by decide⟩ ⟨4, by decide⟩ o
      (Fin.ext (by show 0 + 1 * p.val = p.val; omega)) (by show 8576 + 1 * o.val = (9 * 7 + 4) * 128 + o.val; omega)]
  exact layer_of_loads 11 (by decide) x0 x1 x13 _ _ _ p ⟨4, by decide⟩ o

/-- Store 68 writes cell (7, 5), cell 3 of diagonal 12, to columns 8704 … 8831. -/
theorem store_68 : ∀ x : r0_104.shape.Idx,
    (k0_pay89 (View.ld x14 r0_22) (View.ld x0 r0_99) (View.ld x1 r0_100)) x = flatBoard x0 x1 x2 x3 x4 x5 x6 x7 x8 x9 x10 x11 x12 x13 x14 x15 x16 x17 x18 (r0_104.emb x) := by
  intro x
  obtain ⟨p, o, rfl⟩ : ∃ (p o : Fin 128), x = ix2 p o := ⟨x 0, x 1, eq_ix2 x⟩
  rw [Pieces.cell_68, flatBoard_at x0 x1 x2 x3 x4 x5 x6 x7 x8 x9 x10 x11 x12 x13 x14 x15 x16 x17 x18 _ p ⟨7, by decide⟩ ⟨5, by decide⟩ o
      (Fin.ext (by show 0 + 1 * p.val = p.val; omega)) (by show 8704 + 1 * o.val = (9 * 7 + 5) * 128 + o.val; omega)]
  exact layer_of_loads 12 (by decide) x0 x1 x14 _ _ _ p ⟨3, by decide⟩ o

/-- Store 69 writes cell (7, 6), cell 2 of diagonal 13, to columns 8832 … 8959. -/
theorem store_69 : ∀ x : r0_110.shape.Idx,
    (k0_pay95 (View.ld x15 r0_15) (View.ld x0 r0_106) (View.ld x1 r0_107)) x = flatBoard x0 x1 x2 x3 x4 x5 x6 x7 x8 x9 x10 x11 x12 x13 x14 x15 x16 x17 x18 (r0_110.emb x) := by
  intro x
  obtain ⟨p, o, rfl⟩ : ∃ (p o : Fin 128), x = ix2 p o := ⟨x 0, x 1, eq_ix2 x⟩
  rw [Pieces.cell_69, flatBoard_at x0 x1 x2 x3 x4 x5 x6 x7 x8 x9 x10 x11 x12 x13 x14 x15 x16 x17 x18 _ p ⟨7, by decide⟩ ⟨6, by decide⟩ o
      (Fin.ext (by show 0 + 1 * p.val = p.val; omega)) (by show 8832 + 1 * o.val = (9 * 7 + 6) * 128 + o.val; omega)]
  exact layer_of_loads 13 (by decide) x0 x1 x15 _ _ _ p ⟨2, by decide⟩ o

/-- Store 70 writes cell (7, 7), cell 1 of diagonal 14, to columns 8960 … 9087. -/
theorem store_70 : ∀ x : r0_115.shape.Idx,
    (k0_pay100 (k0_pay97 (View.ld x16 r0_9)) (View.ld x0 r0_112) (View.ld x1 r0_113)) x = flatBoard x0 x1 x2 x3 x4 x5 x6 x7 x8 x9 x10 x11 x12 x13 x14 x15 x16 x17 x18 (r0_115.emb x) := by
  intro x
  obtain ⟨p, o, rfl⟩ : ∃ (p o : Fin 128), x = ix2 p o := ⟨x 0, x 1, eq_ix2 x⟩
  rw [Pieces.cell_70, flatBoard_at x0 x1 x2 x3 x4 x5 x6 x7 x8 x9 x10 x11 x12 x13 x14 x15 x16 x17 x18 _ p ⟨7, by decide⟩ ⟨7, by decide⟩ o
      (Fin.ext (by show 0 + 1 * p.val = p.val; omega)) (by show 8960 + 1 * o.val = (9 * 7 + 7) * 128 + o.val; omega)]
  exact layer_of_loads 14 (by decide) x0 x1 x16 _ _ _ p ⟨1, by decide⟩ o

/-- Store 71 writes cell (7, 8), cell 0 of diagonal 15, to columns 9088 … 9215. -/
theorem store_71 : ∀ x : r0_119.shape.Idx,
    (k0_pay103 (View.ld x17 r0_4) (View.ld x0 r0_117) (View.ld x1 r0_118)) x = flatBoard x0 x1 x2 x3 x4 x5 x6 x7 x8 x9 x10 x11 x12 x13 x14 x15 x16 x17 x18 (r0_119.emb x) := by
  intro x
  obtain ⟨p, o, rfl⟩ : ∃ (p o : Fin 128), x = ix2 p o := ⟨x 0, x 1, eq_ix2 x⟩
  rw [Pieces.cell_71, flatBoard_at x0 x1 x2 x3 x4 x5 x6 x7 x8 x9 x10 x11 x12 x13 x14 x15 x16 x17 x18 _ p ⟨7, by decide⟩ ⟨8, by decide⟩ o
      (Fin.ext (by show 0 + 1 * p.val = p.val; omega)) (by show 9088 + 1 * o.val = (9 * 7 + 8) * 128 + o.val; omega)]
  exact layer_of_loads 15 (by decide) x0 x1 x17 _ _ _ p ⟨0, by decide⟩ o

/-- Store 72 writes cell (8, 0), cell 8 of diagonal 8, to columns 9216 … 9343. -/
theorem store_72 : ∀ x : r0_71.shape.Idx,
    (k0_pay60 (k0_pay49 (View.ld x10 r0_60) (View.ld x0 r0_61)) (k0_pay50 (View.ld x1 r0_62))) x = flatBoard x0 x1 x2 x3 x4 x5 x6 x7 x8 x9 x10 x11 x12 x13 x14 x15 x16 x17 x18 (r0_71.emb x) := by
  intro x
  obtain ⟨p, o, rfl⟩ : ∃ (p o : Fin 128), x = ix2 p o := ⟨x 0, x 1, eq_ix2 x⟩
  rw [Pieces.cell_72, flatBoard_at x0 x1 x2 x3 x4 x5 x6 x7 x8 x9 x10 x11 x12 x13 x14 x15 x16 x17 x18 _ p ⟨8, by decide⟩ ⟨0, by decide⟩ o
      (Fin.ext (by show 0 + 1 * p.val = p.val; omega)) (by show 9216 + 1 * o.val = (9 * 8 + 0) * 128 + o.val; omega)]
  exact layer_of_loads 8 (by decide) x0 x1 x10 _ _ _ p ⟨8, by decide⟩ o

/-- Store 73 writes cell (8, 1), cell 7 of diagonal 9, to columns 9344 … 9471. -/
theorem store_73 : ∀ x : r0_81.shape.Idx,
    (k0_pay69 (k0_pay61 (View.ld x11 r0_49) (View.ld x0 r0_72) (View.ld x1 r0_73))) x = flatBoard x0 x1 x2 x3 x4 x5 x6 x7 x8 x9 x10 x11 x12 x13 x14 x15 x16 x17 x18 (r0_81.emb x) := by
  intro x
  obtain ⟨p, o, rfl⟩ : ∃ (p o : Fin 128), x = ix2 p o := ⟨x 0, x 1, eq_ix2 x⟩
  rw [Pieces.cell_73, flatBoard_at x0 x1 x2 x3 x4 x5 x6 x7 x8 x9 x10 x11 x12 x13 x14 x15 x16 x17 x18 _ p ⟨8, by decide⟩ ⟨1, by decide⟩ o
      (Fin.ext (by show 0 + 1 * p.val = p.val; omega)) (by show 9344 + 1 * o.val = (9 * 8 + 1) * 128 + o.val; omega)]
  exact layer_of_loads 9 (by decide) x0 x1 x11 _ _ _ p ⟨7, by decide⟩ o

/-- Store 74 writes cell (8, 2), cell 6 of diagonal 10, to columns 9472 … 9599. -/
theorem store_74 : ∀ x : r0_90.shape.Idx,
    (k0_pay77 (k0_pay70 (View.ld x12 r0_39) (View.ld x0 r0_82) (View.ld x1 r0_83))) x = flatBoard x0 x1 x2 x3 x4 x5 x6 x7 x8 x9 x10 x11 x12 x13 x14 x15 x16 x17 x18 (r0_90.emb x) := by
  intro x
  obtain ⟨p, o, rfl⟩ : ∃ (p o : Fin 128), x = ix2 p o := ⟨x 0, x 1, eq_ix2 x⟩
  rw [Pieces.cell_74, flatBoard_at x0 x1 x2 x3 x4 x5 x6 x7 x8 x9 x10 x11 x12 x13 x14 x15 x16 x17 x18 _ p ⟨8, by decide⟩ ⟨2, by decide⟩ o
      (Fin.ext (by show 0 + 1 * p.val = p.val; omega)) (by show 9472 + 1 * o.val = (9 * 8 + 2) * 128 + o.val; omega)]
  exact layer_of_loads 10 (by decide) x0 x1 x12 _ _ _ p ⟨6, by decide⟩ o

/-- Store 75 writes cell (8, 3), cell 5 of diagonal 11, to columns 9600 … 9727. -/
theorem store_75 : ∀ x : r0_98.shape.Idx,
    (k0_pay84 (k0_pay78 (View.ld x13 r0_30) (View.ld x0 r0_91) (View.ld x1 r0_92))) x = flatBoard x0 x1 x2 x3 x4 x5 x6 x7 x8 x9 x10 x11 x12 x13 x14 x15 x16 x17 x18 (r0_98.emb x) := by
  intro x
  obtain ⟨p, o, rfl⟩ : ∃ (p o : Fin 128), x = ix2 p o := ⟨x 0, x 1, eq_ix2 x⟩
  rw [Pieces.cell_75, flatBoard_at x0 x1 x2 x3 x4 x5 x6 x7 x8 x9 x10 x11 x12 x13 x14 x15 x16 x17 x18 _ p ⟨8, by decide⟩ ⟨3, by decide⟩ o
      (Fin.ext (by show 0 + 1 * p.val = p.val; omega)) (by show 9600 + 1 * o.val = (9 * 8 + 3) * 128 + o.val; omega)]
  exact layer_of_loads 11 (by decide) x0 x1 x13 _ _ _ p ⟨5, by decide⟩ o

/-- Store 76 writes cell (8, 4), cell 4 of diagonal 12, to columns 9728 … 9855. -/
theorem store_76 : ∀ x : r0_105.shape.Idx,
    (k0_pay91 (k0_pay90 (View.ld x14 r0_22) (View.ld x0 r0_99) (View.ld x1 r0_100))) x = flatBoard x0 x1 x2 x3 x4 x5 x6 x7 x8 x9 x10 x11 x12 x13 x14 x15 x16 x17 x18 (r0_105.emb x) := by
  intro x
  obtain ⟨p, o, rfl⟩ : ∃ (p o : Fin 128), x = ix2 p o := ⟨x 0, x 1, eq_ix2 x⟩
  rw [Pieces.cell_76, flatBoard_at x0 x1 x2 x3 x4 x5 x6 x7 x8 x9 x10 x11 x12 x13 x14 x15 x16 x17 x18 _ p ⟨8, by decide⟩ ⟨4, by decide⟩ o
      (Fin.ext (by show 0 + 1 * p.val = p.val; omega)) (by show 9728 + 1 * o.val = (9 * 8 + 4) * 128 + o.val; omega)]
  exact layer_of_loads 12 (by decide) x0 x1 x14 _ _ _ p ⟨4, by decide⟩ o

/-- Store 77 writes cell (8, 5), cell 3 of diagonal 13, to columns 9856 … 9983. -/
theorem store_77 : ∀ x : r0_111.shape.Idx,
    (k0_pay96 (View.ld x15 r0_15) (View.ld x0 r0_106) (View.ld x1 r0_107)) x = flatBoard x0 x1 x2 x3 x4 x5 x6 x7 x8 x9 x10 x11 x12 x13 x14 x15 x16 x17 x18 (r0_111.emb x) := by
  intro x
  obtain ⟨p, o, rfl⟩ : ∃ (p o : Fin 128), x = ix2 p o := ⟨x 0, x 1, eq_ix2 x⟩
  rw [Pieces.cell_77, flatBoard_at x0 x1 x2 x3 x4 x5 x6 x7 x8 x9 x10 x11 x12 x13 x14 x15 x16 x17 x18 _ p ⟨8, by decide⟩ ⟨5, by decide⟩ o
      (Fin.ext (by show 0 + 1 * p.val = p.val; omega)) (by show 9856 + 1 * o.val = (9 * 8 + 5) * 128 + o.val; omega)]
  exact layer_of_loads 13 (by decide) x0 x1 x15 _ _ _ p ⟨3, by decide⟩ o

/-- Store 78 writes cell (8, 6), cell 2 of diagonal 14, to columns 9984 … 10111. -/
theorem store_78 : ∀ x : r0_116.shape.Idx,
    (k0_pay101 (k0_pay97 (View.ld x16 r0_9)) (View.ld x0 r0_112) (View.ld x1 r0_113)) x = flatBoard x0 x1 x2 x3 x4 x5 x6 x7 x8 x9 x10 x11 x12 x13 x14 x15 x16 x17 x18 (r0_116.emb x) := by
  intro x
  obtain ⟨p, o, rfl⟩ : ∃ (p o : Fin 128), x = ix2 p o := ⟨x 0, x 1, eq_ix2 x⟩
  rw [Pieces.cell_78, flatBoard_at x0 x1 x2 x3 x4 x5 x6 x7 x8 x9 x10 x11 x12 x13 x14 x15 x16 x17 x18 _ p ⟨8, by decide⟩ ⟨6, by decide⟩ o
      (Fin.ext (by show 0 + 1 * p.val = p.val; omega)) (by show 9984 + 1 * o.val = (9 * 8 + 6) * 128 + o.val; omega)]
  exact layer_of_loads 14 (by decide) x0 x1 x16 _ _ _ p ⟨2, by decide⟩ o

/-- Store 79 writes cell (8, 7), cell 1 of diagonal 15, to columns 10112 … 10239. -/
theorem store_79 : ∀ x : r0_120.shape.Idx,
    (k0_pay1 (k0_pay102 (View.ld x17 r0_4) (View.ld x0 r0_117) (View.ld x1 r0_118))) x = flatBoard x0 x1 x2 x3 x4 x5 x6 x7 x8 x9 x10 x11 x12 x13 x14 x15 x16 x17 x18 (r0_120.emb x) := by
  intro x
  obtain ⟨p, o, rfl⟩ : ∃ (p o : Fin 128), x = ix2 p o := ⟨x 0, x 1, eq_ix2 x⟩
  rw [Pieces.cell_79, flatBoard_at x0 x1 x2 x3 x4 x5 x6 x7 x8 x9 x10 x11 x12 x13 x14 x15 x16 x17 x18 _ p ⟨8, by decide⟩ ⟨7, by decide⟩ o
      (Fin.ext (by show 0 + 1 * p.val = p.val; omega)) (by show 10112 + 1 * o.val = (9 * 8 + 7) * 128 + o.val; omega)]
  exact layer_of_loads 15 (by decide) x0 x1 x17 _ _ _ p ⟨1, by decide⟩ o

/-- Store 80 writes cell (8, 8), cell 0 of diagonal 16, to columns 10240 … 10367. -/
theorem store_80 : ∀ x : r0_123.shape.Idx,
    (k0_pay2 (View.ld x18 r0_0) (View.ld x0 r0_121) (View.ld x1 r0_122)) x = flatBoard x0 x1 x2 x3 x4 x5 x6 x7 x8 x9 x10 x11 x12 x13 x14 x15 x16 x17 x18 (r0_123.emb x) := by
  intro x
  obtain ⟨p, o, rfl⟩ : ∃ (p o : Fin 128), x = ix2 p o := ⟨x 0, x 1, eq_ix2 x⟩
  rw [Pieces.cell_80, flatBoard_at x0 x1 x2 x3 x4 x5 x6 x7 x8 x9 x10 x11 x12 x13 x14 x15 x16 x17 x18 _ p ⟨8, by decide⟩ ⟨8, by decide⟩ o
      (Fin.ext (by show 0 + 1 * p.val = p.val; omega)) (by show 10240 + 1 * o.val = (9 * 8 + 8) * 128 + o.val; omega)]
  exact layer_of_loads 16 (by decide) x0 x1 x18 _ _ _ p ⟨0, by decide⟩ o

/-- The output block after the body is the flattened board of the point's input blocks. -/
theorem out_eq : out0_19 (F := Ideal) x0 x1 x2 x3 x4 x5 x6 x7 x8 x9 x10 x11 x12 x13 x14 x15 x16 x17 x18 = flatBoard x0 x1 x2 x3 x4 x5 x6 x7 x8 x9 x10 x11 x12 x13 x14 x15 x16 x17 x18 := by
  funext y
  unfold out0_19
  refine View.canon_apply_of_pieces (Val := Elt Ideal) (S := S128x10368) (e := .f32) (flatBoard x0 x1 x2 x3 x4 x5 x6 x7 x8 x9 x10 x11 x12 x13 x14 x15 x16 x17 x18) _ ?_ y (cover0_19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine List.forall_mem_cons.2 ⟨store_80 x0 x1 x2 x3 x4 x5 x6 x7 x8 x9 x10 x11 x12 x13 x14 x15 x16 x17 x18, ?_⟩
  refine List.forall_mem_cons.2 ⟨store_79 x0 x1 x2 x3 x4 x5 x6 x7 x8 x9 x10 x11 x12 x13 x14 x15 x16 x17 x18, ?_⟩
  refine List.forall_mem_cons.2 ⟨store_71 x0 x1 x2 x3 x4 x5 x6 x7 x8 x9 x10 x11 x12 x13 x14 x15 x16 x17 x18, ?_⟩
  refine List.forall_mem_cons.2 ⟨store_78 x0 x1 x2 x3 x4 x5 x6 x7 x8 x9 x10 x11 x12 x13 x14 x15 x16 x17 x18, ?_⟩
  refine List.forall_mem_cons.2 ⟨store_70 x0 x1 x2 x3 x4 x5 x6 x7 x8 x9 x10 x11 x12 x13 x14 x15 x16 x17 x18, ?_⟩
  refine List.forall_mem_cons.2 ⟨store_62 x0 x1 x2 x3 x4 x5 x6 x7 x8 x9 x10 x11 x12 x13 x14 x15 x16 x17 x18, ?_⟩
  refine List.forall_mem_cons.2 ⟨store_77 x0 x1 x2 x3 x4 x5 x6 x7 x8 x9 x10 x11 x12 x13 x14 x15 x16 x17 x18, ?_⟩
  refine List.forall_mem_cons.2 ⟨store_69 x0 x1 x2 x3 x4 x5 x6 x7 x8 x9 x10 x11 x12 x13 x14 x15 x16 x17 x18, ?_⟩
  refine List.forall_mem_cons.2 ⟨store_61 x0 x1 x2 x3 x4 x5 x6 x7 x8 x9 x10 x11 x12 x13 x14 x15 x16 x17 x18, ?_⟩
  refine List.forall_mem_cons.2 ⟨store_53 x0 x1 x2 x3 x4 x5 x6 x7 x8 x9 x10 x11 x12 x13 x14 x15 x16 x17 x18, ?_⟩
  refine List.forall_mem_cons.2 ⟨store_76 x0 x1 x2 x3 x4 x5 x6 x7 x8 x9 x10 x11 x12 x13 x14 x15 x16 x17 x18, ?_⟩
  refine List.forall_mem_cons.2 ⟨store_68 x0 x1 x2 x3 x4 x5 x6 x7 x8 x9 x10 x11 x12 x13 x14 x15 x16 x17 x18, ?_⟩
  refine List.forall_mem_cons.2 ⟨store_60 x0 x1 x2 x3 x4 x5 x6 x7 x8 x9 x10 x11 x12 x13 x14 x15 x16 x17 x18, ?_⟩
  refine List.forall_mem_cons.2 ⟨store_52 x0 x1 x2 x3 x4 x5 x6 x7 x8 x9 x10 x11 x12 x13 x14 x15 x16 x17 x18, ?_⟩
  refine List.forall_mem_cons.2 ⟨store_44 x0 x1 x2 x3 x4 x5 x6 x7 x8 x9 x10 x11 x12 x13 x14 x15 x16 x17 x18, ?_⟩
  refine List.forall_mem_cons.2 ⟨store_75 x0 x1 x2 x3 x4 x5 x6 x7 x8 x9 x10 x11 x12 x13 x14 x15 x16 x17 x18, ?_⟩
  refine List.forall_mem_cons.2 ⟨store_67 x0 x1 x2 x3 x4 x5 x6 x7 x8 x9 x10 x11 x12 x13 x14 x15 x16 x17 x18, ?_⟩
  refine List.forall_mem_cons.2 ⟨store_59 x0 x1 x2 x3 x4 x5 x6 x7 x8 x9 x10 x11 x12 x13 x14 x15 x16 x17 x18, ?_⟩
  refine List.forall_mem_cons.2 ⟨store_51 x0 x1 x2 x3 x4 x5 x6 x7 x8 x9 x10 x11 x12 x13 x14 x15 x16 x17 x18, ?_⟩
  refine List.forall_mem_cons.2 ⟨store_43 x0 x1 x2 x3 x4 x5 x6 x7 x8 x9 x10 x11 x12 x13 x14 x15 x16 x17 x18, ?_⟩
  refine List.forall_mem_cons.2 ⟨store_35 x0 x1 x2 x3 x4 x5 x6 x7 x8 x9 x10 x11 x12 x13 x14 x15 x16 x17 x18, ?_⟩
  refine List.forall_mem_cons.2 ⟨store_74 x0 x1 x2 x3 x4 x5 x6 x7 x8 x9 x10 x11 x12 x13 x14 x15 x16 x17 x18, ?_⟩
  refine List.forall_mem_cons.2 ⟨store_66 x0 x1 x2 x3 x4 x5 x6 x7 x8 x9 x10 x11 x12 x13 x14 x15 x16 x17 x18, ?_⟩
  refine List.forall_mem_cons.2 ⟨store_58 x0 x1 x2 x3 x4 x5 x6 x7 x8 x9 x10 x11 x12 x13 x14 x15 x16 x17 x18, ?_⟩
  refine List.forall_mem_cons.2 ⟨store_50 x0 x1 x2 x3 x4 x5 x6 x7 x8 x9 x10 x11 x12 x13 x14 x15 x16 x17 x18, ?_⟩
  refine List.forall_mem_cons.2 ⟨store_42 x0 x1 x2 x3 x4 x5 x6 x7 x8 x9 x10 x11 x12 x13 x14 x15 x16 x17 x18, ?_⟩
  refine List.forall_mem_cons.2 ⟨store_34 x0 x1 x2 x3 x4 x5 x6 x7 x8 x9 x10 x11 x12 x13 x14 x15 x16 x17 x18, ?_⟩
  refine List.forall_mem_cons.2 ⟨store_26 x0 x1 x2 x3 x4 x5 x6 x7 x8 x9 x10 x11 x12 x13 x14 x15 x16 x17 x18, ?_⟩
  refine List.forall_mem_cons.2 ⟨store_73 x0 x1 x2 x3 x4 x5 x6 x7 x8 x9 x10 x11 x12 x13 x14 x15 x16 x17 x18, ?_⟩
  refine List.forall_mem_cons.2 ⟨store_65 x0 x1 x2 x3 x4 x5 x6 x7 x8 x9 x10 x11 x12 x13 x14 x15 x16 x17 x18, ?_⟩
  refine List.forall_mem_cons.2 ⟨store_57 x0 x1 x2 x3 x4 x5 x6 x7 x8 x9 x10 x11 x12 x13 x14 x15 x16 x17 x18, ?_⟩
  refine List.forall_mem_cons.2 ⟨store_49 x0 x1 x2 x3 x4 x5 x6 x7 x8 x9 x10 x11 x12 x13 x14 x15 x16 x17 x18, ?_⟩
  refine List.forall_mem_cons.2 ⟨store_41 x0 x1 x2 x3 x4 x5 x6 x7 x8 x9 x10 x11 x12 x13 x14 x15 x16 x17 x18, ?_⟩
  refine List.forall_mem_cons.2 ⟨store_33 x0 x1 x2 x3 x4 x5 x6 x7 x8 x9 x10 x11 x12 x13 x14 x15 x16 x17 x18, ?_⟩
  refine List.forall_mem_cons.2 ⟨store_25 x0 x1 x2 x3 x4 x5 x6 x7 x8 x9 x10 x11 x12 x13 x14 x15 x16 x17 x18, ?_⟩
  refine List.forall_mem_cons.2 ⟨store_17 x0 x1 x2 x3 x4 x5 x6 x7 x8 x9 x10 x11 x12 x13 x14 x15 x16 x17 x18, ?_⟩
  refine List.forall_mem_cons.2 ⟨store_72 x0 x1 x2 x3 x4 x5 x6 x7 x8 x9 x10 x11 x12 x13 x14 x15 x16 x17 x18, ?_⟩
  refine List.forall_mem_cons.2 ⟨store_64 x0 x1 x2 x3 x4 x5 x6 x7 x8 x9 x10 x11 x12 x13 x14 x15 x16 x17 x18, ?_⟩
  refine List.forall_mem_cons.2 ⟨store_56 x0 x1 x2 x3 x4 x5 x6 x7 x8 x9 x10 x11 x12 x13 x14 x15 x16 x17 x18, ?_⟩
  refine List.forall_mem_cons.2 ⟨store_48 x0 x1 x2 x3 x4 x5 x6 x7 x8 x9 x10 x11 x12 x13 x14 x15 x16 x17 x18, ?_⟩
  refine List.forall_mem_cons.2 ⟨store_40 x0 x1 x2 x3 x4 x5 x6 x7 x8 x9 x10 x11 x12 x13 x14 x15 x16 x17 x18, ?_⟩
  refine List.forall_mem_cons.2 ⟨store_32 x0 x1 x2 x3 x4 x5 x6 x7 x8 x9 x10 x11 x12 x13 x14 x15 x16 x17 x18, ?_⟩
  refine List.forall_mem_cons.2 ⟨store_24 x0 x1 x2 x3 x4 x5 x6 x7 x8 x9 x10 x11 x12 x13 x14 x15 x16 x17 x18, ?_⟩
  refine List.forall_mem_cons.2 ⟨store_16 x0 x1 x2 x3 x4 x5 x6 x7 x8 x9 x10 x11 x12 x13 x14 x15 x16 x17 x18, ?_⟩
  refine List.forall_mem_cons.2 ⟨store_8 x0 x1 x2 x3 x4 x5 x6 x7 x8 x9 x10 x11 x12 x13 x14 x15 x16 x17 x18, ?_⟩
  refine List.forall_mem_cons.2 ⟨store_63 x0 x1 x2 x3 x4 x5 x6 x7 x8 x9 x10 x11 x12 x13 x14 x15 x16 x17 x18, ?_⟩
  refine List.forall_mem_cons.2 ⟨store_55 x0 x1 x2 x3 x4 x5 x6 x7 x8 x9 x10 x11 x12 x13 x14 x15 x16 x17 x18, ?_⟩
  refine List.forall_mem_cons.2 ⟨store_47 x0 x1 x2 x3 x4 x5 x6 x7 x8 x9 x10 x11 x12 x13 x14 x15 x16 x17 x18, ?_⟩
  refine List.forall_mem_cons.2 ⟨store_39 x0 x1 x2 x3 x4 x5 x6 x7 x8 x9 x10 x11 x12 x13 x14 x15 x16 x17 x18, ?_⟩
  refine List.forall_mem_cons.2 ⟨store_31 x0 x1 x2 x3 x4 x5 x6 x7 x8 x9 x10 x11 x12 x13 x14 x15 x16 x17 x18, ?_⟩
  refine List.forall_mem_cons.2 ⟨store_23 x0 x1 x2 x3 x4 x5 x6 x7 x8 x9 x10 x11 x12 x13 x14 x15 x16 x17 x18, ?_⟩
  refine List.forall_mem_cons.2 ⟨store_15 x0 x1 x2 x3 x4 x5 x6 x7 x8 x9 x10 x11 x12 x13 x14 x15 x16 x17 x18, ?_⟩
  refine List.forall_mem_cons.2 ⟨store_7 x0 x1 x2 x3 x4 x5 x6 x7 x8 x9 x10 x11 x12 x13 x14 x15 x16 x17 x18, ?_⟩
  refine List.forall_mem_cons.2 ⟨store_54 x0 x1 x2 x3 x4 x5 x6 x7 x8 x9 x10 x11 x12 x13 x14 x15 x16 x17 x18, ?_⟩
  refine List.forall_mem_cons.2 ⟨store_46 x0 x1 x2 x3 x4 x5 x6 x7 x8 x9 x10 x11 x12 x13 x14 x15 x16 x17 x18, ?_⟩
  refine List.forall_mem_cons.2 ⟨store_38 x0 x1 x2 x3 x4 x5 x6 x7 x8 x9 x10 x11 x12 x13 x14 x15 x16 x17 x18, ?_⟩
  refine List.forall_mem_cons.2 ⟨store_30 x0 x1 x2 x3 x4 x5 x6 x7 x8 x9 x10 x11 x12 x13 x14 x15 x16 x17 x18, ?_⟩
  refine List.forall_mem_cons.2 ⟨store_22 x0 x1 x2 x3 x4 x5 x6 x7 x8 x9 x10 x11 x12 x13 x14 x15 x16 x17 x18, ?_⟩
  refine List.forall_mem_cons.2 ⟨store_14 x0 x1 x2 x3 x4 x5 x6 x7 x8 x9 x10 x11 x12 x13 x14 x15 x16 x17 x18, ?_⟩
  refine List.forall_mem_cons.2 ⟨store_6 x0 x1 x2 x3 x4 x5 x6 x7 x8 x9 x10 x11 x12 x13 x14 x15 x16 x17 x18, ?_⟩
  refine List.forall_mem_cons.2 ⟨store_45 x0 x1 x2 x3 x4 x5 x6 x7 x8 x9 x10 x11 x12 x13 x14 x15 x16 x17 x18, ?_⟩
  refine List.forall_mem_cons.2 ⟨store_37 x0 x1 x2 x3 x4 x5 x6 x7 x8 x9 x10 x11 x12 x13 x14 x15 x16 x17 x18, ?_⟩
  refine List.forall_mem_cons.2 ⟨store_29 x0 x1 x2 x3 x4 x5 x6 x7 x8 x9 x10 x11 x12 x13 x14 x15 x16 x17 x18, ?_⟩
  refine List.forall_mem_cons.2 ⟨store_21 x0 x1 x2 x3 x4 x5 x6 x7 x8 x9 x10 x11 x12 x13 x14 x15 x16 x17 x18, ?_⟩
  refine List.forall_mem_cons.2 ⟨store_13 x0 x1 x2 x3 x4 x5 x6 x7 x8 x9 x10 x11 x12 x13 x14 x15 x16 x17 x18, ?_⟩
  refine List.forall_mem_cons.2 ⟨store_5 x0 x1 x2 x3 x4 x5 x6 x7 x8 x9 x10 x11 x12 x13 x14 x15 x16 x17 x18, ?_⟩
  refine List.forall_mem_cons.2 ⟨store_36 x0 x1 x2 x3 x4 x5 x6 x7 x8 x9 x10 x11 x12 x13 x14 x15 x16 x17 x18, ?_⟩
  refine List.forall_mem_cons.2 ⟨store_28 x0 x1 x2 x3 x4 x5 x6 x7 x8 x9 x10 x11 x12 x13 x14 x15 x16 x17 x18, ?_⟩
  refine List.forall_mem_cons.2 ⟨store_20 x0 x1 x2 x3 x4 x5 x6 x7 x8 x9 x10 x11 x12 x13 x14 x15 x16 x17 x18, ?_⟩
  refine List.forall_mem_cons.2 ⟨store_12 x0 x1 x2 x3 x4 x5 x6 x7 x8 x9 x10 x11 x12 x13 x14 x15 x16 x17 x18, ?_⟩
  refine List.forall_mem_cons.2 ⟨store_4 x0 x1 x2 x3 x4 x5 x6 x7 x8 x9 x10 x11 x12 x13 x14 x15 x16 x17 x18, ?_⟩
  refine List.forall_mem_cons.2 ⟨store_27 x0 x1 x2 x3 x4 x5 x6 x7 x8 x9 x10 x11 x12 x13 x14 x15 x16 x17 x18, ?_⟩
  refine List.forall_mem_cons.2 ⟨store_19 x0 x1 x2 x3 x4 x5 x6 x7 x8 x9 x10 x11 x12 x13 x14 x15 x16 x17 x18, ?_⟩
  refine List.forall_mem_cons.2 ⟨store_11 x0 x1 x2 x3 x4 x5 x6 x7 x8 x9 x10 x11 x12 x13 x14 x15 x16 x17 x18, ?_⟩
  refine List.forall_mem_cons.2 ⟨store_3 x0 x1 x2 x3 x4 x5 x6 x7 x8 x9 x10 x11 x12 x13 x14 x15 x16 x17 x18, ?_⟩
  refine List.forall_mem_cons.2 ⟨store_18 x0 x1 x2 x3 x4 x5 x6 x7 x8 x9 x10 x11 x12 x13 x14 x15 x16 x17 x18, ?_⟩
  refine List.forall_mem_cons.2 ⟨store_10 x0 x1 x2 x3 x4 x5 x6 x7 x8 x9 x10 x11 x12 x13 x14 x15 x16 x17 x18, ?_⟩
  refine List.forall_mem_cons.2 ⟨store_2 x0 x1 x2 x3 x4 x5 x6 x7 x8 x9 x10 x11 x12 x13 x14 x15 x16 x17 x18, ?_⟩
  refine List.forall_mem_cons.2 ⟨store_9 x0 x1 x2 x3 x4 x5 x6 x7 x8 x9 x10 x11 x12 x13 x14 x15 x16 x17 x18, ?_⟩
  refine List.forall_mem_cons.2 ⟨store_1 x0 x1 x2 x3 x4 x5 x6 x7 x8 x9 x10 x11 x12 x13 x14 x15 x16 x17 x18, ?_⟩
  refine List.forall_mem_cons.2 ⟨store_0 x0 x1 x2 x3 x4 x5 x6 x7 x8 x9 x10 x11 x12 x13 x14 x15 x16 x17 x18, ?_⟩
  exact fun _ h => by cases h

end Cert.KernelIdeal.Block

end
-- ==== Proof.KerFinal.lean ====
/-
  The kernel's result array.

  Grid point t handles batch elements t·128 … t·128 + 127: each input's block at t is those rows of the input (the weight stack and
  the bias array are taken whole at every point), and the output block is those rows of the output, all 81·128 columns.  The point
  writes back the flattened board of its input blocks, which is those rows of the flattened board of the whole inputs; the 64
  blocks tile the output, so after the run the output array is the flattened board of the inputs.  Before the grid the weights
  are narrowed to a shorter float format, which changes nothing at the exact extended reals; after it the output is viewed as
  [8192, 9, 9, 128], which is the board.
-/
import proofs.«141148_j40656160424525_2_alg».proof.Proof.Gen.KernelIdeal.Frame
import proofs.«141148_j40656160424525_2_alg».proof.Proof.KerBlock
import Idealize.ShloMosaic.Lib.StableHlo.Run

set_option maxRecDepth 16384

noncomputable section

namespace Cert.KernelIdeal.KerValue

open Idealize.ShloMosaic Idealize.ShloMosaic.TcCoe Idealize.ShloMosaic.ValueIdx Idealize.SL.Sem
open Cert.KernelIdeal Cert.KernelIdeal.Gen Cert.Board

variable (m : (ℓ : Loc nD τ sig) → Buf (Elt Ideal) ℓ) (ρ : Dev nD → PrngReg)

/-! ## The index maps, decided over the 64 grid points -/

theorem idx_0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx_4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx_5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx_6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx_7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx_8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idx_9 : ∀ t : Fin cfg0.N, win0_9.index t (0 : Fin 3) = t.val ∧ win0_9.index t (1 : Fin 3) = 0 ∧ win0_9.index t (2 : Fin 3) = 0 :=
  (by decide +kernel : ∀ t : Fin grid0.N, _)
theorem idx_10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx_11 : ∀ t : Fin cfg0.N, win0_11.index t (0 : Fin 3) = t.val ∧ win0_11.index t (1 : Fin 3) = 0 ∧ win0_11.index t (2 : Fin 3) = 0 :=
  (by decide +kernel : ∀ t : Fin grid0.N, _)
theorem idx_12 : ∀ t : Fin cfg0.N, win0_12.index t (0 : Fin 3) = t.val ∧ win0_12.index t (1 : Fin 3) = 0 ∧ win0_12.index t (2 : Fin 3) = 0 :=
  (by decide +kernel : ∀ t : Fin grid0.N, _)
theorem idx_13 : ∀ t : Fin cfg0.N, win0_13.index t (0 : Fin 3) = t.val ∧ win0_13.index t (1 : Fin 3) = 0 ∧ win0_13.index t (2 : Fin 3) = 0 :=
  (by decide +kernel : ∀ t : Fin grid0.N, _)
theorem idx_14 : ∀ t : Fin cfg0.N, win0_14.index t (0 : Fin 3) = t.val ∧ win0_14.index t (1 : Fin 3) = 0 ∧ win0_14.index t (2 : Fin 3) = 0 :=
  (by decide +kernel : ∀ t : Fin grid0.N, _)
theorem idx_15 : ∀ t : Fin cfg0.N, win0_15.index t (0 : Fin 3) = t.val ∧ win0_15.index t (1 : Fin 3) = 0 ∧ win0_15.index t (2 : Fin 3) = 0 :=
  (by decide +kernel : ∀ t : Fin grid0.N, _)
theorem idx_16 : ∀ t : Fin cfg0.N, win0_16.index t (0 : Fin 3) = t.val ∧ win0_16.index t (1 : Fin 3) = 0 ∧ win0_16.index t (2 : Fin 3) = 0 :=
  (by decide +kernel : ∀ t : Fin grid0.N, _)
theorem idx_17 : ∀ t : Fin cfg0.N, win0_17.index t (0 : Fin 3) = t.val ∧ win0_17.index t (1 : Fin 3) = 0 ∧ win0_17.index t (2 : Fin 3) = 0 :=
  (by decide +kernel : ∀ t : Fin grid0.N, _)
theorem idx_18 : ∀ t : Fin cfg0.N, win0_18.index t (0 : Fin 3) = t.val ∧ win0_18.index t (1 : Fin 3) = 0 ∧ win0_18.index t (2 : Fin 3) = 0 :=
  (by decide +kernel : ∀ t : Fin grid0.N, _)
theorem idx_19 : ∀ t : Fin cfg0.N, win0_19.index t (0 : Fin 2) = t.val ∧ win0_19.index t (1 : Fin 2) = 0 :=
  (by decide +kernel : ∀ t : Fin grid0.N, _)

/-! ## Each input window's block at a point -/

/-- The weight stack is taken whole at every point. -/
theorem block_0 (c : Dev nD) (t : Fin cfg0.N) : iblk m c 0 t = V m c main_v0 := by
  funext y
  show V m c main_v0 (((cfg0.win 0).blk t).view.emb y) = V m c main_v0 y
  refine congrArg (V m c main_v0) (funext fun a => Fin.ext ?_)
  obtain ⟨e0, e1, e2⟩ := idx_0 t
  match a with
  | ⟨0, _⟩ => show win0_0.index t (0 : Fin 3) * 17 + 1 * (y 0).val = (y 0).val; omega
  | ⟨1, _⟩ => show win0_0.index t (1 : Fin 3) * 128 + 1 * (y 1).val = (y 1).val; omega
  | ⟨2, _⟩ => show win0_0.index t (2 : Fin 3) * 128 + 1 * (y 2).val = (y 2).val; omega

/-- The bias array is taken whole at every point. -/
theorem block_1 (c : Dev nD) (t : Fin cfg0.N) : iblk m c 1 t = V m c main_arg1 := by
  funext y
  show V m c main_arg1 (((cfg0.win 1).blk t).view.emb y) = V m c main_arg1 y
  refine congrArg (V m c main_arg1) (funext fun a => Fin.ext ?_)
  obtain ⟨e0, e1⟩ := idx_1 t
  match a with
  | ⟨0, _⟩ => show win0_1.index t (0 : Fin 2) * 17 + 1 * (y 0).val = (y 0).val; omega
  | ⟨1, _⟩ => show win0_1.index t (1 : Fin 2) * 128 + 1 * (y 1).val = (y 1).val; omega

/-! Each diagonal's input block at point t holds batch elements t·128 … t·128 + 127 of the input. -/

theorem block_2 (c : Dev nD) (t : Fin cfg0.N) : BlockOf (L := 1) t.val (iblk m c 2 t) (V m c main_arg2) := by
  intro p j k hP
  show V m c main_arg2 (((cfg0.win 2).blk t).view.emb (ix3 p j k)) = V m c main_arg2 (ix3 ⟨t.val * 128 + p.val, hP⟩ j k)
  refine congrArg (V m c main_arg2) (funext fun a => Fin.ext ?_)
  obtain ⟨e0, e1, e2⟩ := idx_2 t
  match a with
  | ⟨0, _⟩ => show win0_2.index t (0 : Fin 3) * 128 + 1 * p.val = t.val * 128 + p.val; omega
  | ⟨1, _⟩ => show win0_2.index t (1 : Fin 3) * 1 + 1 * j.val = j.val; omega
  | ⟨2, _⟩ => show win0_2.index t (2 : Fin 3) * 128 + 1 * k.val = k.val; omega

theorem block_3 (c : Dev nD) (t : Fin cfg0.N) : BlockOf (L := 2) t.val (iblk m c 3 t) (V m c main_arg3) := by
  intro p j k hP
  show V m c main_arg3 (((cfg0.win 3).blk t).view.emb (ix3 p j k)) = V m c main_arg3 (ix3 ⟨t.val * 128 + p.val, hP⟩ j k)
  refine congrArg (V m c main_arg3) (funext fun a => Fin.ext ?_)
  obtain ⟨e0, e1, e2⟩ := idx_3 t
  match a with
  | ⟨0, _⟩ => show win0_3.index t (0 : Fin 3) * 128 + 1 * p.val = t.val * 128 + p.val; omega
  | ⟨1, _⟩ => show win0_3.index t (1 : Fin 3) * 2 + 1 * j.val = j.val; omega
  | ⟨2, _⟩ => show win0_3.index t (2 : Fin 3) * 128 + 1 * k.val = k.val; omega

theorem block_4 (c : Dev nD) (t : Fin cfg0.N) : BlockOf (L := 3) t.val (iblk m c 4 t) (V m c main_arg4) := by
  intro p j k hP
  show V m c main_arg4 (((cfg0.win 4).blk t).view.emb (ix3 p j k)) = V m c main_arg4 (ix3 ⟨t.val * 128 + p.val, hP⟩ j k)
  refine congrArg (V m c main_arg4) (funext fun a => Fin.ext ?_)
  obtain ⟨e0, e1, e2⟩ := idx_4 t
  match a with
  | ⟨0, _⟩ => show win0_4.index t (0 : Fin 3) * 128 + 1 * p.val = t.val * 128 + p.val; omega
  | ⟨1, _⟩ => show win0_4.index t (1 : Fin 3) * 3 + 1 * j.val = j.val; omega
  | ⟨2, _⟩ => show win0_4.index t (2 : Fin 3) * 128 + 1 * k.val = k.val; omega

theorem block_5 (c : Dev nD) (t : Fin cfg0.N) : BlockOf (L := 4) t.val (iblk m c 5 t) (V m c main_arg5) := by
  intro p j k hP
  show V m c main_arg5 (((cfg0.win 5).blk t).view.emb (ix3 p j k)) = V m c main_arg5 (ix3 ⟨t.val * 128 + p.val, hP⟩ j k)
  refine congrArg (V m c main_arg5) (funext fun a => Fin.ext ?_)
  obtain ⟨e0, e1, e2⟩ := idx_5 t
  match a with
  | ⟨0, _⟩ => show win0_5.index t (0 : Fin 3) * 128 + 1 * p.val = t.val * 128 + p.val; omega
  | ⟨1, _⟩ => show win0_5.index t (1 : Fin 3) * 4 + 1 * j.val = j.val; omega
  | ⟨2, _⟩ => show win0_5.index t (2 : Fin 3) * 128 + 1 * k.val = k.val; omega

theorem block_6 (c : Dev nD) (t : Fin cfg0.N) : BlockOf (L := 5) t.val (iblk m c 6 t) (V m c main_arg6) := by
  intro p j k hP
  show V m c main_arg6 (((cfg0.win 6).blk t).view.emb (ix3 p j k)) = V m c main_arg6 (ix3 ⟨t.val * 128 + p.val, hP⟩ j k)
  refine congrArg (V m c main_arg6) (funext fun a => Fin.ext ?_)
  obtain ⟨e0, e1, e2⟩ := idx_6 t
  match a with
  | ⟨0, _⟩ => show win0_6.index t (0 : Fin 3) * 128 + 1 * p.val = t.val * 128 + p.val; omega
  | ⟨1, _⟩ => show win0_6.index t (1 : Fin 3) * 5 + 1 * j.val = j.val; omega
  | ⟨2, _⟩ => show win0_6.index t (2 : Fin 3) * 128 + 1 * k.val = k.val; omega

theorem block_7 (c : Dev nD) (t : Fin cfg0.N) : BlockOf (L := 6) t.val (iblk m c 7 t) (V m c main_arg7) := by
  intro p j k hP
  show V m c main_arg7 (((cfg0.win 7).blk t).view.emb (ix3 p j k)) = V m c main_arg7 (ix3 ⟨t.val * 128 + p.val, hP⟩ j k)
  refine congrArg (V m c main_arg7) (funext fun a => Fin.ext ?_)
  obtain ⟨e0, e1, e2⟩ := idx_7 t
  match a with
  | ⟨0, _⟩ => show win0_7.index t (0 : Fin 3) * 128 + 1 * p.val = t.val * 128 + p.val; omega
  | ⟨1, _⟩ => show win0_7.index t (1 : Fin 3) * 6 + 1 * j.val = j.val; omega
  | ⟨2, _⟩ => show win0_7.index t (2 : Fin 3) * 128 + 1 * k.val = k.val; omega

theorem block_8 (c : Dev nD) (t : Fin cfg0.N) : BlockOf (L := 7) t.val (iblk m c 8 t) (V m c main_arg8) := by
  intro p j k hP
  show V m c main_arg8 (((cfg0.win 8).blk t).view.emb (ix3 p j k)) = V m c main_arg8 (ix3 ⟨t.val * 128 + p.val, hP⟩ j k)
  refine congrArg (V m c main_arg8) (funext fun a => Fin.ext ?_)
  obtain ⟨e0, e1, e2⟩ := idx_8 t
  match a with
  | ⟨0, _⟩ => show win0_8.index t (0 : Fin 3) * 128 + 1 * p.val = t.val * 128 + p.val; omega
  | ⟨1, _⟩ => show win0_8.index t (1 : Fin 3) * 7 + 1 * j.val = j.val; omega
  | ⟨2, _⟩ => show win0_8.index t (2 : Fin 3) * 128 + 1 * k.val = k.val; omega

theorem block_9 (c : Dev nD) (t : Fin cfg0.N) : BlockOf (L := 8) t.val (iblk m c 9 t) (V m c main_arg9) := by
  intro p j k hP
  show V m c main_arg9 (((cfg0.win 9).blk t).view.emb (ix3 p j k)) = V m c main_arg9 (ix3 ⟨t.val * 128 + p.val, hP⟩ j k)
  refine congrArg (V m c main_arg9) (funext fun a => Fin.ext ?_)
  obtain ⟨e0, e1, e2⟩ := idx_9 t
  match a with
  | ⟨0, _⟩ => show win0_9.index t (0 : Fin 3) * 128 + 1 * p.val = t.val * 128 + p.val; omega
  | ⟨1, _⟩ => show win0_9.index t (1 : Fin 3) * 8 + 1 * j.val = j.val; omega
  | ⟨2, _⟩ => show win0_9.index t (2 : Fin 3) * 128 + 1 * k.val = k.val; omega

theorem block_10 (c : Dev nD) (t : Fin cfg0.N) : BlockOf (L := 9) t.val (iblk m c 10 t) (V m c main_arg10) := by
  intro p j k hP
  show V m c main_arg10 (((cfg0.win 10).blk t).view.emb (ix3 p j k)) = V m c main_arg10 (ix3 ⟨t.val * 128 + p.val, hP⟩ j k)
  refine congrArg (V m c main_arg10) (funext fun a => Fin.ext ?_)
  obtain ⟨e0, e1, e2⟩ := idx_10 t
  match a with
  | ⟨0, _⟩ => show win0_10.index t (0 : Fin 3) * 128 + 1 * p.val = t.val * 128 + p.val; omega
  | ⟨1, _⟩ => show win0_10.index t (1 : Fin 3) * 9 + 1 * j.val = j.val; omega
  | ⟨2, _⟩ => show win0_10.index t (2 : Fin 3) * 128 + 1 * k.val = k.val; omega

theorem block_11 (c : Dev nD) (t : Fin cfg0.N) : BlockOf (L := 8) t.val (iblk m c 11 t) (V m c main_arg11) := by
  intro p j k hP
  show V m c main_arg11 (((cfg0.win 11).blk t).view.emb (ix3 p j k)) = V m c main_arg11 (ix3 ⟨t.val * 128 + p.val, hP⟩ j k)
  refine congrArg (V m c main_arg11) (funext fun a => Fin.ext ?_)
  obtain ⟨e0, e1, e2⟩ := idx_11 t
  match a with
  | ⟨0, _⟩ => show win0_11.index t (0 : Fin 3) * 128 + 1 * p.val = t.val * 128 + p.val; omega
  | ⟨1, _⟩ => show win0_11.index t (1 : Fin 3) * 8 + 1 * j.val = j.val; omega
  | ⟨2, _⟩ => show win0_11.index t (2 : Fin 3) * 128 + 1 * k.val = k.val; omega

theorem block_12 (c : Dev nD) (t : Fin cfg0.N) : BlockOf (L := 7) t.val (iblk m c 12 t) (V m c main_arg12) := by
  intro p j k hP
  show V m c main_arg12 (((cfg0.win 12).blk t).view.emb (ix3 p j k)) = V m c main_arg12 (ix3 ⟨t.val * 128 + p.val, hP⟩ j k)
  refine congrArg (V m c main_arg12) (funext fun a => Fin.ext ?_)
  obtain ⟨e0, e1, e2⟩ := idx_12 t
  match a with
  | ⟨0, _⟩ => show win0_12.index t (0 : Fin 3) * 128 + 1 * p.val = t.val * 128 + p.val; omega
  | ⟨1, _⟩ => show win0_12.index t (1 : Fin 3) * 7 + 1 * j.val = j.val; omega
  | ⟨2, _⟩ => show win0_12.index t (2 : Fin 3) * 128 + 1 * k.val = k.val; omega

theorem block_13 (c : Dev nD) (t : Fin cfg0.N) : BlockOf (L := 6) t.val (iblk m c 13 t) (V m c main_arg13) := by
  intro p j k hP
  show V m c main_arg13 (((cfg0.win 13).blk t).view.emb (ix3 p j k)) = V m c main_arg13 (ix3 ⟨t.val * 128 + p.val, hP⟩ j k)
  refine congrArg (V m c main_arg13) (funext fun a => Fin.ext ?_)
  obtain ⟨e0, e1, e2⟩ := idx_13 t
  match a with
  | ⟨0, _⟩ => show win0_13.index t (0 : Fin 3) * 128 + 1 * p.val = t.val * 128 + p.val; omega
  | ⟨1, _⟩ => show win0_13.index t (1 : Fin 3) * 6 + 1 * j.val = j.val; omega
  | ⟨2, _⟩ => show win0_13.index t (2 : Fin 3) * 128 + 1 * k.val = k.val; omega

theorem block_14 (c : Dev nD) (t : Fin cfg0.N) : BlockOf (L := 5) t.val (iblk m c 14 t) (V m c main_arg14) := by
  intro p j k hP
  show V m c main_arg14 (((cfg0.win 14).blk t).view.emb (ix3 p j k)) = V m c main_arg14 (ix3 ⟨t.val * 128 + p.val, hP⟩ j k)
  refine congrArg (V m c main_arg14) (funext fun a => Fin.ext ?_)
  obtain ⟨e0, e1, e2⟩ := idx_14 t
  match a with
  | ⟨0, _⟩ => show win0_14.index t (0 : Fin 3) * 128 + 1 * p.val = t.val * 128 + p.val; omega
  | ⟨1, _⟩ => show win0_14.index t (1 : Fin 3) * 5 + 1 * j.val = j.val; omega
  | ⟨2, _⟩ => show win0_14.index t (2 : Fin 3) * 128 + 1 * k.val = k.val; omega

theorem block_15 (c : Dev nD) (t : Fin cfg0.N) : BlockOf (L := 4) t.val (iblk m c 15 t) (V m c main_arg15) := by
  intro p j k hP
  show V m c main_arg15 (((cfg0.win 15).blk t).view.emb (ix3 p j k)) = V m c main_arg15 (ix3 ⟨t.val * 128 + p.val, hP⟩ j k)
  refine congrArg (V m c main_arg15) (funext fun a => Fin.ext ?_)
  obtain ⟨e0, e1, e2⟩ := idx_15 t
  match a with
  | ⟨0, _⟩ => show win0_15.index t (0 : Fin 3) * 128 + 1 * p.val = t.val * 128 + p.val; omega
  | ⟨1, _⟩ => show win0_15.index t (1 : Fin 3) * 4 + 1 * j.val = j.val; omega
  | ⟨2, _⟩ => show win0_15.index t (2 : Fin 3) * 128 + 1 * k.val = k.val; omega

theorem block_16 (c : Dev nD) (t : Fin cfg0.N) : BlockOf (L := 3) t.val (iblk m c 16 t) (V m c main_arg16) := by
  intro p j k hP
  show V m c main_arg16 (((cfg0.win 16).blk t).view.emb (ix3 p j k)) = V m c main_arg16 (ix3 ⟨t.val * 128 + p.val, hP⟩ j k)
  refine congrArg (V m c main_arg16) (funext fun a => Fin.ext ?_)
  obtain ⟨e0, e1, e2⟩ := idx_16 t
  match a with
  | ⟨0, _⟩ => show win0_16.index t (0 : Fin 3) * 128 + 1 * p.val = t.val * 128 + p.val; omega
  | ⟨1, _⟩ => show win0_16.index t (1 : Fin 3) * 3 + 1 * j.val = j.val; omega
  | ⟨2, _⟩ => show win0_16.index t (2 : Fin 3) * 128 + 1 * k.val = k.val; omega

theorem block_17 (c : Dev nD) (t : Fin cfg0.N) : BlockOf (L := 2) t.val (iblk m c 17 t) (V m c main_arg17) := by
  intro p j k hP
  show V m c main_arg17 (((cfg0.win 17).blk t).view.emb (ix3 p j k)) = V m c main_arg17 (ix3 ⟨t.val * 128 + p.val, hP⟩ j k)
  refine congrArg (V m c main_arg17) (funext fun a => Fin.ext ?_)
  obtain ⟨e0, e1, e2⟩ := idx_17 t
  match a with
  | ⟨0, _⟩ => show win0_17.index t (0 : Fin 3) * 128 + 1 * p.val = t.val * 128 + p.val; omega
  | ⟨1, _⟩ => show win0_17.index t (1 : Fin 3) * 2 + 1 * j.val = j.val; omega
  | ⟨2, _⟩ => show win0_17.index t (2 : Fin 3) * 128 + 1 * k.val = k.val; omega

theorem block_18 (c : Dev nD) (t : Fin cfg0.N) : BlockOf (L := 1) t.val (iblk m c 18 t) (V m c main_arg18) := by
  intro p j k hP
  show V m c main_arg18 (((cfg0.win 18).blk t).view.emb (ix3 p j k)) = V m c main_arg18 (ix3 ⟨t.val * 128 + p.val, hP⟩ j k)
  refine congrArg (V m c main_arg18) (funext fun a => Fin.ext ?_)
  obtain ⟨e0, e1, e2⟩ := idx_18 t
  match a with
  | ⟨0, _⟩ => show win0_18.index t (0 : Fin 3) * 128 + 1 * p.val = t.val * 128 + p.val; omega
  | ⟨1, _⟩ => show win0_18.index t (1 : Fin 3) * 1 + 1 * j.val = j.val; omega
  | ⟨2, _⟩ => show win0_18.index t (2 : Fin 3) * 128 + 1 * k.val = k.val; omega

/-! ## What a point writes back, and the array after the run -/

/-- Point t writes back rows t·128 … t·128 + 127 of the flattened board of the arrays as the grid finds them. -/
theorem flushed_eq (c : Dev nD) (t : Fin cfg0.N) (_ : (cfg0.win 19).flush t = true) :
    (dats m 0 c).flushed 19 t
      = ((cfg0.win 19).blk t).view.read (Elt Ideal) (flatBoard (V m c main_v0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18)) := by
  show (cfg0.win 19).cut (grid0.coords t) ((dats m 0 c).after 19 t) = _
  rw [after0_19, Block.out_eq]
  funext y
  obtain ⟨p, n, rfl⟩ : ∃ (p : Fin 128) (n : Fin 10368), y = ix2 p n := ⟨y 0, y 1, eq_ix2 y⟩
  have hN : t.val < 64 := lt_of_lt_of_eq t.isLt N_0
  have hP : t.val * 128 + p.val < 8192 := by omega
  have hemb : ((cfg0.win 19).blk t).view.emb (ix2 p n) = ix2 ⟨t.val * 128 + p.val, hP⟩ n := by
    obtain ⟨e0, e1⟩ := idx_19 t
    funext a
    apply Fin.ext
    match a with
    | ⟨0, _⟩ => show win0_19.index t (0 : Fin 2) * 128 + 1 * p.val = t.val * 128 + p.val; omega
    | ⟨1, _⟩ => show win0_19.index t (1 : Fin 2) * 10368 + 1 * n.val = n.val; omega
  show flatBoard (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix2 p n)
    = flatBoard (V m c main_v0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (((cfg0.win 19).blk t).view.emb (ix2 p n))
  rw [hemb, block_0, block_1]
  unfold flatBoard
  exact boardAt_block (V m c main_v0) (V m c main_arg1) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) t.val
    (block_2 m c t) (block_3 m c t) (block_4 m c t) (block_5 m c t) (block_6 m c t) (block_7 m c t) (block_8 m c t) (block_9 m c t) (block_10 m c t) (block_11 m c t) (block_12 m c t) (block_13 m c t) (block_14 m c t) (block_15 m c t) (block_16 m c t) (block_17 m c t) (block_18 m c t) p hP _ _ _

/-- Every row of the output lies in the block of the point that handles its batch element. -/
theorem cover (c : Dev nD) (i : ((cfg0.win 19).arr.view.loc (c.tc : Thread nD τ)).2.ty.Idx) :
    ∃ t : Fin cfg0.N, (cfg0.win 19).flush t = true ∧ i ∈ ((cfg0.win 19).blk t).view.set := by
  have h0 : (i 0).val < 8192 := (i 0).isLt
  have h1 : (i 1).val < 10368 := (i 1).isLt
  have hlt : (i 0).val / 128 < cfg0.N := by rw [show cfg0.N = 64 from N_0]; omega
  refine ⟨⟨(i 0).val / 128, hlt⟩, flush0_19 _, ?_⟩
  show i ∈ ((View.whole main_v1).slice (win0_19.rect ⟨(i 0).val / 128, hlt⟩)).set
  rw [View.set_slice_whole, Rect.mem_set_unit]
  obtain ⟨e0, e1⟩ := idx_19 ⟨(i 0).val / 128, hlt⟩
  intro a
  match a with
  | ⟨0, _⟩ =>
    show win0_19.index ⟨(i 0).val / 128, hlt⟩ (0 : Fin 2) * 128 ≤ (i 0).val
      ∧ (i 0).val < win0_19.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_19.index ⟨(i 0).val / 128, hlt⟩ (1 : Fin 2) * 10368 ≤ (i 1).val
      ∧ (i 1).val < win0_19.index ⟨(i 0).val / 128, hlt⟩ (1 : Fin 2) * 10368 + 10368
    rw [e1]; omega

/-- After the run the output array is the flattened board of the arrays as the grid finds them. -/
theorem final (c : Dev nD) :
    (dats m 0 c).arrAt 19 cfg0.N = flatBoard (V m c main_v0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) :=
  (dats m 0 c).arrAt_eq_of_cover 19 _ (flushed_eq m c) (cover c)

/-! ## The host lines around the grid -/

/-- The narrowed weights the grid finds are, as extended reals, the weights. -/
theorem V_weights (c : Dev nD) :
    (V m c main_v0 : S17x128x128.Idx → EReal) = m ((c.tc : Thread nD τ).loc main_arg0) := by
  show StableHlo.after hostOps0 (fun b => m (c, b)) (Proc.devRef .tc main_v0) = _
  after_results
  rfl

/-- The result: the grid's output array viewed as [8192, 9, 9, 128] is the board of the arguments. -/
theorem result_eq (c : Dev nD) :
    Pipeline.afterTail₀ cfgs (dats m) 0 (V0 m) [hostOps1] c main_v2
      = board (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  have hfin : (dats m 0 c).arrAt 19 cfg0.N
      = flatBoard (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
    rw [final m c, V_weights m c, V_main_arg1 m c, V_main_arg2 m c, V_main_arg3 m c, V_main_arg4 m c, V_main_arg5 m c, V_main_arg6 m c, V_main_arg7 m c, V_main_arg8 m c, V_main_arg9 m c, V_main_arg10 m c, V_main_arg11 m c, V_main_arg12 m c, V_main_arg13 m c, V_main_arg14 m c, V_main_arg15 m c, V_main_arg16 m c, V_main_arg17 m c, V_main_arg18 m c]
  unfold Pipeline.afterTail₀
  show StableHlo.after hostOps1 _ (Proc.devRef .tc main_v2) = _
  after_results
  funext i
  show shapeCast S8192x9x9x128
      (Pipeline.withArrays (cfgs 0).spec c (V0 m c) (fun w => (dats m 0 c).arrAt w (cfgs 0).N) (Proc.devRef .tc main_v1))
      shapeCasts_S8192x10368_S8192x9x9x128 i = _
  rw [show Pipeline.withArrays (cfgs 0).spec c (V0 m c) (fun w => (dats m 0 c).arrAt w (cfgs 0).N) (Proc.devRef .tc main_v1)
        = flatBoard (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      from (Pipeline.withArrays_arr spec0 launch0.win.arr_inj c _ _ 19).trans hfin]
  exact congrFun (shapeCast_flatBoard _ _ _ _ _ _ _ _ _ _ _ _ _ _ _ _ _ _ _ shapeCasts_S8192x10368_S8192x9x9x128) i

/-! ## The run -/

/-- The result buffer in a final state of the frame run. -/
theorem result_of (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v2) = board (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  ((h c).2 main_v2 (Pipeline.mem_restRefs_of main_v2 (by decide) (by decide))).trans (result_eq m c)

set_option maxHeartbeats 1200000 in
/-- The argument arrays in a final state of a frame run, for any proof data whose arrays are the contents the grid finds: the
    weights are no window's array and no later line writes them; every other argument is an input window's array, which the
    grid leaves as it found it. -/
theorem kept_of (D : (p : Fin 1) → (c : Dev nD) → Pipeline.Dat τ (Elt Ideal) Unit ℕ (UR sig nD τ) ℕ (cfgs p) c)
    (hA : ∀ c w, (D 0 c).A w = V m c (Pipeline.arrRef spec0 w))
    (r : PUnit × MemSt nD τ sig (Elt Ideal))
    (h : Pipeline.FramePost cfgs D 0 (Pipeline.afterTail₀ cfgs D 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).2 main_arg0 (Pipeline.mem_restRefs_of main_arg0 (by decide) (by decide))).trans (W_main_arg0 m D c),
      ((h c).1 1).trans (((D 0 c).arrAt_in 1 rfl _).trans ((hA c 1).trans (V_main_arg1 m c))),
      ((h c).1 2).trans (((D 0 c).arrAt_in 2 rfl _).trans ((hA c 2).trans (V_main_arg2 m c))),
      ((h c).1 3).trans (((D 0 c).arrAt_in 3 rfl _).trans ((hA c 3).trans (V_main_arg3 m c))),
      ((h c).1 4).trans (((D 0 c).arrAt_in 4 rfl _).trans ((hA c 4).trans (V_main_arg4 m c))),
      ((h c).1 5).trans (((D 0 c).arrAt_in 5 rfl _).trans ((hA c 5).trans (V_main_arg5 m c))),
      ((h c).1 6).trans (((D 0 c).arrAt_in 6 rfl _).trans ((hA c 6).trans (V_main_arg6 m c))),
      ((h c).1 7).trans (((D 0 c).arrAt_in 7 rfl _).trans ((hA c 7).trans (V_main_arg7 m c))),
      ((h c).1 8).trans (((D 0 c).arrAt_in 8 rfl _).trans ((hA c 8).trans (V_main_arg8 m c))),
      ((h c).1 9).trans (((D 0 c).arrAt_in 9 rfl _).trans ((hA c 9).trans (V_main_arg9 m c))),
      ((h c).1 10).trans (((D 0 c).arrAt_in 10 rfl _).trans ((hA c 10).trans (V_main_arg10 m c))),
      ((h c).1 11).trans (((D 0 c).arrAt_in 11 rfl _).trans ((hA c 11).trans (V_main_arg11 m c))),
      ((h c).1 12).trans (((D 0 c).arrAt_in 12 rfl _).trans ((hA c 12).trans (V_main_arg12 m c))),
      ((h c).1 13).trans (((D 0 c).arrAt_in 13 rfl _).trans ((hA c 13).trans (V_main_arg13 m c))),
      ((h c).1 14).trans (((D 0 c).arrAt_in 14 rfl _).trans ((hA c 14).trans (V_main_arg14 m c))),
      ((h c).1 15).trans (((D 0 c).arrAt_in 15 rfl _).trans ((hA c 15).trans (V_main_arg15 m c))),
      ((h c).1 16).trans (((D 0 c).arrAt_in 16 rfl _).trans ((hA c 16).trans (V_main_arg16 m c))),
      ((h c).1 17).trans (((D 0 c).arrAt_in 17 rfl _).trans ((hA c 17).trans (V_main_arg17 m c))),
      ((h c).1 18).trans (((D 0 c).arrAt_in 18 rfl _).trans ((hA c 18).trans (V_main_arg18 m c)))⟩

/-- Every weakly fair execution of the idealized kernel's program terminates with the result buffer at the board of the
    arguments and the arguments unchanged. -/
theorem run : θ_run (defs (F := Ideal)) (onTc (τ := τ) (main (F := Ideal))) ⟨m, fun _ => 0, ρ⟩ fun r => ∀ c : Dev nD,
      r.2.mem ((c.tc : Thread nD τ).loc main_v2) = board (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨result_of m r h c, kept_of m (dats m) (A_eq m) r h c⟩) (run_main m ρ)

end Cert.KernelIdeal.KerValue

end
-- ==== Proof.RefOps.lean ====
import proofs.«141148_j40656160424525_2_alg».proof.Proof.Gen.ReferenceIdeal
import Idealize.ShloMosaic.Lib.StableHlo.Run

/-! The reference program's 410 operations, in order, as lists: the 70 that build the integer index tables, the zero
    scalar and the zero board (`preA`, `preB`), then for each anti-diagonal d of the board the ten that compute its
    linear layer (`dA d`) and the ten that build its index pairs and write the layer onto the board (`dB d`). -/

set_option maxRecDepth 8192

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- Operations 1 … 60. -/
def preA : List (HloOp τ sig (Elt F)) :=
    [ nullary main_c (constantI S1 32 0#32),
      nullary main_c_0 (constantI S1 1 0#1),
      nullary main_c_1 (constantI S1 32 0#32),
      nullary main_c_2 (constantI S1 1 0#1),
      nullary main_c_3 (fun i => lit0 (S2.rowMajor i)),
      nullary main_c_4 (constantI S2 1 0#1),
      nullary main_c_5 (fun i => lit1 (S2.rowMajor i)),
      nullary main_c_6 (constantI S2 1 0#1),
      nullary main_c_7 (fun i => lit2 (S3.rowMajor i)),
      nullary main_c_8 (constantI S3 1 0#1),
      nullary main_c_9 (fun i => lit3 (S3.rowMajor i)),
      nullary main_c_10 (constantI S3 1 0#1),
      nullary main_c_11 (fun i => lit4 (S4.rowMajor i)),
      nullary main_c_12 (constantI S4 1 0#1),
      nullary main_c_13 (fun i => lit5 (S4.rowMajor i)),
      nullary main_c_14 (constantI S4 1 0#1),
      nullary main_c_15 (fun i => lit6 (S5.rowMajor i)),
      nullary main_c_16 (constantI S5 1 0#1),
      nullary main_c_17 (fun i => lit7 (S5.rowMajor i)),
      nullary main_c_18 (constantI S5 1 0#1),
      nullary main_c_19 (fun i => lit8 (S6.rowMajor i)),
      nullary main_c_20 (constantI S6 1 0#1),
      nullary main_c_21 (fun i => lit9 (S6.rowMajor i)),
      nullary main_c_22 (constantI S6 1 0#1),
      nullary main_c_23 (fun i => lit10 (S7.rowMajor i)),
      nullary main_c_24 (constantI S7 1 0#1),
      nullary main_c_25 (fun i => lit11 (S7.rowMajor i)),
      nullary main_c_26 (constantI S7 1 0#1),
      nullary main_c_27 (fun i => lit12 (S8.rowMajor i)),
      nullary main_c_28 (constantI S8 1 0#1),
      nullary main_c_29 (fun i => lit13 (S8.rowMajor i)),
      nullary main_c_30 (constantI S8 1 0#1),
      nullary main_c_31 (fun i => lit14 (S9.rowMajor i)),
      nullary main_c_32 (constantI S9 1 0#1),
      nullary main_c_33 (fun i => lit15 (S9.rowMajor i)),
      nullary main_c_34 (constantI S9 1 0#1),
      nullary main_c_35 (fun i => lit16 (S8.rowMajor i)),
      nullary main_c_36 (constantI S8 1 0#1),
      nullary main_c_37 (fun i => lit17 (S8.rowMajor i)),
      nullary main_c_38 (constantI S8 1 0#1),
      nullary main_c_39 (fun i => lit18 (S7.rowMajor i)),
      nullary main_c_40 (constantI S7 1 0#1),
      nullary main_c_41 (fun i => lit19 (S7.rowMajor i)),
      nullary main_c_42 (constantI S7 1 0#1),
      nullary main_c_43 (fun i => lit20 (S6.rowMajor i)),
      nullary main_c_44 (constantI S6 1 0#1),
      nullary main_c_45 (fun i => lit21 (S6.rowMajor i)),
      nullary main_c_46 (constantI S6 1 0#1),
      nullary main_c_47 (fun i => lit22 (S5.rowMajor i)),
      nullary main_c_48 (constantI S5 1 0#1),
      nullary main_c_49 (fun i => lit23 (S5.rowMajor i)),
      nullary main_c_50 (constantI S5 1 0#1),
      nullary main_c_51 (fun i => lit24 (S4.rowMajor i)),
      nullary main_c_52 (constantI S4 1 0#1),
      nullary main_c_53 (fun i => lit25 (S4.rowMajor i)),
      nullary main_c_54 (constantI S4 1 0#1),
      nullary main_c_55 (fun i => lit26 (S3.rowMajor i)),
      nullary main_c_56 (constantI S3 1 0#1),
      nullary main_c_57 (fun i => lit27 (S3.rowMajor i)),
      nullary main_c_58 (constantI S3 1 0#1) ]

/-- Operations 61 … 70. -/
def preB : List (HloOp τ sig (Elt F)) :=
    [ nullary main_c_59 (fun i => lit28 (S2.rowMajor i)),
      nullary main_c_60 (constantI S2 1 0#1),
      nullary main_c_61 (fun i => lit29 (S2.rowMajor i)),
      nullary main_c_62 (constantI S2 1 0#1),
      nullary main_c_63 (constantI S1 32 8#32),
      nullary main_c_64 (constantI S1 1 0#1),
      nullary main_c_65 (constantI S1 32 8#32),
      nullary main_c_66 (constantI S1 1 0#1),
      nullary main_cst (constant S_ .f32 0x00000000#32),
      unary main_cst main_v0 (broadcastInDim S8192x9x9x128 ![] bcast_S_S8192x9x9x128 : (⟨S_, .f32⟩ : BufTy).Contents (Elt F) → (⟨S8192x9x9x128, .f32⟩ : BufTy).Contents (Elt F)) ]

/-- The first ten operations of each anti-diagonal. -/
def dA : Fin 17 → List (HloOp τ sig (Elt F))
  | 0 =>
    [ unary main_arg0 main_v1 ((extractStridedSlice S1x128x128 ![0, 0, 0] · slices_S17x128x128_S1x128x128_0_0_0) : (⟨S17x128x128, .f32⟩ : BufTy).Contents (Elt F) → (⟨S1x128x128, .f32⟩ : BufTy).Contents (Elt F)),
      reshape main_v1 main_v2 rfl shapeCasts_S1x128x128_S128x128,
      binary main_arg2 main_v2 main_v3 ((fun l r => Host.dotGeneral dot_S8192x1x128_S128x128_S8192x1x128_2_1_01_0_n_n none l r) : (⟨S8192x1x128, .f32⟩ : BufTy).Contents (Elt F) → (⟨S128x128, .f32⟩ : BufTy).Contents (Elt F) → (⟨S8192x1x128, .f32⟩ : BufTy).Contents (Elt F)),
      unary main_arg1 main_v4 ((extractStridedSlice S1x128 ![0, 0] · slices_S17x128_S1x128_0_0) : (⟨S17x128, .f32⟩ : BufTy).Contents (Elt F) → (⟨S1x128, .f32⟩ : BufTy).Contents (Elt F)),
      reshape main_v4 main_v5 rfl shapeCasts_S1x128_S128,
      unary main_v5 main_v6 (broadcastInDim S1x1x128 ![2] bcast_S128_S1x1x128_2 : (⟨S128, .f32⟩ : BufTy).Contents (Elt F) → (⟨S1x1x128, .f32⟩ : BufTy).Contents (Elt F)),
      unary main_v6 main_v7 (broadcastInDim S8192x1x128 ![0, 1, 2] bcast_S1x1x128_S8192x1x128_0_1_2 : (⟨S1x1x128, .f32⟩ : BufTy).Contents (Elt F) → (⟨S8192x1x128, .f32⟩ : BufTy).Contents (Elt F)),
      binary main_v3 main_v7 main_v8 (addf : (⟨S8192x1x128, .f32⟩ : BufTy).Contents (Elt F) → (⟨S8192x1x128, .f32⟩ : BufTy).Contents (Elt F) → (⟨S8192x1x128, .f32⟩ : BufTy).Contents (Elt F)),
      nullary main_c_67 (constantI S_ 32 9#32),
      unary main_c_67 main_v9 (broadcastInDim S1 ![] bcast_S_S1 : (⟨S_, .i32⟩ : BufTy).Contents (Elt F) → (⟨S1, .i32⟩ : BufTy).Contents (Elt F)) ]
  | 1 =>
    [ unary main_arg0 main_v19 ((extractStridedSlice S1x128x128 ![1, 0, 0] · slices_S17x128x128_S1x128x128_1_0_0) : (⟨S17x128x128, .f32⟩ : BufTy).Contents (Elt F) → (⟨S1x128x128, .f32⟩ : BufTy).Contents (Elt F)),
      reshape main_v19 main_v20 rfl shapeCasts_S1x128x128_S128x128,
      binary main_arg3 main_v20 main_v21 ((fun l r => Host.dotGeneral dot_S8192x2x128_S128x128_S8192x2x128_2_1_01_0_n_n none l r) : (⟨S8192x2x128, .f32⟩ : BufTy).Contents (Elt F) → (⟨S128x128, .f32⟩ : BufTy).Contents (Elt F) → (⟨S8192x2x128, .f32⟩ : BufTy).Contents (Elt F)),
      unary main_arg1 main_v22 ((extractStridedSlice S1x128 ![1, 0] · slices_S17x128_S1x128_1_0) : (⟨S17x128, .f32⟩ : BufTy).Contents (Elt F) → (⟨S1x128, .f32⟩ : BufTy).Contents (Elt F)),
      reshape main_v22 main_v23 rfl shapeCasts_S1x128_S128,
      unary main_v23 main_v24 (broadcastInDim S1x1x128 ![2] bcast_S128_S1x1x128_2 : (⟨S128, .f32⟩ : BufTy).Contents (Elt F) → (⟨S1x1x128, .f32⟩ : BufTy).Contents (Elt F)),
      unary main_v24 main_v25 (broadcastInDim S8192x2x128 ![0, 1, 2] bcast_S1x1x128_S8192x2x128_0_1_2 : (⟨S1x1x128, .f32⟩ : BufTy).Contents (Elt F) → (⟨S8192x2x128, .f32⟩ : BufTy).Contents (Elt F)),
      binary main_v21 main_v25 main_v26 (addf : (⟨S8192x2x128, .f32⟩ : BufTy).Contents (Elt F) → (⟨S8192x2x128, .f32⟩ : BufTy).Contents (Elt F) → (⟨S8192x2x128, .f32⟩ : BufTy).Contents (Elt F)),
      nullary main_c_69 (constantI S_ 32 9#32),
      unary main_c_69 main_v27 (broadcastInDim S2 ![] bcast_S_S2 : (⟨S_, .i32⟩ : BufTy).Contents (Elt F) → (⟨S2, .i32⟩ : BufTy).Contents (Elt F)) ]
  | 2 =>
    [ unary main_arg0 main_v37 ((extractStridedSlice S1x128x128 ![2, 0, 0] · slices_S17x128x128_S1x128x128_2_0_0) : (⟨S17x128x128, .f32⟩ : BufTy).Contents (Elt F) → (⟨S1x128x128, .f32⟩ : BufTy).Contents (Elt F)),
      reshape main_v37 main_v38 rfl shapeCasts_S1x128x128_S128x128,
      binary main_arg4 main_v38 main_v39 ((fun l r => Host.dotGeneral dot_S8192x3x128_S128x128_S8192x3x128_2_1_01_0_n_n none l r) : (⟨S8192x3x128, .f32⟩ : BufTy).Contents (Elt F) → (⟨S128x128, .f32⟩ : BufTy).Contents (Elt F) → (⟨S8192x3x128, .f32⟩ : BufTy).Contents (Elt F)),
      unary main_arg1 main_v40 ((extractStridedSlice S1x128 ![2, 0] · slices_S17x128_S1x128_2_0) : (⟨S17x128, .f32⟩ : BufTy).Contents (Elt F) → (⟨S1x128, .f32⟩ : BufTy).Contents (Elt F)),
      reshape main_v40 main_v41 rfl shapeCasts_S1x128_S128,
      unary main_v41 main_v42 (broadcastInDim S1x1x128 ![2] bcast_S128_S1x1x128_2 : (⟨S128, .f32⟩ : BufTy).Contents (Elt F) → (⟨S1x1x128, .f32⟩ : BufTy).Contents (Elt F)),
      unary main_v42 main_v43 (broadcastInDim S8192x3x128 ![0, 1, 2] bcast_S1x1x128_S8192x3x128_0_1_2 : (⟨S1x1x128, .f32⟩ : BufTy).Contents (Elt F) → (⟨S8192x3x128, .f32⟩ : BufTy).Contents (Elt F)),
      binary main_v39 main_v43 main_v44 (addf : (⟨S8192x3x128, .f32⟩ : BufTy).Contents (Elt F) → (⟨S8192x3x128, .f32⟩ : BufTy).Contents (Elt F) → (⟨S8192x3x128, .f32⟩ : BufTy).Contents (Elt F)),
      nullary main_c_71 (constantI S_ 32 9#32),
      unary main_c_71 main_v45 (broadcastInDim S3 ![] bcast_S_S3 : (⟨S_, .i32⟩ : BufTy).Contents (Elt F) → (⟨S3, .i32⟩ : BufTy).Contents (Elt F)) ]
  | 3 =>
    [ unary main_arg0 main_v55 ((extractStridedSlice S1x128x128 ![3, 0, 0] · slices_S17x128x128_S1x128x128_3_0_0) : (⟨S17x128x128, .f32⟩ : BufTy).Contents (Elt F) → (⟨S1x128x128, .f32⟩ : BufTy).Contents (Elt F)),
      reshape main_v55 main_v56 rfl shapeCasts_S1x128x128_S128x128,
      binary main_arg5 main_v56 main_v57 ((fun l r => Host.dotGeneral dot_S8192x4x128_S128x128_S8192x4x128_2_1_01_0_n_n none l r) : (⟨S8192x4x128, .f32⟩ : BufTy).Contents (Elt F) → (⟨S128x128, .f32⟩ : BufTy).Contents (Elt F) → (⟨S8192x4x128, .f32⟩ : BufTy).Contents (Elt F)),
      unary main_arg1 main_v58 ((extractStridedSlice S1x128 ![3, 0] · slices_S17x128_S1x128_3_0) : (⟨S17x128, .f32⟩ : BufTy).Contents (Elt F) → (⟨S1x128, .f32⟩ : BufTy).Contents (Elt F)),
      reshape main_v58 main_v59 rfl shapeCasts_S1x128_S128,
      unary main_v59 main_v60 (broadcastInDim S1x1x128 ![2] bcast_S128_S1x1x128_2 : (⟨S128, .f32⟩ : BufTy).Contents (Elt F) → (⟨S1x1x128, .f32⟩ : BufTy).Contents (Elt F)),
      unary main_v60 main_v61 (broadcastInDim S8192x4x128 ![0, 1, 2] bcast_S1x1x128_S8192x4x128_0_1_2 : (⟨S1x1x128, .f32⟩ : BufTy).Contents (Elt F) → (⟨S8192x4x128, .f32⟩ : BufTy).Contents (Elt F)),
      binary main_v57 main_v61 main_v62 (addf : (⟨S8192x4x128, .f32⟩ : BufTy).Contents (Elt F) → (⟨S8192x4x128, .f32⟩ : BufTy).Contents (Elt F) → (⟨S8192x4x128, .f32⟩ : BufTy).Contents (Elt F)),
      nullary main_c_73 (constantI S_ 32 9#32),
      unary main_c_73 main_v63 (broadcastInDim S4 ![] bcast_S_S4 : (⟨S_, .i32⟩ : BufTy).Contents (Elt F) → (⟨S4, .i32⟩ : BufTy).Contents (Elt F)) ]
  | 4 =>
    [ unary main_arg0 main_v73 ((extractStridedSlice S1x128x128 ![4, 0, 0] · slices_S17x128x128_S1x128x128_4_0_0) : (⟨S17x128x128, .f32⟩ : BufTy).Contents (Elt F) → (⟨S1x128x128, .f32⟩ : BufTy).Contents (Elt F)),
      reshape main_v73 main_v74 rfl shapeCasts_S1x128x128_S128x128,
      binary main_arg6 main_v74 main_v75 ((fun l r => Host.dotGeneral dot_S8192x5x128_S128x128_S8192x5x128_2_1_01_0_n_n none l r) : (⟨S8192x5x128, .f32⟩ : BufTy).Contents (Elt F) → (⟨S128x128, .f32⟩ : BufTy).Contents (Elt F) → (⟨S8192x5x128, .f32⟩ : BufTy).Contents (Elt F)),
      unary main_arg1 main_v76 ((extractStridedSlice S1x128 ![4, 0] · slices_S17x128_S1x128_4_0) : (⟨S17x128, .f32⟩ : BufTy).Contents (Elt F) → (⟨S1x128, .f32⟩ : BufTy).Contents (Elt F)),
      reshape main_v76 main_v77 rfl shapeCasts_S1x128_S128,
      unary main_v77 main_v78 (broadcastInDim S1x1x128 ![2] bcast_S128_S1x1x128_2 : (⟨S128, .f32⟩ : BufTy).Contents (Elt F) → (⟨S1x1x128, .f32⟩ : BufTy).Contents (Elt F)),
      unary main_v78 main_v79 (broadcastInDim S8192x5x128 ![0, 1, 2] bcast_S1x1x128_S8192x5x128_0_1_2 : (⟨S1x1x128, .f32⟩ : BufTy).Contents (Elt F) → (⟨S8192x5x128, .f32⟩ : BufTy).Contents (Elt F)),
      binary main_v75 main_v79 main_v80 (addf : (⟨S8192x5x128, .f32⟩ : BufTy).Contents (Elt F) → (⟨S8192x5x128, .f32⟩ : BufTy).Contents (Elt F) → (⟨S8192x5x128, .f32⟩ : BufTy).Contents (Elt F)),
      nullary main_c_75 (constantI S_ 32 9#32),
      unary main_c_75 main_v81 (broadcastInDim S5 ![] bcast_S_S5 : (⟨S_, .i32⟩ : BufTy).Contents (Elt F) → (⟨S5, .i32⟩ : BufTy).Contents (Elt F)) ]
  | 5 =>
    [ unary main_arg0 main_v91 ((extractStridedSlice S1x128x128 ![5, 0, 0] · slices_S17x128x128_S1x128x128_5_0_0) : (⟨S17x128x128, .f32⟩ : BufTy).Contents (Elt F) → (⟨S1x128x128, .f32⟩ : BufTy).Contents (Elt F)),
      reshape main_v91 main_v92 rfl shapeCasts_S1x128x128_S128x128,
      binary main_arg7 main_v92 main_v93 ((fun l r => Host.dotGeneral dot_S8192x6x128_S128x128_S8192x6x128_2_1_01_0_n_n none l r) : (⟨S8192x6x128, .f32⟩ : BufTy).Contents (Elt F) → (⟨S128x128, .f32⟩ : BufTy).Contents (Elt F) → (⟨S8192x6x128, .f32⟩ : BufTy).Contents (Elt F)),
      unary main_arg1 main_v94 ((extractStridedSlice S1x128 ![5, 0] · slices_S17x128_S1x128_5_0) : (⟨S17x128, .f32⟩ : BufTy).Contents (Elt F) → (⟨S1x128, .f32⟩ : BufTy).Contents (Elt F)),
      reshape main_v94 main_v95 rfl shapeCasts_S1x128_S128,
      unary main_v95 main_v96 (broadcastInDim S1x1x128 ![2] bcast_S128_S1x1x128_2 : (⟨S128, .f32⟩ : BufTy).Contents (Elt F) → (⟨S1x1x128, .f32⟩ : BufTy).Contents (Elt F)),
      unary main_v96 main_v97 (broadcastInDim S8192x6x128 ![0, 1, 2] bcast_S1x1x128_S8192x6x128_0_1_2 : (⟨S1x1x128, .f32⟩ : BufTy).Contents (Elt F) → (⟨S8192x6x128, .f32⟩ : BufTy).Contents (Elt F)),
      binary main_v93 main_v97 main_v98 (addf : (⟨S8192x6x128, .f32⟩ : BufTy).Contents (Elt F) → (⟨S8192x6x128, .f32⟩ : BufTy).Contents (Elt F) → (⟨S8192x6x128, .f32⟩ : BufTy).Contents (Elt F)),
      nullary main_c_77 (constantI S_ 32 9#32),
      unary main_c_77 main_v99 (broadcastInDim S6 ![] bcast_S_S6 : (⟨S_, .i32⟩ : BufTy).Contents (Elt F) → (⟨S6, .i32⟩ : BufTy).Contents (Elt F)) ]
  | 6 =>
    [ unary main_arg0 main_v109 ((extractStridedSlice S1x128x128 ![6, 0, 0] · slices_S17x128x128_S1x128x128_6_0_0) : (⟨S17x128x128, .f32⟩ : BufTy).Contents (Elt F) → (⟨S1x128x128, .f32⟩ : BufTy).Contents (Elt F)),
      reshape main_v109 main_v110 rfl shapeCasts_S1x128x128_S128x128,
      binary main_arg8 main_v110 main_v111 ((fun l r => Host.dotGeneral dot_S8192x7x128_S128x128_S8192x7x128_2_1_01_0_n_n none l r) : (⟨S8192x7x128, .f32⟩ : BufTy).Contents (Elt F) → (⟨S128x128, .f32⟩ : BufTy).Contents (Elt F) → (⟨S8192x7x128, .f32⟩ : BufTy).Contents (Elt F)),
      unary main_arg1 main_v112 ((extractStridedSlice S1x128 ![6, 0] · slices_S17x128_S1x128_6_0) : (⟨S17x128, .f32⟩ : BufTy).Contents (Elt F) → (⟨S1x128, .f32⟩ : BufTy).Contents (Elt F)),
      reshape main_v112 main_v113 rfl shapeCasts_S1x128_S128,
      unary main_v113 main_v114 (broadcastInDim S1x1x128 ![2] bcast_S128_S1x1x128_2 : (⟨S128, .f32⟩ : BufTy).Contents (Elt F) → (⟨S1x1x128, .f32⟩ : BufTy).Contents (Elt F)),
      unary main_v114 main_v115 (broadcastInDim S8192x7x128 ![0, 1, 2] bcast_S1x1x128_S8192x7x128_0_1_2 : (⟨S1x1x128, .f32⟩ : BufTy).Contents (Elt F) → (⟨S8192x7x128, .f32⟩ : BufTy).Contents (Elt F)),
      binary main_v111 main_v115 main_v116 (addf : (⟨S8192x7x128, .f32⟩ : BufTy).Contents (Elt F) → (⟨S8192x7x128, .f32⟩ : BufTy).Contents (Elt F) → (⟨S8192x7x128, .f32⟩ : BufTy).Contents (Elt F)),
      nullary main_c_79 (constantI S_ 32 9#32),
      unary main_c_79 main_v117 (broadcastInDim S7 ![] bcast_S_S7 : (⟨S_, .i32⟩ : BufTy).Contents (Elt F) → (⟨S7, .i32⟩ : BufTy).Contents (Elt F)) ]
  | 7 =>
    [ unary main_arg0 main_v127 ((extractStridedSlice S1x128x128 ![7, 0, 0] · slices_S17x128x128_S1x128x128_7_0_0) : (⟨S17x128x128, .f32⟩ : BufTy).Contents (Elt F) → (⟨S1x128x128, .f32⟩ : BufTy).Contents (Elt F)),
      reshape main_v127 main_v128 rfl shapeCasts_S1x128x128_S128x128,
      binary main_arg9 main_v128 main_v129 ((fun l r => Host.dotGeneral dot_S8192x8x128_S128x128_S8192x8x128_2_1_01_0_n_n none l r) : (⟨S8192x8x128, .f32⟩ : BufTy).Contents (Elt F) → (⟨S128x128, .f32⟩ : BufTy).Contents (Elt F) → (⟨S8192x8x128, .f32⟩ : BufTy).Contents (Elt F)),
      unary main_arg1 main_v130 ((extractStridedSlice S1x128 ![7, 0] · slices_S17x128_S1x128_7_0) : (⟨S17x128, .f32⟩ : BufTy).Contents (Elt F) → (⟨S1x128, .f32⟩ : BufTy).Contents (Elt F)),
      reshape main_v130 main_v131 rfl shapeCasts_S1x128_S128,
      unary main_v131 main_v132 (broadcastInDim S1x1x128 ![2] bcast_S128_S1x1x128_2 : (⟨S128, .f32⟩ : BufTy).Contents (Elt F) → (⟨S1x1x128, .f32⟩ : BufTy).Contents (Elt F)),
      unary main_v132 main_v133 (broadcastInDim S8192x8x128 ![0, 1, 2] bcast_S1x1x128_S8192x8x128_0_1_2 : (⟨S1x1x128, .f32⟩ : BufTy).Contents (Elt F) → (⟨S8192x8x128, .f32⟩ : BufTy).Contents (Elt F)),
      binary main_v129 main_v133 main_v134 (addf : (⟨S8192x8x128, .f32⟩ : BufTy).Contents (Elt F) → (⟨S8192x8x128, .f32⟩ : BufTy).Contents (Elt F) → (⟨S8192x8x128, .f32⟩ : BufTy).Contents (Elt F)),
      nullary main_c_81 (constantI S_ 32 9#32),
      unary main_c_81 main_v135 (broadcastInDim S8 ![] bcast_S_S8 : (⟨S_, .i32⟩ : BufTy).Contents (Elt F) → (⟨S8, .i32⟩ : BufTy).Contents (Elt F)) ]
  | 8 =>
    [ unary main_arg0 main_v145 ((extractStridedSlice S1x128x128 ![8, 0, 0] · slices_S17x128x128_S1x128x128_8_0_0) : (⟨S17x128x128, .f32⟩ : BufTy).Contents (Elt F) → (⟨S1x128x128, .f32⟩ : BufTy).Contents (Elt F)),
      reshape main_v145 main_v146 rfl shapeCasts_S1x128x128_S128x128,
      binary main_arg10 main_v146 main_v147 ((fun l r => Host.dotGeneral dot_S8192x9x128_S128x128_S8192x9x128_2_1_01_0_n_n none l r) : (⟨S8192x9x128, .f32⟩ : BufTy).Contents (Elt F) → (⟨S128x128, .f32⟩ : BufTy).Contents (Elt F) → (⟨S8192x9x128, .f32⟩ : BufTy).Contents (Elt F)),
      unary main_arg1 main_v148 ((extractStridedSlice S1x128 ![8, 0] · slices_S17x128_S1x128_8_0) : (⟨S17x128, .f32⟩ : BufTy).Contents (Elt F) → (⟨S1x128, .f32⟩ : BufTy).Contents (Elt F)),
      reshape main_v148 main_v149 rfl shapeCasts_S1x128_S128,
      unary main_v149 main_v150 (broadcastInDim S1x1x128 ![2] bcast_S128_S1x1x128_2 : (⟨S128, .f32⟩ : BufTy).Contents (Elt F) → (⟨S1x1x128, .f32⟩ : BufTy).Contents (Elt F)),
      unary main_v150 main_v151 (broadcastInDim S8192x9x128 ![0, 1, 2] bcast_S1x1x128_S8192x9x128_0_1_2 : (⟨S1x1x128, .f32⟩ : BufTy).Contents (Elt F) → (⟨S8192x9x128, .f32⟩ : BufTy).Contents (Elt F)),
      binary main_v147 main_v151 main_v152 (addf : (⟨S8192x9x128, .f32⟩ : BufTy).Contents (Elt F) → (⟨S8192x9x128, .f32⟩ : BufTy).Contents (Elt F) → (⟨S8192x9x128, .f32⟩ : BufTy).Contents (Elt F)),
      nullary main_c_83 (constantI S_ 32 9#32),
      unary main_c_83 main_v153 (broadcastInDim S9 ![] bcast_S_S9 : (⟨S_, .i32⟩ : BufTy).Contents (Elt F) → (⟨S9, .i32⟩ : BufTy).Contents (Elt F)) ]
  | 9 =>
    [ unary main_arg0 main_v163 ((extractStridedSlice S1x128x128 ![9, 0, 0] · slices_S17x128x128_S1x128x128_9_0_0) : (⟨S17x128x128, .f32⟩ : BufTy).Contents (Elt F) → (⟨S1x128x128, .f32⟩ : BufTy).Contents (Elt F)),
      reshape main_v163 main_v164 rfl shapeCasts_S1x128x128_S128x128,
      binary main_arg11 main_v164 main_v165 ((fun l r => Host.dotGeneral dot_S8192x8x128_S128x128_S8192x8x128_2_1_01_0_n_n none l r) : (⟨S8192x8x128, .f32⟩ : BufTy).Contents (Elt F) → (⟨S128x128, .f32⟩ : BufTy).Contents (Elt F) → (⟨S8192x8x128, .f32⟩ : BufTy).Contents (Elt F)),
      unary main_arg1 main_v166 ((extractStridedSlice S1x128 ![9, 0] · slices_S17x128_S1x128_9_0) : (⟨S17x128, .f32⟩ : BufTy).Contents (Elt F) → (⟨S1x128, .f32⟩ : BufTy).Contents (Elt F)),
      reshape main_v166 main_v167 rfl shapeCasts_S1x128_S128,
      unary main_v167 main_v168 (broadcastInDim S1x1x128 ![2] bcast_S128_S1x1x128_2 : (⟨S128, .f32⟩ : BufTy).Contents (Elt F) → (⟨S1x1x128, .f32⟩ : BufTy).Contents (Elt F)),
      unary main_v168 main_v169 (broadcastInDim S8192x8x128 ![0, 1, 2] bcast_S1x1x128_S8192x8x128_0_1_2 : (⟨S1x1x128, .f32⟩ : BufTy).Contents (Elt F) → (⟨S8192x8x128, .f32⟩ : BufTy).Contents (Elt F)),
      binary main_v165 main_v169 main_v170 (addf : (⟨S8192x8x128, .f32⟩ : BufTy).Contents (Elt F) → (⟨S8192x8x128, .f32⟩ : BufTy).Contents (Elt F) → (⟨S8192x8x128, .f32⟩ : BufTy).Contents (Elt F)),
      nullary main_c_85 (constantI S_ 32 9#32),
      unary main_c_85 main_v171 (broadcastInDim S8 ![] bcast_S_S8 : (⟨S_, .i32⟩ : BufTy).Contents (Elt F) → (⟨S8, .i32⟩ : BufTy).Contents (Elt F)) ]
  | 10 =>
    [ unary main_arg0 main_v181 ((extractStridedSlice S1x128x128 ![10, 0, 0] · slices_S17x128x128_S1x128x128_10_0_0) : (⟨S17x128x128, .f32⟩ : BufTy).Contents (Elt F) → (⟨S1x128x128, .f32⟩ : BufTy).Contents (Elt F)),
      reshape main_v181 main_v182 rfl shapeCasts_S1x128x128_S128x128,
      binary main_arg12 main_v182 main_v183 ((fun l r => Host.dotGeneral dot_S8192x7x128_S128x128_S8192x7x128_2_1_01_0_n_n none l r) : (⟨S8192x7x128, .f32⟩ : BufTy).Contents (Elt F) → (⟨S128x128, .f32⟩ : BufTy).Contents (Elt F) → (⟨S8192x7x128, .f32⟩ : BufTy).Contents (Elt F)),
      unary main_arg1 main_v184 ((extractStridedSlice S1x128 ![10, 0] · slices_S17x128_S1x128_10_0) : (⟨S17x128, .f32⟩ : BufTy).Contents (Elt F) → (⟨S1x128, .f32⟩ : BufTy).Contents (Elt F)),
      reshape main_v184 main_v185 rfl shapeCasts_S1x128_S128,
      unary main_v185 main_v186 (broadcastInDim S1x1x128 ![2] bcast_S128_S1x1x128_2 : (⟨S128, .f32⟩ : BufTy).Contents (Elt F) → (⟨S1x1x128, .f32⟩ : BufTy).Contents (Elt F)),
      unary main_v186 main_v187 (broadcastInDim S8192x7x128 ![0, 1, 2] bcast_S1x1x128_S8192x7x128_0_1_2 : (⟨S1x1x128, .f32⟩ : BufTy).Contents (Elt F) → (⟨S8192x7x128, .f32⟩ : BufTy).Contents (Elt F)),
      binary main_v183 main_v187 main_v188 (addf : (⟨S8192x7x128, .f32⟩ : BufTy).Contents (Elt F) → (⟨S8192x7x128, .f32⟩ : BufTy).Contents (Elt F) → (⟨S8192x7x128, .f32⟩ : BufTy).Contents (Elt F)),
      nullary main_c_87 (constantI S_ 32 9#32),
      unary main_c_87 main_v189 (broadcastInDim S7 ![] bcast_S_S7 : (⟨S_, .i32⟩ : BufTy).Contents (Elt F) → (⟨S7, .i32⟩ : BufTy).Contents (Elt F)) ]
  | 11 =>
    [ unary main_arg0 main_v199 ((extractStridedSlice S1x128x128 ![11, 0, 0] · slices_S17x128x128_S1x128x128_11_0_0) : (⟨S17x128x128, .f32⟩ : BufTy).Contents (Elt F) → (⟨S1x128x128, .f32⟩ : BufTy).Contents (Elt F)),
      reshape main_v199 main_v200 rfl shapeCasts_S1x128x128_S128x128,
      binary main_arg13 main_v200 main_v201 ((fun l r => Host.dotGeneral dot_S8192x6x128_S128x128_S8192x6x128_2_1_01_0_n_n none l r) : (⟨S8192x6x128, .f32⟩ : BufTy).Contents (Elt F) → (⟨S128x128, .f32⟩ : BufTy).Contents (Elt F) → (⟨S8192x6x128, .f32⟩ : BufTy).Contents (Elt F)),
      unary main_arg1 main_v202 ((extractStridedSlice S1x128 ![11, 0] · slices_S17x128_S1x128_11_0) : (⟨S17x128, .f32⟩ : BufTy).Contents (Elt F) → (⟨S1x128, .f32⟩ : BufTy).Contents (Elt F)),
      reshape main_v202 main_v203 rfl shapeCasts_S1x128_S128,
      unary main_v203 main_v204 (broadcastInDim S1x1x128 ![2] bcast_S128_S1x1x128_2 : (⟨S128, .f32⟩ : BufTy).Contents (Elt F) → (⟨S1x1x128, .f32⟩ : BufTy).Contents (Elt F)),
      unary main_v204 main_v205 (broadcastInDim S8192x6x128 ![0, 1, 2] bcast_S1x1x128_S8192x6x128_0_1_2 : (⟨S1x1x128, .f32⟩ : BufTy).Contents (Elt F) → (⟨S8192x6x128, .f32⟩ : BufTy).Contents (Elt F)),
      binary main_v201 main_v205 main_v206 (addf : (⟨S8192x6x128, .f32⟩ : BufTy).Contents (Elt F) → (⟨S8192x6x128, .f32⟩ : BufTy).Contents (Elt F) → (⟨S8192x6x128, .f32⟩ : BufTy).Contents (Elt F)),
      nullary main_c_89 (constantI S_ 32 9#32),
      unary main_c_89 main_v207 (broadcastInDim S6 ![] bcast_S_S6 : (⟨S_, .i32⟩ : BufTy).Contents (Elt F) → (⟨S6, .i32⟩ : BufTy).Contents (Elt F)) ]
  | 12 =>
    [ unary main_arg0 main_v217 ((extractStridedSlice S1x128x128 ![12, 0, 0] · slices_S17x128x128_S1x128x128_12_0_0) : (⟨S17x128x128, .f32⟩ : BufTy).Contents (Elt F) → (⟨S1x128x128, .f32⟩ : BufTy).Contents (Elt F)),
      reshape main_v217 main_v218 rfl shapeCasts_S1x128x128_S128x128,
      binary main_arg14 main_v218 main_v219 ((fun l r => Host.dotGeneral dot_S8192x5x128_S128x128_S8192x5x128_2_1_01_0_n_n none l r) : (⟨S8192x5x128, .f32⟩ : BufTy).Contents (Elt F) → (⟨S128x128, .f32⟩ : BufTy).Contents (Elt F) → (⟨S8192x5x128, .f32⟩ : BufTy).Contents (Elt F)),
      unary main_arg1 main_v220 ((extractStridedSlice S1x128 ![12, 0] · slices_S17x128_S1x128_12_0) : (⟨S17x128, .f32⟩ : BufTy).Contents (Elt F) → (⟨S1x128, .f32⟩ : BufTy).Contents (Elt F)),
      reshape main_v220 main_v221 rfl shapeCasts_S1x128_S128,
      unary main_v221 main_v222 (broadcastInDim S1x1x128 ![2] bcast_S128_S1x1x128_2 : (⟨S128, .f32⟩ : BufTy).Contents (Elt F) → (⟨S1x1x128, .f32⟩ : BufTy).Contents (Elt F)),
      unary main_v222 main_v223 (broadcastInDim S8192x5x128 ![0, 1, 2] bcast_S1x1x128_S8192x5x128_0_1_2 : (⟨S1x1x128, .f32⟩ : BufTy).Contents (Elt F) → (⟨S8192x5x128, .f32⟩ : BufTy).Contents (Elt F)),
      binary main_v219 main_v223 main_v224 (addf : (⟨S8192x5x128, .f32⟩ : BufTy).Contents (Elt F) → (⟨S8192x5x128, .f32⟩ : BufTy).Contents (Elt F) → (⟨S8192x5x128, .f32⟩ : BufTy).Contents (Elt F)),
      nullary main_c_91 (constantI S_ 32 9#32),
      unary main_c_91 main_v225 (broadcastInDim S5 ![] bcast_S_S5 : (⟨S_, .i32⟩ : BufTy).Contents (Elt F) → (⟨S5, .i32⟩ : BufTy).Contents (Elt F)) ]
  | 13 =>
    [ unary main_arg0 main_v235 ((extractStridedSlice S1x128x128 ![13, 0, 0] · slices_S17x128x128_S1x128x128_13_0_0) : (⟨S17x128x128, .f32⟩ : BufTy).Contents (Elt F) → (⟨S1x128x128, .f32⟩ : BufTy).Contents (Elt F)),
      reshape main_v235 main_v236 rfl shapeCasts_S1x128x128_S128x128,
      binary main_arg15 main_v236 main_v237 ((fun l r => Host.dotGeneral dot_S8192x4x128_S128x128_S8192x4x128_2_1_01_0_n_n none l r) : (⟨S8192x4x128, .f32⟩ : BufTy).Contents (Elt F) → (⟨S128x128, .f32⟩ : BufTy).Contents (Elt F) → (⟨S8192x4x128, .f32⟩ : BufTy).Contents (Elt F)),
      unary main_arg1 main_v238 ((extractStridedSlice S1x128 ![13, 0] · slices_S17x128_S1x128_13_0) : (⟨S17x128, .f32⟩ : BufTy).Contents (Elt F) → (⟨S1x128, .f32⟩ : BufTy).Contents (Elt F)),
      reshape main_v238 main_v239 rfl shapeCasts_S1x128_S128,
      unary main_v239 main_v240 (broadcastInDim S1x1x128 ![2] bcast_S128_S1x1x128_2 : (⟨S128, .f32⟩ : BufTy).Contents (Elt F) → (⟨S1x1x128, .f32⟩ : BufTy).Contents (Elt F)),
      unary main_v240 main_v241 (broadcastInDim S8192x4x128 ![0, 1, 2] bcast_S1x1x128_S8192x4x128_0_1_2 : (⟨S1x1x128, .f32⟩ : BufTy).Contents (Elt F) → (⟨S8192x4x128, .f32⟩ : BufTy).Contents (Elt F)),
      binary main_v237 main_v241 main_v242 (addf : (⟨S8192x4x128, .f32⟩ : BufTy).Contents (Elt F) → (⟨S8192x4x128, .f32⟩ : BufTy).Contents (Elt F) → (⟨S8192x4x128, .f32⟩ : BufTy).Contents (Elt F)),
      nullary main_c_93 (constantI S_ 32 9#32),
      unary main_c_93 main_v243 (broadcastInDim S4 ![] bcast_S_S4 : (⟨S_, .i32⟩ : BufTy).Contents (Elt F) → (⟨S4, .i32⟩ : BufTy).Contents (Elt F)) ]
  | 14 =>
    [ unary main_arg0 main_v253 ((extractStridedSlice S1x128x128 ![14, 0, 0] · slices_S17x128x128_S1x128x128_14_0_0) : (⟨S17x128x128, .f32⟩ : BufTy).Contents (Elt F) → (⟨S1x128x128, .f32⟩ : BufTy).Contents (Elt F)),
      reshape main_v253 main_v254 rfl shapeCasts_S1x128x128_S128x128,
      binary main_arg16 main_v254 main_v255 ((fun l r => Host.dotGeneral dot_S8192x3x128_S128x128_S8192x3x128_2_1_01_0_n_n none l r) : (⟨S8192x3x128, .f32⟩ : BufTy).Contents (Elt F) → (⟨S128x128, .f32⟩ : BufTy).Contents (Elt F) → (⟨S8192x3x128, .f32⟩ : BufTy).Contents (Elt F)),
      unary main_arg1 main_v256 ((extractStridedSlice S1x128 ![14, 0] · slices_S17x128_S1x128_14_0) : (⟨S17x128, .f32⟩ : BufTy).Contents (Elt F) → (⟨S1x128, .f32⟩ : BufTy).Contents (Elt F)),
      reshape main_v256 main_v257 rfl shapeCasts_S1x128_S128,
      unary main_v257 main_v258 (broadcastInDim S1x1x128 ![2] bcast_S128_S1x1x128_2 : (⟨S128, .f32⟩ : BufTy).Contents (Elt F) → (⟨S1x1x128, .f32⟩ : BufTy).Contents (Elt F)),
      unary main_v258 main_v259 (broadcastInDim S8192x3x128 ![0, 1, 2] bcast_S1x1x128_S8192x3x128_0_1_2 : (⟨S1x1x128, .f32⟩ : BufTy).Contents (Elt F) → (⟨S8192x3x128, .f32⟩ : BufTy).Contents (Elt F)),
      binary main_v255 main_v259 main_v260 (addf : (⟨S8192x3x128, .f32⟩ : BufTy).Contents (Elt F) → (⟨S8192x3x128, .f32⟩ : BufTy).Contents (Elt F) → (⟨S8192x3x128, .f32⟩ : BufTy).Contents (Elt F)),
      nullary main_c_95 (constantI S_ 32 9#32),
      unary main_c_95 main_v261 (broadcastInDim S3 ![] bcast_S_S3 : (⟨S_, .i32⟩ : BufTy).Contents (Elt F) → (⟨S3, .i32⟩ : BufTy).Contents (Elt F)) ]
  | 15 =>
    [ unary main_arg0 main_v271 ((extractStridedSlice S1x128x128 ![15, 0, 0] · slices_S17x128x128_S1x128x128_15_0_0) : (⟨S17x128x128, .f32⟩ : BufTy).Contents (Elt F) → (⟨S1x128x128, .f32⟩ : BufTy).Contents (Elt F)),
      reshape main_v271 main_v272 rfl shapeCasts_S1x128x128_S128x128,
      binary main_arg17 main_v272 main_v273 ((fun l r => Host.dotGeneral dot_S8192x2x128_S128x128_S8192x2x128_2_1_01_0_n_n none l r) : (⟨S8192x2x128, .f32⟩ : BufTy).Contents (Elt F) → (⟨S128x128, .f32⟩ : BufTy).Contents (Elt F) → (⟨S8192x2x128, .f32⟩ : BufTy).Contents (Elt F)),
      unary main_arg1 main_v274 ((extractStridedSlice S1x128 ![15, 0] · slices_S17x128_S1x128_15_0) : (⟨S17x128, .f32⟩ : BufTy).Contents (Elt F) → (⟨S1x128, .f32⟩ : BufTy).Contents (Elt F)),
      reshape main_v274 main_v275 rfl shapeCasts_S1x128_S128,
      unary main_v275 main_v276 (broadcastInDim S1x1x128 ![2] bcast_S128_S1x1x128_2 : (⟨S128, .f32⟩ : BufTy).Contents (Elt F) → (⟨S1x1x128, .f32⟩ : BufTy).Contents (Elt F)),
      unary main_v276 main_v277 (broadcastInDim S8192x2x128 ![0, 1, 2] bcast_S1x1x128_S8192x2x128_0_1_2 : (⟨S1x1x128, .f32⟩ : BufTy).Contents (Elt F) → (⟨S8192x2x128, .f32⟩ : BufTy).Contents (Elt F)),
      binary main_v273 main_v277 main_v278 (addf : (⟨S8192x2x128, .f32⟩ : BufTy).Contents (Elt F) → (⟨S8192x2x128, .f32⟩ : BufTy).Contents (Elt F) → (⟨S8192x2x128, .f32⟩ : BufTy).Contents (Elt F)),
      nullary main_c_97 (constantI S_ 32 9#32),
      unary main_c_97 main_v279 (broadcastInDim S2 ![] bcast_S_S2 : (⟨S_, .i32⟩ : BufTy).Contents (Elt F) → (⟨S2, .i32⟩ : BufTy).Contents (Elt F)) ]
  | 16 =>
    [ unary main_arg0 main_v289 ((extractStridedSlice S1x128x128 ![16, 0, 0] · slices_S17x128x128_S1x128x128_16_0_0) : (⟨S17x128x128, .f32⟩ : BufTy).Contents (Elt F) → (⟨S1x128x128, .f32⟩ : BufTy).Contents (Elt F)),
      reshape main_v289 main_v290 rfl shapeCasts_S1x128x128_S128x128,
      binary main_arg18 main_v290 main_v291 ((fun l r => Host.dotGeneral dot_S8192x1x128_S128x128_S8192x1x128_2_1_01_0_n_n none l r) : (⟨S8192x1x128, .f32⟩ : BufTy).Contents (Elt F) → (⟨S128x128, .f32⟩ : BufTy).Contents (Elt F) → (⟨S8192x1x128, .f32⟩ : BufTy).Contents (Elt F)),
      unary main_arg1 main_v292 ((extractStridedSlice S1x128 ![16, 0] · slices_S17x128_S1x128_16_0) : (⟨S17x128, .f32⟩ : BufTy).Contents (Elt F) → (⟨S1x128, .f32⟩ : BufTy).Contents (Elt F)),
      reshape main_v292 main_v293 rfl shapeCasts_S1x128_S128,
      unary main_v293 main_v294 (broadcastInDim S1x1x128 ![2] bcast_S128_S1x1x128_2 : (⟨S128, .f32⟩ : BufTy).Contents (Elt F) → (⟨S1x1x128, .f32⟩ : BufTy).Contents (Elt F)),
      unary main_v294 main_v295 (broadcastInDim S8192x1x128 ![0, 1, 2] bcast_S1x1x128_S8192x1x128_0_1_2 : (⟨S1x1x128, .f32⟩ : BufTy).Contents (Elt F) → (⟨S8192x1x128, .f32⟩ : BufTy).Contents (Elt F)),
      binary main_v291 main_v295 main_v296 (addf : (⟨S8192x1x128, .f32⟩ : BufTy).Contents (Elt F) → (⟨S8192x1x128, .f32⟩ : BufTy).Contents (Elt F) → (⟨S8192x1x128, .f32⟩ : BufTy).Contents (Elt F)),
      nullary main_c_99 (constantI S_ 32 9#32),
      unary main_c_99 main_v297 (broadcastInDim S1 ![] bcast_S_S1 : (⟨S_, .i32⟩ : BufTy).Contents (Elt F) → (⟨S1, .i32⟩ : BufTy).Contents (Elt F)) ]
  | _ => []

/-- The last ten operations of each anti-diagonal. -/
def dB : Fin 17 → List (HloOp τ sig (Elt F))
  | 0 =>
    [ binary main_c main_v9 main_v10 (addi : (⟨S1, .i32⟩ : BufTy).Contents (Elt F) → (⟨S1, .i32⟩ : BufTy).Contents (Elt F) → (⟨S1, .i32⟩ : BufTy).Contents (Elt F)),
      ternary main_c_0 main_v10 main_c main_v11 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
      nullary main_c_68 (constantI S_ 32 9#32),
      unary main_c_68 main_v12 (broadcastInDim S1 ![] bcast_S_S1 : (⟨S_, .i32⟩ : BufTy).Contents (Elt F) → (⟨S1, .i32⟩ : BufTy).Contents (Elt F)),
      binary main_c_1 main_v12 main_v13 (addi : (⟨S1, .i32⟩ : BufTy).Contents (Elt F) → (⟨S1, .i32⟩ : BufTy).Contents (Elt F) → (⟨S1, .i32⟩ : BufTy).Contents (Elt F)),
      ternary main_c_2 main_v13 main_c_1 main_v14 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
      unary main_v11 main_v15 (broadcastInDim S1x1 ![0] bcast_S1_S1x1_0 : (⟨S1, .i32⟩ : BufTy).Contents (Elt F) → (⟨S1x1, .i32⟩ : BufTy).Contents (Elt F)),
      unary main_v14 main_v16 (broadcastInDim S1x1 ![0] bcast_S1_S1x1_0 : (⟨S1, .i32⟩ : BufTy).Contents (Elt F) → (⟨S1x1, .i32⟩ : BufTy).Contents (Elt F)),
      binary main_v15 main_v16 main_v17 ((fun a b => concatenate S1x2 1 [⟨S1x1, a⟩, ⟨S1x1, b⟩] concatenates_S1x1_S1x1_S1x2_d1) : (⟨S1x1, .i32⟩ : BufTy).Contents (Elt F) → (⟨S1x1, .i32⟩ : BufTy).Contents (Elt F) → (⟨S1x2, .i32⟩ : BufTy).Contents (Elt F)),
      ternary main_v0 main_v17 main_v8 main_v18 ((fun x i u => Host.scatter scatter_S8192x9x9x128_S1x2_S8192x1x128_02_12_12_1 (fun _ b => b) x i u) : (⟨S8192x9x9x128, .f32⟩ : BufTy).Contents (Elt F) → (⟨S1x2, .i32⟩ : BufTy).Contents (Elt F) → (⟨S8192x1x128, .f32⟩ : BufTy).Contents (Elt F) → (⟨S8192x9x9x128, .f32⟩ : BufTy).Contents (Elt F)) ]
  | 1 =>
    [ binary main_c_3 main_v27 main_v28 (addi : (⟨S2, .i32⟩ : BufTy).Contents (Elt F) → (⟨S2, .i32⟩ : BufTy).Contents (Elt F) → (⟨S2, .i32⟩ : BufTy).Contents (Elt F)),
      ternary main_c_4 main_v28 main_c_3 main_v29 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
      nullary main_c_70 (constantI S_ 32 9#32),
      unary main_c_70 main_v30 (broadcastInDim S2 ![] bcast_S_S2 : (⟨S_, .i32⟩ : BufTy).Contents (Elt F) → (⟨S2, .i32⟩ : BufTy).Contents (Elt F)),
      binary main_c_5 main_v30 main_v31 (addi : (⟨S2, .i32⟩ : BufTy).Contents (Elt F) → (⟨S2, .i32⟩ : BufTy).Contents (Elt F) → (⟨S2, .i32⟩ : BufTy).Contents (Elt F)),
      ternary main_c_6 main_v31 main_c_5 main_v32 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
      unary main_v29 main_v33 (broadcastInDim S2x1 ![0] bcast_S2_S2x1_0 : (⟨S2, .i32⟩ : BufTy).Contents (Elt F) → (⟨S2x1, .i32⟩ : BufTy).Contents (Elt F)),
      unary main_v32 main_v34 (broadcastInDim S2x1 ![0] bcast_S2_S2x1_0 : (⟨S2, .i32⟩ : BufTy).Contents (Elt F) → (⟨S2x1, .i32⟩ : BufTy).Contents (Elt F)),
      binary main_v33 main_v34 main_v35 ((fun a b => concatenate S2x2 1 [⟨S2x1, a⟩, ⟨S2x1, b⟩] concatenates_S2x1_S2x1_S2x2_d1) : (⟨S2x1, .i32⟩ : BufTy).Contents (Elt F) → (⟨S2x1, .i32⟩ : BufTy).Contents (Elt F) → (⟨S2x2, .i32⟩ : BufTy).Contents (Elt F)),
      ternary main_v18 main_v35 main_v26 main_v36 ((fun x i u => Host.scatter scatter_S8192x9x9x128_S2x2_S8192x2x128_02_12_12_1 (fun _ b => b) x i u) : (⟨S8192x9x9x128, .f32⟩ : BufTy).Contents (Elt F) → (⟨S2x2, .i32⟩ : BufTy).Contents (Elt F) → (⟨S8192x2x128, .f32⟩ : BufTy).Contents (Elt F) → (⟨S8192x9x9x128, .f32⟩ : BufTy).Contents (Elt F)) ]
  | 2 =>
    [ binary main_c_7 main_v45 main_v46 (addi : (⟨S3, .i32⟩ : BufTy).Contents (Elt F) → (⟨S3, .i32⟩ : BufTy).Contents (Elt F) → (⟨S3, .i32⟩ : BufTy).Contents (Elt F)),
      ternary main_c_8 main_v46 main_c_7 main_v47 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
      nullary main_c_72 (constantI S_ 32 9#32),
      unary main_c_72 main_v48 (broadcastInDim S3 ![] bcast_S_S3 : (⟨S_, .i32⟩ : BufTy).Contents (Elt F) → (⟨S3, .i32⟩ : BufTy).Contents (Elt F)),
      binary main_c_9 main_v48 main_v49 (addi : (⟨S3, .i32⟩ : BufTy).Contents (Elt F) → (⟨S3, .i32⟩ : BufTy).Contents (Elt F) → (⟨S3, .i32⟩ : BufTy).Contents (Elt F)),
      ternary main_c_10 main_v49 main_c_9 main_v50 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
      unary main_v47 main_v51 (broadcastInDim S3x1 ![0] bcast_S3_S3x1_0 : (⟨S3, .i32⟩ : BufTy).Contents (Elt F) → (⟨S3x1, .i32⟩ : BufTy).Contents (Elt F)),
      unary main_v50 main_v52 (broadcastInDim S3x1 ![0] bcast_S3_S3x1_0 : (⟨S3, .i32⟩ : BufTy).Contents (Elt F) → (⟨S3x1, .i32⟩ : BufTy).Contents (Elt F)),
      binary main_v51 main_v52 main_v53 ((fun a b => concatenate S3x2 1 [⟨S3x1, a⟩, ⟨S3x1, b⟩] concatenates_S3x1_S3x1_S3x2_d1) : (⟨S3x1, .i32⟩ : BufTy).Contents (Elt F) → (⟨S3x1, .i32⟩ : BufTy).Contents (Elt F) → (⟨S3x2, .i32⟩ : BufTy).Contents (Elt F)),
      ternary main_v36 main_v53 main_v44 main_v54 ((fun x i u => Host.scatter scatter_S8192x9x9x128_S3x2_S8192x3x128_02_12_12_1 (fun _ b => b) x i u) : (⟨S8192x9x9x128, .f32⟩ : BufTy).Contents (Elt F) → (⟨S3x2, .i32⟩ : BufTy).Contents (Elt F) → (⟨S8192x3x128, .f32⟩ : BufTy).Contents (Elt F) → (⟨S8192x9x9x128, .f32⟩ : BufTy).Contents (Elt F)) ]
  | 3 =>
    [ binary main_c_11 main_v63 main_v64 (addi : (⟨S4, .i32⟩ : BufTy).Contents (Elt F) → (⟨S4, .i32⟩ : BufTy).Contents (Elt F) → (⟨S4, .i32⟩ : BufTy).Contents (Elt F)),
      ternary main_c_12 main_v64 main_c_11 main_v65 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
      nullary main_c_74 (constantI S_ 32 9#32),
      unary main_c_74 main_v66 (broadcastInDim S4 ![] bcast_S_S4 : (⟨S_, .i32⟩ : BufTy).Contents (Elt F) → (⟨S4, .i32⟩ : BufTy).Contents (Elt F)),
      binary main_c_13 main_v66 main_v67 (addi : (⟨S4, .i32⟩ : BufTy).Contents (Elt F) → (⟨S4, .i32⟩ : BufTy).Contents (Elt F) → (⟨S4, .i32⟩ : BufTy).Contents (Elt F)),
      ternary main_c_14 main_v67 main_c_13 main_v68 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
      unary main_v65 main_v69 (broadcastInDim S4x1 ![0] bcast_S4_S4x1_0 : (⟨S4, .i32⟩ : BufTy).Contents (Elt F) → (⟨S4x1, .i32⟩ : BufTy).Contents (Elt F)),
      unary main_v68 main_v70 (broadcastInDim S4x1 ![0] bcast_S4_S4x1_0 : (⟨S4, .i32⟩ : BufTy).Contents (Elt F) → (⟨S4x1, .i32⟩ : BufTy).Contents (Elt F)),
      binary main_v69 main_v70 main_v71 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
      ternary main_v54 main_v71 main_v62 main_v72 ((fun x i u => Host.scatter scatter_S8192x9x9x128_S4x2_S8192x4x128_02_12_12_1 (fun _ b => b) x i u) : (⟨S8192x9x9x128, .f32⟩ : BufTy).Contents (Elt F) → (⟨S4x2, .i32⟩ : BufTy).Contents (Elt F) → (⟨S8192x4x128, .f32⟩ : BufTy).Contents (Elt F) → (⟨S8192x9x9x128, .f32⟩ : BufTy).Contents (Elt F)) ]
  | 4 =>
    [ binary main_c_15 main_v81 main_v82 (addi : (⟨S5, .i32⟩ : BufTy).Contents (Elt F) → (⟨S5, .i32⟩ : BufTy).Contents (Elt F) → (⟨S5, .i32⟩ : BufTy).Contents (Elt F)),
      ternary main_c_16 main_v82 main_c_15 main_v83 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
      nullary main_c_76 (constantI S_ 32 9#32),
      unary main_c_76 main_v84 (broadcastInDim S5 ![] bcast_S_S5 : (⟨S_, .i32⟩ : BufTy).Contents (Elt F) → (⟨S5, .i32⟩ : BufTy).Contents (Elt F)),
      binary main_c_17 main_v84 main_v85 (addi : (⟨S5, .i32⟩ : BufTy).Contents (Elt F) → (⟨S5, .i32⟩ : BufTy).Contents (Elt F) → (⟨S5, .i32⟩ : BufTy).Contents (Elt F)),
      ternary main_c_18 main_v85 main_c_17 main_v86 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
      unary main_v83 main_v87 (broadcastInDim S5x1 ![0] bcast_S5_S5x1_0 : (⟨S5, .i32⟩ : BufTy).Contents (Elt F) → (⟨S5x1, .i32⟩ : BufTy).Contents (Elt F)),
      unary main_v86 main_v88 (broadcastInDim S5x1 ![0] bcast_S5_S5x1_0 : (⟨S5, .i32⟩ : BufTy).Contents (Elt F) → (⟨S5x1, .i32⟩ : BufTy).Contents (Elt F)),
      binary main_v87 main_v88 main_v89 ((fun a b => concatenate S5x2 1 [⟨S5x1, a⟩, ⟨S5x1, b⟩] concatenates_S5x1_S5x1_S5x2_d1) : (⟨S5x1, .i32⟩ : BufTy).Contents (Elt F) → (⟨S5x1, .i32⟩ : BufTy).Contents (Elt F) → (⟨S5x2, .i32⟩ : BufTy).Contents (Elt F)),
      ternary main_v72 main_v89 main_v80 main_v90 ((fun x i u => Host.scatter scatter_S8192x9x9x128_S5x2_S8192x5x128_02_12_12_1 (fun _ b => b) x i u) : (⟨S8192x9x9x128, .f32⟩ : BufTy).Contents (Elt F) → (⟨S5x2, .i32⟩ : BufTy).Contents (Elt F) → (⟨S8192x5x128, .f32⟩ : BufTy).Contents (Elt F) → (⟨S8192x9x9x128, .f32⟩ : BufTy).Contents (Elt F)) ]
  | 5 =>
    [ binary main_c_19 main_v99 main_v100 (addi : (⟨S6, .i32⟩ : BufTy).Contents (Elt F) → (⟨S6, .i32⟩ : BufTy).Contents (Elt F) → (⟨S6, .i32⟩ : BufTy).Contents (Elt F)),
      ternary main_c_20 main_v100 main_c_19 main_v101 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
      nullary main_c_78 (constantI S_ 32 9#32),
      unary main_c_78 main_v102 (broadcastInDim S6 ![] bcast_S_S6 : (⟨S_, .i32⟩ : BufTy).Contents (Elt F) → (⟨S6, .i32⟩ : BufTy).Contents (Elt F)),
      binary main_c_21 main_v102 main_v103 (addi : (⟨S6, .i32⟩ : BufTy).Contents (Elt F) → (⟨S6, .i32⟩ : BufTy).Contents (Elt F) → (⟨S6, .i32⟩ : BufTy).Contents (Elt F)),
      ternary main_c_22 main_v103 main_c_21 main_v104 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
      unary main_v101 main_v105 (broadcastInDim S6x1 ![0] bcast_S6_S6x1_0 : (⟨S6, .i32⟩ : BufTy).Contents (Elt F) → (⟨S6x1, .i32⟩ : BufTy).Contents (Elt F)),
      unary main_v104 main_v106 (broadcastInDim S6x1 ![0] bcast_S6_S6x1_0 : (⟨S6, .i32⟩ : BufTy).Contents (Elt F) → (⟨S6x1, .i32⟩ : BufTy).Contents (Elt F)),
      binary main_v105 main_v106 main_v107 ((fun a b => concatenate S6x2 1 [⟨S6x1, a⟩, ⟨S6x1, b⟩] concatenates_S6x1_S6x1_S6x2_d1) : (⟨S6x1, .i32⟩ : BufTy).Contents (Elt F) → (⟨S6x1, .i32⟩ : BufTy).Contents (Elt F) → (⟨S6x2, .i32⟩ : BufTy).Contents (Elt F)),
      ternary main_v90 main_v107 main_v98 main_v108 ((fun x i u => Host.scatter scatter_S8192x9x9x128_S6x2_S8192x6x128_02_12_12_1 (fun _ b => b) x i u) : (⟨S8192x9x9x128, .f32⟩ : BufTy).Contents (Elt F) → (⟨S6x2, .i32⟩ : BufTy).Contents (Elt F) → (⟨S8192x6x128, .f32⟩ : BufTy).Contents (Elt F) → (⟨S8192x9x9x128, .f32⟩ : BufTy).Contents (Elt F)) ]
  | 6 =>
    [ binary main_c_23 main_v117 main_v118 (addi : (⟨S7, .i32⟩ : BufTy).Contents (Elt F) → (⟨S7, .i32⟩ : BufTy).Contents (Elt F) → (⟨S7, .i32⟩ : BufTy).Contents (Elt F)),
      ternary main_c_24 main_v118 main_c_23 main_v119 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
      nullary main_c_80 (constantI S_ 32 9#32),
      unary main_c_80 main_v120 (broadcastInDim S7 ![] bcast_S_S7 : (⟨S_, .i32⟩ : BufTy).Contents (Elt F) → (⟨S7, .i32⟩ : BufTy).Contents (Elt F)),
      binary main_c_25 main_v120 main_v121 (addi : (⟨S7, .i32⟩ : BufTy).Contents (Elt F) → (⟨S7, .i32⟩ : BufTy).Contents (Elt F) → (⟨S7, .i32⟩ : BufTy).Contents (Elt F)),
      ternary main_c_26 main_v121 main_c_25 main_v122 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
      unary main_v119 main_v123 (broadcastInDim S7x1 ![0] bcast_S7_S7x1_0 : (⟨S7, .i32⟩ : BufTy).Contents (Elt F) → (⟨S7x1, .i32⟩ : BufTy).Contents (Elt F)),
      unary main_v122 main_v124 (broadcastInDim S7x1 ![0] bcast_S7_S7x1_0 : (⟨S7, .i32⟩ : BufTy).Contents (Elt F) → (⟨S7x1, .i32⟩ : BufTy).Contents (Elt F)),
      binary main_v123 main_v124 main_v125 ((fun a b => concatenate S7x2 1 [⟨S7x1, a⟩, ⟨S7x1, b⟩] concatenates_S7x1_S7x1_S7x2_d1) : (⟨S7x1, .i32⟩ : BufTy).Contents (Elt F) → (⟨S7x1, .i32⟩ : BufTy).Contents (Elt F) → (⟨S7x2, .i32⟩ : BufTy).Contents (Elt F)),
      ternary main_v108 main_v125 main_v116 main_v126 ((fun x i u => Host.scatter scatter_S8192x9x9x128_S7x2_S8192x7x128_02_12_12_1 (fun _ b => b) x i u) : (⟨S8192x9x9x128, .f32⟩ : BufTy).Contents (Elt F) → (⟨S7x2, .i32⟩ : BufTy).Contents (Elt F) → (⟨S8192x7x128, .f32⟩ : BufTy).Contents (Elt F) → (⟨S8192x9x9x128, .f32⟩ : BufTy).Contents (Elt F)) ]
  | 7 =>
    [ binary main_c_27 main_v135 main_v136 (addi : (⟨S8, .i32⟩ : BufTy).Contents (Elt F) → (⟨S8, .i32⟩ : BufTy).Contents (Elt F) → (⟨S8, .i32⟩ : BufTy).Contents (Elt F)),
      ternary main_c_28 main_v136 main_c_27 main_v137 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
      nullary main_c_82 (constantI S_ 32 9#32),
      unary main_c_82 main_v138 (broadcastInDim S8 ![] bcast_S_S8 : (⟨S_, .i32⟩ : BufTy).Contents (Elt F) → (⟨S8, .i32⟩ : BufTy).Contents (Elt F)),
      binary main_c_29 main_v138 main_v139 (addi : (⟨S8, .i32⟩ : BufTy).Contents (Elt F) → (⟨S8, .i32⟩ : BufTy).Contents (Elt F) → (⟨S8, .i32⟩ : BufTy).Contents (Elt F)),
      ternary main_c_30 main_v139 main_c_29 main_v140 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
      unary main_v137 main_v141 (broadcastInDim S8x1 ![0] bcast_S8_S8x1_0 : (⟨S8, .i32⟩ : BufTy).Contents (Elt F) → (⟨S8x1, .i32⟩ : BufTy).Contents (Elt F)),
      unary main_v140 main_v142 (broadcastInDim S8x1 ![0] bcast_S8_S8x1_0 : (⟨S8, .i32⟩ : BufTy).Contents (Elt F) → (⟨S8x1, .i32⟩ : BufTy).Contents (Elt F)),
      binary main_v141 main_v142 main_v143 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
      ternary main_v126 main_v143 main_v134 main_v144 ((fun x i u => Host.scatter scatter_S8192x9x9x128_S8x2_S8192x8x128_02_12_12_1 (fun _ b => b) x i u) : (⟨S8192x9x9x128, .f32⟩ : BufTy).Contents (Elt F) → (⟨S8x2, .i32⟩ : BufTy).Contents (Elt F) → (⟨S8192x8x128, .f32⟩ : BufTy).Contents (Elt F) → (⟨S8192x9x9x128, .f32⟩ : BufTy).Contents (Elt F)) ]
  | 8 =>
    [ binary main_c_31 main_v153 main_v154 (addi : (⟨S9, .i32⟩ : BufTy).Contents (Elt F) → (⟨S9, .i32⟩ : BufTy).Contents (Elt F) → (⟨S9, .i32⟩ : BufTy).Contents (Elt F)),
      ternary main_c_32 main_v154 main_c_31 main_v155 (select : (⟨S9, .i1⟩ : BufTy).Contents (Elt F) → (⟨S9, .i32⟩ : BufTy).Contents (Elt F) → (⟨S9, .i32⟩ : BufTy).Contents (Elt F) → (⟨S9, .i32⟩ : BufTy).Contents (Elt F)),
      nullary main_c_84 (constantI S_ 32 9#32),
      unary main_c_84 main_v156 (broadcastInDim S9 ![] bcast_S_S9 : (⟨S_, .i32⟩ : BufTy).Contents (Elt F) → (⟨S9, .i32⟩ : BufTy).Contents (Elt F)),
      binary main_c_33 main_v156 main_v157 (addi : (⟨S9, .i32⟩ : BufTy).Contents (Elt F) → (⟨S9, .i32⟩ : BufTy).Contents (Elt F) → (⟨S9, .i32⟩ : BufTy).Contents (Elt F)),
      ternary main_c_34 main_v157 main_c_33 main_v158 (select : (⟨S9, .i1⟩ : BufTy).Contents (Elt F) → (⟨S9, .i32⟩ : BufTy).Contents (Elt F) → (⟨S9, .i32⟩ : BufTy).Contents (Elt F) → (⟨S9, .i32⟩ : BufTy).Contents (Elt F)),
      unary main_v155 main_v159 (broadcastInDim S9x1 ![0] bcast_S9_S9x1_0 : (⟨S9, .i32⟩ : BufTy).Contents (Elt F) → (⟨S9x1, .i32⟩ : BufTy).Contents (Elt F)),
      unary main_v158 main_v160 (broadcastInDim S9x1 ![0] bcast_S9_S9x1_0 : (⟨S9, .i32⟩ : BufTy).Contents (Elt F) → (⟨S9x1, .i32⟩ : BufTy).Contents (Elt F)),
      binary main_v159 main_v160 main_v161 ((fun a b => concatenate S9x2 1 [⟨S9x1, a⟩, ⟨S9x1, b⟩] concatenates_S9x1_S9x1_S9x2_d1) : (⟨S9x1, .i32⟩ : BufTy).Contents (Elt F) → (⟨S9x1, .i32⟩ : BufTy).Contents (Elt F) → (⟨S9x2, .i32⟩ : BufTy).Contents (Elt F)),
      ternary main_v144 main_v161 main_v152 main_v162 ((fun x i u => Host.scatter scatter_S8192x9x9x128_S9x2_S8192x9x128_02_12_12_1 (fun _ b => b) x i u) : (⟨S8192x9x9x128, .f32⟩ : BufTy).Contents (Elt F) → (⟨S9x2, .i32⟩ : BufTy).Contents (Elt F) → (⟨S8192x9x128, .f32⟩ : BufTy).Contents (Elt F) → (⟨S8192x9x9x128, .f32⟩ : BufTy).Contents (Elt F)) ]
  | 9 =>
    [ binary main_c_35 main_v171 main_v172 (addi : (⟨S8, .i32⟩ : BufTy).Contents (Elt F) → (⟨S8, .i32⟩ : BufTy).Contents (Elt F) → (⟨S8, .i32⟩ : BufTy).Contents (Elt F)),
      ternary main_c_36 main_v172 main_c_35 main_v173 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
      nullary main_c_86 (constantI S_ 32 9#32),
      unary main_c_86 main_v174 (broadcastInDim S8 ![] bcast_S_S8 : (⟨S_, .i32⟩ : BufTy).Contents (Elt F) → (⟨S8, .i32⟩ : BufTy).Contents (Elt F)),
      binary main_c_37 main_v174 main_v175 (addi : (⟨S8, .i32⟩ : BufTy).Contents (Elt F) → (⟨S8, .i32⟩ : BufTy).Contents (Elt F) → (⟨S8, .i32⟩ : BufTy).Contents (Elt F)),
      ternary main_c_38 main_v175 main_c_37 main_v176 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
      unary main_v173 main_v177 (broadcastInDim S8x1 ![0] bcast_S8_S8x1_0 : (⟨S8, .i32⟩ : BufTy).Contents (Elt F) → (⟨S8x1, .i32⟩ : BufTy).Contents (Elt F)),
      unary main_v176 main_v178 (broadcastInDim S8x1 ![0] bcast_S8_S8x1_0 : (⟨S8, .i32⟩ : BufTy).Contents (Elt F) → (⟨S8x1, .i32⟩ : BufTy).Contents (Elt F)),
      binary main_v177 main_v178 main_v179 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
      ternary main_v162 main_v179 main_v170 main_v180 ((fun x i u => Host.scatter scatter_S8192x9x9x128_S8x2_S8192x8x128_02_12_12_1 (fun _ b => b) x i u) : (⟨S8192x9x9x128, .f32⟩ : BufTy).Contents (Elt F) → (⟨S8x2, .i32⟩ : BufTy).Contents (Elt F) → (⟨S8192x8x128, .f32⟩ : BufTy).Contents (Elt F) → (⟨S8192x9x9x128, .f32⟩ : BufTy).Contents (Elt F)) ]
  | 10 =>
    [ binary main_c_39 main_v189 main_v190 (addi : (⟨S7, .i32⟩ : BufTy).Contents (Elt F) → (⟨S7, .i32⟩ : BufTy).Contents (Elt F) → (⟨S7, .i32⟩ : BufTy).Contents (Elt F)),
      ternary main_c_40 main_v190 main_c_39 main_v191 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
      nullary main_c_88 (constantI S_ 32 9#32),
      unary main_c_88 main_v192 (broadcastInDim S7 ![] bcast_S_S7 : (⟨S_, .i32⟩ : BufTy).Contents (Elt F) → (⟨S7, .i32⟩ : BufTy).Contents (Elt F)),
      binary main_c_41 main_v192 main_v193 (addi : (⟨S7, .i32⟩ : BufTy).Contents (Elt F) → (⟨S7, .i32⟩ : BufTy).Contents (Elt F) → (⟨S7, .i32⟩ : BufTy).Contents (Elt F)),
      ternary main_c_42 main_v193 main_c_41 main_v194 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
      unary main_v191 main_v195 (broadcastInDim S7x1 ![0] bcast_S7_S7x1_0 : (⟨S7, .i32⟩ : BufTy).Contents (Elt F) → (⟨S7x1, .i32⟩ : BufTy).Contents (Elt F)),
      unary main_v194 main_v196 (broadcastInDim S7x1 ![0] bcast_S7_S7x1_0 : (⟨S7, .i32⟩ : BufTy).Contents (Elt F) → (⟨S7x1, .i32⟩ : BufTy).Contents (Elt F)),
      binary main_v195 main_v196 main_v197 ((fun a b => concatenate S7x2 1 [⟨S7x1, a⟩, ⟨S7x1, b⟩] concatenates_S7x1_S7x1_S7x2_d1) : (⟨S7x1, .i32⟩ : BufTy).Contents (Elt F) → (⟨S7x1, .i32⟩ : BufTy).Contents (Elt F) → (⟨S7x2, .i32⟩ : BufTy).Contents (Elt F)),
      ternary main_v180 main_v197 main_v188 main_v198 ((fun x i u => Host.scatter scatter_S8192x9x9x128_S7x2_S8192x7x128_02_12_12_1 (fun _ b => b) x i u) : (⟨S8192x9x9x128, .f32⟩ : BufTy).Contents (Elt F) → (⟨S7x2, .i32⟩ : BufTy).Contents (Elt F) → (⟨S8192x7x128, .f32⟩ : BufTy).Contents (Elt F) → (⟨S8192x9x9x128, .f32⟩ : BufTy).Contents (Elt F)) ]
  | 11 =>
    [ binary main_c_43 main_v207 main_v208 (addi : (⟨S6, .i32⟩ : BufTy).Contents (Elt F) → (⟨S6, .i32⟩ : BufTy).Contents (Elt F) → (⟨S6, .i32⟩ : BufTy).Contents (Elt F)),
      ternary main_c_44 main_v208 main_c_43 main_v209 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
      nullary main_c_90 (constantI S_ 32 9#32),
      unary main_c_90 main_v210 (broadcastInDim S6 ![] bcast_S_S6 : (⟨S_, .i32⟩ : BufTy).Contents (Elt F) → (⟨S6, .i32⟩ : BufTy).Contents (Elt F)),
      binary main_c_45 main_v210 main_v211 (addi : (⟨S6, .i32⟩ : BufTy).Contents (Elt F) → (⟨S6, .i32⟩ : BufTy).Contents (Elt F) → (⟨S6, .i32⟩ : BufTy).Contents (Elt F)),
      ternary main_c_46 main_v211 main_c_45 main_v212 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
      unary main_v209 main_v213 (broadcastInDim S6x1 ![0] bcast_S6_S6x1_0 : (⟨S6, .i32⟩ : BufTy).Contents (Elt F) → (⟨S6x1, .i32⟩ : BufTy).Contents (Elt F)),
      unary main_v212 main_v214 (broadcastInDim S6x1 ![0] bcast_S6_S6x1_0 : (⟨S6, .i32⟩ : BufTy).Contents (Elt F) → (⟨S6x1, .i32⟩ : BufTy).Contents (Elt F)),
      binary main_v213 main_v214 main_v215 ((fun a b => concatenate S6x2 1 [⟨S6x1, a⟩, ⟨S6x1, b⟩] concatenates_S6x1_S6x1_S6x2_d1) : (⟨S6x1, .i32⟩ : BufTy).Contents (Elt F) → (⟨S6x1, .i32⟩ : BufTy).Contents (Elt F) → (⟨S6x2, .i32⟩ : BufTy).Contents (Elt F)),
      ternary main_v198 main_v215 main_v206 main_v216 ((fun x i u => Host.scatter scatter_S8192x9x9x128_S6x2_S8192x6x128_02_12_12_1 (fun _ b => b) x i u) : (⟨S8192x9x9x128, .f32⟩ : BufTy).Contents (Elt F) → (⟨S6x2, .i32⟩ : BufTy).Contents (Elt F) → (⟨S8192x6x128, .f32⟩ : BufTy).Contents (Elt F) → (⟨S8192x9x9x128, .f32⟩ : BufTy).Contents (Elt F)) ]
  | 12 =>
    [ binary main_c_47 main_v225 main_v226 (addi : (⟨S5, .i32⟩ : BufTy).Contents (Elt F) → (⟨S5, .i32⟩ : BufTy).Contents (Elt F) → (⟨S5, .i32⟩ : BufTy).Contents (Elt F)),
      ternary main_c_48 main_v226 main_c_47 main_v227 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
      nullary main_c_92 (constantI S_ 32 9#32),
      unary main_c_92 main_v228 (broadcastInDim S5 ![] bcast_S_S5 : (⟨S_, .i32⟩ : BufTy).Contents (Elt F) → (⟨S5, .i32⟩ : BufTy).Contents (Elt F)),
      binary main_c_49 main_v228 main_v229 (addi : (⟨S5, .i32⟩ : BufTy).Contents (Elt F) → (⟨S5, .i32⟩ : BufTy).Contents (Elt F) → (⟨S5, .i32⟩ : BufTy).Contents (Elt F)),
      ternary main_c_50 main_v229 main_c_49 main_v230 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
      unary main_v227 main_v231 (broadcastInDim S5x1 ![0] bcast_S5_S5x1_0 : (⟨S5, .i32⟩ : BufTy).Contents (Elt F) → (⟨S5x1, .i32⟩ : BufTy).Contents (Elt F)),
      unary main_v230 main_v232 (broadcastInDim S5x1 ![0] bcast_S5_S5x1_0 : (⟨S5, .i32⟩ : BufTy).Contents (Elt F) → (⟨S5x1, .i32⟩ : BufTy).Contents (Elt F)),
      binary main_v231 main_v232 main_v233 ((fun a b => concatenate S5x2 1 [⟨S5x1, a⟩, ⟨S5x1, b⟩] concatenates_S5x1_S5x1_S5x2_d1) : (⟨S5x1, .i32⟩ : BufTy).Contents (Elt F) → (⟨S5x1, .i32⟩ : BufTy).Contents (Elt F) → (⟨S5x2, .i32⟩ : BufTy).Contents (Elt F)),
      ternary main_v216 main_v233 main_v224 main_v234 ((fun x i u => Host.scatter scatter_S8192x9x9x128_S5x2_S8192x5x128_02_12_12_1 (fun _ b => b) x i u) : (⟨S8192x9x9x128, .f32⟩ : BufTy).Contents (Elt F) → (⟨S5x2, .i32⟩ : BufTy).Contents (Elt F) → (⟨S8192x5x128, .f32⟩ : BufTy).Contents (Elt F) → (⟨S8192x9x9x128, .f32⟩ : BufTy).Contents (Elt F)) ]
  | 13 =>
    [ binary main_c_51 main_v243 main_v244 (addi : (⟨S4, .i32⟩ : BufTy).Contents (Elt F) → (⟨S4, .i32⟩ : BufTy).Contents (Elt F) → (⟨S4, .i32⟩ : BufTy).Contents (Elt F)),
      ternary main_c_52 main_v244 main_c_51 main_v245 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
      nullary main_c_94 (constantI S_ 32 9#32),
      unary main_c_94 main_v246 (broadcastInDim S4 ![] bcast_S_S4 : (⟨S_, .i32⟩ : BufTy).Contents (Elt F) → (⟨S4, .i32⟩ : BufTy).Contents (Elt F)),
      binary main_c_53 main_v246 main_v247 (addi : (⟨S4, .i32⟩ : BufTy).Contents (Elt F) → (⟨S4, .i32⟩ : BufTy).Contents (Elt F) → (⟨S4, .i32⟩ : BufTy).Contents (Elt F)),
      ternary main_c_54 main_v247 main_c_53 main_v248 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
      unary main_v245 main_v249 (broadcastInDim S4x1 ![0] bcast_S4_S4x1_0 : (⟨S4, .i32⟩ : BufTy).Contents (Elt F) → (⟨S4x1, .i32⟩ : BufTy).Contents (Elt F)),
      unary main_v248 main_v250 (broadcastInDim S4x1 ![0] bcast_S4_S4x1_0 : (⟨S4, .i32⟩ : BufTy).Contents (Elt F) → (⟨S4x1, .i32⟩ : BufTy).Contents (Elt F)),
      binary main_v249 main_v250 main_v251 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
      ternary main_v234 main_v251 main_v242 main_v252 ((fun x i u => Host.scatter scatter_S8192x9x9x128_S4x2_S8192x4x128_02_12_12_1 (fun _ b => b) x i u) : (⟨S8192x9x9x128, .f32⟩ : BufTy).Contents (Elt F) → (⟨S4x2, .i32⟩ : BufTy).Contents (Elt F) → (⟨S8192x4x128, .f32⟩ : BufTy).Contents (Elt F) → (⟨S8192x9x9x128, .f32⟩ : BufTy).Contents (Elt F)) ]
  | 14 =>
    [ binary main_c_55 main_v261 main_v262 (addi : (⟨S3, .i32⟩ : BufTy).Contents (Elt F) → (⟨S3, .i32⟩ : BufTy).Contents (Elt F) → (⟨S3, .i32⟩ : BufTy).Contents (Elt F)),
      ternary main_c_56 main_v262 main_c_55 main_v263 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
      nullary main_c_96 (constantI S_ 32 9#32),
      unary main_c_96 main_v264 (broadcastInDim S3 ![] bcast_S_S3 : (⟨S_, .i32⟩ : BufTy).Contents (Elt F) → (⟨S3, .i32⟩ : BufTy).Contents (Elt F)),
      binary main_c_57 main_v264 main_v265 (addi : (⟨S3, .i32⟩ : BufTy).Contents (Elt F) → (⟨S3, .i32⟩ : BufTy).Contents (Elt F) → (⟨S3, .i32⟩ : BufTy).Contents (Elt F)),
      ternary main_c_58 main_v265 main_c_57 main_v266 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
      unary main_v263 main_v267 (broadcastInDim S3x1 ![0] bcast_S3_S3x1_0 : (⟨S3, .i32⟩ : BufTy).Contents (Elt F) → (⟨S3x1, .i32⟩ : BufTy).Contents (Elt F)),
      unary main_v266 main_v268 (broadcastInDim S3x1 ![0] bcast_S3_S3x1_0 : (⟨S3, .i32⟩ : BufTy).Contents (Elt F) → (⟨S3x1, .i32⟩ : BufTy).Contents (Elt F)),
      binary main_v267 main_v268 main_v269 ((fun a b => concatenate S3x2 1 [⟨S3x1, a⟩, ⟨S3x1, b⟩] concatenates_S3x1_S3x1_S3x2_d1) : (⟨S3x1, .i32⟩ : BufTy).Contents (Elt F) → (⟨S3x1, .i32⟩ : BufTy).Contents (Elt F) → (⟨S3x2, .i32⟩ : BufTy).Contents (Elt F)),
      ternary main_v252 main_v269 main_v260 main_v270 ((fun x i u => Host.scatter scatter_S8192x9x9x128_S3x2_S8192x3x128_02_12_12_1 (fun _ b => b) x i u) : (⟨S8192x9x9x128, .f32⟩ : BufTy).Contents (Elt F) → (⟨S3x2, .i32⟩ : BufTy).Contents (Elt F) → (⟨S8192x3x128, .f32⟩ : BufTy).Contents (Elt F) → (⟨S8192x9x9x128, .f32⟩ : BufTy).Contents (Elt F)) ]
  | 15 =>
    [ binary main_c_59 main_v279 main_v280 (addi : (⟨S2, .i32⟩ : BufTy).Contents (Elt F) → (⟨S2, .i32⟩ : BufTy).Contents (Elt F) → (⟨S2, .i32⟩ : BufTy).Contents (Elt F)),
      ternary main_c_60 main_v280 main_c_59 main_v281 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
      nullary main_c_98 (constantI S_ 32 9#32),
      unary main_c_98 main_v282 (broadcastInDim S2 ![] bcast_S_S2 : (⟨S_, .i32⟩ : BufTy).Contents (Elt F) → (⟨S2, .i32⟩ : BufTy).Contents (Elt F)),
      binary main_c_61 main_v282 main_v283 (addi : (⟨S2, .i32⟩ : BufTy).Contents (Elt F) → (⟨S2, .i32⟩ : BufTy).Contents (Elt F) → (⟨S2, .i32⟩ : BufTy).Contents (Elt F)),
      ternary main_c_62 main_v283 main_c_61 main_v284 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
      unary main_v281 main_v285 (broadcastInDim S2x1 ![0] bcast_S2_S2x1_0 : (⟨S2, .i32⟩ : BufTy).Contents (Elt F) → (⟨S2x1, .i32⟩ : BufTy).Contents (Elt F)),
      unary main_v284 main_v286 (broadcastInDim S2x1 ![0] bcast_S2_S2x1_0 : (⟨S2, .i32⟩ : BufTy).Contents (Elt F) → (⟨S2x1, .i32⟩ : BufTy).Contents (Elt F)),
      binary main_v285 main_v286 main_v287 ((fun a b => concatenate S2x2 1 [⟨S2x1, a⟩, ⟨S2x1, b⟩] concatenates_S2x1_S2x1_S2x2_d1) : (⟨S2x1, .i32⟩ : BufTy).Contents (Elt F) → (⟨S2x1, .i32⟩ : BufTy).Contents (Elt F) → (⟨S2x2, .i32⟩ : BufTy).Contents (Elt F)),
      ternary main_v270 main_v287 main_v278 main_v288 ((fun x i u => Host.scatter scatter_S8192x9x9x128_S2x2_S8192x2x128_02_12_12_1 (fun _ b => b) x i u) : (⟨S8192x9x9x128, .f32⟩ : BufTy).Contents (Elt F) → (⟨S2x2, .i32⟩ : BufTy).Contents (Elt F) → (⟨S8192x2x128, .f32⟩ : BufTy).Contents (Elt F) → (⟨S8192x9x9x128, .f32⟩ : BufTy).Contents (Elt F)) ]
  | 16 =>
    [ binary main_c_63 main_v297 main_v298 (addi : (⟨S1, .i32⟩ : BufTy).Contents (Elt F) → (⟨S1, .i32⟩ : BufTy).Contents (Elt F) → (⟨S1, .i32⟩ : BufTy).Contents (Elt F)),
      ternary main_c_64 main_v298 main_c_63 main_v299 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
      nullary main_c_100 (constantI S_ 32 9#32),
      unary main_c_100 main_v300 (broadcastInDim S1 ![] bcast_S_S1 : (⟨S_, .i32⟩ : BufTy).Contents (Elt F) → (⟨S1, .i32⟩ : BufTy).Contents (Elt F)),
      binary main_c_65 main_v300 main_v301 (addi : (⟨S1, .i32⟩ : BufTy).Contents (Elt F) → (⟨S1, .i32⟩ : BufTy).Contents (Elt F) → (⟨S1, .i32⟩ : BufTy).Contents (Elt F)),
      ternary main_c_66 main_v301 main_c_65 main_v302 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
      unary main_v299 main_v303 (broadcastInDim S1x1 ![0] bcast_S1_S1x1_0 : (⟨S1, .i32⟩ : BufTy).Contents (Elt F) → (⟨S1x1, .i32⟩ : BufTy).Contents (Elt F)),
      unary main_v302 main_v304 (broadcastInDim S1x1 ![0] bcast_S1_S1x1_0 : (⟨S1, .i32⟩ : BufTy).Contents (Elt F) → (⟨S1x1, .i32⟩ : BufTy).Contents (Elt F)),
      binary main_v303 main_v304 main_v305 ((fun a b => concatenate S1x2 1 [⟨S1x1, a⟩, ⟨S1x1, b⟩] concatenates_S1x1_S1x1_S1x2_d1) : (⟨S1x1, .i32⟩ : BufTy).Contents (Elt F) → (⟨S1x1, .i32⟩ : BufTy).Contents (Elt F) → (⟨S1x2, .i32⟩ : BufTy).Contents (Elt F)),
      ternary main_v288 main_v305 main_v296 main_v306 ((fun x i u => Host.scatter scatter_S8192x9x9x128_S1x2_S8192x1x128_02_12_12_1 (fun _ b => b) x i u) : (⟨S8192x9x9x128, .f32⟩ : BufTy).Contents (Elt F) → (⟨S1x2, .i32⟩ : BufTy).Contents (Elt F) → (⟨S8192x1x128, .f32⟩ : BufTy).Contents (Elt F) → (⟨S8192x9x9x128, .f32⟩ : BufTy).Contents (Elt F)) ]
  | _ => []

end Cert.ReferenceIdeal.RefOps

end
-- ==== Proof.RefRun.lean ====
/-
  The reference program as one straight line of operations, and what every run of it leaves in memory.

  The printed program runs its 410 operations in seven consecutive windows.  Each window is, by unfolding, the straight line
  of its own operations; a straight line of a concatenation is the two straight lines one after the other; so the whole
  program is the straight line of the concatenation of all the pieces.  Every piece's operations touch only buffers of the
  program and determine what they write, so every fair execution terminates with each buffer holding the fold of the
  operations' results over its contents at the start.
-/
import proofs.«141148_j40656160424525_2_alg».proof.Proof.RefOps

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefOps

variable {F : FTy → Type} [FloatOps F]

/-- The seventeen anti-diagonals' operations, in order. -/
def diags : List (HloOp τ sig (Elt F)) :=
  dA 0 ++ (dB 0 ++ (dA 1 ++ (dB 1 ++ (dA 2 ++ (dB 2 ++ (dA 3 ++ (dB 3 ++ (dA 4 ++ (dB 4 ++ (dA 5 ++ (dB 5 ++
  (dA 6 ++ (dB 6 ++ (dA 7 ++ (dB 7 ++ (dA 8 ++ (dB 8 ++ (dA 9 ++ (dB 9 ++ (dA 10 ++ (dB 10 ++ (dA 11 ++ (dB 11 ++
  (dA 12 ++ (dB 12 ++ (dA 13 ++ (dB 13 ++ (dA 14 ++ (dB 14 ++ (dA 15 ++ (dB 15 ++ (dA 16 ++ dB 16))))))))))))))))))))))))))))))))

/-- All 410 operations, in order. -/
def ops : List (HloOp τ sig (Elt F)) := preA ++ (preB ++ diags)

/-! ## The program is the straight line of its operations -/

theorem main_part0_eq (c : Dev nD) : main_part0 (F := F) c = seq preA := rfl
theorem main_part1_eq (c : Dev nD) :
    main_part1 (F := F) c = seq (preB ++ (dA 0 ++ (dB 0 ++ (dA 1 ++ (dB 1 ++ dA 2))))) := rfl
theorem main_part2_eq (c : Dev nD) :
    main_part2 (F := F) c = seq (dB 2 ++ (dA 3 ++ (dB 3 ++ (dA 4 ++ (dB 4 ++ dA 5))))) := rfl
theorem main_part3_eq (c : Dev nD) :
    main_part3 (F := F) c = seq (dB 5 ++ (dA 6 ++ (dB 6 ++ (dA 7 ++ (dB 7 ++ dA 8))))) := rfl
theorem main_part4_eq (c : Dev nD) :
    main_part4 (F := F) c = seq (dB 8 ++ (dA 9 ++ (dB 9 ++ (dA 10 ++ (dB 10 ++ dA 11))))) := rfl
theorem main_part5_eq (c : Dev nD) :
    main_part5 (F := F) c = seq (dB 11 ++ (dA 12 ++ (dB 12 ++ (dA 13 ++ (dB 13 ++ dA 14))))) := rfl
theorem main_part6_eq (c : Dev nD) :
    main_part6 (F := F) c = seq (dB 14 ++ (dA 15 ++ (dB 15 ++ (dA 16 ++ dB 16)))) := rfl

theorem main_eq (c : Dev nD) : main (F := F) c = seq ops := by
  have e : main (F := F) c = (main_part0 c >>= fun _ => main_part1 c >>= fun _ => main_part2 c >>= fun _ =>
      main_part3 c >>= fun _ => main_part4 c >>= fun _ => main_part5 c >>= fun _ => main_part6 c) := rfl
  rw [e, main_part0_eq, main_part1_eq, main_part2_eq, main_part3_eq, main_part4_eq, main_part5_eq, main_part6_eq]
  simp only [ops, diags, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-! ## Facts about every operation, piece by piece -/

/-- Proves a property of every member of a list spelt out element by element, by the given tactic on each element. -/
local macro "each_op " t:tacticSeq : tactic =>
  `(tactic| (intro _ h; (repeat (cases h with | head => ($t) | tail _ h => ?_)); exact nomatch h))

/-- A property of every member of two lists holds of every member of their concatenation. -/
theorem forall_append {p : HloOp τ sig (Elt F) → Prop} {l₁ l₂ : List (HloOp τ sig (Elt F))}
    (h₁ : ∀ op ∈ l₁, p op) (h₂ : ∀ op ∈ l₂, p op) : ∀ op ∈ l₁ ++ l₂, p op :=
  fun op h => (List.mem_append.1 h).elim (h₁ op) (h₂ op)

/-- A property of every member of each piece holds of every operation of the program. -/
theorem forall_ops {p : HloOp τ sig (Elt F) → Prop} (hA : ∀ op ∈ (preA : List (HloOp τ sig (Elt F))), p op)
    (hB : ∀ op ∈ (preB : List (HloOp τ sig (Elt F))), p op)
    (h1 : ∀ d, ∀ op ∈ (dA d : List (HloOp τ sig (Elt F))), p op)
    (h2 : ∀ d, ∀ op ∈ (dB d : List (HloOp τ sig (Elt F))), p op) : ∀ op ∈ (ops : List (HloOp τ sig (Elt F))), p op :=
  forall_append hA (forall_append hB
    (forall_append (h1 0) (forall_append (h2 0) (forall_append (h1 1) (forall_append (h2 1)
    (forall_append (h1 2) (forall_append (h2 2) (forall_append (h1 3) (forall_append (h2 3)
    (forall_append (h1 4) (forall_append (h2 4) (forall_append (h1 5) (forall_append (h2 5)
    (forall_append (h1 6) (forall_append (h2 6) (forall_append (h1 7) (forall_append (h2 7)
    (forall_append (h1 8) (forall_append (h2 8) (forall_append (h1 9) (forall_append (h2 9)
    (forall_append (h1 10) (forall_append (h2 10) (forall_append (h1 11) (forall_append (h2 11)
    (forall_append (h1 12) (forall_append (h2 12) (forall_append (h1 13) (forall_append (h2 13)
    (forall_append (h1 14) (forall_append (h2 14) (forall_append (h1 15) (forall_append (h2 15)
    (forall_append (h1 16) (h2 16)))))))))))))))))))))))))))))))))))

local macro "bufs_sub_tac" : tactic =>
  `(tactic| simp only [nullary_bufs_sub, unary_bufs_sub, binary_bufs_sub, ternary_bufs_sub, reshape_bufs_sub])

theorem preA_sub : ∀ op ∈ (preA : List (HloOp τ sig (Elt F))), op.bufs ⊆ tcRefs τ sig := by
  unfold preA; each_op bufs_sub_tac
theorem preB_sub : ∀ op ∈ (preB : List (HloOp τ sig (Elt F))), op.bufs ⊆ tcRefs τ sig := by
  unfold preB; each_op bufs_sub_tac
theorem dA_sub (d : Fin 17) : ∀ op ∈ (dA d : List (HloOp τ sig (Elt F))), op.bufs ⊆ tcRefs τ sig := by
  fin_cases d <;> (simp only [dA]; each_op bufs_sub_tac)
theorem dB_sub (d : Fin 17) : ∀ op ∈ (dB d : List (HloOp τ sig (Elt F))), op.bufs ⊆ tcRefs τ sig := by
  fin_cases d <;> (simp only [dB]; each_op bufs_sub_tac)

theorem ops_sub : (ops : List (HloOp τ sig (Elt F))).Forall fun op => op.bufs ⊆ tcRefs τ sig :=
  List.forall_iff_forall_mem.mpr (forall_ops preA_sub preB_sub dA_sub dB_sub)

theorem preA_fresh : ∀ op ∈ (preA : List (HloOp τ sig (Elt F))), op.fresh = ∅ := by
  unfold preA; each_op rfl
theorem preB_fresh : ∀ op ∈ (preB : List (HloOp τ sig (Elt F))), op.fresh = ∅ := by
  unfold preB; each_op rfl
theorem dA_fresh (d : Fin 17) : ∀ op ∈ (dA d : List (HloOp τ sig (Elt F))), op.fresh = ∅ := by
  fin_cases d <;> (simp only [dA]; each_op rfl)
theorem dB_fresh (d : Fin 17) : ∀ op ∈ (dB d : List (HloOp τ sig (Elt F))), op.fresh = ∅ := by
  fin_cases d <;> (simp only [dB]; each_op rfl)

theorem ops_fresh : ∀ op ∈ (ops : List (HloOp τ sig (Elt F))), op.fresh = ∅ :=
  forall_ops preA_fresh preB_fresh dA_fresh dB_fresh

/-! ## The run -/

/-- From any memory with zero counters every fair execution of the program terminates, and then every buffer of every
    device holds the fold of the 410 operations' results over the buffers' contents at the start. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefKeep.lean ====
/-
  What the diagonals' operations leave alone.

  The program's buffers are numbered: the nineteen arguments first, then the integer tables, then the zero scalar and the zero
  board, then everything the diagonals compute.  Every operation of a diagonal writes a buffer numbered beyond the tables, so
  the arguments and the tables hold throughout what they held after the first seventy operations; and the zero board is zero.
-/
import Idealize.ShloMosaic.PureOps.Ideal.Laws
import Idealize.ShloMosaic.Lib.ValueIdx
import proofs.«141148_j40656160424525_2_alg».proof.Proof.RefOps

set_option maxRecDepth 8192

noncomputable section

namespace Cert.ReferenceIdeal.RefKeep

open Cert.ReferenceIdeal Cert.ReferenceIdeal.Gen Idealize.ShloMosaic Idealize.ShloMosaic.TcCoe Idealize.SL.Sem Idealize.ShloMosaic.StableHlo
open Cert.ReferenceIdeal.RefOps

variable {F : FTy → Type} [FloatOps F]

/-- Running a concatenation is running its two halves in turn. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The buffers' contents after the seventy operations before the first diagonal. -/
def pre (V0 : Valuation τ sig (Elt F)) : Valuation τ sig (Elt F) := after preB (after preA V0)

/-- V holds, in the arguments and the integer tables, what they held before the first diagonal. -/
def Agree (V0 V : Valuation τ sig (Elt F)) : Prop :=
  ∀ r : Ref sig .tc, r.idx.val ≤ 86 → V (Proc.devRef .tc r) = pre V0 (Proc.devRef .tc r)

theorem agree_pre (V0 : Valuation τ sig (Elt F)) : Agree V0 (pre V0) := fun _ _ => rfl

/-- Proves a property of every member of a list spelt out element by element, by the given tactic on each element. -/
local macro "each_op " t:tacticSeq : tactic =>
  `(tactic| (intro _ h; (repeat (cases h with | head => ($t) | tail _ h => ?_)); exact nomatch h))

theorem keepA (d : Fin 17) (r : Ref sig .tc) (hr : r.idx.val ≤ 86) :
    ∀ op ∈ (dA d : List (HloOp τ sig (Elt F))), Proc.devRef (τ := τ) .tc r ∉ op.writes := by
  fin_cases d <;> (simp only [dA]; each_op
    (simp only [nullary_writes, unary_writes, binary_writes, ternary_writes, reshape_writes, Finset.mem_singleton]
     intro e; have e' := Proc.devRef_injective _ e; subst e'; exact absurd hr (by decide)))

theorem keepB (d : Fin 17) (r : Ref sig .tc) (hr : r.idx.val ≤ 86) :
    ∀ op ∈ (dB d : List (HloOp τ sig (Elt F))), Proc.devRef (τ := τ) .tc r ∉ op.writes := by
  fin_cases d <;> (simp only [dB]; each_op
    (simp only [nullary_writes, unary_writes, binary_writes, ternary_writes, reshape_writes, Finset.mem_singleton]
     intro e; have e' := Proc.devRef_injective _ e; subst e'; exact absurd hr (by decide)))

/-- A diagonal's twenty operations keep the agreement. -/
theorem agree_step (d : Fin 17) {V0 V : Valuation τ sig (Elt F)} (h : Agree V0 V) :
    Agree V0 (after (dB d) (after (dA d) V)) := fun r hr => by
  rw [after_of_forall_not_mem (dB d) _ (keepB d r hr), after_of_forall_not_mem (dA d) _ (keepA d r hr)]
  exact h r hr

theorem keepPA (r : Ref sig .tc) (hr : r.idx.val ≤ 18) :
    ∀ op ∈ (preA : List (HloOp τ sig (Elt F))), Proc.devRef (τ := τ) .tc r ∉ op.writes := by
  unfold preA; each_op
    (simp only [nullary_writes, unary_writes, binary_writes, ternary_writes, reshape_writes, Finset.mem_singleton]
     intro e; have e' := Proc.devRef_injective _ e; subst e'; exact absurd hr (by decide))

theorem keepPB (r : Ref sig .tc) (hr : r.idx.val ≤ 18) :
    ∀ op ∈ (preB : List (HloOp τ sig (Elt F))), Proc.devRef (τ := τ) .tc r ∉ op.writes := by
  unfold preB; each_op
    (simp only [nullary_writes, unary_writes, binary_writes, ternary_writes, reshape_writes, Finset.mem_singleton]
     intro e; have e' := Proc.devRef_injective _ e; subst e'; exact absurd hr (by decide))

/-- The first seventy operations leave the arguments as they were. -/
theorem pre_arg (V0 : Valuation τ sig (Elt F)) (r : Ref sig .tc) (hr : r.idx.val ≤ 18) :
    pre V0 (Proc.devRef .tc r) = V0 (Proc.devRef .tc r) := by
  unfold pre
  rw [after_of_forall_not_mem preB _ (keepPB r hr), after_of_forall_not_mem preA _ (keepPA r hr)]

theorem pre_def (V0 : Valuation τ sig (Elt F)) : after preB (after preA V0) = pre V0 := rfl

/-- The board before the first diagonal is zero everywhere. -/
theorem zero_board (V0 : Valuation τ sig (Elt Ideal)) (i : S8192x9x9x128.Idx) :
    (pre V0 (Proc.devRef .tc main_v0) : FVec Ideal S8192x9x9x128 .f32) i = (0 : EReal) := by
  have e : pre V0 (Proc.devRef .tc main_v0)
      = broadcastInDim S8192x9x9x128 ![] bcast_S_S8192x9x9x128 (constant (F := Ideal) S_ .f32 0x00000000#32) := by
    simp only [pre, preA, preB]
    after_results_simp
  rw [e]
  exact Ideal.ofBits_zero_f32

end Cert.ReferenceIdeal.RefKeep

end
-- ==== Proof.LibScatterRead.lean ====
/-
  Reading the result of a scatter at one index.

  A scatter is a left fold over the update indices, in row-major order: the step for update index j replaces the element
  at the operand index j lands on (its start plus its window coordinate, axis by axis) by the combining function applied
  to that element and the update's, and does nothing when j lands outside the operand.  Three facts follow from the fold
  alone, for any dimension numbers, operand, scatter indices and update:

    * an operand index no update index lands on keeps the operand's value;
    * when the combining function returns the update, an operand index exactly one update index lands on holds that
      update's element;
    * update index j lands on operand index i exactly when, on every axis, i's coordinate is the start plus the window
      coordinate.

  From the third, an operand index differing from every landing on ONE axis is an index nothing lands on.
-/
import Idealize.ShloMosaic.PureOps.ShapeOps

namespace Cert.ScatterRead

open Idealize.ShloMosaic

variable {s si u : Shape} {α : Type} {w : Nat}

/-- One step of the fold a scatter is: update position n (row-major) overwrites the element it lands on. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- A scatter is the fold of its steps over the update positions in order. -/
theorem scatter_eq_foldl (d : ScatterDims s si u) (f : α → α → α) (x : s.Idx → α) (idx : IVec si w) (upd : u.Idx → α) :
    Host.scatter d f x idx upd = (List.finRange u.numel).foldl (step d f idx upd) x := rfl

/-- A step leaves every index other than the one it lands on as it was. -/
theorem step_of_ne (d : ScatterDims s si u) (f : α → α → α) (idx : IVec si w) (upd : u.Idx → α) (r : s.Idx → α)
    (n : Fin u.numel) (i : s.Idx) (h : d.resultIdx? (u.rowMajor.symm n) idx ≠ some i) :
    step d f idx upd r n i = r i := by
  unfold step
  cases hres : d.resultIdx? (u.rowMajor.symm n) idx with
  | none => rfl
  | some i0 =>
    have hne : i ≠ i0 := fun e => h (e ▸ hres)
    exact if_neg hne

/-- A step combines the element it lands on with the update's. -/
theorem step_of_eq (d : ScatterDims s si u) (f : α → α → α) (idx : IVec si w) (upd : u.Idx → α) (r : s.Idx → α)
    (n : Fin u.numel) (i : s.Idx) (h : d.resultIdx? (u.rowMajor.symm n) idx = some i) :
    step d f idx upd r n i = f (r i) (upd (u.rowMajor.symm n)) := by
  unfold step
  rw [h]
  exact if_pos rfl

/-- Folding steps none of which lands on i leaves the value at i. -/
theorem foldl_keep (d : ScatterDims s si u) (f : α → α → α) (idx : IVec si w) (upd : u.Idx → α)
    (l : List (Fin u.numel)) (x : s.Idx → α) (i : s.Idx)
    (h : ∀ n ∈ l, d.resultIdx? (u.rowMajor.symm n) idx ≠ some i) :
    l.foldl (step d f idx upd) x i = x i := by
  induction l generalizing x with
  | nil => rfl
  | cons n l ih =>
    rw [List.foldl_cons, ih _ (fun m hm => h m (List.mem_cons_of_mem _ hm)),
      step_of_ne d f idx upd x n i (h n List.mem_cons_self)]

/-- Folding overwriting steps over positions without repeats, exactly one of which lands on i, leaves that position's
    update at i. -/
theorem foldl_unique (d : ScatterDims s si u) (idx : IVec si w) (upd : u.Idx → α)
    (l : List (Fin u.numel)) (hl : l.Nodup) (x : s.Idx → α) (i : s.Idx) (n0 : Fin u.numel) (h0 : n0 ∈ l)
    (hland : d.resultIdx? (u.rowMajor.symm n0) idx = some i)
    (huniq : ∀ n ∈ l, d.resultIdx? (u.rowMajor.symm n) idx = some i → n = n0) :
    l.foldl (step d (fun _ b => b) idx upd) x i = upd (u.rowMajor.symm n0) := by
  induction l generalizing x with
  | nil => cases h0
  | cons n l ih =>
    rw [List.foldl_cons]
    rw [List.nodup_cons] at hl
    by_cases hn : n = n0
    · subst hn
      rw [foldl_keep d _ idx upd l _ i
        (fun m hm hm' => hl.1 ((huniq m (List.mem_cons_of_mem _ hm) hm') ▸ hm)),
        step_of_eq d _ idx upd x n i hland]
    · have h0' : n0 ∈ l := (List.mem_cons.1 h0).resolve_left (fun e => hn e.symm)
      exact ih hl.2 _ h0' (fun m hm => huniq m (List.mem_cons_of_mem _ hm))

/-- An operand index no update index lands on keeps the operand's value. -/
theorem scatter_apply_of_no_landing (d : ScatterDims s si u) (f : α → α → α) (x : s.Idx → α) (idx : IVec si w)
    (upd : u.Idx → α) (i : s.Idx) (h : ∀ j, d.resultIdx? j idx ≠ some i) :
    Host.scatter d f x idx upd i = x i :=
  foldl_keep d f idx upd _ x i (fun n _ => h _)

/-- When the combining function returns the update, an operand index that update index j0 lands on and no other does
    holds the update's element at j0. -/
theorem scatter_set_apply_of_unique (d : ScatterDims s si u) (x : s.Idx → α) (idx : IVec si w) (upd : u.Idx → α)
    (i : s.Idx) (j0 : u.Idx) (hland : d.resultIdx? j0 idx = some i)
    (huniq : ∀ j, d.resultIdx? j idx = some i → j = j0) :
    Host.scatter d (fun _ b => b) x idx upd i = upd j0 := by
  have key := foldl_unique d idx upd (List.finRange u.numel) (List.nodup_finRange _) x i (u.rowMajor j0)
    (List.mem_finRange _) (by rw [Equiv.symm_apply_apply]; exact hland)
    (fun n _ hn => by rw [← huniq _ hn, Equiv.apply_symm_apply])
  rw [Equiv.symm_apply_apply] at key
  exact key

/-- Update index j lands on operand index i exactly when, on every axis, i's coordinate is the start plus the window
    coordinate. -/
theorem resultIdx?_eq_some_iff (d : ScatterDims s si u) (idx : IVec si w) (j : u.Idx) (i : s.Idx) :
    d.resultIdx? j idx = some i ↔ ∀ a, d.start j idx a + (d.window j a : ℤ) = ((i a).val : ℤ) := by
  unfold ScatterDims.resultIdx?
  constructor
  · intro h a
    split at h
    · next hb =>
      have e := Option.some.inj h
      rw [← e]
      exact (Int.toNat_of_nonneg (hb a).1).symm
    · cases h
  · intro h
    have hb : ∀ a, 0 ≤ d.start j idx a + (d.window j a : ℤ) ∧ d.start j idx a + (d.window j a : ℤ) < s.size a :=
      fun a => by rw [h a]; exact ⟨Int.natCast_nonneg _, by exact_mod_cast (i a).isLt⟩
    rw [dif_pos hb]
    congr 1
    funext a
    apply Fin.ext
    show Int.toNat _ = (i a).val
    rw [h a]
    exact Int.toNat_natCast _

/-- An operand index whose coordinate on one axis differs from every landing's coordinate on that axis keeps the
    operand's value. -/
theorem scatter_apply_of_axis_ne (d : ScatterDims s si u) (f : α → α → α) (x : s.Idx → α) (idx : IVec si w)
    (upd : u.Idx → α) (i : s.Idx) (a : Fin s.rank)
    (h : ∀ j, d.start j idx a + (d.window j a : ℤ) ≠ ((i a).val : ℤ)) :
    Host.scatter d f x idx upd i = x i :=
  scatter_apply_of_no_landing d f x idx upd i
    (fun j hj => h j ((resultIdx?_eq_some_iff d idx j i).1 hj a))

end Cert.ScatterRead
-- ==== Proof.RefDiag.lean ====
/-
  One anti-diagonal of the board, for a diagonal of any length L.

  The reference handles diagonal d of the 9 x 9 board in three moves.  It computes the diagonal's linear layer
  y[b, j, o] = Σ_k x[b, j, k] · W[d, o, k] + β[d, o] (a contraction of x with the d-th weight matrix over the last axis of both,
  plus the d-th bias row spread over b and j).  It builds the L x 2 table of the diagonal's cells: the rows table
  r0, r0 + 1, …, and the columns table c0, c0 - 1, …, each passed through a select whose mask is false everywhere (so unchanged),
  made into columns and put side by side.  And it writes row j of y to cell (rows j, cols j) for every batch element and
  channel.  Distinct j give distinct cells, and the cells are exactly those with r + c = r0 + c0; so afterwards a cell on the
  diagonal holds the layer at j = r - r0 and every other cell holds what it held before.
-/
import Idealize.ShloMosaic.PureOps.Ideal.Laws
import Idealize.ShloMosaic.Lib.ValueIdx
import Idealize.ShloMosaic.Lib.ValueLayout
import Idealize.ShloMosaic.Lib.Pipeline.Value
import proofs.«141148_j40656160424525_2_alg».proof.Proof.LibScatterRead
import proofs.«141148_j40656160424525_2_alg».proof.Proof.Board

open scoped BigOperators

noncomputable section

namespace Cert.RefDiag

open Idealize.ShloMosaic Idealize.ShloMosaic.ValueIdx Cert.ScatterRead

variable {α : Type}

/-! ## The linear layer -/

/-- The contraction of x[b, j, ·] with w[o, ·]: at an entry, the plain sum over the contracted axis. -/
theorem dot_read {L : ℕ} (D : DotDims ⟨3, ![8192, L, 128]⟩ ⟨2, ![128, 128]⟩ ⟨3, ![8192, L, 128]⟩)
    (h1 : D.lhsContracting = [2]) (h2 : D.rhsContracting = [1]) (h3 : D.lhsNonContracting = [0, 1])
    (h4 : D.rhsNonContracting = [0]) (h5 : D.lhsBatch = []) (h6 : D.rhsBatch = [])
    (x : FVec Ideal ⟨3, ![8192, L, 128]⟩ .f32) (w : FVec Ideal ⟨2, ![128, 128]⟩ .f32)
    (b : Fin 8192) (j : Fin L) (o : Fin 128) :
    Host.dotGeneral D none x w (ix3 b j o) = ∑ k : Fin 128, x (ix3 b j k) * w (ix2 o k) := by
  obtain ⟨lc, rc, ln, rn, lb, rb, wf⟩ := D
  simp only at h1 h2 h3 h4 h5 h6
  subst h1 h2 h3 h4 h5 h6
  simp only [Host.dotGeneral]
  rw [Ideal.dotGeneral_apply]
  refine Fintype.sum_equiv (contrEquiv1 _ 128 rfl rfl) _ _ (fun k => ?_)
  congr 2
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

/-- One diagonal's layer as the reference computes it: the d-th weight matrix and bias row are cut out of the stacks and
    their unit axis dropped, x is contracted with the matrix, and the bias row is spread over the other two axes and added. -/
def lay {L : ℕ} (D : DotDims ⟨3, ![8192, L, 128]⟩ ⟨2, ![128, 128]⟩ ⟨3, ![8192, L, 128]⟩) (d : ℕ)
    (hs1 : (⟨3, ![17, 128, 128]⟩ : Shape).Slices ![d, 0, 0] ⟨3, ![1, 128, 128]⟩)
    (hc1 : (⟨3, ![1, 128, 128]⟩ : Shape).ShapeCasts ⟨2, ![128, 128]⟩)
    (hs2 : (⟨2, ![17, 128]⟩ : Shape).Slices ![d, 0] ⟨2, ![1, 128]⟩)
    (hc2 : (⟨2, ![1, 128]⟩ : Shape).ShapeCasts ⟨1, ![128]⟩)
    (hb1 : (⟨1, ![128]⟩ : Shape).BroadcastsInDim ⟨3, ![1, 1, 128]⟩ ![2])
    (hb2 : (⟨3, ![1, 1, 128]⟩ : Shape).BroadcastsInDim ⟨3, ![8192, L, 128]⟩ ![0, 1, 2])
    (W : FVec Ideal ⟨3, ![17, 128, 128]⟩ .f32) (β : FVec Ideal ⟨2, ![17, 128]⟩ .f32) (x : FVec Ideal ⟨3, ![8192, L, 128]⟩ .f32) :
    FVec Ideal ⟨3, ![8192, L, 128]⟩ .f32 :=
  addf (Host.dotGeneral D none x (shapeCast ⟨2, ![128, 128]⟩ (extractStridedSlice ⟨3, ![1, 128, 128]⟩ ![d, 0, 0] W hs1) hc1))
    (broadcastInDim ⟨3, ![8192, L, 128]⟩ ![0, 1, 2] hb2 (broadcastInDim ⟨3, ![1, 1, 128]⟩ ![2] hb1
      (shapeCast ⟨1, ![128]⟩ (extractStridedSlice ⟨2, ![1, 128]⟩ ![d, 0] β hs2) hc2)))

/-- One diagonal's linear layer, as the reference computes it, read at an entry. -/
theorem layer_read {L : ℕ} (D : DotDims ⟨3, ![8192, L, 128]⟩ ⟨2, ![128, 128]⟩ ⟨3, ![8192, L, 128]⟩)
    (h1 : D.lhsContracting = [2]) (h2 : D.rhsContracting = [1]) (h3 : D.lhsNonContracting = [0, 1])
    (h4 : D.rhsNonContracting = [0]) (h5 : D.lhsBatch = []) (h6 : D.rhsBatch = [])
    (d : ℕ) (hd : d < 17)
    (W : FVec Ideal ⟨3, ![17, 128, 128]⟩ .f32) (β : FVec Ideal ⟨2, ![17, 128]⟩ .f32) (x : FVec Ideal ⟨3, ![8192, L, 128]⟩ .f32)
    (hs1 : (⟨3, ![17, 128, 128]⟩ : Shape).Slices ![d, 0, 0] ⟨3, ![1, 128, 128]⟩)
    (hc1 : (⟨3, ![1, 128, 128]⟩ : Shape).ShapeCasts ⟨2, ![128, 128]⟩)
    (hs2 : (⟨2, ![17, 128]⟩ : Shape).Slices ![d, 0] ⟨2, ![1, 128]⟩)
    (hc2 : (⟨2, ![1, 128]⟩ : Shape).ShapeCasts ⟨1, ![128]⟩)
    (hb1 : (⟨1, ![128]⟩ : Shape).BroadcastsInDim ⟨3, ![1, 1, 128]⟩ ![2])
    (hb2 : (⟨3, ![1, 1, 128]⟩ : Shape).BroadcastsInDim ⟨3, ![8192, L, 128]⟩ ![0, 1, 2])
    (b : Fin 8192) (j : Fin L) (o : Fin 128) :
    lay D d hs1 hc1 hs2 hc2 hb1 hb2 W β x (ix3 b j o)
      = Cert.Board.layer ⟨d, hd⟩ W β x b j o := by
  unfold Cert.Board.layer lay
  rw [addf_apply, dot_read D h1 h2 h3 h4 h5 h6]
  congr 1
  · refine Finset.sum_congr rfl (fun k _ => ?_)
    rw [shapeCast_1ab_ab_apply]
    congr 1
    refine extractStridedSlice_apply _ W hs1 _ _ (fun a => ?_)
    match a with
    | ⟨0, _⟩ => rfl
    | ⟨1, _⟩ => (show o.val = 0 + o.val; omega)
    | ⟨2, _⟩ => (show k.val = 0 + k.val; omega)
  · rw [broadcastInDim_apply ![0, 1, 2] hb2 _ _ (ix3 (0 : Fin 1) (0 : Fin 1) o) (fun a => by
      match a with
      | ⟨0, _⟩ => rfl
      | ⟨1, _⟩ => rfl
      | ⟨2, _⟩ => rfl)]
    rw [broadcastInDim_apply ![2] hb1 _ _ (ix1 o) (fun a => by
      match a with
      | ⟨0, _⟩ => rfl)]
    rw [shapeCast_1a_a_apply]
    refine extractStridedSlice_apply _ β hs2 _ _ (fun a => ?_)
    match a with
    | ⟨0, _⟩ => rfl
    | ⟨1, _⟩ => (show o.val = 0 + o.val; omega)

/-! ## The table of cells -/

/-- A select under an all-false mask is its second branch. -/
theorem select_false {s : Shape} (a b : s.Idx → α) : select (constantI s 1 0#1) a b = b := by
  funext i
  rw [select_apply, constantI_apply, select_zero]

/-- A column made of a table: the table's entry. -/
theorem column_read {L : ℕ} (t : (⟨1, ![L]⟩ : Shape).Idx → α) (hb : (⟨1, ![L]⟩ : Shape).BroadcastsInDim ⟨2, ![L, 1]⟩ ![0])
    (j : Fin L) : broadcastInDim ⟨2, ![L, 1]⟩ ![0] hb t (ix2 j (0 : Fin 1)) = t (ix1 j) := by
  refine broadcastInDim_apply _ hb t _ _ (fun a => ?_)
  match a with
  | ⟨0, _⟩ =>
    show j.val = if L = 1 then 0 else j.val
    split
    · have := j.isLt; omega
    · rfl

/-- The two-column table of index pairs read at a row: the two tables' entries. -/
theorem pairs_read {L : ℕ} (rows cols : (⟨2, ![L, 1]⟩ : Shape).Idx → α)
    (hcat : Shape.Concatenates [(⟨2, ![L, 1]⟩ : Shape), ⟨2, ![L, 1]⟩] ⟨2, ![L, 2]⟩ 1) (j : Fin L) :
    concatenate ⟨2, ![L, 2]⟩ 1 [⟨⟨2, ![L, 1]⟩, rows⟩, ⟨⟨2, ![L, 1]⟩, cols⟩] hcat (ix2 j (0 : Fin 2)) = rows (ix2 j (0 : Fin 1)) ∧
    concatenate ⟨2, ![L, 2]⟩ 1 [⟨⟨2, ![L, 1]⟩, rows⟩, ⟨⟨2, ![L, 1]⟩, cols⟩] hcat (ix2 j (1 : Fin 2)) = cols (ix2 j (0 : Fin 1)) := by
  constructor
  · refine concatenate_apply_piece (t := ⟨2, ![L, 2]⟩) 1 [⟨⟨2, ![L, 1]⟩, rows⟩, ⟨⟨2, ![L, 1]⟩, cols⟩] hcat _ 0 (by show 0 < 2; omega) ⟨2, ![L, 1]⟩ rows rfl rfl 0 rfl (ix2 j (0 : Fin 1)) (fun b hb => ?_) rfl
    match b with
    | ⟨0, _⟩ => rfl
    | ⟨1, _⟩ => exact absurd rfl hb
  · refine concatenate_apply_piece (t := ⟨2, ![L, 2]⟩) 1 [⟨⟨2, ![L, 1]⟩, rows⟩, ⟨⟨2, ![L, 1]⟩, cols⟩] hcat _ 1 (by show 1 < 2; omega) ⟨2, ![L, 1]⟩ cols rfl rfl 1 rfl (ix2 j (0 : Fin 1)) (fun b hb => ?_) rfl
    match b with
    | ⟨0, _⟩ => rfl
    | ⟨1, _⟩ => exact absurd rfl hb

/-- The table of a diagonal's cells as the reference builds it from the rows table tr and the columns table tc (mr, mc the
    masks of the two selects, which choose between a table shifted by nine and the table itself). -/
def pairs {L : ℕ} (hb0 : (⟨0, ![]⟩ : Shape).BroadcastsInDim ⟨1, ![L]⟩ ![])
    (hb : (⟨1, ![L]⟩ : Shape).BroadcastsInDim ⟨2, ![L, 1]⟩ ![0])
    (hcat : Shape.Concatenates [(⟨2, ![L, 1]⟩ : Shape), ⟨2, ![L, 1]⟩] ⟨2, ![L, 2]⟩ 1)
    (mr : IVec ⟨1, ![L]⟩ 1) (tr : IVec ⟨1, ![L]⟩ 32) (mc : IVec ⟨1, ![L]⟩ 1) (tc : IVec ⟨1, ![L]⟩ 32) : IVec ⟨2, ![L, 2]⟩ 32 :=
  concatenate ⟨2, ![L, 2]⟩ 1
    [⟨⟨2, ![L, 1]⟩, broadcastInDim ⟨2, ![L, 1]⟩ ![0] hb
        (select mr (addi tr (broadcastInDim ⟨1, ![L]⟩ ![] hb0 (constantI ⟨0, ![]⟩ 32 9#32))) tr)⟩,
     ⟨⟨2, ![L, 1]⟩, broadcastInDim ⟨2, ![L, 1]⟩ ![0] hb
        (select mc (addi tc (broadcastInDim ⟨1, ![L]⟩ ![] hb0 (constantI ⟨0, ![]⟩ 32 9#32))) tc)⟩] hcat

/-- Under all-false masks, row j of the table of cells is (tr j, tc j). -/
theorem pairs_apply {L : ℕ} (hb0 : (⟨0, ![]⟩ : Shape).BroadcastsInDim ⟨1, ![L]⟩ ![])
    (hb : (⟨1, ![L]⟩ : Shape).BroadcastsInDim ⟨2, ![L, 1]⟩ ![0])
    (hcat : Shape.Concatenates [(⟨2, ![L, 1]⟩ : Shape), ⟨2, ![L, 1]⟩] ⟨2, ![L, 2]⟩ 1)
    (tr tc : IVec ⟨1, ![L]⟩ 32) (j : Fin L) :
    pairs hb0 hb hcat (constantI _ 1 0#1) tr (constantI _ 1 0#1) tc (ix2 j (0 : Fin 2)) = tr (ix1 j) ∧
    pairs hb0 hb hcat (constantI _ 1 0#1) tr (constantI _ 1 0#1) tc (ix2 j (1 : Fin 2)) = tc (ix1 j) := by
  unfold pairs
  rw [select_false, select_false]
  obtain ⟨e0, e1⟩ := pairs_read (broadcastInDim ⟨2, ![L, 1]⟩ ![0] hb tr) (broadcastInDim ⟨2, ![L, 1]⟩ ![0] hb tc) hcat j
  exact ⟨e0.trans (column_read tr hb j), e1.trans (column_read tc hb j)⟩

/-! ## The write onto the board -/

/-- Where update index j of a diagonal write lands, axis by axis. -/
theorem landing {L : ℕ} (wf) (idx : IVec ⟨2, ![L, 2]⟩ 32) (j : (⟨3, ![8192, L, 128]⟩ : Shape).Idx) :
    let DS : ScatterDims ⟨4, ![8192, 9, 9, 128]⟩ ⟨2, ![L, 2]⟩ ⟨3, ![8192, L, 128]⟩ := ⟨[0, 2], [1, 2], [1, 2], 1, wf⟩
    (DS.start j idx 0 + (DS.window j 0 : ℤ) = ((j 0).val : ℤ)) ∧
    (DS.start j idx 1 + (DS.window j 1 : ℤ) = (idx (ix2 (j 1) 0)).toInt) ∧
    (DS.start j idx 2 + (DS.window j 2 : ℤ) = (idx (ix2 (j 1) 1)).toInt) ∧
    (DS.start j idx 3 + (DS.window j 3 : ℤ) = ((j 2).val : ℤ)) := by
  intro DS
  have e0 : DS.siIdx j ⟨0, (by show 0 < 2; omega)⟩ = ix2 (j 1) 0 := by
    funext a
    match a with
    | ⟨0, _⟩ => rfl
    | ⟨1, _⟩ => rfl
  have e1 : DS.siIdx j ⟨1, (by show 1 < 2; omega)⟩ = ix2 (j 1) 1 := by
    funext a
    match a with
    | ⟨0, _⟩ => rfl
    | ⟨1, _⟩ => rfl
  refine ⟨?_, ?_, ?_, ?_⟩
  · show (0 : ℤ) + ((j 0).val : ℤ) = _
    rw [zero_add]
  · show (idx (DS.siIdx j ⟨0, _⟩)).toInt + ((0 : ℕ) : ℤ) = _
    rw [e0]; simp
  · show (idx (DS.siIdx j ⟨1, _⟩)).toInt + ((0 : ℕ) : ℤ) = _
    rw [e1]; simp
  · show (0 : ℤ) + ((j 2).val : ℤ) = _
    rw [zero_add]

/-- A diagonal write read at a cell: the rows table counts up from r0, the columns table counts down from c0, so the L index
    pairs are the cells of the anti-diagonal r + c = r0 + c0 of the 9 x 9 board, cell (r, c) being pair number r - r0; a cell
    on the diagonal holds that update row, a cell off it keeps what it held. -/
theorem scatter_diag {L : ℕ} [NeZero L] (DS : ScatterDims ⟨4, ![8192, 9, 9, 128]⟩ ⟨2, ![L, 2]⟩ ⟨3, ![8192, L, 128]⟩)
    (g1 : DS.updateWindowDims = [0, 2]) (g2 : DS.insertedWindowDims = [1, 2]) (g3 : DS.scatterDimsToOperandDims = [1, 2])
    (g4 : DS.indexVectorDim = 1)
    (x : (⟨4, ![8192, 9, 9, 128]⟩ : Shape).Idx → α) (idx : IVec ⟨2, ![L, 2]⟩ 32) (upd : (⟨3, ![8192, L, 128]⟩ : Shape).Idx → α)
    (r0 c0 : ℕ) (hc0 : c0 ≤ 8) (hL : r0 + L = c0 + 1) (hcorner : r0 = 0 ∨ c0 = 8)
    (hrow : ∀ j : Fin L, (idx (ix2 j (0 : Fin 2))).toInt = ((r0 + j.val : ℕ) : ℤ))
    (hcol : ∀ j : Fin L, (idx (ix2 j (1 : Fin 2))).toInt = ((c0 - j.val : ℕ) : ℤ))
    (b : Fin 8192) (r c : Fin 9) (o : Fin 128) :
    Host.scatter DS (fun _ v => v) x idx upd (ix4 b r c o) =
      if r.val + c.val = r0 + c0 then upd (ix3 b (Fin.ofNat L (r.val - r0)) o) else x (ix4 b r c o) := by
  obtain ⟨uw, iw, sd, iv, wf⟩ := DS
  simp only at g1 g2 g3 g4
  subst g1 g2 g3 g4
  have hr := r.isLt
  have hc := c.isLt
  split
  · next h =>
    have hr0 : r0 ≤ r.val := by rcases hcorner with h0 | h8 <;> omega
    have hrL : r.val - r0 < L := by rcases hcorner with h0 | h8 <;> omega
    have hj1 : Fin.ofNat L (r.val - r0) = ⟨r.val - r0, hrL⟩ := Fin.ext (Nat.mod_eq_of_lt hrL)
    rw [hj1]
    refine scatter_set_apply_of_unique _ x idx upd _ (ix3 b ⟨r.val - r0, hrL⟩ o) ?_ ?_
    · rw [resultIdx?_eq_some_iff]
      intro a
      obtain ⟨l0, l1, l2, l3⟩ := landing wf idx (ix3 b ⟨r.val - r0, hrL⟩ o)
      match a with
      | ⟨0, _⟩ => exact l0
      | ⟨1, _⟩ =>
        refine l1.trans ((hrow ⟨r.val - r0, hrL⟩).trans ?_)
        show ((r0 + (r.val - r0) : ℕ) : ℤ) = (r.val : ℤ)
        omega
      | ⟨2, _⟩ =>
        refine l2.trans ((hcol ⟨r.val - r0, hrL⟩).trans ?_)
        show ((c0 - (r.val - r0) : ℕ) : ℤ) = (c.val : ℤ)
        omega
      | ⟨3, _⟩ => exact l3
    · intro j hj
      rw [resultIdx?_eq_some_iff] at hj
      obtain ⟨l0, l1, l2, l3⟩ := landing wf idx j
      have a0 : ((j 0).val : ℤ) = (b.val : ℤ) := l0.symm.trans (hj 0)
      have a1 : ((r0 + (j 1).val : ℕ) : ℤ) = (r.val : ℤ) := (hrow (j 1)).symm.trans (l1.symm.trans (hj 1))
      have a3 : ((j 2).val : ℤ) = (o.val : ℤ) := l3.symm.trans (hj 3)
      rw [eq_ix3 j]
      have e0 : j 0 = b := Fin.ext (by omega)
      have e1 : j 1 = ⟨r.val - r0, hrL⟩ := Fin.ext (by show (j 1).val = r.val - r0; omega)
      have e2 : j 2 = o := Fin.ext (by omega)
      rw [e0, e1, e2]
      rfl
  · next h =>
    refine scatter_apply_of_no_landing _ _ x idx upd _ (fun j hj => h ?_)
    rw [resultIdx?_eq_some_iff] at hj
    obtain ⟨l0, l1, l2, l3⟩ := landing wf idx j
    have a1 : ((r0 + (j 1).val : ℕ) : ℤ) = (r.val : ℤ) := (hrow (j 1)).symm.trans (l1.symm.trans (hj 1))
    have a2 : ((c0 - (j 1).val : ℕ) : ℤ) = (c.val : ℤ) := (hcol (j 1)).symm.trans (l2.symm.trans (hj 2))
    have hjL : (j 1).val < L := (j 1).isLt
    omega

/-! ## The three moves together -/

/-- The board after one diagonal's write, read at a cell. -/
theorem diag_step {L : ℕ} [NeZero L] (DS : ScatterDims ⟨4, ![8192, 9, 9, 128]⟩ ⟨2, ![L, 2]⟩ ⟨3, ![8192, L, 128]⟩)
    (g1 : DS.updateWindowDims = [0, 2]) (g2 : DS.insertedWindowDims = [1, 2]) (g3 : DS.scatterDimsToOperandDims = [1, 2])
    (g4 : DS.indexVectorDim = 1)
    (D : DotDims ⟨3, ![8192, L, 128]⟩ ⟨2, ![128, 128]⟩ ⟨3, ![8192, L, 128]⟩)
    (h1 : D.lhsContracting = [2]) (h2 : D.rhsContracting = [1]) (h3 : D.lhsNonContracting = [0, 1])
    (h4 : D.rhsNonContracting = [0]) (h5 : D.lhsBatch = []) (h6 : D.rhsBatch = [])
    (hb0 : (⟨0, ![]⟩ : Shape).BroadcastsInDim ⟨1, ![L]⟩ ![])
    (hb : (⟨1, ![L]⟩ : Shape).BroadcastsInDim ⟨2, ![L, 1]⟩ ![0])
    (hcat : Shape.Concatenates [(⟨2, ![L, 1]⟩ : Shape), ⟨2, ![L, 1]⟩] ⟨2, ![L, 2]⟩ 1)
    (d : ℕ) (hd : d < 17)
    (hs1 : (⟨3, ![17, 128, 128]⟩ : Shape).Slices ![d, 0, 0] ⟨3, ![1, 128, 128]⟩)
    (hc1 : (⟨3, ![1, 128, 128]⟩ : Shape).ShapeCasts ⟨2, ![128, 128]⟩)
    (hs2 : (⟨2, ![17, 128]⟩ : Shape).Slices ![d, 0] ⟨2, ![1, 128]⟩)
    (hc2 : (⟨2, ![1, 128]⟩ : Shape).ShapeCasts ⟨1, ![128]⟩)
    (hb1 : (⟨1, ![128]⟩ : Shape).BroadcastsInDim ⟨3, ![1, 1, 128]⟩ ![2])
    (hb2 : (⟨3, ![1, 1, 128]⟩ : Shape).BroadcastsInDim ⟨3, ![8192, L, 128]⟩ ![0, 1, 2])
    (x0 : FVec Ideal ⟨4, ![8192, 9, 9, 128]⟩ .f32) (tr tc : IVec ⟨1, ![L]⟩ 32)
    (r0 c0 : ℕ) (hc0 : c0 ≤ 8) (hL : r0 + L = c0 + 1) (hcorner : r0 = 0 ∨ c0 = 8)
    (hrowT : ∀ j : Fin L, (tr (ix1 j)).toInt = ((r0 + j.val : ℕ) : ℤ))
    (hcolT : ∀ j : Fin L, (tc (ix1 j)).toInt = ((c0 - j.val : ℕ) : ℤ))
    (W : FVec Ideal ⟨3, ![17, 128, 128]⟩ .f32) (β : FVec Ideal ⟨2, ![17, 128]⟩ .f32) (x : FVec Ideal ⟨3, ![8192, L, 128]⟩ .f32)
    (b : Fin 8192) (r c : Fin 9) (o : Fin 128) :
    Host.scatter DS (fun _ v => v) x0 (pairs hb0 hb hcat (constantI _ 1 0#1) tr (constantI _ 1 0#1) tc)
        (lay D d hs1 hc1 hs2 hc2 hb1 hb2 W β x) (ix4 b r c o)
      = if r.val + c.val = r0 + c0 then Cert.Board.layer ⟨d, hd⟩ W β x b (Fin.ofNat L (r.val - r0)) o else x0 (ix4 b r c o) := by
  rw [scatter_diag DS g1 g2 g3 g4 x0 _ _ r0 c0 hc0 hL hcorner
    (fun j => (congrArg BitVec.toInt (pairs_apply hb0 hb hcat tr tc j).1).trans (hrowT j))
    (fun j => (congrArg BitVec.toInt (pairs_apply hb0 hb hcat tr tc j).2).trans (hcolT j)) b r c o]
  split
  · exact layer_read D h1 h2 h3 h4 h5 h6 d hd W β x hs1 hc1 hs2 hc2 hb1 hb2 b _ o
  · rfl

end Cert.RefDiag

end
-- ==== Proof.RefStepA.lean ====
/-
  Anti-diagonals 0 to 4 of the board, one at a time.

  For each of these anti-diagonals d: the contents of the new board buffer after the diagonal's twenty operations, first as
  the write of the diagonal's layer at its table of cells onto the old board (by unfolding the twenty operations), then read
  at a cell (b, r, c, o): the diagonal's layer at cell number r - max (0, d - 8) when r + c = d, the old board otherwise.  The
  rows table of diagonal d counts up from max (0, d - 8) and its columns table counts down from min (d, 8), entry by entry.
-/
import proofs.«141148_j40656160424525_2_alg».proof.Proof.RefKeep
import proofs.«141148_j40656160424525_2_alg».proof.Proof.RefDiag

set_option maxRecDepth 8192

noncomputable section

namespace Cert.ReferenceIdeal.RefStep

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefKeep Cert.RefDiag Idealize.ShloMosaic.ValueIdx

/-! ## Diagonal 0 (one cell) -/

theorem step0 (V : Valuation τ sig (Elt Ideal)) :
    after (dB 0) (after (dA 0) V) (Proc.devRef .tc main_v18)
      = Host.scatter scatter_S8192x9x9x128_S1x2_S8192x1x128_02_12_12_1 (fun _ b => b) (V (Proc.devRef .tc main_v0))
          (pairs bcast_S_S1 bcast_S1_S1x1_0 concatenates_S1x1_S1x1_S1x2_d1 (V (Proc.devRef .tc main_c_0))
            (V (Proc.devRef .tc main_c)) (V (Proc.devRef .tc main_c_2)) (V (Proc.devRef .tc main_c_1)))
          (lay dot_S8192x1x128_S128x128_S8192x1x128_2_1_01_0_n_n 0 slices_S17x128x128_S1x128x128_0_0_0
            shapeCasts_S1x128x128_S128x128 slices_S17x128_S1x128_0_0 shapeCasts_S1x128_S128 bcast_S128_S1x1x128_2
            bcast_S1x1x128_S8192x1x128_0_1_2 (V (Proc.devRef .tc main_arg0)) (V (Proc.devRef .tc main_arg1))
            (V (Proc.devRef .tc main_arg2))) := by
  simp only [dA, dB]
  after_results_simp
  rfl

theorem read0 (V0 V : Valuation τ sig (Elt Ideal)) (hpre : Agree V0 V) (b : Fin 8192) (r c : Fin 9) (o : Fin 128) :
    after (dB 0) (after (dA 0) V) (Proc.devRef .tc main_v18) (ix4 b r c o)
      = if r.val + c.val = 0 then Cert.Board.layer 0 (V0 (Proc.devRef .tc main_arg0)) (V0 (Proc.devRef .tc main_arg1))
          (V0 (Proc.devRef .tc main_arg2)) b (Fin.ofNat 1 (r.val - 0)) o
        else V (Proc.devRef .tc main_v0) (ix4 b r c o) := by
  rw [step0 V, hpre main_c_0 (by decide), hpre main_c (by decide), hpre main_c_2 (by decide), hpre main_c_1 (by decide),
    hpre main_arg0 (by decide), hpre main_arg1 (by decide), hpre main_arg2 (by decide)]
  simp only [pre, preA, preB]
  after_results_simp
  exact diag_step _ rfl rfl rfl rfl _ rfl rfl rfl rfl rfl rfl _ _ _ 0 (by omega) _ _ _ _ _ _ _ _ _ 0 0 (by omega) (by omega)
    (Or.inl rfl) (fun j => by fin_cases j <;> rfl) (fun j => by fin_cases j <;> rfl) _ _ _ b r c o

/-! ## Diagonal 1 (two cells) -/

theorem step1 (V : Valuation τ sig (Elt Ideal)) :
    after (dB 1) (after (dA 1) V) (Proc.devRef .tc main_v36)
      = Host.scatter scatter_S8192x9x9x128_S2x2_S8192x2x128_02_12_12_1 (fun _ b => b) (V (Proc.devRef .tc main_v18))
          (pairs bcast_S_S2 bcast_S2_S2x1_0 concatenates_S2x1_S2x1_S2x2_d1 (V (Proc.devRef .tc main_c_4))
            (V (Proc.devRef .tc main_c_3)) (V (Proc.devRef .tc main_c_6)) (V (Proc.devRef .tc main_c_5)))
          (lay dot_S8192x2x128_S128x128_S8192x2x128_2_1_01_0_n_n 1 slices_S17x128x128_S1x128x128_1_0_0
            shapeCasts_S1x128x128_S128x128 slices_S17x128_S1x128_1_0 shapeCasts_S1x128_S128 bcast_S128_S1x1x128_2
            bcast_S1x1x128_S8192x2x128_0_1_2 (V (Proc.devRef .tc main_arg0)) (V (Proc.devRef .tc main_arg1))
            (V (Proc.devRef .tc main_arg3))) := by
  simp only [dA, dB]
  after_results_simp
  rfl

theorem read1 (V0 V : Valuation τ sig (Elt Ideal)) (hpre : Agree V0 V) (b : Fin 8192) (r c : Fin 9) (o : Fin 128) :
    after (dB 1) (after (dA 1) V) (Proc.devRef .tc main_v36) (ix4 b r c o)
      = if r.val + c.val = 1 then Cert.Board.layer 1 (V0 (Proc.devRef .tc main_arg0)) (V0 (Proc.devRef .tc main_arg1))
          (V0 (Proc.devRef .tc main_arg3)) b (Fin.ofNat 2 (r.val - 0)) o
        else V (Proc.devRef .tc main_v18) (ix4 b r c o) := by
  rw [step1 V, hpre main_c_4 (by decide), hpre main_c_3 (by decide), hpre main_c_6 (by decide), hpre main_c_5 (by decide),
    hpre main_arg0 (by decide), hpre main_arg1 (by decide), hpre main_arg3 (by decide)]
  simp only [pre, preA, preB]
  after_results_simp
  exact diag_step _ rfl rfl rfl rfl _ rfl rfl rfl rfl rfl rfl _ _ _ 1 (by omega) _ _ _ _ _ _ _ _ _ 0 1 (by omega) (by omega)
    (Or.inl rfl) (fun j => by fin_cases j <;> rfl) (fun j => by fin_cases j <;> rfl) _ _ _ b r c o

/-! ## Diagonal 2 (three cells) -/

theorem step2 (V : Valuation τ sig (Elt Ideal)) :
    after (dB 2) (after (dA 2) V) (Proc.devRef .tc main_v54)
      = Host.scatter scatter_S8192x9x9x128_S3x2_S8192x3x128_02_12_12_1 (fun _ b => b) (V (Proc.devRef .tc main_v36))
          (pairs bcast_S_S3 bcast_S3_S3x1_0 concatenates_S3x1_S3x1_S3x2_d1 (V (Proc.devRef .tc main_c_8))
            (V (Proc.devRef .tc main_c_7)) (V (Proc.devRef .tc main_c_10)) (V (Proc.devRef .tc main_c_9)))
          (lay dot_S8192x3x128_S128x128_S8192x3x128_2_1_01_0_n_n 2 slices_S17x128x128_S1x128x128_2_0_0
            shapeCasts_S1x128x128_S128x128 slices_S17x128_S1x128_2_0 shapeCasts_S1x128_S128 bcast_S128_S1x1x128_2
            bcast_S1x1x128_S8192x3x128_0_1_2 (V (Proc.devRef .tc main_arg0)) (V (Proc.devRef .tc main_arg1))
            (V (Proc.devRef .tc main_arg4))) := by
  simp only [dA, dB]
  after_results_simp
  rfl

theorem read2 (V0 V : Valuation τ sig (Elt Ideal)) (hpre : Agree V0 V) (b : Fin 8192) (r c : Fin 9) (o : Fin 128) :
    after (dB 2) (after (dA 2) V) (Proc.devRef .tc main_v54) (ix4 b r c o)
      = if r.val + c.val = 2 then Cert.Board.layer 2 (V0 (Proc.devRef .tc main_arg0)) (V0 (Proc.devRef .tc main_arg1))
          (V0 (Proc.devRef .tc main_arg4)) b (Fin.ofNat 3 (r.val - 0)) o
        else V (Proc.devRef .tc main_v36) (ix4 b r c o) := by
  rw [step2 V, hpre main_c_8 (by decide), hpre main_c_7 (by decide), hpre main_c_10 (by decide), hpre main_c_9 (by decide),
    hpre main_arg0 (by decide), hpre main_arg1 (by decide), hpre main_arg4 (by decide)]
  simp only [pre, preA, preB]
  after_results_simp
  exact diag_step _ rfl rfl rfl rfl _ rfl rfl rfl rfl rfl rfl _ _ _ 2 (by omega) _ _ _ _ _ _ _ _ _ 0 2 (by omega) (by omega)
    (Or.inl rfl) (fun j => by fin_cases j <;> rfl) (fun j => by fin_cases j <;> rfl) _ _ _ b r c o

/-! ## Diagonal 3 (four cells) -/

theorem step3 (V : Valuation τ sig (Elt Ideal)) :
    after (dB 3) (after (dA 3) V) (Proc.devRef .tc main_v72)
      = Host.scatter scatter_S8192x9x9x128_S4x2_S8192x4x128_02_12_12_1 (fun _ b => b) (V (Proc.devRef .tc main_v54))
          (pairs bcast_S_S4 bcast_S4_S4x1_0 concatenates_S4x1_S4x1_S4x2_d1 (V (Proc.devRef .tc main_c_12))
            (V (Proc.devRef .tc main_c_11)) (V (Proc.devRef .tc main_c_14)) (V (Proc.devRef .tc main_c_13)))
          (lay dot_S8192x4x128_S128x128_S8192x4x128_2_1_01_0_n_n 3 slices_S17x128x128_S1x128x128_3_0_0
            shapeCasts_S1x128x128_S128x128 slices_S17x128_S1x128_3_0 shapeCasts_S1x128_S128 bcast_S128_S1x1x128_2
            bcast_S1x1x128_S8192x4x128_0_1_2 (V (Proc.devRef .tc main_arg0)) (V (Proc.devRef .tc main_arg1))
            (V (Proc.devRef .tc main_arg5))) := by
  simp only [dA, dB]
  after_results_simp
  rfl

theorem read3 (V0 V : Valuation τ sig (Elt Ideal)) (hpre : Agree V0 V) (b : Fin 8192) (r c : Fin 9) (o : Fin 128) :
    after (dB 3) (after (dA 3) V) (Proc.devRef .tc main_v72) (ix4 b r c o)
      = if r.val + c.val = 3 then Cert.Board.layer 3 (V0 (Proc.devRef .tc main_arg0)) (V0 (Proc.devRef .tc main_arg1))
          (V0 (Proc.devRef .tc main_arg5)) b (Fin.ofNat 4 (r.val - 0)) o
        else V (Proc.devRef .tc main_v54) (ix4 b r c o) := by
  rw [step3 V, hpre main_c_12 (by decide), hpre main_c_11 (by decide), hpre main_c_14 (by decide), hpre main_c_13 (by decide),
    hpre main_arg0 (by decide), hpre main_arg1 (by decide), hpre main_arg5 (by decide)]
  simp only [pre, preA, preB]
  after_results_simp
  exact diag_step _ rfl rfl rfl rfl _ rfl rfl rfl rfl rfl rfl _ _ _ 3 (by omega) _ _ _ _ _ _ _ _ _ 0 3 (by omega) (by omega)
    (Or.inl rfl) (fun j => by fin_cases j <;> rfl) (fun j => by fin_cases j <;> rfl) _ _ _ b r c o

/-! ## Diagonal 4 (five cells) -/

theorem step4 (V : Valuation τ sig (Elt Ideal)) :
    after (dB 4) (after (dA 4) V) (Proc.devRef .tc main_v90)
      = Host.scatter scatter_S8192x9x9x128_S5x2_S8192x5x128_02_12_12_1 (fun _ b => b) (V (Proc.devRef .tc main_v72))
          (pairs bcast_S_S5 bcast_S5_S5x1_0 concatenates_S5x1_S5x1_S5x2_d1 (V (Proc.devRef .tc main_c_16))
            (V (Proc.devRef .tc main_c_15)) (V (Proc.devRef .tc main_c_18)) (V (Proc.devRef .tc main_c_17)))
          (lay dot_S8192x5x128_S128x128_S8192x5x128_2_1_01_0_n_n 4 slices_S17x128x128_S1x128x128_4_0_0
            shapeCasts_S1x128x128_S128x128 slices_S17x128_S1x128_4_0 shapeCasts_S1x128_S128 bcast_S128_S1x1x128_2
            bcast_S1x1x128_S8192x5x128_0_1_2 (V (Proc.devRef .tc main_arg0)) (V (Proc.devRef .tc main_arg1))
            (V (Proc.devRef .tc main_arg6))) := by
  simp only [dA, dB]
  after_results_simp
  rfl

theorem read4 (V0 V : Valuation τ sig (Elt Ideal)) (hpre : Agree V0 V) (b : Fin 8192) (r c : Fin 9) (o : Fin 128) :
    after (dB 4) (after (dA 4) V) (Proc.devRef .tc main_v90) (ix4 b r c o)
      = if r.val + c.val = 4 then Cert.Board.layer 4 (V0 (Proc.devRef .tc main_arg0)) (V0 (Proc.devRef .tc main_arg1))
          (V0 (Proc.devRef .tc main_arg6)) b (Fin.ofNat 5 (r.val - 0)) o
        else V (Proc.devRef .tc main_v72) (ix4 b r c o) := by
  rw [step4 V, hpre main_c_16 (by decide), hpre main_c_15 (by decide), hpre main_c_18 (by decide), hpre main_c_17 (by decide),
    hpre main_arg0 (by decide), hpre main_arg1 (by decide), hpre main_arg6 (by decide)]
  simp only [pre, preA, preB]
  after_results_simp
  exact diag_step _ rfl rfl rfl rfl _ rfl rfl rfl rfl rfl rfl _ _ _ 4 (by omega) _ _ _ _ _ _ _ _ _ 0 4 (by omega) (by omega)
    (Or.inl rfl) (fun j => by fin_cases j <;> rfl) (fun j => by fin_cases j <;> rfl) _ _ _ b r c o

end Cert.ReferenceIdeal.RefStep

end
-- ==== Proof.RefStepB.lean ====
/-
  Anti-diagonals 5 to 8 of the board, one at a time.

  For each of these anti-diagonals d: the contents of the new board buffer after the diagonal's twenty operations, first as
  the write of the diagonal's layer at its table of cells onto the old board (by unfolding the twenty operations), then read
  at a cell (b, r, c, o): the diagonal's layer at cell number r - max (0, d - 8) when r + c = d, the old board otherwise.  The
  rows table of diagonal d counts up from max (0, d - 8) and its columns table counts down from min (d, 8), entry by entry.
-/
import proofs.«141148_j40656160424525_2_alg».proof.Proof.RefKeep
import proofs.«141148_j40656160424525_2_alg».proof.Proof.RefDiag

set_option maxRecDepth 8192

noncomputable section

namespace Cert.ReferenceIdeal.RefStep

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefKeep Cert.RefDiag Idealize.ShloMosaic.ValueIdx

/-! ## Diagonal 5 (six cells) -/

theorem step5 (V : Valuation τ sig (Elt Ideal)) :
    after (dB 5) (after (dA 5) V) (Proc.devRef .tc main_v108)
      = Host.scatter scatter_S8192x9x9x128_S6x2_S8192x6x128_02_12_12_1 (fun _ b => b) (V (Proc.devRef .tc main_v90))
          (pairs bcast_S_S6 bcast_S6_S6x1_0 concatenates_S6x1_S6x1_S6x2_d1 (V (Proc.devRef .tc main_c_20))
            (V (Proc.devRef .tc main_c_19)) (V (Proc.devRef .tc main_c_22)) (V (Proc.devRef .tc main_c_21)))
          (lay dot_S8192x6x128_S128x128_S8192x6x128_2_1_01_0_n_n 5 slices_S17x128x128_S1x128x128_5_0_0
            shapeCasts_S1x128x128_S128x128 slices_S17x128_S1x128_5_0 shapeCasts_S1x128_S128 bcast_S128_S1x1x128_2
            bcast_S1x1x128_S8192x6x128_0_1_2 (V (Proc.devRef .tc main_arg0)) (V (Proc.devRef .tc main_arg1))
            (V (Proc.devRef .tc main_arg7))) := by
  simp only [dA, dB]
  after_results_simp
  rfl

theorem read5 (V0 V : Valuation τ sig (Elt Ideal)) (hpre : Agree V0 V) (b : Fin 8192) (r c : Fin 9) (o : Fin 128) :
    after (dB 5) (after (dA 5) V) (Proc.devRef .tc main_v108) (ix4 b r c o)
      = if r.val + c.val = 5 then Cert.Board.layer 5 (V0 (Proc.devRef .tc main_arg0)) (V0 (Proc.devRef .tc main_arg1))
          (V0 (Proc.devRef .tc main_arg7)) b (Fin.ofNat 6 (r.val - 0)) o
        else V (Proc.devRef .tc main_v90) (ix4 b r c o) := by
  rw [step5 V, hpre main_c_20 (by decide), hpre main_c_19 (by decide), hpre main_c_22 (by decide), hpre main_c_21 (by decide),
    hpre main_arg0 (by decide), hpre main_arg1 (by decide), hpre main_arg7 (by decide)]
  simp only [pre, preA, preB]
  after_results_simp
  exact diag_step _ rfl rfl rfl rfl _ rfl rfl rfl rfl rfl rfl _ _ _ 5 (by omega) _ _ _ _ _ _ _ _ _ 0 5 (by omega) (by omega)
    (Or.inl rfl) (fun j => by fin_cases j <;> rfl) (fun j => by fin_cases j <;> rfl) _ _ _ b r c o

/-! ## Diagonal 6 (seven cells) -/

theorem step6 (V : Valuation τ sig (Elt Ideal)) :
    after (dB 6) (after (dA 6) V) (Proc.devRef .tc main_v126)
      = Host.scatter scatter_S8192x9x9x128_S7x2_S8192x7x128_02_12_12_1 (fun _ b => b) (V (Proc.devRef .tc main_v108))
          (pairs bcast_S_S7 bcast_S7_S7x1_0 concatenates_S7x1_S7x1_S7x2_d1 (V (Proc.devRef .tc main_c_24))
            (V (Proc.devRef .tc main_c_23)) (V (Proc.devRef .tc main_c_26)) (V (Proc.devRef .tc main_c_25)))
          (lay dot_S8192x7x128_S128x128_S8192x7x128_2_1_01_0_n_n 6 slices_S17x128x128_S1x128x128_6_0_0
            shapeCasts_S1x128x128_S128x128 slices_S17x128_S1x128_6_0 shapeCasts_S1x128_S128 bcast_S128_S1x1x128_2
            bcast_S1x1x128_S8192x7x128_0_1_2 (V (Proc.devRef .tc main_arg0)) (V (Proc.devRef .tc main_arg1))
            (V (Proc.devRef .tc main_arg8))) := by
  simp only [dA, dB]
  after_results_simp
  rfl

theorem read6 (V0 V : Valuation τ sig (Elt Ideal)) (hpre : Agree V0 V) (b : Fin 8192) (r c : Fin 9) (o : Fin 128) :
    after (dB 6) (after (dA 6) V) (Proc.devRef .tc main_v126) (ix4 b r c o)
      = if r.val + c.val = 6 then Cert.Board.layer 6 (V0 (Proc.devRef .tc main_arg0)) (V0 (Proc.devRef .tc main_arg1))
          (V0 (Proc.devRef .tc main_arg8)) b (Fin.ofNat 7 (r.val - 0)) o
        else V (Proc.devRef .tc main_v108) (ix4 b r c o) := by
  rw [step6 V, hpre main_c_24 (by decide), hpre main_c_23 (by decide), hpre main_c_26 (by decide), hpre main_c_25 (by decide),
    hpre main_arg0 (by decide), hpre main_arg1 (by decide), hpre main_arg8 (by decide)]
  simp only [pre, preA, preB]
  after_results_simp
  exact diag_step _ rfl rfl rfl rfl _ rfl rfl rfl rfl rfl rfl _ _ _ 6 (by omega) _ _ _ _ _ _ _ _ _ 0 6 (by omega) (by omega)
    (Or.inl rfl) (fun j => by fin_cases j <;> rfl) (fun j => by fin_cases j <;> rfl) _ _ _ b r c o

/-! ## Diagonal 7 (eight cells) -/

theorem step7 (V : Valuation τ sig (Elt Ideal)) :
    after (dB 7) (after (dA 7) V) (Proc.devRef .tc main_v144)
      = Host.scatter scatter_S8192x9x9x128_S8x2_S8192x8x128_02_12_12_1 (fun _ b => b) (V (Proc.devRef .tc main_v126))
          (pairs bcast_S_S8 bcast_S8_S8x1_0 concatenates_S8x1_S8x1_S8x2_d1 (V (Proc.devRef .tc main_c_28))
            (V (Proc.devRef .tc main_c_27)) (V (Proc.devRef .tc main_c_30)) (V (Proc.devRef .tc main_c_29)))
          (lay dot_S8192x8x128_S128x128_S8192x8x128_2_1_01_0_n_n 7 slices_S17x128x128_S1x128x128_7_0_0
            shapeCasts_S1x128x128_S128x128 slices_S17x128_S1x128_7_0 shapeCasts_S1x128_S128 bcast_S128_S1x1x128_2
            bcast_S1x1x128_S8192x8x128_0_1_2 (V (Proc.devRef .tc main_arg0)) (V (Proc.devRef .tc main_arg1))
            (V (Proc.devRef .tc main_arg9))) := by
  simp only [dA, dB]
  after_results_simp
  rfl

theorem read7 (V0 V : Valuation τ sig (Elt Ideal)) (hpre : Agree V0 V) (b : Fin 8192) (r c : Fin 9) (o : Fin 128) :
    after (dB 7) (after (dA 7) V) (Proc.devRef .tc main_v144) (ix4 b r c o)
      = if r.val + c.val = 7 then Cert.Board.layer 7 (V0 (Proc.devRef .tc main_arg0)) (V0 (Proc.devRef .tc main_arg1))
          (V0 (Proc.devRef .tc main_arg9)) b (Fin.ofNat 8 (r.val - 0)) o
        else V (Proc.devRef .tc main_v126) (ix4 b r c o) := by
  rw [step7 V, hpre main_c_28 (by decide), hpre main_c_27 (by decide), hpre main_c_30 (by decide), hpre main_c_29 (by decide),
    hpre main_arg0 (by decide), hpre main_arg1 (by decide), hpre main_arg9 (by decide)]
  simp only [pre, preA, preB]
  after_results_simp
  exact diag_step _ rfl rfl rfl rfl _ rfl rfl rfl rfl rfl rfl _ _ _ 7 (by omega) _ _ _ _ _ _ _ _ _ 0 7 (by omega) (by omega)
    (Or.inl rfl) (fun j => by fin_cases j <;> rfl) (fun j => by fin_cases j <;> rfl) _ _ _ b r c o

/-! ## Diagonal 8 (the main anti-diagonal, nine cells) -/

theorem step8 (V : Valuation τ sig (Elt Ideal)) :
    after (dB 8) (after (dA 8) V) (Proc.devRef .tc main_v162)
      = Host.scatter scatter_S8192x9x9x128_S9x2_S8192x9x128_02_12_12_1 (fun _ b => b) (V (Proc.devRef .tc main_v144))
          (pairs bcast_S_S9 bcast_S9_S9x1_0 concatenates_S9x1_S9x1_S9x2_d1 (V (Proc.devRef .tc main_c_32))
            (V (Proc.devRef .tc main_c_31)) (V (Proc.devRef .tc main_c_34)) (V (Proc.devRef .tc main_c_33)))
          (lay dot_S8192x9x128_S128x128_S8192x9x128_2_1_01_0_n_n 8 slices_S17x128x128_S1x128x128_8_0_0
            shapeCasts_S1x128x128_S128x128 slices_S17x128_S1x128_8_0 shapeCasts_S1x128_S128 bcast_S128_S1x1x128_2
            bcast_S1x1x128_S8192x9x128_0_1_2 (V (Proc.devRef .tc main_arg0)) (V (Proc.devRef .tc main_arg1))
            (V (Proc.devRef .tc main_arg10))) := by
  simp only [dA, dB]
  after_results_simp
  rfl

theorem read8 (V0 V : Valuation τ sig (Elt Ideal)) (hpre : Agree V0 V) (b : Fin 8192) (r c : Fin 9) (o : Fin 128) :
    after (dB 8) (after (dA 8) V) (Proc.devRef .tc main_v162) (ix4 b r c o)
      = if r.val + c.val = 8 then Cert.Board.layer 8 (V0 (Proc.devRef .tc main_arg0)) (V0 (Proc.devRef .tc main_arg1))
          (V0 (Proc.devRef .tc main_arg10)) b (Fin.ofNat 9 (r.val - 0)) o
        else V (Proc.devRef .tc main_v144) (ix4 b r c o) := by
  rw [step8 V, hpre main_c_32 (by decide), hpre main_c_31 (by decide), hpre main_c_34 (by decide), hpre main_c_33 (by decide),
    hpre main_arg0 (by decide), hpre main_arg1 (by decide), hpre main_arg10 (by decide)]
  simp only [pre, preA, preB]
  after_results_simp
  exact diag_step _ rfl rfl rfl rfl _ rfl rfl rfl rfl rfl rfl _ _ _ 8 (by omega) _ _ _ _ _ _ _ _ _ 0 8 (by omega) (by omega)
    (Or.inl rfl) (fun j => by fin_cases j <;> rfl) (fun j => by fin_cases j <;> rfl) _ _ _ b r c o

end Cert.ReferenceIdeal.RefStep

end
-- ==== Proof.RefStepC.lean ====
/-
  Anti-diagonals 9 to 12 of the board, one at a time.

  For each of these anti-diagonals d: the contents of the new board buffer after the diagonal's twenty operations, first as
  the write of the diagonal's layer at its table of cells onto the old board (by unfolding the twenty operations), then read
  at a cell (b, r, c, o): the diagonal's layer at cell number r - max (0, d - 8) when r + c = d, the old board otherwise.  The
  rows table of diagonal d counts up from max (0, d - 8) and its columns table counts down from min (d, 8), entry by entry.
-/
import proofs.«141148_j40656160424525_2_alg».proof.Proof.RefKeep
import proofs.«141148_j40656160424525_2_alg».proof.Proof.RefDiag

set_option maxRecDepth 8192

noncomputable section

namespace Cert.ReferenceIdeal.RefStep

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefKeep Cert.RefDiag Idealize.ShloMosaic.ValueIdx

/-! ## Diagonal 9 (eight cells, rows 1 to 8) -/

theorem step9 (V : Valuation τ sig (Elt Ideal)) :
    after (dB 9) (after (dA 9) V) (Proc.devRef .tc main_v180)
      = Host.scatter scatter_S8192x9x9x128_S8x2_S8192x8x128_02_12_12_1 (fun _ b => b) (V (Proc.devRef .tc main_v162))
          (pairs bcast_S_S8 bcast_S8_S8x1_0 concatenates_S8x1_S8x1_S8x2_d1 (V (Proc.devRef .tc main_c_36))
            (V (Proc.devRef .tc main_c_35)) (V (Proc.devRef .tc main_c_38)) (V (Proc.devRef .tc main_c_37)))
          (lay dot_S8192x8x128_S128x128_S8192x8x128_2_1_01_0_n_n 9 slices_S17x128x128_S1x128x128_9_0_0
            shapeCasts_S1x128x128_S128x128 slices_S17x128_S1x128_9_0 shapeCasts_S1x128_S128 bcast_S128_S1x1x128_2
            bcast_S1x1x128_S8192x8x128_0_1_2 (V (Proc.devRef .tc main_arg0)) (V (Proc.devRef .tc main_arg1))
            (V (Proc.devRef .tc main_arg11))) := by
  simp only [dA, dB]
  after_results_simp
  rfl

theorem read9 (V0 V : Valuation τ sig (Elt Ideal)) (hpre : Agree V0 V) (b : Fin 8192) (r c : Fin 9) (o : Fin 128) :
    after (dB 9) (after (dA 9) V) (Proc.devRef .tc main_v180) (ix4 b r c o)
      = if r.val + c.val = 9 then Cert.Board.layer 9 (V0 (Proc.devRef .tc main_arg0)) (V0 (Proc.devRef .tc main_arg1))
          (V0 (Proc.devRef .tc main_arg11)) b (Fin.ofNat 8 (r.val - 1)) o
        else V (Proc.devRef .tc main_v162) (ix4 b r c o) := by
  rw [step9 V, hpre main_c_36 (by decide), hpre main_c_35 (by decide), hpre main_c_38 (by decide), hpre main_c_37 (by decide),
    hpre main_arg0 (by decide), hpre main_arg1 (by decide), hpre main_arg11 (by decide)]
  simp only [pre, preA, preB]
  after_results_simp
  exact diag_step _ rfl rfl rfl rfl _ rfl rfl rfl rfl rfl rfl _ _ _ 9 (by omega) _ _ _ _ _ _ _ _ _ 1 8 (by omega) (by omega)
    (Or.inr rfl) (fun j => by fin_cases j <;> rfl) (fun j => by fin_cases j <;> rfl) _ _ _ b r c o

/-! ## Diagonal 10 (seven cells, rows 2 to 8) -/

theorem step10 (V : Valuation τ sig (Elt Ideal)) :
    after (dB 10) (after (dA 10) V) (Proc.devRef .tc main_v198)
      = Host.scatter scatter_S8192x9x9x128_S7x2_S8192x7x128_02_12_12_1 (fun _ b => b) (V (Proc.devRef .tc main_v180))
          (pairs bcast_S_S7 bcast_S7_S7x1_0 concatenates_S7x1_S7x1_S7x2_d1 (V (Proc.devRef .tc main_c_40))
            (V (Proc.devRef .tc main_c_39)) (V (Proc.devRef .tc main_c_42)) (V (Proc.devRef .tc main_c_41)))
          (lay dot_S8192x7x128_S128x128_S8192x7x128_2_1_01_0_n_n 10 slices_S17x128x128_S1x128x128_10_0_0
            shapeCasts_S1x128x128_S128x128 slices_S17x128_S1x128_10_0 shapeCasts_S1x128_S128 bcast_S128_S1x1x128_2
            bcast_S1x1x128_S8192x7x128_0_1_2 (V (Proc.devRef .tc main_arg0)) (V (Proc.devRef .tc main_arg1))
            (V (Proc.devRef .tc main_arg12))) := by
  simp only [dA, dB]
  after_results_simp
  rfl

theorem read10 (V0 V : Valuation τ sig (Elt Ideal)) (hpre : Agree V0 V) (b : Fin 8192) (r c : Fin 9) (o : Fin 128) :
    after (dB 10) (after (dA 10) V) (Proc.devRef .tc main_v198) (ix4 b r c o)
      = if r.val + c.val = 10 then Cert.Board.layer 10 (V0 (Proc.devRef .tc main_arg0)) (V0 (Proc.devRef .tc main_arg1))
          (V0 (Proc.devRef .tc main_arg12)) b (Fin.ofNat 7 (r.val - 2)) o
        else V (Proc.devRef .tc main_v180) (ix4 b r c o) := by
  rw [step10 V, hpre main_c_40 (by decide), hpre main_c_39 (by decide), hpre main_c_42 (by decide), hpre main_c_41 (by decide),
    hpre main_arg0 (by decide), hpre main_arg1 (by decide), hpre main_arg12 (by decide)]
  simp only [pre, preA, preB]
  after_results_simp
  exact diag_step _ rfl rfl rfl rfl _ rfl rfl rfl rfl rfl rfl _ _ _ 10 (by omega) _ _ _ _ _ _ _ _ _ 2 8 (by omega) (by omega)
    (Or.inr rfl) (fun j => by fin_cases j <;> rfl) (fun j => by fin_cases j <;> rfl) _ _ _ b r c o

/-! ## Diagonal 11 (six cells, rows 3 to 8) -/

theorem step11 (V : Valuation τ sig (Elt Ideal)) :
    after (dB 11) (after (dA 11) V) (Proc.devRef .tc main_v216)
      = Host.scatter scatter_S8192x9x9x128_S6x2_S8192x6x128_02_12_12_1 (fun _ b => b) (V (Proc.devRef .tc main_v198))
          (pairs bcast_S_S6 bcast_S6_S6x1_0 concatenates_S6x1_S6x1_S6x2_d1 (V (Proc.devRef .tc main_c_44))
            (V (Proc.devRef .tc main_c_43)) (V (Proc.devRef .tc main_c_46)) (V (Proc.devRef .tc main_c_45)))
          (lay dot_S8192x6x128_S128x128_S8192x6x128_2_1_01_0_n_n 11 slices_S17x128x128_S1x128x128_11_0_0
            shapeCasts_S1x128x128_S128x128 slices_S17x128_S1x128_11_0 shapeCasts_S1x128_S128 bcast_S128_S1x1x128_2
            bcast_S1x1x128_S8192x6x128_0_1_2 (V (Proc.devRef .tc main_arg0)) (V (Proc.devRef .tc main_arg1))
            (V (Proc.devRef .tc main_arg13))) := by
  simp only [dA, dB]
  after_results_simp
  rfl

theorem read11 (V0 V : Valuation τ sig (Elt Ideal)) (hpre : Agree V0 V) (b : Fin 8192) (r c : Fin 9) (o : Fin 128) :
    after (dB 11) (after (dA 11) V) (Proc.devRef .tc main_v216) (ix4 b r c o)
      = if r.val + c.val = 11 then Cert.Board.layer 11 (V0 (Proc.devRef .tc main_arg0)) (V0 (Proc.devRef .tc main_arg1))
          (V0 (Proc.devRef .tc main_arg13)) b (Fin.ofNat 6 (r.val - 3)) o
        else V (Proc.devRef .tc main_v198) (ix4 b r c o) := by
  rw [step11 V, hpre main_c_44 (by decide), hpre main_c_43 (by decide), hpre main_c_46 (by decide), hpre main_c_45 (by decide),
    hpre main_arg0 (by decide), hpre main_arg1 (by decide), hpre main_arg13 (by decide)]
  simp only [pre, preA, preB]
  after_results_simp
  exact diag_step _ rfl rfl rfl rfl _ rfl rfl rfl rfl rfl rfl _ _ _ 11 (by omega) _ _ _ _ _ _ _ _ _ 3 8 (by omega) (by omega)
    (Or.inr rfl) (fun j => by fin_cases j <;> rfl) (fun j => by fin_cases j <;> rfl) _ _ _ b r c o

/-! ## Diagonal 12 (five cells, rows 4 to 8) -/

theorem step12 (V : Valuation τ sig (Elt Ideal)) :
    after (dB 12) (after (dA 12) V) (Proc.devRef .tc main_v234)
      = Host.scatter scatter_S8192x9x9x128_S5x2_S8192x5x128_02_12_12_1 (fun _ b => b) (V (Proc.devRef .tc main_v216))
          (pairs bcast_S_S5 bcast_S5_S5x1_0 concatenates_S5x1_S5x1_S5x2_d1 (V (Proc.devRef .tc main_c_48))
            (V (Proc.devRef .tc main_c_47)) (V (Proc.devRef .tc main_c_50)) (V (Proc.devRef .tc main_c_49)))
          (lay dot_S8192x5x128_S128x128_S8192x5x128_2_1_01_0_n_n 12 slices_S17x128x128_S1x128x128_12_0_0
            shapeCasts_S1x128x128_S128x128 slices_S17x128_S1x128_12_0 shapeCasts_S1x128_S128 bcast_S128_S1x1x128_2
            bcast_S1x1x128_S8192x5x128_0_1_2 (V (Proc.devRef .tc main_arg0)) (V (Proc.devRef .tc main_arg1))
            (V (Proc.devRef .tc main_arg14))) := by
  simp only [dA, dB]
  after_results_simp
  rfl

theorem read12 (V0 V : Valuation τ sig (Elt Ideal)) (hpre : Agree V0 V) (b : Fin 8192) (r c : Fin 9) (o : Fin 128) :
    after (dB 12) (after (dA 12) V) (Proc.devRef .tc main_v234) (ix4 b r c o)
      = if r.val + c.val = 12 then Cert.Board.layer 12 (V0 (Proc.devRef .tc main_arg0)) (V0 (Proc.devRef .tc main_arg1))
          (V0 (Proc.devRef .tc main_arg14)) b (Fin.ofNat 5 (r.val - 4)) o
        else V (Proc.devRef .tc main_v216) (ix4 b r c o) := by
  rw [step12 V, hpre main_c_48 (by decide), hpre main_c_47 (by decide), hpre main_c_50 (by decide), hpre main_c_49 (by decide),
    hpre main_arg0 (by decide), hpre main_arg1 (by decide), hpre main_arg14 (by decide)]
  simp only [pre, preA, preB]
  after_results_simp
  exact diag_step _ rfl rfl rfl rfl _ rfl rfl rfl rfl rfl rfl _ _ _ 12 (by omega) _ _ _ _ _ _ _ _ _ 4 8 (by omega) (by omega)
    (Or.inr rfl) (fun j => by fin_cases j <;> rfl) (fun j => by fin_cases j <;> rfl) _ _ _ b r c o

end Cert.ReferenceIdeal.RefStep

end
-- ==== Proof.RefStepD.lean ====
/-
  Anti-diagonals 13 to 16 of the board, one at a time.

  For each of these anti-diagonals d: the contents of the new board buffer after the diagonal's twenty operations, first as
  the write of the diagonal's layer at its table of cells onto the old board (by unfolding the twenty operations), then read
  at a cell (b, r, c, o): the diagonal's layer at cell number r - max (0, d - 8) when r + c = d, the old board otherwise.  The
  rows table of diagonal d counts up from max (0, d - 8) and its columns table counts down from min (d, 8), entry by entry.
-/
import proofs.«141148_j40656160424525_2_alg».proof.Proof.RefKeep
import proofs.«141148_j40656160424525_2_alg».proof.Proof.RefDiag

set_option maxRecDepth 8192

noncomputable section

namespace Cert.ReferenceIdeal.RefStep

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefKeep Cert.RefDiag Idealize.ShloMosaic.ValueIdx

/-! ## Diagonal 13 (four cells, rows 5 to 8) -/

theorem step13 (V : Valuation τ sig (Elt Ideal)) :
    after (dB 13) (after (dA 13) V) (Proc.devRef .tc main_v252)
      = Host.scatter scatter_S8192x9x9x128_S4x2_S8192x4x128_02_12_12_1 (fun _ b => b) (V (Proc.devRef .tc main_v234))
          (pairs bcast_S_S4 bcast_S4_S4x1_0 concatenates_S4x1_S4x1_S4x2_d1 (V (Proc.devRef .tc main_c_52))
            (V (Proc.devRef .tc main_c_51)) (V (Proc.devRef .tc main_c_54)) (V (Proc.devRef .tc main_c_53)))
          (lay dot_S8192x4x128_S128x128_S8192x4x128_2_1_01_0_n_n 13 slices_S17x128x128_S1x128x128_13_0_0
            shapeCasts_S1x128x128_S128x128 slices_S17x128_S1x128_13_0 shapeCasts_S1x128_S128 bcast_S128_S1x1x128_2
            bcast_S1x1x128_S8192x4x128_0_1_2 (V (Proc.devRef .tc main_arg0)) (V (Proc.devRef .tc main_arg1))
            (V (Proc.devRef .tc main_arg15))) := by
  simp only [dA, dB]
  after_results_simp
  rfl

theorem read13 (V0 V : Valuation τ sig (Elt Ideal)) (hpre : Agree V0 V) (b : Fin 8192) (r c : Fin 9) (o : Fin 128) :
    after (dB 13) (after (dA 13) V) (Proc.devRef .tc main_v252) (ix4 b r c o)
      = if r.val + c.val = 13 then Cert.Board.layer 13 (V0 (Proc.devRef .tc main_arg0)) (V0 (Proc.devRef .tc main_arg1))
          (V0 (Proc.devRef .tc main_arg15)) b (Fin.ofNat 4 (r.val - 5)) o
        else V (Proc.devRef .tc main_v234) (ix4 b r c o) := by
  rw [step13 V, hpre main_c_52 (by decide), hpre main_c_51 (by decide), hpre main_c_54 (by decide), hpre main_c_53 (by decide),
    hpre main_arg0 (by decide), hpre main_arg1 (by decide), hpre main_arg15 (by decide)]
  simp only [pre, preA, preB]
  after_results_simp
  exact diag_step _ rfl rfl rfl rfl _ rfl rfl rfl rfl rfl rfl _ _ _ 13 (by omega) _ _ _ _ _ _ _ _ _ 5 8 (by omega) (by omega)
    (Or.inr rfl) (fun j => by fin_cases j <;> rfl) (fun j => by fin_cases j <;> rfl) _ _ _ b r c o

/-! ## Diagonal 14 (three cells, rows 6 to 8) -/

theorem step14 (V : Valuation τ sig (Elt Ideal)) :
    after (dB 14) (after (dA 14) V) (Proc.devRef .tc main_v270)
      = Host.scatter scatter_S8192x9x9x128_S3x2_S8192x3x128_02_12_12_1 (fun _ b => b) (V (Proc.devRef .tc main_v252))
          (pairs bcast_S_S3 bcast_S3_S3x1_0 concatenates_S3x1_S3x1_S3x2_d1 (V (Proc.devRef .tc main_c_56))
            (V (Proc.devRef .tc main_c_55)) (V (Proc.devRef .tc main_c_58)) (V (Proc.devRef .tc main_c_57)))
          (lay dot_S8192x3x128_S128x128_S8192x3x128_2_1_01_0_n_n 14 slices_S17x128x128_S1x128x128_14_0_0
            shapeCasts_S1x128x128_S128x128 slices_S17x128_S1x128_14_0 shapeCasts_S1x128_S128 bcast_S128_S1x1x128_2
            bcast_S1x1x128_S8192x3x128_0_1_2 (V (Proc.devRef .tc main_arg0)) (V (Proc.devRef .tc main_arg1))
            (V (Proc.devRef .tc main_arg16))) := by
  simp only [dA, dB]
  after_results_simp
  rfl

theorem read14 (V0 V : Valuation τ sig (Elt Ideal)) (hpre : Agree V0 V) (b : Fin 8192) (r c : Fin 9) (o : Fin 128) :
    after (dB 14) (after (dA 14) V) (Proc.devRef .tc main_v270) (ix4 b r c o)
      = if r.val + c.val = 14 then Cert.Board.layer 14 (V0 (Proc.devRef .tc main_arg0)) (V0 (Proc.devRef .tc main_arg1))
          (V0 (Proc.devRef .tc main_arg16)) b (Fin.ofNat 3 (r.val - 6)) o
        else V (Proc.devRef .tc main_v252) (ix4 b r c o) := by
  rw [step14 V, hpre main_c_56 (by decide), hpre main_c_55 (by decide), hpre main_c_58 (by decide), hpre main_c_57 (by decide),
    hpre main_arg0 (by decide), hpre main_arg1 (by decide), hpre main_arg16 (by decide)]
  simp only [pre, preA, preB]
  after_results_simp
  exact diag_step _ rfl rfl rfl rfl _ rfl rfl rfl rfl rfl rfl _ _ _ 14 (by omega) _ _ _ _ _ _ _ _ _ 6 8 (by omega) (by omega)
    (Or.inr rfl) (fun j => by fin_cases j <;> rfl) (fun j => by fin_cases j <;> rfl) _ _ _ b r c o

/-! ## Diagonal 15 (two cells, rows 7 and 8) -/

theorem step15 (V : Valuation τ sig (Elt Ideal)) :
    after (dB 15) (after (dA 15) V) (Proc.devRef .tc main_v288)
      = Host.scatter scatter_S8192x9x9x128_S2x2_S8192x2x128_02_12_12_1 (fun _ b => b) (V (Proc.devRef .tc main_v270))
          (pairs bcast_S_S2 bcast_S2_S2x1_0 concatenates_S2x1_S2x1_S2x2_d1 (V (Proc.devRef .tc main_c_60))
            (V (Proc.devRef .tc main_c_59)) (V (Proc.devRef .tc main_c_62)) (V (Proc.devRef .tc main_c_61)))
          (lay dot_S8192x2x128_S128x128_S8192x2x128_2_1_01_0_n_n 15 slices_S17x128x128_S1x128x128_15_0_0
            shapeCasts_S1x128x128_S128x128 slices_S17x128_S1x128_15_0 shapeCasts_S1x128_S128 bcast_S128_S1x1x128_2
            bcast_S1x1x128_S8192x2x128_0_1_2 (V (Proc.devRef .tc main_arg0)) (V (Proc.devRef .tc main_arg1))
            (V (Proc.devRef .tc main_arg17))) := by
  simp only [dA, dB]
  after_results_simp
  rfl

theorem read15 (V0 V : Valuation τ sig (Elt Ideal)) (hpre : Agree V0 V) (b : Fin 8192) (r c : Fin 9) (o : Fin 128) :
    after (dB 15) (after (dA 15) V) (Proc.devRef .tc main_v288) (ix4 b r c o)
      = if r.val + c.val = 15 then Cert.Board.layer 15 (V0 (Proc.devRef .tc main_arg0)) (V0 (Proc.devRef .tc main_arg1))
          (V0 (Proc.devRef .tc main_arg17)) b (Fin.ofNat 2 (r.val - 7)) o
        else V (Proc.devRef .tc main_v270) (ix4 b r c o) := by
  rw [step15 V, hpre main_c_60 (by decide), hpre main_c_59 (by decide), hpre main_c_62 (by decide), hpre main_c_61 (by decide),
    hpre main_arg0 (by decide), hpre main_arg1 (by decide), hpre main_arg17 (by decide)]
  simp only [pre, preA, preB]
  after_results_simp
  exact diag_step _ rfl rfl rfl rfl _ rfl rfl rfl rfl rfl rfl _ _ _ 15 (by omega) _ _ _ _ _ _ _ _ _ 7 8 (by omega) (by omega)
    (Or.inr rfl) (fun j => by fin_cases j <;> rfl) (fun j => by fin_cases j <;> rfl) _ _ _ b r c o

/-! ## Diagonal 16 (the one cell (8, 8)) -/

theorem step16 (V : Valuation τ sig (Elt Ideal)) :
    after (dB 16) (after (dA 16) V) (Proc.devRef .tc main_v306)
      = Host.scatter scatter_S8192x9x9x128_S1x2_S8192x1x128_02_12_12_1 (fun _ b => b) (V (Proc.devRef .tc main_v288))
          (pairs bcast_S_S1 bcast_S1_S1x1_0 concatenates_S1x1_S1x1_S1x2_d1 (V (Proc.devRef .tc main_c_64))
            (V (Proc.devRef .tc main_c_63)) (V (Proc.devRef .tc main_c_66)) (V (Proc.devRef .tc main_c_65)))
          (lay dot_S8192x1x128_S128x128_S8192x1x128_2_1_01_0_n_n 16 slices_S17x128x128_S1x128x128_16_0_0
            shapeCasts_S1x128x128_S128x128 slices_S17x128_S1x128_16_0 shapeCasts_S1x128_S128 bcast_S128_S1x1x128_2
            bcast_S1x1x128_S8192x1x128_0_1_2 (V (Proc.devRef .tc main_arg0)) (V (Proc.devRef .tc main_arg1))
            (V (Proc.devRef .tc main_arg18))) := by
  simp only [dA, dB]
  after_results_simp
  rfl

theorem read16 (V0 V : Valuation τ sig (Elt Ideal)) (hpre : Agree V0 V) (b : Fin 8192) (r c : Fin 9) (o : Fin 128) :
    after (dB 16) (after (dA 16) V) (Proc.devRef .tc main_v306) (ix4 b r c o)
      = if r.val + c.val = 16 then Cert.Board.layer 16 (V0 (Proc.devRef .tc main_arg0)) (V0 (Proc.devRef .tc main_arg1))
          (V0 (Proc.devRef .tc main_arg18)) b (Fin.ofNat 1 (r.val - 8)) o
        else V (Proc.devRef .tc main_v288) (ix4 b r c o) := by
  rw [step16 V, hpre main_c_64 (by decide), hpre main_c_63 (by decide), hpre main_c_66 (by decide), hpre main_c_65 (by decide),
    hpre main_arg0 (by decide), hpre main_arg1 (by decide), hpre main_arg18 (by decide)]
  simp only [pre, preA, preB]
  after_results_simp
  exact diag_step _ rfl rfl rfl rfl _ rfl rfl rfl rfl rfl rfl _ _ _ 16 (by omega) _ _ _ _ _ _ _ _ _ 8 8 (by omega) (by omega)
    (Or.inr rfl) (fun j => by fin_cases j <;> rfl) (fun j => by fin_cases j <;> rfl) _ _ _ b r c o

end Cert.ReferenceIdeal.RefStep

end
-- ==== Proof.RefValue.lean ====
/-
  What the reference program computes.

  Every run of the program ends with each buffer holding the fold of the 410 operations over the start contents.  The first
  seventy operations build the integer tables and the zero board.  Then the seventeen anti-diagonals are written in turn, each
  leaving the arguments and the tables alone; after diagonal d the board at cell (r, c) is diagonal d's linear layer if
  r + c = d and the board before otherwise.  Unwinding the seventeen writes from the last to the first gives, at every cell,
  the layer of the cell's own diagonal — the board Cert.Board.board — with the closing value zero of the empty board never
  reached.  No operation writes an argument, so the arguments end as they started.
-/
import proofs.«141148_j40656160424525_2_alg».proof.Proof.RefRun
import proofs.«141148_j40656160424525_2_alg».proof.Proof.RefStepA
import proofs.«141148_j40656160424525_2_alg».proof.Proof.RefStepB
import proofs.«141148_j40656160424525_2_alg».proof.Proof.RefStepC
import proofs.«141148_j40656160424525_2_alg».proof.Proof.RefStepD

set_option maxRecDepth 8192

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefKeep Cert.ReferenceIdeal.RefStep Idealize.ShloMosaic.ValueIdx

/-- After all 410 operations the last board buffer is the board of the start contents of the arguments. -/
theorem board_eq (V0 : Valuation τ sig (Elt Ideal)) :
    (after RefRun.ops V0 (Proc.devRef .tc main_v306) : FVec Ideal ⟨4, ![8192, 9, 9, 128]⟩ .f32)
      = Cert.Board.board (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) (V0 (Proc.devRef .tc main_arg10)) (V0 (Proc.devRef .tc main_arg11))
          (V0 (Proc.devRef .tc main_arg12)) (V0 (Proc.devRef .tc main_arg13)) (V0 (Proc.devRef .tc main_arg14))
          (V0 (Proc.devRef .tc main_arg15)) (V0 (Proc.devRef .tc main_arg16)) (V0 (Proc.devRef .tc main_arg17))
          (V0 (Proc.devRef .tc main_arg18)) := by
  have A0 := agree_pre V0
  have A1 := agree_step 0 A0
  have A2 := agree_step 1 A1
  have A3 := agree_step 2 A2
  have A4 := agree_step 3 A3
  have A5 := agree_step 4 A4
  have A6 := agree_step 5 A5
  have A7 := agree_step 6 A6
  have A8 := agree_step 7 A7
  have A9 := agree_step 8 A8
  have A10 := agree_step 9 A9
  have A11 := agree_step 10 A10
  have A12 := agree_step 11 A11
  have A13 := agree_step 12 A12
  have A14 := agree_step 13 A13
  have A15 := agree_step 14 A14
  have A16 := agree_step 15 A15
  funext i
  obtain ⟨b, r, c, o, rfl⟩ : ∃ (b : Fin 8192) (r c : Fin 9) (o : Fin 128), i = ix4 b r c o := ⟨i 0, i 1, i 2, i 3, eq_ix4 i⟩
  simp only [RefRun.ops, RefRun.diags, after_app, pre_def]
  rw [read16 V0 _ A16 b r c o, read15 V0 _ A15 b r c o, read14 V0 _ A14 b r c o, read13 V0 _ A13 b r c o,
    read12 V0 _ A12 b r c o, read11 V0 _ A11 b r c o, read10 V0 _ A10 b r c o, read9 V0 _ A9 b r c o,
    read8 V0 _ A8 b r c o, read7 V0 _ A7 b r c o, read6 V0 _ A6 b r c o, read5 V0 _ A5 b r c o,
    read4 V0 _ A4 b r c o, read3 V0 _ A3 b r c o, read2 V0 _ A2 b r c o, read1 V0 _ A1 b r c o,
    read0 V0 _ A0 b r c o, zero_board]
  rfl

/-- No operation writes an argument. -/
theorem arg_eq (V0 : Valuation τ sig (Elt Ideal)) (r : Ref sig .tc) (hr : r.idx.val ≤ 18) :
    after RefRun.ops V0 (Proc.devRef .tc r) = V0 (Proc.devRef .tc r) :=
  after_of_forall_not_mem _ V0 (RefRun.forall_ops (keepPA r hr) (keepPB r hr)
    (fun d => keepA d r (by omega)) (fun d => keepB d r (by omega)))

/-- From any memory with zero counters every fair execution of the reference program terminates with the result buffer
    holding the board of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v306) = Cert.Board.board (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v306).trans (board_eq (launchContents m c)),
      (h c main_arg0).trans (arg_eq _ main_arg0 (by decide)),
      (h c main_arg1).trans (arg_eq _ main_arg1 (by decide)),
      (h c main_arg2).trans (arg_eq _ main_arg2 (by decide)),
      (h c main_arg3).trans (arg_eq _ main_arg3 (by decide)),
      (h c main_arg4).trans (arg_eq _ main_arg4 (by decide)),
      (h c main_arg5).trans (arg_eq _ main_arg5 (by decide)),
      (h c main_arg6).trans (arg_eq _ main_arg6 (by decide)),
      (h c main_arg7).trans (arg_eq _ main_arg7 (by decide)),
      (h c main_arg8).trans (arg_eq _ main_arg8 (by decide)),
      (h c main_arg9).trans (arg_eq _ main_arg9 (by decide)),
      (h c main_arg10).trans (arg_eq _ main_arg10 (by decide)),
      (h c main_arg11).trans (arg_eq _ main_arg11 (by decide)),
      (h c main_arg12).trans (arg_eq _ main_arg12 (by decide)),
      (h c main_arg13).trans (arg_eq _ main_arg13 (by decide)),
      (h c main_arg14).trans (arg_eq _ main_arg14 (by decide)),
      (h c main_arg15).trans (arg_eq _ main_arg15 (by decide)),
      (h c main_arg16).trans (arg_eq _ main_arg16 (by decide)),
      (h c main_arg17).trans (arg_eq _ main_arg17 (by decide)),
      (h c main_arg18).trans (arg_eq _ main_arg18 (by decide))⟩)
    (RefRun.run m ρ)

end Cert.ReferenceIdeal.RefValue

end
-- ==== Proof.lean ====
/-
  Seventeen small linear layers scattered onto a 9 x 9 board, computed two ways.

  The 9 x 9 board is cut into its 17 anti-diagonals; diagonal d has 9 - |d - 8| cells and its own input x_d of shape
  [8192, 9 - |d - 8|, 128], weight matrix W[d] and bias row β[d].  Both programs fill cell (r, c), channel o, of batch element b
  with  Σ_k x_d[b, j, k] · W[d, o, k] + β[d, o],  d = r + c and j the cell's number on its diagonal (Proof/Board.lean).

  The reference starts from a board of zeros and, diagonal after diagonal, multiplies, adds the bias and scatters the rows of the
  result onto the diagonal's cells; every cell lies on exactly one diagonal, so reading the last board at a cell unwinds the 17
  scatters down to that diagonal's (Proof/RefValue.lean and the modules under it).

  The kernel narrows the weights to a shorter float format (the identity on the extended reals), and at each of 64 grid points
  takes 128 batch elements: per diagonal it lays the block out cell-major, multiplies all its cells by the transposed weight
  matrix in one product into an accumulator of zeros, adds the bias row, and stores each cell's 128 x 128 result into its 128
  columns of a [128, 81·128] output block — 81 stores that tile the block; the blocks tile the [8192, 81·128] output, which is
  finally viewed as [8192, 9, 9, 128] (Proof/KerCell.lean: one cell; KerPieces.lean, KerBlock.lean: the 81 stores as one
  function of the block; KerFlat.lean, KerFinal.lean: from blocks to the array and the view).

  The two sides are the same sums with the same terms in the same order, so no law of arithmetic is needed and the inputs'
  finiteness is never used.  Nothing was rewritten when the kernel was read over the extended reals, so there is nothing to
  preserve beyond that reading.
-/
import proofs.«141148_j40656160424525_2_alg».proof.Defs
import proofs.«141148_j40656160424525_2_alg».proof.Proof.Gen.Kernel
import proofs.«141148_j40656160424525_2_alg».proof.Proof.Gen.Kernel.Frame
import proofs.«141148_j40656160424525_2_alg».proof.Proof.Gen.KernelIdeal
import proofs.«141148_j40656160424525_2_alg».proof.Proof.Gen.KernelIdeal.Frame
import proofs.«141148_j40656160424525_2_alg».proof.Proof.Gen.ReferenceIdeal
import proofs.«141148_j40656160424525_2_alg».proof.Proof.Gen.Pre_finite_inputs
import proofs.«141148_j40656160424525_2_alg».proof.Proof.KerFinal
import proofs.«141148_j40656160424525_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.RefValue.run m ρ)

/-- Both programs end with the board of the arguments in their result buffer, and the arguments agree. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8, a9, a10, a11, a12, a13, a14, a15, a16, a17, a18⟩ := hagree c
  rw [a0, a1, a2, a3, a4, a5, a6, a7, a8, a9, a10, a11, a12, a13, a14, a15, a16, a17, a18]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
